-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_arg1 : IVec S2x1600000 32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : IVec S1x1600000 32 := (extractStridedSlice S1x1600000 ![0, 0] · slices_S2x1600000_S1x1600000_0_0) main_arg1
  let main_v20 : IVec S1600000 32 := shapeCast S1600000 main_v19 shapeCasts_S1x1600000_S1600000
  let main_c_6 : IVec S_ 32 := constantI S_ 32 0#32
  let main_v21 : IVec S1600000 32 := broadcastInDim S1600000 ![] bcast_S_S1600000 main_c_6
  let main_v22 : IVec S1600000 1 := cmpi .sge main_v20 main_v21
  let main_v23 : IVec S1x1600000 32 := (extractStridedSlice S1x1600000 ![0, 0] · slices_S2x1600000_S1x1600000_0_0) main_arg1
  let main_v24 : IVec S1600000 32 := shapeCast S1600000 main_v23 shapeCasts_S1x1600000_S1600000
  let main_c_7 : IVec S_ 32 := constantI S_ 32 100000#32
  let main_v25 : IVec S1600000 32 := broadcastInDim S1600000 ![] bcast_S_S1600000 main_c_7
  let main_v26 : IVec S1600000 1 := cmpi .slt main_v24 main_v25
  let main_v27 : IVec S1600000 1 := andi main_v22 main_v26
  let main_c_8 : IVec S_ 1 := constantI S_ 1 1#1
  let main_v28 : IVec S_ 1 := (fun x v => Host.reduce IntOp.andi x v reducesTo_S1600000_S_d0 h_S_) main_v27 main_c_8
  let main_v29 : IVec S_ 1 := andi main_v18 main_v28
  main_v29

def fn {F : FTy → Type} [FloatOps F] (main_arg0 : FVec F S100000x128 .f32) (main_arg1 : IVec S2x1600000 32) (main_arg2 : FVec F S1600000 .f32) (main_arg3 : FVec F S128x64 .f32) (main_arg4 : FVec F S64x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1x1703936 : Shape := ⟨2, ![1, 1703936]⟩
abbrev S1703936x1 : Shape := ⟨2, ![1703936, 1]⟩
abbrev S100000x64 : Shape := ⟨2, ![100000, 64]⟩
abbrev S5000x128 : Shape := ⟨2, ![5000, 128]⟩
abbrev S5000x64 : Shape := ⟨2, ![5000, 64]⟩
abbrev S1703936x64 : Shape := ⟨2, ![1703936, 64]⟩
abbrev S1x4096 : Shape := ⟨2, ![1, 4096]⟩
abbrev S2000x64 : Shape := ⟨2, ![2000, 64]⟩
abbrev S4096x64 : Shape := ⟨2, ![4096, 64]⟩
abbrev S2000x1 : Shape := ⟨2, ![2000, 1]⟩
abbrev S2000x4096 : Shape := ⟨2, ![2000, 4096]⟩
abbrev S4096x1 : Shape := ⟨2, ![4096, 1]⟩
abbrev S100000x16 : Shape := ⟨2, ![100000, 16]⟩
abbrev S5000x16 : Shape := ⟨2, ![5000, 16]⟩
abbrev S1703936x16 : Shape := ⟨2, ![1703936, 16]⟩
abbrev S2000x16 : Shape := ⟨2, ![2000, 16]⟩
abbrev S4096x16 : Shape := ⟨2, ![4096, 16]⟩
abbrev S2000 : Shape := ⟨1, ![2000]⟩

abbrev nBuf : Space → Nat
  | .hbm => 63
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64x16, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S3936, .i32⟩
  | .hbm, ⟨49, _⟩ => ⟨S_, .f32⟩
  | .hbm, ⟨50, _⟩ => ⟨S3936, .f32⟩
  | .hbm, ⟨51, _⟩ => ⟨S1703936, .i32⟩
  | .hbm, ⟨52, _⟩ => ⟨S1703936, .i32⟩
  | .hbm, ⟨53, _⟩ => ⟨S1703936, .f32⟩
  | .hbm, ⟨54, _⟩ => ⟨S1x1703936, .i32⟩
  | .hbm, ⟨55, _⟩ => ⟨S1x1703936, .i32⟩
  | .hbm, ⟨56, _⟩ => ⟨S1703936x1, .f32⟩
  | .hbm, ⟨57, _⟩ => ⟨S100000x64, .f32⟩
  | .hbm, ⟨58, _⟩ => ⟨S1703936x64, .f32⟩
  | .hbm, ⟨59, _⟩ => ⟨S100000x64, .f32⟩
  | .hbm, ⟨60, _⟩ => ⟨S100000x16, .f32⟩
  | .hbm, ⟨61, _⟩ => ⟨S1703936x16, .f32⟩
  | .hbm, ⟨62, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S1x4096, .i32⟩
  | .local _ .vmem, ⟨6, _⟩ => ⟨S1x4096, .i32⟩
  | .local _ .vmem, ⟨7, _⟩ => ⟨S2000x64, .f32⟩
  | .local _ .vmem, ⟨8, _⟩ => ⟨S2000x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S1x4096, .i32⟩
  | .local _ .vmem, ⟨15, _⟩ => ⟨S1x4096, .i32⟩
  | .local _ .vmem, ⟨16, _⟩ => ⟨S4096x1, .f32⟩
  | .local _ .vmem, ⟨17, _⟩ => ⟨S4096x1, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S5000x64, .f32⟩
  | .local _ .vmem, ⟨22, _⟩ => ⟨S5000x64, .f32⟩
  | .local _ .vmem, ⟨23, _⟩ => ⟨S64x16, .f32⟩
  | .local _ .vmem, ⟨24, _⟩ => ⟨S5000x16, .f32⟩
  | .local _ .vmem, ⟨25, _⟩ => ⟨S5000x16, .f32⟩
  | .local _ .vmem, ⟨26, _⟩ => ⟨S1x4096, .i32⟩
  | .local _ .vmem, ⟨27, _⟩ => ⟨S1x4096, .i32⟩
  | .local _ .vmem, ⟨28, _⟩ => ⟨S2000x16, .f32⟩
  | .local _ .vmem, ⟨29, _⟩ => ⟨S2000x16, .f32⟩
  | .local _ .vmem, ⟨30, _⟩ => ⟨S4096x16, .f32⟩
  | .local _ .vmem, ⟨31, _⟩ => ⟨S4096x16, .f32⟩
  | .local _ .vmem, ⟨32, _⟩ => ⟨S4096x16, .f32⟩
  | .local _ .vmem, ⟨33, _⟩ => ⟨S4096x16, .f32⟩
  | .local _ .vmem, ⟨34, _⟩ => ⟨S4096x16, .f32⟩
  | .local _ .vmem, ⟨35, _⟩ => ⟨S1x4096, .i32⟩
  | .local _ .vmem, ⟨36, _⟩ => ⟨S1x4096, .i32⟩
  | .local _ .vmem, ⟨37, _⟩ => ⟨S4096x1, .f32⟩
  | .local _ .vmem, ⟨38, _⟩ => ⟨S4096x1, .f32⟩
  | .local _ .vmem, ⟨39, _⟩ => ⟨S2000x16, .f32⟩
  | .local _ .vmem, ⟨40, _⟩ => ⟨S2000x16, .f32⟩
  | .local _ .vmem, ⟨41, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![416, 50], ![false, false]⟩

def k1_cond2 (i : grid1.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![50, 416], ![false, false]⟩

def k2_cond2 (i : grid2.Coords) : BitVec 1 :=
  let arg1 : BitVec 32 := BitVec.ofNat 32 (i 1).val
  let c415_i32 : BitVec 32 := 415#32
  let v28 : BitVec 1 := Scalar.cmpi .eq arg1 c415_i32
  let v29 : BitVec 32 := Scalar.extui v28
  let c0_i32_10 : BitVec 32 := 0#32
  let v30 : BitVec 1 := Scalar.cmpi .ne v29 c0_i32_10
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![416, 50], ![false, false]⟩

def k4_cond2 (i : grid4.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_8 : BitVec 32 := 0#32
  let v26 : BitVec 1 := Scalar.cmpi .ne v25 c0_i32_8
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4096x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![50, 416], ![false, false]⟩

def k5_cond2 (i : grid5.Coords) : BitVec 1 :=
  let arg1 : BitVec 32 := BitVec.ofNat 32 (i 1).val
  let c415_i32 : BitVec 32 := 415#32
  let v28 : BitVec 1 := Scalar.cmpi .eq arg1 c415_i32
  let v29 : BitVec 32 := Scalar.extui v28
  let c0_i32_10 : BitVec 32 := 0#32
  let v30 : BitVec 1 := Scalar.cmpi .ne v29 c0_i32_10
  v30

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x4096 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4096x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S2000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S_S3936 : S_.BroadcastsInDim S3936 (![] : Fin 0 → Fin S3936.rank)
  concatenates_S1700000_S3936_S1703936_d0 : Shape.Concatenates [S1700000, S3936] S1703936 0
  shapeCasts_S1703936_S1x1703936 : S1703936.ShapeCasts S1x1703936
  shapeCasts_S1703936_S1703936x1 : S1703936.ShapeCasts S1703936x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S2000x1_d0_w32 : S2000x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S2000x4096 : S1x4096.Broadcasts S2000x4096
  broadcasts_S2000x1_S2000x4096 : S2000x1.Broadcasts S2000x4096
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  broadcasts_S4096x1_S4096x16 : S4096x1.Broadcasts S4096x16
  reduces_S2000x16_S2000 : S2000x16.Reduces [1] S2000
  shapeCasts_S2000_S2000x1 : S2000.ShapeCasts S2000x1
  broadcasts_S2000x1_S2000x16 : S2000x1.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  dot_S2000x4096_S2000x64_S4096x64_0_0_1_1_n_n_wf : DotDims.WF S2000x4096 S2000x64 S4096x64 [0] [0] [1] [1] [] []
  dot_S2000x4096_S4096x64_S2000x64_1_0_0_1_n_n_wf : DotDims.WF S2000x4096 S4096x64 S2000x64 [1] [0] [0] [1] [] []
  dot_S5000x64_S64x16_S5000x16_1_0_0_1_n_n_wf : DotDims.WF S5000x64 S64x16 S5000x16 [1] [0] [0] [1] [] []
  dot_S2000x4096_S2000x16_S4096x16_0_0_1_1_n_n_wf : DotDims.WF S2000x4096 S2000x16 S4096x16 [0] [0] [1] [1] [] []
  dot_S2000x4096_S4096x16_S2000x16_1_0_0_1_n_n_wf : DotDims.WF S2000x4096 S4096x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1703936.size a
  hwx1_0 : ∀ i : grid1.Coords, EltTy.bits .i32 = 32 ∨ (Rect.block (s := S1x1703936) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S1703936x64.size a
  hwx1_2 : ∀ i : grid1.Coords, EltTy.bits .f32 = 32 ∨ (Rect.block (s := S1703936x64) S4096x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S1703936x64.size a
  hwx2_0 : ∀ i : grid2.Coords, EltTy.bits .f32 = 32 ∨ (Rect.block (s := S1703936x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x1703936.size a
  hwx2_1 : ∀ i : grid2.Coords, EltTy.bits .i32 = 32 ∨ (Rect.block (s := S1x1703936) S1x4096.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S1703936x1.size a
  hwx2_2 : ∀ i : grid2.Coords, EltTy.bits .f32 = 32 ∨ (Rect.block (s := S1703936x1) S4096x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x1703936.size a
  hwx4_0 : ∀ i : grid4.Coords, EltTy.bits .i32 = 32 ∨ (Rect.block (s := S1x1703936) S1x4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x16.size a ≤ S100000x16.size a
  hwx4_1 : ∀ i : grid4.Coords, EltTy.bits .f32 = 32 ∨ (Rect.block (s := S100000x16) S2000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x16.size a ≤ S1703936x16.size a
  hwx4_2 : ∀ i : grid4.Coords, EltTy.bits .f32 = 32 ∨ (Rect.block (s := S1703936x16) S4096x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x16.size a ≤ S1703936x16.size a
  hwx5_0 : ∀ i : grid5.Coords, EltTy.bits .f32 = 32 ∨ (Rect.block (s := S1703936x16) S4096x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x4096.size a ≤ S1x1703936.size a
  hwx5_1 : ∀ i : grid5.Coords, EltTy.bits .i32 = 32 ∨ (Rect.block (s := S1x1703936) S1x4096.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x1.size a ≤ S1703936x1.size a
  hwx5_2 : ∀ i : grid5.Coords, EltTy.bits .f32 = 32 ∨ (Rect.block (s := S1703936x1) S4096x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x16.size a ≤ S100000x16.size a
  hwx5_3 : ∀ i : grid5.Coords, EltTy.bits .f32 = 32 ∨ (Rect.block (s := S100000x16) S2000x16.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S2000x4096_S2000x64_S4096x64_0_0_1_1_n_n : DotDims S2000x4096 S2000x64 S4096x64 where
  lhsContracting := [0]
  rhsContracting := [0]
  lhsNonContracting := [1]
  rhsNonContracting := [1]
  lhsBatch := []
  rhsBatch := []
  wf := dot_S2000x4096_S2000x64_S4096x64_0_0_1_1_n_n_wf
def dot_S2000x4096_S4096x64_S2000x64_1_0_0_1_n_n : DotDims S2000x4096 S4096x64 S2000x64 where
  lhsContracting := [1]
  rhsContracting := [0]
  lhsNonContracting := [0]
  rhsNonContracting := [1]
  lhsBatch := []
  rhsBatch := []
  wf := dot_S2000x4096_S4096x64_S2000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S2000x4096_S2000x16_S4096x16_0_0_1_1_n_n : DotDims S2000x4096 S2000x16 S4096x16 where
  lhsContracting := [0]
  rhsContracting := [0]
  lhsNonContracting := [1]
  rhsNonContracting := [1]
  lhsBatch := []
  rhsBatch := []
  wf := dot_S2000x4096_S2000x16_S4096x16_0_0_1_1_n_n_wf
def dot_S2000x4096_S4096x16_S2000x16_1_0_0_1_n_n : DotDims S2000x4096 S4096x16 S2000x16 where
  lhsContracting := [1]
  rhsContracting := [0]
  lhsNonContracting := [0]
  rhsNonContracting := [1]
  lhsBatch := []
  rhsBatch := []
  wf := dot_S2000x4096_S4096x16_S2000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v41) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v37) S1x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S2000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S4096x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v44) S4096x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S1x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S4096x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v45) S2000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S100000x16 : Shape := ⟨2, ![100000, 16]⟩
abbrev S1700000x16 : Shape := ⟨2, ![1700000, 16]⟩
abbrev S100000x1 : Shape := ⟨2, ![100000, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64x16, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x16, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x16, .f32⟩
  | .hbm, ⟨77, _⟩ => ⟨S1700000x1, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x16, .f32⟩
  | .hbm, ⟨91, _⟩ => ⟨S100000x16, .f32⟩
  | .hbm, ⟨92, _⟩ => ⟨S100000x16, .f32⟩
  | .hbm, ⟨93, _⟩ => ⟨S_, .f32⟩
  | .hbm, ⟨94, _⟩ => ⟨S100000, .f32⟩
  | .hbm, ⟨95, _⟩ => ⟨S100000x1, .f32⟩
  | .hbm, ⟨96, _⟩ => ⟨S100000x1, .f32⟩
  | .hbm, ⟨97, _⟩ => ⟨S100000x16, .f32⟩
  | .hbm, ⟨98, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call1_cst : Ref sig .tc := ⟨.hbm, 64, rfl⟩
abbrev main_call1_v0 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_cst : Ref sig .tc := ⟨.hbm, 84, rfl⟩
abbrev main_call2_v0 : Ref sig .tc := ⟨.hbm, 85, rfl⟩
abbrev main_call2_cst_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_cst_1 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_v61 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KI.R0.lean ====
import proofs.«167680_j81389630259984_2_alg».proof.Proof.Gen.KernelIdeal.Launch
import proofs.«167680_j81389630259984_2_alg».proof.Proof.Gen.KernelIdeal.Skeleton
import proofs.«167680_j81389630259984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # REGION 0: `cc0__matmul_kernel`, at the entry contents `V`

Grid of 20 points; at point `t` the body multiplies rows `5000 t … 5000 t + 4999` of the left factor (window 0, a
(5000,128) block) by the whole right factor (window 1, (128,64)) and stores the (5000,64) product as the output
window's block. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, the same block at every point) likewise: where it is not fetched its block
    index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- Window 2's staging buffer after the body, from the two input windows' blocks: its one store, of the whole
    buffer, of the product payload of the two loads. -/
def out0_2 (x0 : Vec F S5000x128 .f32) (x1 : Vec F S128x64 .f32) : Vec F S5000x64 .f32 :=
  View.canon [⟨r0_2, k0_pay1 (View.ld x0 r0_0) (View.ld x1 r0_1)⟩]

/-- The store is of the whole buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at read contents `x0`, `x1` and the output's at anything, runs
    to the continuation holding the inputs' as they were and the output's at `out0_2` of the inputs'. -/
theorem sound_kernel0 (c : Dev nD) (E : Set ℕ) (i : grid0.Coords) (arg0 : Memref sig .tc .vmem S5000x128 .f32) (harg0 : arg0.IsWhole)
    (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The region's entry resources are the invariant at the first point, -/
theorem hin0 (c : Dev nD) : (Pipeline.ΦA spec0 c : sProp 𝕄) ⊢ (dat0 V c).Φ 0 := by
  show (Pipeline.ΦA spec0 c : sProp 𝕄) ⊢ Pipeline.ΦA spec0 c
  exact .rfl

/-- and the invariant after the last point is the region's exit resources. -/
theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact .rfl

end Cert.KernelIdeal.Hand

end
-- ==== Proof.KI.R1.Runs.lean ====
import proofs.«167680_j81389630259984_2_alg».proof.Proof.Gen.KernelIdeal.Launch
import proofs.«167680_j81389630259984_2_alg».proof.Proof.Gen.KernelIdeal.Skeleton
import proofs.«167680_j81389630259984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional, from the grid coordinates: the point is the first of its group
    along the reduction axis. -/
abbrev cond1_0 (i : grid1.Coords) : Prop := (Scalar.cmpi .ne (Scalar.extui (Scalar.cmpi .eq (BitVec.ofNat 32 (i 1).val) 0#32)) 0#32) = 1#1
/-- It holds exactly at the points ≡ 0 (mod 50). -/
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the body's second conditional: the point is the last of its group along the reduction axis. -/
abbrev cond1_1 (i : grid1.Coords) : Prop := k1_cond2 i = 1#1
/-- It holds exactly at the points ≡ 49 (mod 50). -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Output 2 is idle exactly where the second conditional is not taken. -/
theorem idle1_2_of_not (i : grid1.Coords) (h1 : ¬cond1_1 i) : cfg1.idle 2 i = true := by
  have e : (k1_cond2 i == 1#1) = false := beq_eq_false_iff_ne.mpr h1
  show (!(k1_cond2 i == 1#1)) = true
  rw [e]; rfl
theorem live1_2_of (i : grid1.Coords) (h1 : cond1_1 i) : cfg1.idle 2 i = false := by
  have e : (k1_cond2 i == 1#1) = true := beq_iff_eq.mpr h1
  show (!(k1_cond2 i == 1#1)) = false
  rw [e]; rfl
/-- Output 2's block is not written back where the second conditional is not taken: it is written back exactly at
    the points ≡ 49 (mod 50), which are the points of that conditional. -/
theorem noFlush1_2_of_not (t : Fin cfg1.N) (h1 : ¬cond1_1 (grid1.coords t)) : (cfg1.win 2).flush t = false :=
  Bool.eq_false_iff.mpr fun hf => h1 ((hcond1_1 t).mpr ((flush1_2 t).mp hf))
/-- At the first point of a group output 2 is idle: nothing is stored into it. -/
theorem idleAt1_2_A : ∀ t : Fin cfg1.N, cond1_0 (grid1.coords t) → ¬cond1_1 (grid1.coords t) → cfg1.idle 2 (grid1.coords t) = true :=
  fun t _ h1 => idle1_2_of_not _ h1
/-- At the first point of a group output 2's block is not written back. -/
theorem noFlush1_2_A : ∀ t : Fin cfg1.N, cond1_0 (grid1.coords t) → ¬cond1_1 (grid1.coords t) → (cfg1.win 2).flush t = false :=
  fun t _ h1 => noFlush1_2_of_not t h1
/-- At a middle point of a group output 2 is idle: nothing is stored into it. -/
theorem idleAt1_2_B : ∀ t : Fin cfg1.N, ¬cond1_0 (grid1.coords t) → ¬cond1_1 (grid1.coords t) → cfg1.idle 2 (grid1.coords t) = true :=
  fun t _ h1 => idle1_2_of_not _ h1
/-- At a middle point of a group output 2's block is not written back. -/
theorem noFlush1_2_B : ∀ t : Fin cfg1.N, ¬cond1_0 (grid1.coords t) → ¬cond1_1 (grid1.coords t) → (cfg1.win 2).flush t = false :=
  fun t _ h1 => noFlush1_2_of_not t h1
/-- At the last point of a group output 2 is live: the accumulator is stored into it. -/
theorem liveAt1_2_C : ∀ t : Fin cfg1.N, ¬cond1_0 (grid1.coords t) → cond1_1 (grid1.coords t) → cfg1.idle 2 (grid1.coords t) = false :=
  fun t _ h1 => live1_2_of _ h1

/-! ## The memrefs the body is run on -/

/-- One staging buffer of output window 2, through which its contents are stated (the choice does not matter). -/
abbrev VO1_2 : View sig .tc .vmem S4096x64 .f32 := (Memref.whole cc1_stg2_0 : Memref sig .tc .vmem S4096x64 .f32).view
/-- Each window's current staging memref at point `t`, and its wholeness. -/
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .f32 := win1_2.stage (cfg1.slots t 2)
abbrev hs1_2 (t : Fin cfg1.N) : (ms1_2 t).IsWhole := hstage1_2 ((cfg1.slots t 2).cast nbuf1_2)
/-- The scratch operand: the accumulator, a whole scoped buffer passed beside the windows. -/
abbrev scM1_0 : Memref sig .tc .vmem S4096x64 .f32 := Memref.whole cc1_scratch0
/-- The accumulator as a view: what it holds between points is stated through it. -/
abbrev VS1_0 : View sig .tc .vmem S4096x64 .f32 := scM1_0.view

/-- The region's invariant with the accumulator as a memref owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

end Cert.KernelIdeal.Hand

end
-- ==== Proof.KI.R1.RunA.lean ====
import proofs.«167680_j81389630259984_2_alg».proof.Proof.KI.R1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The first point of a group (the accumulator is reset, then added to; nothing is stored into the output):
    on whole memrefs — the inputs' at their contents, the output's at contents handed back untouched, the accumulator
    at anything — the body runs to the continuation holding the inputs and the output as they were and the
    accumulator with its pieces written. The pieces are the witness the run finds. -/
noncomputable def kernelRun1_A (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) :
    Σ' (L2 : List (View.Piece (Elt F) S4096x64 .f32)), { LS0 : List (View.Piece (Elt F) S4096x64 .f32) //
      ∀ (xi2 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gather_kernel i arg2 harg2 arg3 harg3 arg4 harg4 arg5 harg5) K } := by
  refine ⟨[], ?_, fun xi2 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1.RunB.lean ====
import proofs.«167680_j81389630259984_2_alg».proof.Proof.KI.R1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- A middle point of a group (the accumulator is added to; nothing is stored into the output): on whole memrefs —
    the inputs' at their contents, the output's at contents handed back untouched, the accumulator at what the point
    before left — the body runs to the continuation holding the inputs and the output as they were and the
    accumulator with its pieces written. -/
noncomputable def kernelRun1_B (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) :
    Σ' (L2 : List (View.Piece (Elt F) S4096x64 .f32)), { LS0 : List (View.Piece (Elt F) S4096x64 .f32) //
      ∀ (xi2 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gather_kernel i arg2 harg2 arg3 harg3 arg4 harg4 arg5 harg5) K } := by
  refine ⟨[], ?_, fun xi2 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1.RunC.lean ====
import proofs.«167680_j81389630259984_2_alg».proof.Proof.KI.R1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The last point of a group (the accumulator is added to, then stored into the output): on whole memrefs — the
    inputs' at their contents, the output's at anything, the accumulator at what the point before left — the body runs
    to the continuation holding the inputs as they were and the output and the accumulator with their pieces written. -/
noncomputable def kernelRun1_C (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__gather_kernel i arg2 harg2 arg3 harg3 arg4 harg4 arg5 harg5) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1.lean ====
import proofs.«167680_j81389630259984_2_alg».proof.Proof.KI.R1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## What each case leaves in the output's staging buffer and in the accumulator -/

/-- At the first point of a group nothing is stored into output 2 (the window is idle there and not written back): no pieces — a
    placeholder nothing consults. -/
def out1_A_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) : Vec F S4096x64 .f32 :=
  VO1_2.read (Elt F) (VO1_2.writes (Elt F) VO1_2.junk (kernelRun1_A c i arg2 harg2 arg3 harg3 arg4 harg4 arg5 harg5 hc0 hc1 x0 x1).1)

/-- At the first point of a group the pieces stored into the accumulator tile it, so they cover it. -/
theorem scover1_A_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) (y : S4096x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S4096x64.size (by sl_kernel_rfl) y

/-- What the first point of a group leaves in the accumulator: its pieces read back. -/
def sout1_A_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) : Vec F S4096x64 .f32 :=
  VS1_0.read (Elt F) (VS1_0.writes (Elt F) VS1_0.junk (kernelRun1_A c i arg2 harg2 arg3 harg3 arg4 harg4 arg5 harg5 hc0 hc1 x0 x1).2.1)

/-- At a middle point of a group nothing is stored into output 2 (the window is idle there and not written back): no pieces — a
    placeholder nothing consults. -/
def out1_B_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) : Vec F S4096x64 .f32 :=
  VO1_2.read (Elt F) (VO1_2.writes (Elt F) VO1_2.junk (kernelRun1_B c i arg2 harg2 arg3 harg3 arg4 harg4 arg5 harg5 hc0 hc1 x0 x1 xs0).1)

/-- At a middle point of a group the pieces stored into the accumulator tile it, so they cover it. -/
theorem scover1_B_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) (y : S4096x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S4096x64.size (by sl_kernel_rfl) y

/-- What a middle point of a group leaves in the accumulator: its pieces read back. -/
def sout1_B_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) : Vec F S4096x64 .f32 :=
  VS1_0.read (Elt F) (VS1_0.writes (Elt F) VS1_0.junk (kernelRun1_B c i arg2 harg2 arg3 harg3 arg4 harg4 arg5 harg5 hc0 hc1 x0 x1 xs0).2.1)

/-- At the last point of a group the pieces stored into output 2 tile its block, so they cover it. -/
theorem cover1_C_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) (y : S4096x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S4096x64.size (by sl_kernel_rfl) y

/-- What the last point of a group leaves in output 2's staging buffer: its pieces read back. -/
def out1_C_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) : Vec F S4096x64 .f32 :=
  VO1_2.read (Elt F) (VO1_2.writes (Elt F) VO1_2.junk (kernelRun1_C c i arg2 harg2 arg3 harg3 arg4 harg4 arg5 harg5 hc0 hc1 x0 x1 xs0).1)

/-- At the last point of a group the pieces stored into the accumulator tile it, so they cover it. -/
theorem scover1_C_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) (y : S4096x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S4096x64.size (by sl_kernel_rfl) y

/-- What the last point of a group leaves in the accumulator: its pieces read back. -/
def sout1_C_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) : Vec F S4096x64 .f32 :=
  VS1_0.read (Elt F) (VS1_0.writes (Elt F) VS1_0.junk (kernelRun1_C c i arg2 harg2 arg3 harg3 arg4 harg4 arg5 harg5 hc0 hc1 x0 x1 xs0).2.1)

/-! ## What the output's staging buffer and the accumulator hold after each point -/

/-- The accumulation: what output 2's staging buffer and the accumulator hold after the body at position `n` (a pair:
    the output, then the accumulator) — the case the closed forms select at `n`, run at the point's memrefs and input
    blocks, the accumulator found at what position `n - 1` left. -/
def outsAt1 (c : Dev nD) : (n : ℕ) → n < cfg1.N → Vec F S4096x64 .f32 × Vec F S4096x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 50 = 0 then
      if h1 : (n + 1) % 50 = 49 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 50 = 49 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point of a group. -/
theorem outsAt1_A (c : Dev nD) (t : Fin cfg1.N) (h0 : t.val % 50 = 0) (h1 : ¬t.val % 50 = 49) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point of a group: over what the point before left. -/
theorem outsAt1_B (c : Dev nD) (t : Fin cfg1.N) (h0 : ¬t.val % 50 = 0) (h1 : ¬t.val % 50 = 49) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a group: over what the point before left. -/
theorem outsAt1_C (c : Dev nD) (t : Fin cfg1.N) (h0 : ¬t.val % 50 = 0) (h1 : t.val % 50 = 49) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut spec1 c [cc1_scratch0]) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the very first point) and
    takes it back at this point's contents; the other scoped buffers and the generator register pass through; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 50 = 0
  · by_cases h1 : t.val % 50 = 49
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 50 = 49
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 20800 := N_1; omega)

end Cert.KernelIdeal.Hand

end
-- ==== Proof.KI.R2.Runs.lean ====
import proofs.«167680_j81389630259984_2_alg».proof.Proof.Gen.KernelIdeal.Launch
import proofs.«167680_j81389630259984_2_alg».proof.Proof.Gen.KernelIdeal.Skeleton
import proofs.«167680_j81389630259984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the scatter kernel over the grid (50, 416), reduction along axis 1 -/

/-! ## The windows' blocks -/

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first branch: the coordinate along the reduction axis is 0. -/
abbrev cond2_0 (i : grid2.Coords) : Prop := (Scalar.cmpi .ne (Scalar.extui (Scalar.cmpi .eq (BitVec.ofNat 32 (i 1).val) 0#32)) 0#32) = 1#1
/-- It holds exactly at the points ≡ 0 (mod 416). -/
theorem hcond2_0 : ∀ t : Fin cfg2.N, cond2_0 (grid2.coords t) ↔ t.val % 416 = 0 :=
  (by decide +kernel : ∀ t : Fin grid2.N, cond2_0 (grid2.coords t) ↔ t.val % 416 = 0)

/-- The condition of the body's second branch: the coordinate along the reduction axis is 415. -/
abbrev cond2_1 (i : grid2.Coords) : Prop := k2_cond2 i = 1#1
/-- It holds exactly at the points ≡ 415 (mod 416). -/
theorem hcond2_1 : ∀ t : Fin cfg2.N, cond2_1 (grid2.coords t) ↔ t.val % 416 = 415 :=
  (by decide +kernel : ∀ t : Fin grid2.N, cond2_1 (grid2.coords t) ↔ t.val % 416 = 415)

/-! ## Where the windows are idle -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Output 3 is idle exactly where the second conditional is not taken. -/
theorem idle2_3_of_not (i : grid2.Coords) (h1 : ¬cond2_1 i) : cfg2.idle 3 i = true := by
  have e : (k2_cond2 i == 1#1) = false := beq_eq_false_iff_ne.mpr h1
  show (!(k2_cond2 i == 1#1)) = true
  rw [e]; rfl
/-- Output 3 is live where the second conditional is taken. -/
theorem live2_3_of (i : grid2.Coords) (h1 : cond2_1 i) : cfg2.idle 3 i = false := by
  have e : (k2_cond2 i == 1#1) = true := beq_iff_eq.mpr h1
  show (!(k2_cond2 i == 1#1)) = false
  rw [e]; rfl
/-- Output 3's block is not written back where the second conditional is not taken: it is written back exactly at
    the points ≡ 415 (mod 416), which are the points of that conditional. -/
theorem noFlush2_3_of_not (t : Fin cfg2.N) (h1 : ¬cond2_1 (grid2.coords t)) : (cfg2.win 3).flush t = false :=
  Bool.eq_false_iff.mpr fun hf => h1 ((hcond2_1 t).mpr ((flush2_3 t).mp hf))
/-- At the first point of a group output 3 is idle: nothing is stored into it. -/
theorem idleAt2_3_A : ∀ t : Fin cfg2.N, cond2_0 (grid2.coords t) → ¬cond2_1 (grid2.coords t) → cfg2.idle 3 (grid2.coords t) = true :=
  fun t _ h1 => idle2_3_of_not _ h1
/-- At the first point of a group output 3's block is not written back. -/
theorem noFlush2_3_A : ∀ t : Fin cfg2.N, cond2_0 (grid2.coords t) → ¬cond2_1 (grid2.coords t) → (cfg2.win 3).flush t = false :=
  fun t _ h1 => noFlush2_3_of_not t h1
/-- At a middle point of a group output 3 is idle: nothing is stored into it. -/
theorem idleAt2_3_B : ∀ t : Fin cfg2.N, ¬cond2_0 (grid2.coords t) → ¬cond2_1 (grid2.coords t) → cfg2.idle 3 (grid2.coords t) = true :=
  fun t _ h1 => idle2_3_of_not _ h1
/-- At a middle point of a group output 3's block is not written back. -/
theorem noFlush2_3_B : ∀ t : Fin cfg2.N, ¬cond2_0 (grid2.coords t) → ¬cond2_1 (grid2.coords t) → (cfg2.win 3).flush t = false :=
  fun t _ h1 => noFlush2_3_of_not t h1
/-- At the last point of a group output 3 is live: the epilogue is stored into it. -/
theorem liveAt2_3_C : ∀ t : Fin cfg2.N, ¬cond2_0 (grid2.coords t) → cond2_1 (grid2.coords t) → cfg2.idle 3 (grid2.coords t) = false :=
  fun t _ h1 => live2_3_of _ h1

/-! ## The kernel body on any staging memrefs -/

/-- One staging buffer of output window 3, through which its contents are stated. -/
abbrev VO2_3 : View sig .tc .vmem S2000x64 .f32 := (Memref.whole cc2_stg3_0 : Memref sig .tc .vmem S2000x64 .f32).view
/-- Each window's current staging memref at point `t`, and its wholeness. -/
abbrev ms2_0 (t : Fin cfg2.N) : Memref sig .tc .vmem S4096x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x4096 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x64 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S2000x64 .f32 := Memref.whole cc2_scratch0
/-- The accumulator the kernel carries between points, as a view: what it holds is stated through it. -/
abbrev VS2_0 : View sig .tc .vmem S2000x64 .f32 := scM2_0.view

/-- The region invariant with the scratch operand as a memref owned at some contents, the other scoped buffers
    carried unopened beside it. -/
theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

end Cert.KernelIdeal.Hand

end
-- ==== Proof.KI.R2.RunA.lean ====
import proofs.«167680_j81389630259984_2_alg».proof.Proof.KI.R2.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the first point of a group along the reduction axis: the accumulator is reset, then added to; nothing is stored into the output; with the proof that on whole
    memrefs — the inputs' at their contents — the body runs to the continuation holding the inputs' as they were,
    the accumulator with its pieces written, the output's buffer as stated. -/
noncomputable def kernelRun2_A (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R2.RunB.lean ====
import proofs.«167680_j81389630259984_2_alg».proof.Proof.KI.R2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    a middle point of a group along the reduction axis: the accumulator is added to; nothing is stored into the output; with the proof that on whole
    memrefs — the inputs' at their contents — the body runs to the continuation holding the inputs' as they were,
    the accumulator with its pieces written, the output's buffer as stated. -/
noncomputable def kernelRun2_B (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R2.RunC.lean ====
import proofs.«167680_j81389630259984_2_alg».proof.Proof.KI.R2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the last point of a group along the reduction axis: the accumulator is added to, then its epilogue is stored into the output; with the proof that on whole
    memrefs — the inputs' at their contents — the body runs to the continuation holding the inputs' as they were,
    the accumulator with its pieces written, the output's buffer as stated. -/
noncomputable def kernelRun2_C (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R2.lean ====
import proofs.«167680_j81389630259984_2_alg».proof.Proof.KI.R2.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: what each case leaves, the accumulation point by point, the proof data, the body obligation -/

/-- Nothing is stored into output 3 at this point: a placeholder that nothing consults, the window being neither written back here nor read at the next point. -/
def out2_A_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) : Vec F S2000x64 .f32 :=
  VO2_3.read (Elt F) (VO2_3.writes (Elt F) VO2_3.junk (kernelRun2_A c i arg2 harg2 arg3 harg3 arg4 harg4 arg5 harg5 arg6 harg6 hc0 hc1 x0 x1 x2).1)

/-- The pieces stored into the accumulator at this point tile it, so they cover it. -/
theorem scover2_A_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) (y : S2000x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2000x64.size (by sl_kernel_rfl) y

/-- What this point leaves in the accumulator: its pieces read back over an arbitrary buffer. -/
def sout2_A_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) : Vec F S2000x64 .f32 :=
  VS2_0.read (Elt F) (VS2_0.writes (Elt F) VS2_0.junk (kernelRun2_A c i arg2 harg2 arg3 harg3 arg4 harg4 arg5 harg5 arg6 harg6 hc0 hc1 x0 x1 x2).2.1)

/-- Nothing is stored into output 3 at this point: a placeholder that nothing consults, the window being neither written back here nor read at the next point. -/
def out2_B_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) : Vec F S2000x64 .f32 :=
  VO2_3.read (Elt F) (VO2_3.writes (Elt F) VO2_3.junk (kernelRun2_B c i arg2 harg2 arg3 harg3 arg4 harg4 arg5 harg5 arg6 harg6 hc0 hc1 x0 x1 x2 xs0).1)

/-- The pieces stored into the accumulator at this point tile it, so they cover it. -/
theorem scover2_B_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) (y : S2000x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2000x64.size (by sl_kernel_rfl) y

/-- What this point leaves in the accumulator: its pieces read back over an arbitrary buffer. -/
def sout2_B_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) : Vec F S2000x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- At the last point of a group the pieces stored into output 3 tile its block, so they cover it. -/
theorem cover2_C_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) (y : S2000x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2000x64.size (by sl_kernel_rfl) y

/-- What the last point of a group leaves in output 3's staging buffer: its pieces read back over an arbitrary buffer. -/
def out2_C_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) : Vec F S2000x64 .f32 :=
  VO2_3.read (Elt F) (VO2_3.writes (Elt F) VO2_3.junk (kernelRun2_C c i arg2 harg2 arg3 harg3 arg4 harg4 arg5 harg5 arg6 harg6 hc0 hc1 x0 x1 x2 xs0).1)

/-- The pieces stored into the accumulator at this point tile it, so they cover it. -/
theorem scover2_C_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) (y : S2000x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2000x64.size (by sl_kernel_rfl) y

/-- What this point leaves in the accumulator: its pieces read back over an arbitrary buffer. -/
def sout2_C_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) : Vec F S2000x64 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- The accumulation. What output 3's staging buffer and the accumulator hold after the body at position `n`
    (a pair: the output, then the accumulator): the case the closed forms select at `n`, run at the point's
    memrefs and input blocks, the accumulator at what the point before left. -/
def outsAt2 (c : Dev nD) : (n : ℕ) → n < cfg2.N → Vec F S2000x64 .f32 × Vec F S2000x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 416 = 0 then
      if h1 : (n + 1) % 416 = 415 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 416 = 415 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at the first point of a group. -/
theorem outsAt2_A (c : Dev nD) (t : Fin cfg2.N) (h0 : t.val % 416 = 0) (h1 : ¬t.val % 416 = 415) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle point of a group: over what the point before left. -/
theorem outsAt2_B (c : Dev nD) (t : Fin cfg2.N) (h0 : ¬t.val % 416 = 0) (h1 : ¬t.val % 416 = 415) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a group: over what the point before left. -/
theorem outsAt2_C (c : Dev nD) (t : Fin cfg2.N) (h0 : ¬t.val % 416 = 0) (h1 : t.val % 416 = 415) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the region's own invariant; afterwards the accumulator at what the point before left in
    it, the other scoped buffers carried unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut spec2 c [cc2_scratch0]) ∗ (∃ r, prngReg c r)) := by
  cases n with
  | zero => exact absurd rfl hz
  | succ n => rfl

/-! ## The pipeline's proof data -/

/-- The proof data of the region on core `c`: the arrays at the entry contents; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in;
    the invariant hands the body the accumulator at what the point before left (at anything at the very first
    point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20800 := lt_of_lt_of_eq t.isLt (show cfg2.N = 20800 from N_2)
  by_cases h0 : t.val % 416 = 0
  · by_cases h1 : t.val % 416 = 415
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 416 = 415
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the region's own back: the accumulator's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 20800 := N_2; omega)

end Cert.KernelIdeal.Hand

end
-- ==== Proof.KI.R3.lean ====
import proofs.«167680_j81389630259984_2_alg».proof.Proof.Gen.KernelIdeal.Launch
import proofs.«167680_j81389630259984_2_alg».proof.Proof.Gen.KernelIdeal.Skeleton
import proofs.«167680_j81389630259984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # REGION 3: `cc3__matmul_kernel`, at the entry contents `V`

Grid of 20 points; at point `t` the body multiplies rows `5000 t … 5000 t + 4999` of the left factor (window 0, a
(5000,64) block) by the whole right factor (window 1, (64,16)) and stores the (5000,16) product as the output
window's block. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right factor, the same block at every point) likewise: where it is not fetched its block
    index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S64x16 := Rect.unit (s := S64x16) ![0, 0] S64x16.size inb_S64x16_S64x16_0_0
abbrev r3_2 : Rect S5000x16 := Rect.unit (s := S5000x16) ![0, 0] S5000x16.size inb_S5000x16_S5000x16_0_0

/-! ## What the body leaves in the output window's buffer -/

/-- Window 2's staging buffer after the body, from the two input windows' blocks: its one store, of the whole
    buffer, of the product payload of the two loads. -/
def out3_2 (x0 : Vec F S5000x64 .f32) (x1 : Vec F S64x16 .f32) : Vec F S5000x16 .f32 :=
  View.canon [⟨r3_2, k3_pay1 (View.ld x0 r3_0) (View.ld x1 r3_1)⟩]

/-- The store is of the whole buffer, so it covers it. -/
theorem cover3_2 (p0 : Vec F S5000x16 .f32) (y : S5000x16.Idx) :
    ∃ pc ∈ ([⟨r3_2, p0⟩] : List (View.Piece (Elt F) S5000x16 .f32)), y ∈ pc.1.set :=
  View.cover_of_tiled [⟨r3_2, p0⟩] S5000x16.size (by rfl) y

/-! ## The body's triple -/

set_option maxHeartbeats 1000000 in
/-- The kernel body on whole staging memrefs, the inputs' at read contents `x0`, `x1` and the output's at anything, runs
    to the continuation holding the inputs' as they were and the output's at `out3_2` of the inputs'. -/
theorem sound_kernel3 (c : Dev nD) (E : Set ℕ) (i : grid3.Coords) (arg0 : Memref sig .tc .vmem S5000x64 .f32) (harg0 : arg0.IsWhole)
    (arg1 : Memref sig .tc .vmem S64x16 .f32) (harg1 : arg1.IsWhole) (arg2 : Memref sig .tc .vmem S5000x16 .f32) (harg2 : arg2.IsWhole)
    (x0 : Vec F S5000x64 .f32) (x1 : Vec F S64x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The region's entry resources are the invariant at the first point, -/
theorem hin3 (c : Dev nD) : (Pipeline.ΦA spec3 c : sProp 𝕄) ⊢ (dat3 V c).Φ 0 := by
  show (Pipeline.ΦA spec3 c : sProp 𝕄) ⊢ Pipeline.ΦA spec3 c
  exact .rfl

/-- and the invariant after the last point is the region's exit resources. -/
theorem hout3 (c : Dev nD) : (dat3 V c).Φ (Fin.last cfg3.N) ⊢ (Pipeline.ΦA spec3 c : sProp 𝕄) := by
  show (Pipeline.ΦA spec3 c : sProp 𝕄) ⊢ Pipeline.ΦA spec3 c
  exact .rfl

end Cert.KernelIdeal.Hand

end
-- ==== Proof.KI.R4.Runs.lean ====
import proofs.«167680_j81389630259984_2_alg».proof.Proof.Gen.KernelIdeal.Launch
import proofs.«167680_j81389630259984_2_alg».proof.Proof.Gen.KernelIdeal.Skeleton
import proofs.«167680_j81389630259984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional, from the grid coordinates: the point is the first of its group
    along the reduction axis. -/
abbrev cond4_0 (i : grid4.Coords) : Prop := (Scalar.cmpi .ne (Scalar.extui (Scalar.cmpi .eq (BitVec.ofNat 32 (i 1).val) 0#32)) 0#32) = 1#1
/-- It holds exactly at the points ≡ 0 (mod 50). -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional: the point is the last of its group along the reduction axis. -/
abbrev cond4_1 (i : grid4.Coords) : Prop := k4_cond2 i = 1#1
/-- It holds exactly at the points ≡ 49 (mod 50). -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Output 2 is idle exactly where the second conditional is not taken. -/
theorem idle4_2_of_not (i : grid4.Coords) (h1 : ¬cond4_1 i) : cfg4.idle 2 i = true := by
  have e : (k4_cond2 i == 1#1) = false := beq_eq_false_iff_ne.mpr h1
  show (!(k4_cond2 i == 1#1)) = true
  rw [e]; rfl
theorem live4_2_of (i : grid4.Coords) (h1 : cond4_1 i) : cfg4.idle 2 i = false := by
  have e : (k4_cond2 i == 1#1) = true := beq_iff_eq.mpr h1
  show (!(k4_cond2 i == 1#1)) = false
  rw [e]; rfl
/-- Output 2's block is not written back where the second conditional is not taken: it is written back exactly at
    the points ≡ 49 (mod 50), which are the points of that conditional. -/
theorem noFlush4_2_of_not (t : Fin cfg4.N) (h1 : ¬cond4_1 (grid4.coords t)) : (cfg4.win 2).flush t = false :=
  Bool.eq_false_iff.mpr fun hf => h1 ((hcond4_1 t).mpr ((flush4_2 t).mp hf))
/-- At the first point of a group output 2 is idle: nothing is stored into it. -/
theorem idleAt4_2_A : ∀ t : Fin cfg4.N, cond4_0 (grid4.coords t) → ¬cond4_1 (grid4.coords t) → cfg4.idle 2 (grid4.coords t) = true :=
  fun t _ h1 => idle4_2_of_not _ h1
/-- At the first point of a group output 2's block is not written back. -/
theorem noFlush4_2_A : ∀ t : Fin cfg4.N, cond4_0 (grid4.coords t) → ¬cond4_1 (grid4.coords t) → (cfg4.win 2).flush t = false :=
  fun t _ h1 => noFlush4_2_of_not t h1
/-- At a middle point of a group output 2 is idle: nothing is stored into it. -/
theorem idleAt4_2_B : ∀ t : Fin cfg4.N, ¬cond4_0 (grid4.coords t) → ¬cond4_1 (grid4.coords t) → cfg4.idle 2 (grid4.coords t) = true :=
  fun t _ h1 => idle4_2_of_not _ h1
/-- At a middle point of a group output 2's block is not written back. -/
theorem noFlush4_2_B : ∀ t : Fin cfg4.N, ¬cond4_0 (grid4.coords t) → ¬cond4_1 (grid4.coords t) → (cfg4.win 2).flush t = false :=
  fun t _ h1 => noFlush4_2_of_not t h1
/-- At the last point of a group output 2 is live: the accumulator is stored into it. -/
theorem liveAt4_2_C : ∀ t : Fin cfg4.N, ¬cond4_0 (grid4.coords t) → cond4_1 (grid4.coords t) → cfg4.idle 2 (grid4.coords t) = false :=
  fun t _ h1 => live4_2_of _ h1

/-! ## The memrefs the body is run on -/

/-- One staging buffer of output window 2, through which its contents are stated (the choice does not matter). -/
abbrev VO4_2 : View sig .tc .vmem S4096x16 .f32 := (Memref.whole cc4_stg2_0 : Memref sig .tc .vmem S4096x16 .f32).view
/-- Each window's current staging memref at point `t`, and its wholeness. -/
abbrev ms4_0 (t : Fin cfg4.N) : Memref sig .tc .vmem S1x4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x16 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x16 .f32 := win4_2.stage (cfg4.slots t 2)
abbrev hs4_2 (t : Fin cfg4.N) : (ms4_2 t).IsWhole := hstage4_2 ((cfg4.slots t 2).cast nbuf4_2)
/-- The scratch operand: the accumulator, a whole scoped buffer passed beside the windows. -/
abbrev scM4_0 : Memref sig .tc .vmem S4096x16 .f32 := Memref.whole cc4_scratch0
/-- The accumulator as a view: what it holds between points is stated through it. -/
abbrev VS4_0 : View sig .tc .vmem S4096x16 .f32 := scM4_0.view

/-- The region's invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

end Cert.KernelIdeal.Hand

end
-- ==== Proof.KI.R4.RunA.lean ====
import proofs.«167680_j81389630259984_2_alg».proof.Proof.KI.R4.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The first point of a group (the accumulator is reset, then added to; nothing is stored into the output):
    on whole memrefs — the inputs' at their contents, the output's at contents handed back untouched, the accumulator
    at anything — the body runs to the continuation holding the inputs and the output as they were and the
    accumulator with its pieces written. The pieces are the witness the run finds. -/
noncomputable def kernelRun4_A (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) :
    Σ' (L2 : List (View.Piece (Elt F) S4096x16 .f32)), { LS0 : List (View.Piece (Elt F) S4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__gather_kernel i arg2 harg2 arg3 harg3 arg4 harg4 arg5 harg5) K } := by
  refine ⟨[], ?_, fun xi2 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R4.RunB.lean ====
import proofs.«167680_j81389630259984_2_alg».proof.Proof.KI.R4.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- A middle point of a group (the accumulator is added to; nothing is stored into the output): on whole memrefs —
    the inputs' at their contents, the output's at contents handed back untouched, the accumulator at what the point
    before left — the body runs to the continuation holding the inputs and the output as they were and the
    accumulator with its pieces written. -/
noncomputable def kernelRun4_B (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) :
    Σ' (L2 : List (View.Piece (Elt F) S4096x16 .f32)), { LS0 : List (View.Piece (Elt F) S4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__gather_kernel i arg2 harg2 arg3 harg3 arg4 harg4 arg5 harg5) K } := by
  refine ⟨[], ?_, fun xi2 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R4.RunC.lean ====
import proofs.«167680_j81389630259984_2_alg».proof.Proof.KI.R4.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The last point of a group (the accumulator is added to, then stored into the output): on whole memrefs — the
    inputs' at their contents, the output's at anything, the accumulator at what the point before left — the body runs
    to the continuation holding the inputs as they were and the output and the accumulator with their pieces written. -/
noncomputable def kernelRun4_C (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) :
    Σ' (L2 : List (View.Piece (Elt F) S4096x16 .f32)), { LS0 : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__gather_kernel i arg2 harg2 arg3 harg3 arg4 harg4 arg5 harg5) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R4.lean ====
import proofs.«167680_j81389630259984_2_alg».proof.Proof.KI.R4.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## What each case leaves in the output's staging buffer and in the accumulator -/

/-- At the first point of a group nothing is stored into output 2 (the window is idle there and not written back): no pieces — a
    placeholder nothing consults. -/
def out4_A_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) : Vec F S4096x16 .f32 :=
  VO4_2.read (Elt F) (VO4_2.writes (Elt F) VO4_2.junk (kernelRun4_A c i arg2 harg2 arg3 harg3 arg4 harg4 arg5 harg5 hc0 hc1 x0 x1).1)

/-- At the first point of a group the pieces stored into the accumulator tile it, so they cover it. -/
theorem scover4_A_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) (y : S4096x16.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S4096x16.size (by sl_kernel_rfl) y

/-- What the first point of a group leaves in the accumulator: its pieces read back. -/
def sout4_A_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) : Vec F S4096x16 .f32 :=
  VS4_0.read (Elt F) (VS4_0.writes (Elt F) VS4_0.junk (kernelRun4_A c i arg2 harg2 arg3 harg3 arg4 harg4 arg5 harg5 hc0 hc1 x0 x1).2.1)

/-- At a middle point of a group nothing is stored into output 2 (the window is idle there and not written back): no pieces — a
    placeholder nothing consults. -/
def out4_B_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) : Vec F S4096x16 .f32 :=
  VO4_2.read (Elt F) (VO4_2.writes (Elt F) VO4_2.junk (kernelRun4_B c i arg2 harg2 arg3 harg3 arg4 harg4 arg5 harg5 hc0 hc1 x0 x1 xs0).1)

/-- At a middle point of a group the pieces stored into the accumulator tile it, so they cover it. -/
theorem scover4_B_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) (y : S4096x16.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S4096x16.size (by sl_kernel_rfl) y

/-- What a middle point of a group leaves in the accumulator: its pieces read back. -/
def sout4_B_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) : Vec F S4096x16 .f32 :=
  VS4_0.read (Elt F) (VS4_0.writes (Elt F) VS4_0.junk (kernelRun4_B c i arg2 harg2 arg3 harg3 arg4 harg4 arg5 harg5 hc0 hc1 x0 x1 xs0).2.1)

/-- At the last point of a group the pieces stored into output 2 tile its block, so they cover it. -/
theorem cover4_C_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) (y : S4096x16.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S4096x16.size (by sl_kernel_rfl) y

/-- What the last point of a group leaves in output 2's staging buffer: its pieces read back. -/
def out4_C_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) : Vec F S4096x16 .f32 :=
  VO4_2.read (Elt F) (VO4_2.writes (Elt F) VO4_2.junk (kernelRun4_C c i arg2 harg2 arg3 harg3 arg4 harg4 arg5 harg5 hc0 hc1 x0 x1 xs0).1)

/-- At the last point of a group the pieces stored into the accumulator tile it, so they cover it. -/
theorem scover4_C_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) (y : S4096x16.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S4096x16.size (by sl_kernel_rfl) y

/-- What the last point of a group leaves in the accumulator: its pieces read back. -/
def sout4_C_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) : Vec F S4096x16 .f32 :=
  VS4_0.read (Elt F) (VS4_0.writes (Elt F) VS4_0.junk (kernelRun4_C c i arg2 harg2 arg3 harg3 arg4 harg4 arg5 harg5 hc0 hc1 x0 x1 xs0).2.1)

/-! ## What the output's staging buffer and the accumulator hold after each point -/

/-- The accumulation: what output 2's staging buffer and the accumulator hold after the body at position `n` (a pair:
    the output, then the accumulator) — the case the closed forms select at `n`, run at the point's memrefs and input
    blocks, the accumulator found at what position `n - 1` left. -/
def outsAt4 (c : Dev nD) : (n : ℕ) → n < cfg4.N → Vec F S4096x16 .f32 × Vec F S4096x16 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 50 = 0 then
      if h1 : (n + 1) % 50 = 49 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 50 = 49 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at the first point of a group. -/
theorem outsAt4_A (c : Dev nD) (t : Fin cfg4.N) (h0 : t.val % 50 = 0) (h1 : ¬t.val % 50 = 49) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point of a group: over what the point before left. -/
theorem outsAt4_B (c : Dev nD) (t : Fin cfg4.N) (h0 : ¬t.val % 50 = 0) (h1 : ¬t.val % 50 = 49) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point of a group: over what the point before left. -/
theorem outsAt4_C (c : Dev nD) (t : Fin cfg4.N) (h0 : ¬t.val % 50 = 0) (h1 : t.val % 50 = 49) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left in it, the other scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut spec4 c [cc4_scratch0]) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the very first point) and
    takes it back at this point's contents; the other scoped buffers and the generator register pass through; the
    core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  by_cases h0 : t.val % 50 = 0
  · by_cases h1 : t.val % 50 = 49
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 50 = 49
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 20800 := N_4; omega)

end Cert.KernelIdeal.Hand

end
-- ==== Proof.KI.R5.Runs.lean ====
import proofs.«167680_j81389630259984_2_alg».proof.Proof.Gen.KernelIdeal.Launch
import proofs.«167680_j81389630259984_2_alg».proof.Proof.Gen.KernelIdeal.Skeleton
import proofs.«167680_j81389630259984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: the scatter kernel over the grid (50, 416), reduction along axis 1, 16 columns -/

/-! ## The windows' blocks -/

/-- Window `w`'s block at point `t`, read off its array at the region's entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's first branch: the coordinate along the reduction axis is 0. -/
abbrev cond5_0 (i : grid5.Coords) : Prop := (Scalar.cmpi .ne (Scalar.extui (Scalar.cmpi .eq (BitVec.ofNat 32 (i 1).val) 0#32)) 0#32) = 1#1
/-- It holds exactly at the points ≡ 0 (mod 416). -/
theorem hcond5_0 : ∀ t : Fin cfg5.N, cond5_0 (grid5.coords t) ↔ t.val % 416 = 0 :=
  (by decide +kernel : ∀ t : Fin grid5.N, cond5_0 (grid5.coords t) ↔ t.val % 416 = 0)

/-- The condition of the body's second branch: the coordinate along the reduction axis is 415. -/
abbrev cond5_1 (i : grid5.Coords) : Prop := k5_cond2 i = 1#1
/-- It holds exactly at the points ≡ 415 (mod 416). -/
theorem hcond5_1 : ∀ t : Fin cfg5.N, cond5_1 (grid5.coords t) ↔ t.val % 416 = 415 :=
  (by decide +kernel : ∀ t : Fin grid5.N, cond5_1 (grid5.coords t) ↔ t.val % 416 = 415)

/-! ## Where the windows are idle -/

/-- Window 0 is never idle (an input). -/
theorem liveAt5_0 : ∀ t : Fin cfg5.N, cfg5.idle 0 (grid5.coords t) = false := fun _ => rfl
/-- Window 1 is never idle (an input). -/
theorem liveAt5_1 : ∀ t : Fin cfg5.N, cfg5.idle 1 (grid5.coords t) = false := fun _ => rfl
/-- Window 2 is never idle (an input). -/
theorem liveAt5_2 : ∀ t : Fin cfg5.N, cfg5.idle 2 (grid5.coords t) = false := fun _ => rfl
/-- Output 3 is idle exactly where the second conditional is not taken. -/
theorem idle5_3_of_not (i : grid5.Coords) (h1 : ¬cond5_1 i) : cfg5.idle 3 i = true := by
  have e : (k5_cond2 i == 1#1) = false := beq_eq_false_iff_ne.mpr h1
  show (!(k5_cond2 i == 1#1)) = true
  rw [e]; rfl
/-- Output 3 is live where the second conditional is taken. -/
theorem live5_3_of (i : grid5.Coords) (h1 : cond5_1 i) : cfg5.idle 3 i = false := by
  have e : (k5_cond2 i == 1#1) = true := beq_iff_eq.mpr h1
  show (!(k5_cond2 i == 1#1)) = false
  rw [e]; rfl
/-- Output 3's block is not written back where the second conditional is not taken: it is written back exactly at
    the points ≡ 415 (mod 416), which are the points of that conditional. -/
theorem noFlush5_3_of_not (t : Fin cfg5.N) (h1 : ¬cond5_1 (grid5.coords t)) : (cfg5.win 3).flush t = false :=
  Bool.eq_false_iff.mpr fun hf => h1 ((hcond5_1 t).mpr ((flush5_3 t).mp hf))
/-- At the first point of a group output 3 is idle: nothing is stored into it. -/
theorem idleAt5_3_A : ∀ t : Fin cfg5.N, cond5_0 (grid5.coords t) → ¬cond5_1 (grid5.coords t) → cfg5.idle 3 (grid5.coords t) = true :=
  fun t _ h1 => idle5_3_of_not _ h1
/-- At the first point of a group output 3's block is not written back. -/
theorem noFlush5_3_A : ∀ t : Fin cfg5.N, cond5_0 (grid5.coords t) → ¬cond5_1 (grid5.coords t) → (cfg5.win 3).flush t = false :=
  fun t _ h1 => noFlush5_3_of_not t h1
/-- At a middle point of a group output 3 is idle: nothing is stored into it. -/
theorem idleAt5_3_B : ∀ t : Fin cfg5.N, ¬cond5_0 (grid5.coords t) → ¬cond5_1 (grid5.coords t) → cfg5.idle 3 (grid5.coords t) = true :=
  fun t _ h1 => idle5_3_of_not _ h1
/-- At a middle point of a group output 3's block is not written back. -/
theorem noFlush5_3_B : ∀ t : Fin cfg5.N, ¬cond5_0 (grid5.coords t) → ¬cond5_1 (grid5.coords t) → (cfg5.win 3).flush t = false :=
  fun t _ h1 => noFlush5_3_of_not t h1
/-- At the last point of a group output 3 is live: the epilogue is stored into it. -/
theorem liveAt5_3_C : ∀ t : Fin cfg5.N, ¬cond5_0 (grid5.coords t) → cond5_1 (grid5.coords t) → cfg5.idle 3 (grid5.coords t) = false :=
  fun t _ h1 => live5_3_of _ h1

/-! ## The kernel body on any staging memrefs -/

/-- One staging buffer of output window 3, through which its contents are stated. -/
abbrev VO5_3 : View sig .tc .vmem S2000x16 .f32 := (Memref.whole cc5_stg3_0 : Memref sig .tc .vmem S2000x16 .f32).view
/-- Each window's current staging memref at point `t`, and its wholeness. -/
abbrev ms5_0 (t : Fin cfg5.N) : Memref sig .tc .vmem S4096x16 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x4096 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2000x16 .f32 := win5_3.stage (cfg5.slots t 3)
abbrev hs5_3 (t : Fin cfg5.N) : (ms5_3 t).IsWhole := hstage5_3 ((cfg5.slots t 3).cast nbuf5_3)
/-- The scratch operand: a whole scoped buffer of the kernel's own, passed beside the windows. -/
abbrev scM5_0 : Memref sig .tc .vmem S2000x16 .f32 := Memref.whole cc5_scratch0
/-- The accumulator the kernel carries between points, as a view: what it holds is stated through it. -/
abbrev VS5_0 : View sig .tc .vmem S2000x16 .f32 := scM5_0.view

/-- The region invariant with the scratch operand as a memref owned at some contents, the other scoped buffers
    carried unopened beside it. -/
theorem PhiA5_eq (c : Dev nD) :
    (Pipeline.ΦA spec5 c : sProp 𝕄)
      = iprop(iprop(iprop((∃ d, owns (c : Thread nD τ) scM5_0 fullShare d)) ∗ Pipeline.scopedRestBut spec5 c [cc5_scratch0]) ∗ (∃ r, prngReg c r)) := by
  unfold Pipeline.ΦA; rw [scopedRest5_split]; simp only [scM5_0, owns_whole]; try rfl

end Cert.KernelIdeal.Hand

end
-- ==== Proof.KI.R5.RunA.lean ====
import proofs.«167680_j81389630259984_2_alg».proof.Proof.KI.R5.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the first point of a group along the reduction axis: the accumulator is reset, then added to; nothing is stored into the output; with the proof that on whole
    memrefs — the inputs' at their contents — the body runs to the continuation holding the inputs' as they were,
    the accumulator with its pieces written, the output's buffer as stated. -/
noncomputable def kernelRun5_A (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) :
    Σ' (L3 : List (View.Piece (Elt F) S2000x16 .f32)), { LS0 : List (View.Piece (Elt F) S2000x16 .f32) //
      ∀ (xi3 : Vec F S2000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R5.RunB.lean ====
import proofs.«167680_j81389630259984_2_alg».proof.Proof.KI.R5.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    a middle point of a group along the reduction axis: the accumulator is added to; nothing is stored into the output; with the proof that on whole
    memrefs — the inputs' at their contents — the body runs to the continuation holding the inputs' as they were,
    the accumulator with its pieces written, the output's buffer as stated. -/
noncomputable def kernelRun5_B (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) :
    Σ' (L3 : List (View.Piece (Elt F) S2000x16 .f32)), { LS0 : List (View.Piece (Elt F) S2000x16 .f32) //
      ∀ (xi3 : Vec F S2000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R5.RunC.lean ====
import proofs.«167680_j81389630259984_2_alg».proof.Proof.KI.R5.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the last point of a group along the reduction axis: the accumulator is added to, then its epilogue is stored into the output; with the proof that on whole
    memrefs — the inputs' at their contents — the body runs to the continuation holding the inputs' as they were,
    the accumulator with its pieces written, the output's buffer as stated. -/
noncomputable def kernelRun5_C (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) :
    Σ' (L3 : List (View.Piece (Elt F) S2000x16 .f32)), { LS0 : List (View.Piece (Elt F) S2000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R5.lean ====
import proofs.«167680_j81389630259984_2_alg».proof.Proof.KI.R5.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: what each case leaves, the accumulation point by point, the proof data, the body obligation -/

/-- Nothing is stored into output 3 at this point: a placeholder that nothing consults, the window being neither written back here nor read at the next point. -/
def out5_A_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) : Vec F S2000x16 .f32 :=
  VO5_3.read (Elt F) (VO5_3.writes (Elt F) VO5_3.junk (kernelRun5_A c i arg2 harg2 arg3 harg3 arg4 harg4 arg5 harg5 arg6 harg6 hc0 hc1 x0 x1 x2).1)

/-- The pieces stored into the accumulator at this point tile it, so they cover it. -/
theorem scover5_A_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) (y : S2000x16.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S2000x16.size (by sl_kernel_rfl) y

/-- What this point leaves in the accumulator: its pieces read back over an arbitrary buffer. -/
def sout5_A_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) : Vec F S2000x16 .f32 :=
  VS5_0.read (Elt F) (VS5_0.writes (Elt F) VS5_0.junk (kernelRun5_A c i arg2 harg2 arg3 harg3 arg4 harg4 arg5 harg5 arg6 harg6 hc0 hc1 x0 x1 x2).2.1)

/-- Nothing is stored into output 3 at this point: a placeholder that nothing consults, the window being neither written back here nor read at the next point. -/
def out5_B_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) : Vec F S2000x16 .f32 :=
  VO5_3.read (Elt F) (VO5_3.writes (Elt F) VO5_3.junk (kernelRun5_B c i arg2 harg2 arg3 harg3 arg4 harg4 arg5 harg5 arg6 harg6 hc0 hc1 x0 x1 x2 xs0).1)

/-- The pieces stored into the accumulator at this point tile it, so they cover it. -/
theorem scover5_B_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) (y : S2000x16.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S2000x16.size (by sl_kernel_rfl) y

/-- What this point leaves in the accumulator: its pieces read back over an arbitrary buffer. -/
def sout5_B_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) : Vec F S2000x16 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- At the last point of a group the pieces stored into output 3 tile its block, so they cover it. -/
theorem cover5_C_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) (y : S2000x16.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S2000x16.size (by sl_kernel_rfl) y

/-- What the last point of a group leaves in output 3's staging buffer: its pieces read back over an arbitrary buffer. -/
def out5_C_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) : Vec F S2000x16 .f32 :=
  VO5_3.read (Elt F) (VO5_3.writes (Elt F) VO5_3.junk (kernelRun5_C c i arg2 harg2 arg3 harg3 arg4 harg4 arg5 harg5 arg6 harg6 hc0 hc1 x0 x1 x2 xs0).1)

/-- The pieces stored into the accumulator at this point tile it, so they cover it. -/
theorem scover5_C_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) (y : S2000x16.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S2000x16.size (by sl_kernel_rfl) y

/-- What this point leaves in the accumulator: its pieces read back over an arbitrary buffer. -/
def sout5_C_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) : Vec F S2000x16 .f32 :=
  VS5_0.read (Elt F) (VS5_0.writes (Elt F) VS5_0.junk (kernelRun5_C c i arg2 harg2 arg3 harg3 arg4 harg4 arg5 harg5 arg6 harg6 hc0 hc1 x0 x1 x2 xs0).2.1)

/-! ## What the output's buffer and the accumulator hold after each point -/

/-- The accumulation. What output 3's staging buffer and the accumulator hold after the body at position `n`
    (a pair: the output, then the accumulator): the case the closed forms select at `n`, run at the point's
    memrefs and input blocks, the accumulator at what the point before left. -/
def outsAt5 (c : Dev nD) : (n : ℕ) → n < cfg5.N → Vec F S2000x16 .f32 × Vec F S2000x16 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 416 = 0 then
      if h1 : (n + 1) % 416 = 415 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 416 = 415 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- `outsAt5` at the first point of a group. -/
theorem outsAt5_A (c : Dev nD) (t : Fin cfg5.N) (h0 : t.val % 416 = 0) (h1 : ¬t.val % 416 = 415) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at a middle point of a group: over what the point before left. -/
theorem outsAt5_B (c : Dev nD) (t : Fin cfg5.N) (h0 : ¬t.val % 416 = 0) (h1 : ¬t.val % 416 = 415) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last point of a group: over what the point before left. -/
theorem outsAt5_C (c : Dev nD) (t : Fin cfg5.N) (h0 : ¬t.val % 416 = 0) (h1 : t.val % 416 = 415) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the region's own invariant; afterwards the accumulator at what the point before left in
    it, the other scoped buffers carried unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut spec5 c [cc5_scratch0]) ∗ (∃ r, prngReg c r)) := by
  cases n with
  | zero => exact absurd rfl hz
  | succ n => rfl

/-! ## The pipeline's proof data -/

/-- The proof data of the region on core `c`: the arrays at the entry contents; after the body at point `t` each
    input's buffer at its block and the output's at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in;
    the invariant hands the body the accumulator at what the point before left (at anything at the very first
    point) and takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 20800 := lt_of_lt_of_eq t.isLt (show cfg5.N = 20800 from N_5)
  by_cases h0 : t.val % 416 = 0
  · by_cases h1 : t.val % 416 = 415
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 416 = 415
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the region's own back: the accumulator's named contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ (Pipeline.ΦA spec5 c : sProp 𝕄) :=
  Phi_out5 V c _ (by rw [Fin.val_last]; have : cfg5.N = 20800 := N_5; omega)

end Cert.KernelIdeal.Hand

end
-- ==== Proof.KI.Run.lean ====
import proofs.«167680_j81389630259984_2_alg».proof.Proof.KI.R0
import proofs.«167680_j81389630259984_2_alg».proof.Proof.KI.R1
import proofs.«167680_j81389630259984_2_alg».proof.Proof.KI.R2
import proofs.«167680_j81389630259984_2_alg».proof.Proof.KI.R3
import proofs.«167680_j81389630259984_2_alg».proof.Proof.KI.R4
import proofs.«167680_j81389630259984_2_alg».proof.Proof.KI.R5
import proofs.«167680_j81389630259984_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The whole program as a chain of nine segments: three stretches of host operations, then the six kernel regions.
Between two segments every unscoped buffer of the core is held whole at a named valuation: the launch memory, then the
host operations' results, then — after region K — region K's arrays at what its write-backs leave and every other buffer
as the region found it. Each region is entered from the valuation before it and left at the one after it; the generator
register and the core's debt (nothing) ride along. The run's post reads every unscoped buffer off the last valuation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
/-- After the second stretch. -/
abbrev W2 : Dev nD → Valuation τ sig (Elt F) := fun c => StableHlo.after hostOps0_1 (W1 m ρ c)
/-- After the third stretch: region 0's entry. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- At region 5's exit: its arrays at what the pipeline leaves, every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- The same read at the TensorCore's references. -/
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-! ## The arguments end as launched: no host operation writes one, and a region either stages it as an input window
    (whose array the write-backs leave alone) or does not touch it -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := (W4_arr m ρ c 1).trans (((dat0 (V3 m ρ) c).arrAt_in 1 rfl _).trans (A_eq0 (V3 m ρ) c 1))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := (W7_arr m ρ c 1).trans (((dat3 (V6 m ρ) c).arrAt_in 1 rfl _).trans (A_eq3 (V6 m ρ) c 1))
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- The result buffer at the end: region 5's output array as its write-backs leave it. -/
theorem W9_main_v45 (c : Dev nD) : W9 m ρ c (Proc.devRef .tc main_v45) = (dat5 (V8 m ρ) c).arrAt 3 cfg5.N :=
  W9_arr m ρ c 3

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debt, nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0: entered from every unscoped buffer at `W3`, left at `W4`. Its arrays are split out of the unscoped
    buffers and put back at the exit contents; the generator register and the scoped buffers no window stages go into the
    region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec0 c : sProp 𝕄) ⊢ (pdats m ρ 0 c).Φ 0 from hin0 (V3 m ρ) c)
    unfold Pipeline.ΦA
    iintro ⟨Hp, -, Hr⟩
    isplitl [Hr]; · iexact Hr
    iexact Hp
  hout c := by
    refine (show (pdats m ρ 0 c).Φ (Fin.last _) ⊢ (Pipeline.ΦA spec0 c : sProp 𝕄) from hout0 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W4`, left at `W5`. Its arrays are split out of the unscoped
    buffers and put back at the exit contents; the generator register and the scoped buffers no window stages go into the
    region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from hin1 (V4 m ρ) c)
    unfold Pipeline.ΦA
    iintro ⟨Hp, -, Hr⟩
    isplitl [Hr]; · iexact Hr
    iexact Hp
  hout c := by
    refine (show (pdats m ρ 1 c).Φ (Fin.last _) ⊢ (Pipeline.ΦA spec1 c : sProp 𝕄) from hout1 (V4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register and the scoped buffers no window stages go into the
    region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec2 c : sProp 𝕄) ⊢ (pdats m ρ 2 c).Φ 0 from hin2 (V5 m ρ) c)
    unfold Pipeline.ΦA
    iintro ⟨Hp, -, Hr⟩
    isplitl [Hr]; · iexact Hr
    iexact Hp
  hout c := by
    refine (show (pdats m ρ 2 c).Φ (Fin.last _) ⊢ (Pipeline.ΦA spec2 c : sProp 𝕄) from hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W6`, left at `W7`. Its arrays are split out of the unscoped
    buffers and put back at the exit contents; the generator register and the scoped buffers no window stages go into the
    region's invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec3 c : sProp 𝕄) ⊢ (pdats m ρ 3 c).Φ 0 from hin3 (V6 m ρ) c)
    unfold Pipeline.ΦA
    iintro ⟨Hp, -, Hr⟩
    isplitl [Hr]; · iexact Hr
    iexact Hp
  hout c := by
    refine (show (pdats m ρ 3 c).Φ (Fin.last _) ⊢ (Pipeline.ΦA spec3 c : sProp 𝕄) from hout3 (V6 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W7`, left at `W8`. Its arrays are split out of the unscoped
    buffers and put back at the exit contents; the generator register and the scoped buffers no window stages go into the
    region's invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec4 c : sProp 𝕄) ⊢ (pdats m ρ 4 c).Φ 0 from hin4 (V7 m ρ) c)
    unfold Pipeline.ΦA
    iintro ⟨Hp, -, Hr⟩
    isplitl [Hr]; · iexact Hr
    iexact Hp
  hout c := by
    refine (show (pdats m ρ 4 c).Φ (Fin.last _) ⊢ (Pipeline.ΦA spec4 c : sProp 𝕄) from hout4 (V7 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W8`, left at `W9`. Its arrays are split out of the unscoped
    buffers and put back at the exit contents; the generator register and the scoped buffers no window stages go into the
    region's invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec5 c : sProp 𝕄) ⊢ (pdats m ρ 5 c).Φ 0 from hin5 (V8 m ρ) c)
    unfold Pipeline.ΦA
    iintro ⟨Hp, -, Hr⟩
    isplitl [Hr]; · iexact Hr
    iexact Hp
  hout c := by
    refine (show (pdats m ρ 5 c).Φ (Fin.last _) ⊢ (Pipeline.ΦA spec5 c : sProp 𝕄) from hout5 (V8 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- Region 5 is left at the last thread state and the core's debt. -/
theorem reg5_post (c : Dev nD) : (Pipeline.Seg.region (reg5 m ρ)).post c
    ⊢ (iprop(Tₙ m ρ c ∗ ∃ W, owes (c : Thread nD τ) (0 : CellTallies nD τ sig Unit) W) : sProp 𝕄) := .rfl

/-! ## The program as segments, and the launch -/

/-- The nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ), .region (reg1 m ρ), .region (reg2 m ρ), .region (reg3 m ρ), .region (reg4 m ρ), .region (reg5 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and in every
    final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => reg5_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run_all m ρ)

/-- The run with the result named: the result buffer ends at region 5's output array as its write-backs leave it, and every
    argument array ends as launched. -/
theorem run_result : θ_run defs (onTc (τ := τ) (main (F := F))) ⟨m, fun _ => 0, ρ⟩ (fun r => ∀ c : Dev nD,
      r.2.mem ((c.tc : Thread nD τ).loc main_v45) = (dat5 (V8 m ρ) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v45 (by decide))).trans (W9_main_v45 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run_all m ρ)

end Cert.KernelIdeal.Hand

end
-- ==== Proof.K.R0.lean ====
import proofs.«167680_j81389630259984_2_alg».proof.Proof.Gen.Kernel.Launch
import proofs.«167680_j81389630259984_2_alg».proof.Proof.Gen.Kernel.Skeleton
import proofs.«167680_j81389630259984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # REGION 0: `cc0__matmul_kernel`, at the entry contents `V`

Grid of 20 points; at point `t` the body multiplies rows `5000 t … 5000 t + 4999` of the left factor (window 0, a
(5000,128) block) by the whole right factor (window 1, (128,64)) and stores the (5000,64) product as the output
window's block. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, the same block at every point) likewise: where it is not fetched its block
    index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

/-! ## What the body leaves in the output window's buffer -/

/-- Window 2's staging buffer after the body, from the two input windows' blocks: its one store, of the whole
    buffer, of the product payload of the two loads. -/
def out0_2 (x0 : Vec F S5000x128 .f32) (x1 : Vec F S128x64 .f32) : Vec F S5000x64 .f32 :=
  View.canon [⟨r0_2, k0_pay1 (View.ld x0 r0_0) (View.ld x1 r0_1)⟩]

/-- The store is of the whole buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at read contents `x0`, `x1` and the output's at anything, runs
    to the continuation holding the inputs' as they were and the output's at `out0_2` of the inputs'. -/
theorem sound_kernel0 (c : Dev nD) (E : Set ℕ) (i : grid0.Coords) (arg0 : Memref sig .tc .vmem S5000x128 .f32) (harg0 : arg0.IsWhole)
    (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The region's entry resources are the invariant at the first point, -/
theorem hin0 (c : Dev nD) : (Pipeline.ΦA spec0 c : sProp 𝕄) ⊢ (dat0 V c).Φ 0 := by
  show (Pipeline.ΦA spec0 c : sProp 𝕄) ⊢ Pipeline.ΦA spec0 c
  exact .rfl

/-- and the invariant after the last point is the region's exit resources. -/
theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact .rfl

end Cert.Kernel.Hand

end
-- ==== Proof.K.R1.Runs.lean ====
import proofs.«167680_j81389630259984_2_alg».proof.Proof.Gen.Kernel.Launch
import proofs.«167680_j81389630259984_2_alg».proof.Proof.Gen.Kernel.Skeleton
import proofs.«167680_j81389630259984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional, from the grid coordinates: the point is the first of its group
    along the reduction axis. -/
abbrev cond1_0 (i : grid1.Coords) : Prop := (Scalar.cmpi .ne (Scalar.extui (Scalar.cmpi .eq (BitVec.ofNat 32 (i 1).val) 0#32)) 0#32) = 1#1
/-- It holds exactly at the points ≡ 0 (mod 50). -/
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the body's second conditional: the point is the last of its group along the reduction axis. -/
abbrev cond1_1 (i : grid1.Coords) : Prop := k1_cond2 i = 1#1
/-- It holds exactly at the points ≡ 49 (mod 50). -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Output 2 is idle exactly where the second conditional is not taken. -/
theorem idle1_2_of_not (i : grid1.Coords) (h1 : ¬cond1_1 i) : cfg1.idle 2 i = true := by
  have e : (k1_cond2 i == 1#1) = false := beq_eq_false_iff_ne.mpr h1
  show (!(k1_cond2 i == 1#1)) = true
  rw [e]; rfl
theorem live1_2_of (i : grid1.Coords) (h1 : cond1_1 i) : cfg1.idle 2 i = false := by
  have e : (k1_cond2 i == 1#1) = true := beq_iff_eq.mpr h1
  show (!(k1_cond2 i == 1#1)) = false
  rw [e]; rfl
/-- Output 2's block is not written back where the second conditional is not taken: it is written back exactly at
    the points ≡ 49 (mod 50), which are the points of that conditional. -/
theorem noFlush1_2_of_not (t : Fin cfg1.N) (h1 : ¬cond1_1 (grid1.coords t)) : (cfg1.win 2).flush t = false :=
  Bool.eq_false_iff.mpr fun hf => h1 ((hcond1_1 t).mpr ((flush1_2 t).mp hf))
/-- At the first point of a group output 2 is idle: nothing is stored into it. -/
theorem idleAt1_2_A : ∀ t : Fin cfg1.N, cond1_0 (grid1.coords t) → ¬cond1_1 (grid1.coords t) → cfg1.idle 2 (grid1.coords t) = true :=
  fun t _ h1 => idle1_2_of_not _ h1
/-- At the first point of a group output 2's block is not written back. -/
theorem noFlush1_2_A : ∀ t : Fin cfg1.N, cond1_0 (grid1.coords t) → ¬cond1_1 (grid1.coords t) → (cfg1.win 2).flush t = false :=
  fun t _ h1 => noFlush1_2_of_not t h1
/-- At a middle point of a group output 2 is idle: nothing is stored into it. -/
theorem idleAt1_2_B : ∀ t : Fin cfg1.N, ¬cond1_0 (grid1.coords t) → ¬cond1_1 (grid1.coords t) → cfg1.idle 2 (grid1.coords t) = true :=
  fun t _ h1 => idle1_2_of_not _ h1
/-- At a middle point of a group output 2's block is not written back. -/
theorem noFlush1_2_B : ∀ t : Fin cfg1.N, ¬cond1_0 (grid1.coords t) → ¬cond1_1 (grid1.coords t) → (cfg1.win 2).flush t = false :=
  fun t _ h1 => noFlush1_2_of_not t h1
/-- At the last point of a group output 2 is live: the accumulator is stored into it. -/
theorem liveAt1_2_C : ∀ t : Fin cfg1.N, ¬cond1_0 (grid1.coords t) → cond1_1 (grid1.coords t) → cfg1.idle 2 (grid1.coords t) = false :=
  fun t _ h1 => live1_2_of _ h1

/-! ## The memrefs the body is run on -/

/-- One staging buffer of output window 2, through which its contents are stated (the choice does not matter). -/
abbrev VO1_2 : View sig .tc .vmem S4096x64 .f32 := (Memref.whole cc1_stg2_0 : Memref sig .tc .vmem S4096x64 .f32).view
/-- Each window's current staging memref at point `t`, and its wholeness. -/
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .f32 := win1_2.stage (cfg1.slots t 2)
abbrev hs1_2 (t : Fin cfg1.N) : (ms1_2 t).IsWhole := hstage1_2 ((cfg1.slots t 2).cast nbuf1_2)
/-- The scratch operand: the accumulator, a whole scoped buffer passed beside the windows. -/
abbrev scM1_0 : Memref sig .tc .vmem S4096x64 .f32 := Memref.whole cc1_scratch0
/-- The accumulator as a view: what it holds between points is stated through it. -/
abbrev VS1_0 : View sig .tc .vmem S4096x64 .f32 := scM1_0.view

/-- The region's invariant with the accumulator as a memref owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

end Cert.Kernel.Hand

end
-- ==== Proof.K.R1.RunA.lean ====
import proofs.«167680_j81389630259984_2_alg».proof.Proof.K.R1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The first point of a group (the accumulator is reset, then added to; nothing is stored into the output):
    on whole memrefs — the inputs' at their contents, the output's at contents handed back untouched, the accumulator
    at anything — the body runs to the continuation holding the inputs and the output as they were and the
    accumulator with its pieces written. The pieces are the witness the run finds. -/
noncomputable def kernelRun1_A (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) :
    Σ' (L2 : List (View.Piece (Elt F) S4096x64 .f32)), { LS0 : List (View.Piece (Elt F) S4096x64 .f32) //
      ∀ (xi2 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gather_kernel i arg2 harg2 arg3 harg3 arg4 harg4 arg5 harg5) K } := by
  refine ⟨[], ?_, fun xi2 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1.RunB.lean ====
import proofs.«167680_j81389630259984_2_alg».proof.Proof.K.R1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- A middle point of a group (the accumulator is added to; nothing is stored into the output): on whole memrefs —
    the inputs' at their contents, the output's at contents handed back untouched, the accumulator at what the point
    before left — the body runs to the continuation holding the inputs and the output as they were and the
    accumulator with its pieces written. -/
noncomputable def kernelRun1_B (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) :
    Σ' (L2 : List (View.Piece (Elt F) S4096x64 .f32)), { LS0 : List (View.Piece (Elt F) S4096x64 .f32) //
      ∀ (xi2 : Vec F S4096x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__gather_kernel i arg2 harg2 arg3 harg3 arg4 harg4 arg5 harg5) K } := by
  refine ⟨[], ?_, fun xi2 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1.RunC.lean ====
import proofs.«167680_j81389630259984_2_alg».proof.Proof.K.R1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The last point of a group (the accumulator is added to, then stored into the output): on whole memrefs — the
    inputs' at their contents, the output's at anything, the accumulator at what the point before left — the body runs
    to the continuation holding the inputs as they were and the output and the accumulator with their pieces written. -/
noncomputable def kernelRun1_C (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__gather_kernel i arg2 harg2 arg3 harg3 arg4 harg4 arg5 harg5) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R1.lean ====
import proofs.«167680_j81389630259984_2_alg».proof.Proof.K.R1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## What each case leaves in the output's staging buffer and in the accumulator -/

/-- At the first point of a group nothing is stored into output 2 (the window is idle there and not written back): no pieces — a
    placeholder nothing consults. -/
def out1_A_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) : Vec F S4096x64 .f32 :=
  VO1_2.read (Elt F) (VO1_2.writes (Elt F) VO1_2.junk (kernelRun1_A c i arg2 harg2 arg3 harg3 arg4 harg4 arg5 harg5 hc0 hc1 x0 x1).1)

/-- At the first point of a group the pieces stored into the accumulator tile it, so they cover it. -/
theorem scover1_A_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) (y : S4096x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S4096x64.size (by sl_kernel_rfl) y

/-- What the first point of a group leaves in the accumulator: its pieces read back. -/
def sout1_A_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) : Vec F S4096x64 .f32 :=
  VS1_0.read (Elt F) (VS1_0.writes (Elt F) VS1_0.junk (kernelRun1_A c i arg2 harg2 arg3 harg3 arg4 harg4 arg5 harg5 hc0 hc1 x0 x1).2.1)

/-- At a middle point of a group nothing is stored into output 2 (the window is idle there and not written back): no pieces — a
    placeholder nothing consults. -/
def out1_B_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) : Vec F S4096x64 .f32 :=
  VO1_2.read (Elt F) (VO1_2.writes (Elt F) VO1_2.junk (kernelRun1_B c i arg2 harg2 arg3 harg3 arg4 harg4 arg5 harg5 hc0 hc1 x0 x1 xs0).1)

/-- At a middle point of a group the pieces stored into the accumulator tile it, so they cover it. -/
theorem scover1_B_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) (y : S4096x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S4096x64.size (by sl_kernel_rfl) y

/-- What a middle point of a group leaves in the accumulator: its pieces read back. -/
def sout1_B_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) : Vec F S4096x64 .f32 :=
  VS1_0.read (Elt F) (VS1_0.writes (Elt F) VS1_0.junk (kernelRun1_B c i arg2 harg2 arg3 harg3 arg4 harg4 arg5 harg5 hc0 hc1 x0 x1 xs0).2.1)

/-- At the last point of a group the pieces stored into output 2 tile its block, so they cover it. -/
theorem cover1_C_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) (y : S4096x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S4096x64.size (by sl_kernel_rfl) y

/-- What the last point of a group leaves in output 2's staging buffer: its pieces read back. -/
def out1_C_2 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) : Vec F S4096x64 .f32 :=
  VO1_2.read (Elt F) (VO1_2.writes (Elt F) VO1_2.junk (kernelRun1_C c i arg2 harg2 arg3 harg3 arg4 harg4 arg5 harg5 hc0 hc1 x0 x1 xs0).1)

/-- At the last point of a group the pieces stored into the accumulator tile it, so they cover it. -/
theorem scover1_C_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) (y : S4096x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S4096x64.size (by sl_kernel_rfl) y

/-- What the last point of a group leaves in the accumulator: its pieces read back. -/
def sout1_C_0 (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) : Vec F S4096x64 .f32 :=
  VS1_0.read (Elt F) (VS1_0.writes (Elt F) VS1_0.junk (kernelRun1_C c i arg2 harg2 arg3 harg3 arg4 harg4 arg5 harg5 hc0 hc1 x0 x1 xs0).2.1)

/-! ## What the output's staging buffer and the accumulator hold after each point -/

/-- The accumulation: what output 2's staging buffer and the accumulator hold after the body at position `n` (a pair:
    the output, then the accumulator) — the case the closed forms select at `n`, run at the point's memrefs and input
    blocks, the accumulator found at what position `n - 1` left. -/
def outsAt1 (c : Dev nD) : (n : ℕ) → n < cfg1.N → Vec F S4096x64 .f32 × Vec F S4096x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 50 = 0 then
      if h1 : (n + 1) % 50 = 49 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 50 = 49 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point of a group. -/
theorem outsAt1_A (c : Dev nD) (t : Fin cfg1.N) (h0 : t.val % 50 = 0) (h1 : ¬t.val % 50 = 49) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle point of a group: over what the point before left. -/
theorem outsAt1_B (c : Dev nD) (t : Fin cfg1.N) (h0 : ¬t.val % 50 = 0) (h1 : ¬t.val % 50 = 49) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a group: over what the point before left. -/
theorem outsAt1_C (c : Dev nD) (t : Fin cfg1.N) (h0 : ¬t.val % 50 = 0) (h1 : t.val % 50 = 49) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left in it, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut spec1 c [cc1_scratch0]) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the very first point) and
    takes it back at this point's contents; the other scoped buffers and the generator register pass through; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 50 = 0
  · by_cases h1 : t.val % 50 = 49
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 50 = 49
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 20800 := N_1; omega)

end Cert.Kernel.Hand

end
-- ==== Proof.K.R2.Runs.lean ====
import proofs.«167680_j81389630259984_2_alg».proof.Proof.Gen.Kernel.Launch
import proofs.«167680_j81389630259984_2_alg».proof.Proof.Gen.Kernel.Skeleton
import proofs.«167680_j81389630259984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: the scatter kernel over the grid (50, 416), reduction along axis 1 -/

/-! ## The windows' blocks -/

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first branch: the coordinate along the reduction axis is 0. -/
abbrev cond2_0 (i : grid2.Coords) : Prop := (Scalar.cmpi .ne (Scalar.extui (Scalar.cmpi .eq (BitVec.ofNat 32 (i 1).val) 0#32)) 0#32) = 1#1
/-- It holds exactly at the points ≡ 0 (mod 416). -/
theorem hcond2_0 : ∀ t : Fin cfg2.N, cond2_0 (grid2.coords t) ↔ t.val % 416 = 0 :=
  (by decide +kernel : ∀ t : Fin grid2.N, cond2_0 (grid2.coords t) ↔ t.val % 416 = 0)

/-- The condition of the body's second branch: the coordinate along the reduction axis is 415. -/
abbrev cond2_1 (i : grid2.Coords) : Prop := k2_cond2 i = 1#1
/-- It holds exactly at the points ≡ 415 (mod 416). -/
theorem hcond2_1 : ∀ t : Fin cfg2.N, cond2_1 (grid2.coords t) ↔ t.val % 416 = 415 :=
  (by decide +kernel : ∀ t : Fin grid2.N, cond2_1 (grid2.coords t) ↔ t.val % 416 = 415)

/-! ## Where the windows are idle -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Output 3 is idle exactly where the second conditional is not taken. -/
theorem idle2_3_of_not (i : grid2.Coords) (h1 : ¬cond2_1 i) : cfg2.idle 3 i = true := by
  have e : (k2_cond2 i == 1#1) = false := beq_eq_false_iff_ne.mpr h1
  show (!(k2_cond2 i == 1#1)) = true
  rw [e]; rfl
/-- Output 3 is live where the second conditional is taken. -/
theorem live2_3_of (i : grid2.Coords) (h1 : cond2_1 i) : cfg2.idle 3 i = false := by
  have e : (k2_cond2 i == 1#1) = true := beq_iff_eq.mpr h1
  show (!(k2_cond2 i == 1#1)) = false
  rw [e]; rfl
/-- Output 3's block is not written back where the second conditional is not taken: it is written back exactly at
    the points ≡ 415 (mod 416), which are the points of that conditional. -/
theorem noFlush2_3_of_not (t : Fin cfg2.N) (h1 : ¬cond2_1 (grid2.coords t)) : (cfg2.win 3).flush t = false :=
  Bool.eq_false_iff.mpr fun hf => h1 ((hcond2_1 t).mpr ((flush2_3 t).mp hf))
/-- At the first point of a group output 3 is idle: nothing is stored into it. -/
theorem idleAt2_3_A : ∀ t : Fin cfg2.N, cond2_0 (grid2.coords t) → ¬cond2_1 (grid2.coords t) → cfg2.idle 3 (grid2.coords t) = true :=
  fun t _ h1 => idle2_3_of_not _ h1
/-- At the first point of a group output 3's block is not written back. -/
theorem noFlush2_3_A : ∀ t : Fin cfg2.N, cond2_0 (grid2.coords t) → ¬cond2_1 (grid2.coords t) → (cfg2.win 3).flush t = false :=
  fun t _ h1 => noFlush2_3_of_not t h1
/-- At a middle point of a group output 3 is idle: nothing is stored into it. -/
theorem idleAt2_3_B : ∀ t : Fin cfg2.N, ¬cond2_0 (grid2.coords t) → ¬cond2_1 (grid2.coords t) → cfg2.idle 3 (grid2.coords t) = true :=
  fun t _ h1 => idle2_3_of_not _ h1
/-- At a middle point of a group output 3's block is not written back. -/
theorem noFlush2_3_B : ∀ t : Fin cfg2.N, ¬cond2_0 (grid2.coords t) → ¬cond2_1 (grid2.coords t) → (cfg2.win 3).flush t = false :=
  fun t _ h1 => noFlush2_3_of_not t h1
/-- At the last point of a group output 3 is live: the epilogue is stored into it. -/
theorem liveAt2_3_C : ∀ t : Fin cfg2.N, ¬cond2_0 (grid2.coords t) → cond2_1 (grid2.coords t) → cfg2.idle 3 (grid2.coords t) = false :=
  fun t _ h1 => live2_3_of _ h1

/-! ## The kernel body on any staging memrefs -/

/-- One staging buffer of output window 3, through which its contents are stated. -/
abbrev VO2_3 : View sig .tc .vmem S2000x64 .f32 := (Memref.whole cc2_stg3_0 : Memref sig .tc .vmem S2000x64 .f32).view
/-- Each window's current staging memref at point `t`, and its wholeness. -/
abbrev ms2_0 (t : Fin cfg2.N) : Memref sig .tc .vmem S4096x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x4096 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x64 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2_0 : Memref sig .tc .vmem S2000x64 .f32 := Memref.whole cc2_scratch0
/-- The accumulator the kernel carries between points, as a view: what it holds is stated through it. -/
abbrev VS2_0 : View sig .tc .vmem S2000x64 .f32 := scM2_0.view

/-- The region invariant with the scratch operand as a memref owned at some contents, the other scoped buffers
    carried unopened beside it. -/
theorem PhiA2_eq (c : Dev nD) :
    (Pipeline.ΦA spec2 c : sProp 𝕄)
      = iprop(iprop(iprop((∃ d, owns (c : Thread nD τ) scM2_0 fullShare d)) ∗ Pipeline.scopedRestBut spec2 c [cc2_scratch0]) ∗ (∃ r, prngReg c r)) := by
  unfold Pipeline.ΦA; rw [scopedRest2_split]; simp only [scM2_0, owns_whole]; try rfl

end Cert.Kernel.Hand

end
-- ==== Proof.K.R2.RunA.lean ====
import proofs.«167680_j81389630259984_2_alg».proof.Proof.K.R2.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the first point of a group along the reduction axis: the accumulator is reset, then added to; nothing is stored into the output; with the proof that on whole
    memrefs — the inputs' at their contents — the body runs to the continuation holding the inputs' as they were,
    the accumulator with its pieces written, the output's buffer as stated. -/
noncomputable def kernelRun2_A (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R2.RunB.lean ====
import proofs.«167680_j81389630259984_2_alg».proof.Proof.K.R2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    a middle point of a group along the reduction axis: the accumulator is added to; nothing is stored into the output; with the proof that on whole
    memrefs — the inputs' at their contents — the body runs to the continuation holding the inputs' as they were,
    the accumulator with its pieces written, the output's buffer as stated. -/
noncomputable def kernelRun2_B (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) :
    Σ' (L3 : List (View.Piece (Elt F) S2000x64 .f32)), { LS0 : List (View.Piece (Elt F) S2000x64 .f32) //
      ∀ (xi3 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R2.RunC.lean ====
import proofs.«167680_j81389630259984_2_alg».proof.Proof.K.R2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the last point of a group along the reduction axis: the accumulator is added to, then its epilogue is stored into the output; with the proof that on whole
    memrefs — the inputs' at their contents — the body runs to the continuation holding the inputs' as they were,
    the accumulator with its pieces written, the output's buffer as stated. -/
noncomputable def kernelRun2_C (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) :
    Σ' (L3 : List (View.Piece (Elt F) S2000x64 .f32)), { LS0 : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R2.lean ====
import proofs.«167680_j81389630259984_2_alg».proof.Proof.K.R2.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 2: what each case leaves, the accumulation point by point, the proof data, the body obligation -/

/-- Nothing is stored into output 3 at this point: a placeholder that nothing consults, the window being neither written back here nor read at the next point. -/
def out2_A_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) : Vec F S2000x64 .f32 :=
  VO2_3.read (Elt F) (VO2_3.writes (Elt F) VO2_3.junk (kernelRun2_A c i arg2 harg2 arg3 harg3 arg4 harg4 arg5 harg5 arg6 harg6 hc0 hc1 x0 x1 x2).1)

/-- The pieces stored into the accumulator at this point tile it, so they cover it. -/
theorem scover2_A_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) (y : S2000x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2000x64.size (by sl_kernel_rfl) y

/-- What this point leaves in the accumulator: its pieces read back over an arbitrary buffer. -/
def sout2_A_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) : Vec F S2000x64 .f32 :=
  VS2_0.read (Elt F) (VS2_0.writes (Elt F) VS2_0.junk (kernelRun2_A c i arg2 harg2 arg3 harg3 arg4 harg4 arg5 harg5 arg6 harg6 hc0 hc1 x0 x1 x2).2.1)

/-- Nothing is stored into output 3 at this point: a placeholder that nothing consults, the window being neither written back here nor read at the next point. -/
def out2_B_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) : Vec F S2000x64 .f32 :=
  VO2_3.read (Elt F) (VO2_3.writes (Elt F) VO2_3.junk (kernelRun2_B c i arg2 harg2 arg3 harg3 arg4 harg4 arg5 harg5 arg6 harg6 hc0 hc1 x0 x1 x2 xs0).1)

/-- The pieces stored into the accumulator at this point tile it, so they cover it. -/
theorem scover2_B_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) (y : S2000x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2000x64.size (by sl_kernel_rfl) y

/-- What this point leaves in the accumulator: its pieces read back over an arbitrary buffer. -/
def sout2_B_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) : Vec F S2000x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- At the last point of a group the pieces stored into output 3 tile its block, so they cover it. -/
theorem cover2_C_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) (y : S2000x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2000x64.size (by sl_kernel_rfl) y

/-- What the last point of a group leaves in output 3's staging buffer: its pieces read back over an arbitrary buffer. -/
def out2_C_3 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) : Vec F S2000x64 .f32 :=
  VO2_3.read (Elt F) (VO2_3.writes (Elt F) VO2_3.junk (kernelRun2_C c i arg2 harg2 arg3 harg3 arg4 harg4 arg5 harg5 arg6 harg6 hc0 hc1 x0 x1 x2 xs0).1)

/-- The pieces stored into the accumulator at this point tile it, so they cover it. -/
theorem scover2_C_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) (y : S2000x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2000x64.size (by sl_kernel_rfl) y

/-- What this point leaves in the accumulator: its pieces read back over an arbitrary buffer. -/
def sout2_C_0 (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) : Vec F S2000x64 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- The accumulation. What output 3's staging buffer and the accumulator hold after the body at position `n`
    (a pair: the output, then the accumulator): the case the closed forms select at `n`, run at the point's
    memrefs and input blocks, the accumulator at what the point before left. -/
def outsAt2 (c : Dev nD) : (n : ℕ) → n < cfg2.N → Vec F S2000x64 .f32 × Vec F S2000x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 416 = 0 then
      if h1 : (n + 1) % 416 = 415 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 416 = 415 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at the first point of a group. -/
theorem outsAt2_A (c : Dev nD) (t : Fin cfg2.N) (h0 : t.val % 416 = 0) (h1 : ¬t.val % 416 = 415) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle point of a group: over what the point before left. -/
theorem outsAt2_B (c : Dev nD) (t : Fin cfg2.N) (h0 : ¬t.val % 416 = 0) (h1 : ¬t.val % 416 = 415) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a group: over what the point before left. -/
theorem outsAt2_C (c : Dev nD) (t : Fin cfg2.N) (h0 : ¬t.val % 416 = 0) (h1 : t.val % 416 = 415) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the region's own invariant; afterwards the accumulator at what the point before left in
    it, the other scoped buffers carried unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut spec2 c [cc2_scratch0]) ∗ (∃ r, prngReg c r)) := by
  cases n with
  | zero => exact absurd rfl hz
  | succ n => rfl

/-! ## The pipeline's proof data -/

/-- The proof data of the region on core `c`: the arrays at the entry contents; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in;
    the invariant hands the body the accumulator at what the point before left (at anything at the very first
    point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20800 := lt_of_lt_of_eq t.isLt (show cfg2.N = 20800 from N_2)
  by_cases h0 : t.val % 416 = 0
  · by_cases h1 : t.val % 416 = 415
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 416 = 415
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the region's own back: the accumulator's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 20800 := N_2; omega)

end Cert.Kernel.Hand

end
-- ==== Proof.K.R3.lean ====
import proofs.«167680_j81389630259984_2_alg».proof.Proof.Gen.Kernel.Launch
import proofs.«167680_j81389630259984_2_alg».proof.Proof.Gen.Kernel.Skeleton
import proofs.«167680_j81389630259984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # REGION 3: `cc3__matmul_kernel`, at the entry contents `V`

Grid of 20 points; at point `t` the body multiplies rows `5000 t … 5000 t + 4999` of the left factor (window 0, a
(5000,64) block) by the whole right factor (window 1, (64,16)) and stores the (5000,16) product as the output
window's block. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right factor, the same block at every point) likewise: where it is not fetched its block
    index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S64x16 := Rect.unit (s := S64x16) ![0, 0] S64x16.size inb_S64x16_S64x16_0_0
abbrev r3_2 : Rect S5000x16 := Rect.unit (s := S5000x16) ![0, 0] S5000x16.size inb_S5000x16_S5000x16_0_0

/-! ## What the body leaves in the output window's buffer -/

/-- Window 2's staging buffer after the body, from the two input windows' blocks: its one store, of the whole
    buffer, of the product payload of the two loads. -/
def out3_2 (x0 : Vec F S5000x64 .f32) (x1 : Vec F S64x16 .f32) : Vec F S5000x16 .f32 :=
  View.canon [⟨r3_2, k3_pay1 (View.ld x0 r3_0) (View.ld x1 r3_1)⟩]

/-- The store is of the whole buffer, so it covers it. -/
theorem cover3_2 (p0 : Vec F S5000x16 .f32) (y : S5000x16.Idx) :
    ∃ pc ∈ ([⟨r3_2, p0⟩] : List (View.Piece (Elt F) S5000x16 .f32)), y ∈ pc.1.set :=
  View.cover_of_tiled [⟨r3_2, p0⟩] S5000x16.size (by rfl) y

/-! ## The body's triple -/

set_option maxHeartbeats 1000000 in
/-- The kernel body on whole staging memrefs, the inputs' at read contents `x0`, `x1` and the output's at anything, runs
    to the continuation holding the inputs' as they were and the output's at `out3_2` of the inputs'. -/
theorem sound_kernel3 (c : Dev nD) (E : Set ℕ) (i : grid3.Coords) (arg0 : Memref sig .tc .vmem S5000x64 .f32) (harg0 : arg0.IsWhole)
    (arg1 : Memref sig .tc .vmem S64x16 .f32) (harg1 : arg1.IsWhole) (arg2 : Memref sig .tc .vmem S5000x16 .f32) (harg2 : arg2.IsWhole)
    (x0 : Vec F S5000x64 .f32) (x1 : Vec F S64x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The region's entry resources are the invariant at the first point, -/
theorem hin3 (c : Dev nD) : (Pipeline.ΦA spec3 c : sProp 𝕄) ⊢ (dat3 V c).Φ 0 := by
  show (Pipeline.ΦA spec3 c : sProp 𝕄) ⊢ Pipeline.ΦA spec3 c
  exact .rfl

/-- and the invariant after the last point is the region's exit resources. -/
theorem hout3 (c : Dev nD) : (dat3 V c).Φ (Fin.last cfg3.N) ⊢ (Pipeline.ΦA spec3 c : sProp 𝕄) := by
  show (Pipeline.ΦA spec3 c : sProp 𝕄) ⊢ Pipeline.ΦA spec3 c
  exact .rfl

end Cert.Kernel.Hand

end
-- ==== Proof.K.R4.Runs.lean ====
import proofs.«167680_j81389630259984_2_alg».proof.Proof.Gen.Kernel.Launch
import proofs.«167680_j81389630259984_2_alg».proof.Proof.Gen.Kernel.Skeleton
import proofs.«167680_j81389630259984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional, from the grid coordinates: the point is the first of its group
    along the reduction axis. -/
abbrev cond4_0 (i : grid4.Coords) : Prop := (Scalar.cmpi .ne (Scalar.extui (Scalar.cmpi .eq (BitVec.ofNat 32 (i 1).val) 0#32)) 0#32) = 1#1
/-- It holds exactly at the points ≡ 0 (mod 50). -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional: the point is the last of its group along the reduction axis. -/
abbrev cond4_1 (i : grid4.Coords) : Prop := k4_cond2 i = 1#1
/-- It holds exactly at the points ≡ 49 (mod 50). -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Output 2 is idle exactly where the second conditional is not taken. -/
theorem idle4_2_of_not (i : grid4.Coords) (h1 : ¬cond4_1 i) : cfg4.idle 2 i = true := by
  have e : (k4_cond2 i == 1#1) = false := beq_eq_false_iff_ne.mpr h1
  show (!(k4_cond2 i == 1#1)) = true
  rw [e]; rfl
theorem live4_2_of (i : grid4.Coords) (h1 : cond4_1 i) : cfg4.idle 2 i = false := by
  have e : (k4_cond2 i == 1#1) = true := beq_iff_eq.mpr h1
  show (!(k4_cond2 i == 1#1)) = false
  rw [e]; rfl
/-- Output 2's block is not written back where the second conditional is not taken: it is written back exactly at
    the points ≡ 49 (mod 50), which are the points of that conditional. -/
theorem noFlush4_2_of_not (t : Fin cfg4.N) (h1 : ¬cond4_1 (grid4.coords t)) : (cfg4.win 2).flush t = false :=
  Bool.eq_false_iff.mpr fun hf => h1 ((hcond4_1 t).mpr ((flush4_2 t).mp hf))
/-- At the first point of a group output 2 is idle: nothing is stored into it. -/
theorem idleAt4_2_A : ∀ t : Fin cfg4.N, cond4_0 (grid4.coords t) → ¬cond4_1 (grid4.coords t) → cfg4.idle 2 (grid4.coords t) = true :=
  fun t _ h1 => idle4_2_of_not _ h1
/-- At the first point of a group output 2's block is not written back. -/
theorem noFlush4_2_A : ∀ t : Fin cfg4.N, cond4_0 (grid4.coords t) → ¬cond4_1 (grid4.coords t) → (cfg4.win 2).flush t = false :=
  fun t _ h1 => noFlush4_2_of_not t h1
/-- At a middle point of a group output 2 is idle: nothing is stored into it. -/
theorem idleAt4_2_B : ∀ t : Fin cfg4.N, ¬cond4_0 (grid4.coords t) → ¬cond4_1 (grid4.coords t) → cfg4.idle 2 (grid4.coords t) = true :=
  fun t _ h1 => idle4_2_of_not _ h1
/-- At a middle point of a group output 2's block is not written back. -/
theorem noFlush4_2_B : ∀ t : Fin cfg4.N, ¬cond4_0 (grid4.coords t) → ¬cond4_1 (grid4.coords t) → (cfg4.win 2).flush t = false :=
  fun t _ h1 => noFlush4_2_of_not t h1
/-- At the last point of a group output 2 is live: the accumulator is stored into it. -/
theorem liveAt4_2_C : ∀ t : Fin cfg4.N, ¬cond4_0 (grid4.coords t) → cond4_1 (grid4.coords t) → cfg4.idle 2 (grid4.coords t) = false :=
  fun t _ h1 => live4_2_of _ h1

/-! ## The memrefs the body is run on -/

/-- One staging buffer of output window 2, through which its contents are stated (the choice does not matter). -/
abbrev VO4_2 : View sig .tc .vmem S4096x16 .f32 := (Memref.whole cc4_stg2_0 : Memref sig .tc .vmem S4096x16 .f32).view
/-- Each window's current staging memref at point `t`, and its wholeness. -/
abbrev ms4_0 (t : Fin cfg4.N) : Memref sig .tc .vmem S1x4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x16 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x16 .f32 := win4_2.stage (cfg4.slots t 2)
abbrev hs4_2 (t : Fin cfg4.N) : (ms4_2 t).IsWhole := hstage4_2 ((cfg4.slots t 2).cast nbuf4_2)
/-- The scratch operand: the accumulator, a whole scoped buffer passed beside the windows. -/
abbrev scM4_0 : Memref sig .tc .vmem S4096x16 .f32 := Memref.whole cc4_scratch0
/-- The accumulator as a view: what it holds between points is stated through it. -/
abbrev VS4_0 : View sig .tc .vmem S4096x16 .f32 := scM4_0.view

/-- The region's invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

end Cert.Kernel.Hand

end
-- ==== Proof.K.R4.RunA.lean ====
import proofs.«167680_j81389630259984_2_alg».proof.Proof.K.R4.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The first point of a group (the accumulator is reset, then added to; nothing is stored into the output):
    on whole memrefs — the inputs' at their contents, the output's at contents handed back untouched, the accumulator
    at anything — the body runs to the continuation holding the inputs and the output as they were and the
    accumulator with its pieces written. The pieces are the witness the run finds. -/
noncomputable def kernelRun4_A (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) :
    Σ' (L2 : List (View.Piece (Elt F) S4096x16 .f32)), { LS0 : List (View.Piece (Elt F) S4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__gather_kernel i arg2 harg2 arg3 harg3 arg4 harg4 arg5 harg5) K } := by
  refine ⟨[], ?_, fun xi2 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R4.RunB.lean ====
import proofs.«167680_j81389630259984_2_alg».proof.Proof.K.R4.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- A middle point of a group (the accumulator is added to; nothing is stored into the output): on whole memrefs —
    the inputs' at their contents, the output's at contents handed back untouched, the accumulator at what the point
    before left — the body runs to the continuation holding the inputs and the output as they were and the
    accumulator with its pieces written. -/
noncomputable def kernelRun4_B (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) :
    Σ' (L2 : List (View.Piece (Elt F) S4096x16 .f32)), { LS0 : List (View.Piece (Elt F) S4096x16 .f32) //
      ∀ (xi2 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__gather_kernel i arg2 harg2 arg3 harg3 arg4 harg4 arg5 harg5) K } := by
  refine ⟨[], ?_, fun xi2 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R4.RunC.lean ====
import proofs.«167680_j81389630259984_2_alg».proof.Proof.K.R4.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- The last point of a group (the accumulator is added to, then stored into the output): on whole memrefs — the
    inputs' at their contents, the output's at anything, the accumulator at what the point before left — the body runs
    to the continuation holding the inputs as they were and the output and the accumulator with their pieces written. -/
noncomputable def kernelRun4_C (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) :
    Σ' (L2 : List (View.Piece (Elt F) S4096x16 .f32)), { LS0 : List (View.Piece (Elt F) S4096x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__gather_kernel i arg2 harg2 arg3 harg3 arg4 harg4 arg5 harg5) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R4.lean ====
import proofs.«167680_j81389630259984_2_alg».proof.Proof.K.R4.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## What each case leaves in the output's staging buffer and in the accumulator -/

/-- At the first point of a group nothing is stored into output 2 (the window is idle there and not written back): no pieces — a
    placeholder nothing consults. -/
def out4_A_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) : Vec F S4096x16 .f32 :=
  VO4_2.read (Elt F) (VO4_2.writes (Elt F) VO4_2.junk (kernelRun4_A c i arg2 harg2 arg3 harg3 arg4 harg4 arg5 harg5 hc0 hc1 x0 x1).1)

/-- At the first point of a group the pieces stored into the accumulator tile it, so they cover it. -/
theorem scover4_A_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) (y : S4096x16.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S4096x16.size (by sl_kernel_rfl) y

/-- What the first point of a group leaves in the accumulator: its pieces read back. -/
def sout4_A_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) : Vec F S4096x16 .f32 :=
  VS4_0.read (Elt F) (VS4_0.writes (Elt F) VS4_0.junk (kernelRun4_A c i arg2 harg2 arg3 harg3 arg4 harg4 arg5 harg5 hc0 hc1 x0 x1).2.1)

/-- At a middle point of a group nothing is stored into output 2 (the window is idle there and not written back): no pieces — a
    placeholder nothing consults. -/
def out4_B_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) : Vec F S4096x16 .f32 :=
  VO4_2.read (Elt F) (VO4_2.writes (Elt F) VO4_2.junk (kernelRun4_B c i arg2 harg2 arg3 harg3 arg4 harg4 arg5 harg5 hc0 hc1 x0 x1 xs0).1)

/-- At a middle point of a group the pieces stored into the accumulator tile it, so they cover it. -/
theorem scover4_B_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) (y : S4096x16.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S4096x16.size (by sl_kernel_rfl) y

/-- What a middle point of a group leaves in the accumulator: its pieces read back. -/
def sout4_B_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) : Vec F S4096x16 .f32 :=
  VS4_0.read (Elt F) (VS4_0.writes (Elt F) VS4_0.junk (kernelRun4_B c i arg2 harg2 arg3 harg3 arg4 harg4 arg5 harg5 hc0 hc1 x0 x1 xs0).2.1)

/-- At the last point of a group the pieces stored into output 2 tile its block, so they cover it. -/
theorem cover4_C_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) (y : S4096x16.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S4096x16.size (by sl_kernel_rfl) y

/-- What the last point of a group leaves in output 2's staging buffer: its pieces read back. -/
def out4_C_2 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) : Vec F S4096x16 .f32 :=
  VO4_2.read (Elt F) (VO4_2.writes (Elt F) VO4_2.junk (kernelRun4_C c i arg2 harg2 arg3 harg3 arg4 harg4 arg5 harg5 hc0 hc1 x0 x1 xs0).1)

/-- At the last point of a group the pieces stored into the accumulator tile it, so they cover it. -/
theorem scover4_C_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) (y : S4096x16.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S4096x16.size (by sl_kernel_rfl) y

/-- What the last point of a group leaves in the accumulator: its pieces read back. -/
def sout4_C_0 (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) : Vec F S4096x16 .f32 :=
  VS4_0.read (Elt F) (VS4_0.writes (Elt F) VS4_0.junk (kernelRun4_C c i arg2 harg2 arg3 harg3 arg4 harg4 arg5 harg5 hc0 hc1 x0 x1 xs0).2.1)

/-! ## What the output's staging buffer and the accumulator hold after each point -/

/-- The accumulation: what output 2's staging buffer and the accumulator hold after the body at position `n` (a pair:
    the output, then the accumulator) — the case the closed forms select at `n`, run at the point's memrefs and input
    blocks, the accumulator found at what position `n - 1` left. -/
def outsAt4 (c : Dev nD) : (n : ℕ) → n < cfg4.N → Vec F S4096x16 .f32 × Vec F S4096x16 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 50 = 0 then
      if h1 : (n + 1) % 50 = 49 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 50 = 49 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at the first point of a group. -/
theorem outsAt4_A (c : Dev nD) (t : Fin cfg4.N) (h0 : t.val % 50 = 0) (h1 : ¬t.val % 50 = 49) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point of a group: over what the point before left. -/
theorem outsAt4_B (c : Dev nD) (t : Fin cfg4.N) (h0 : ¬t.val % 50 = 0) (h1 : ¬t.val % 50 = 49) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point of a group: over what the point before left. -/
theorem outsAt4_C (c : Dev nD) (t : Fin cfg4.N) (h0 : ¬t.val % 50 = 0) (h1 : t.val % 50 = 49) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left in it, the other scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut spec4 c [cc4_scratch0]) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the very first point) and
    takes it back at this point's contents; the other scoped buffers and the generator register pass through; the
    core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  by_cases h0 : t.val % 50 = 0
  · by_cases h1 : t.val % 50 = 49
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 50 = 49
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's back: the accumulator's named contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 20800 := N_4; omega)

end Cert.Kernel.Hand

end
-- ==== Proof.K.R5.Runs.lean ====
import proofs.«167680_j81389630259984_2_alg».proof.Proof.Gen.Kernel.Launch
import proofs.«167680_j81389630259984_2_alg».proof.Proof.Gen.Kernel.Skeleton
import proofs.«167680_j81389630259984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: the scatter kernel over the grid (50, 416), reduction along axis 1, 16 columns -/

/-! ## The windows' blocks -/

/-- Window `w`'s block at point `t`, read off its array at the region's entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's first branch: the coordinate along the reduction axis is 0. -/
abbrev cond5_0 (i : grid5.Coords) : Prop := (Scalar.cmpi .ne (Scalar.extui (Scalar.cmpi .eq (BitVec.ofNat 32 (i 1).val) 0#32)) 0#32) = 1#1
/-- It holds exactly at the points ≡ 0 (mod 416). -/
theorem hcond5_0 : ∀ t : Fin cfg5.N, cond5_0 (grid5.coords t) ↔ t.val % 416 = 0 :=
  (by decide +kernel : ∀ t : Fin grid5.N, cond5_0 (grid5.coords t) ↔ t.val % 416 = 0)

/-- The condition of the body's second branch: the coordinate along the reduction axis is 415. -/
abbrev cond5_1 (i : grid5.Coords) : Prop := k5_cond2 i = 1#1
/-- It holds exactly at the points ≡ 415 (mod 416). -/
theorem hcond5_1 : ∀ t : Fin cfg5.N, cond5_1 (grid5.coords t) ↔ t.val % 416 = 415 :=
  (by decide +kernel : ∀ t : Fin grid5.N, cond5_1 (grid5.coords t) ↔ t.val % 416 = 415)

/-! ## Where the windows are idle -/

/-- Window 0 is never idle (an input). -/
theorem liveAt5_0 : ∀ t : Fin cfg5.N, cfg5.idle 0 (grid5.coords t) = false := fun _ => rfl
/-- Window 1 is never idle (an input). -/
theorem liveAt5_1 : ∀ t : Fin cfg5.N, cfg5.idle 1 (grid5.coords t) = false := fun _ => rfl
/-- Window 2 is never idle (an input). -/
theorem liveAt5_2 : ∀ t : Fin cfg5.N, cfg5.idle 2 (grid5.coords t) = false := fun _ => rfl
/-- Output 3 is idle exactly where the second conditional is not taken. -/
theorem idle5_3_of_not (i : grid5.Coords) (h1 : ¬cond5_1 i) : cfg5.idle 3 i = true := by
  have e : (k5_cond2 i == 1#1) = false := beq_eq_false_iff_ne.mpr h1
  show (!(k5_cond2 i == 1#1)) = true
  rw [e]; rfl
/-- Output 3 is live where the second conditional is taken. -/
theorem live5_3_of (i : grid5.Coords) (h1 : cond5_1 i) : cfg5.idle 3 i = false := by
  have e : (k5_cond2 i == 1#1) = true := beq_iff_eq.mpr h1
  show (!(k5_cond2 i == 1#1)) = false
  rw [e]; rfl
/-- Output 3's block is not written back where the second conditional is not taken: it is written back exactly at
    the points ≡ 415 (mod 416), which are the points of that conditional. -/
theorem noFlush5_3_of_not (t : Fin cfg5.N) (h1 : ¬cond5_1 (grid5.coords t)) : (cfg5.win 3).flush t = false :=
  Bool.eq_false_iff.mpr fun hf => h1 ((hcond5_1 t).mpr ((flush5_3 t).mp hf))
/-- At the first point of a group output 3 is idle: nothing is stored into it. -/
theorem idleAt5_3_A : ∀ t : Fin cfg5.N, cond5_0 (grid5.coords t) → ¬cond5_1 (grid5.coords t) → cfg5.idle 3 (grid5.coords t) = true :=
  fun t _ h1 => idle5_3_of_not _ h1
/-- At the first point of a group output 3's block is not written back. -/
theorem noFlush5_3_A : ∀ t : Fin cfg5.N, cond5_0 (grid5.coords t) → ¬cond5_1 (grid5.coords t) → (cfg5.win 3).flush t = false :=
  fun t _ h1 => noFlush5_3_of_not t h1
/-- At a middle point of a group output 3 is idle: nothing is stored into it. -/
theorem idleAt5_3_B : ∀ t : Fin cfg5.N, ¬cond5_0 (grid5.coords t) → ¬cond5_1 (grid5.coords t) → cfg5.idle 3 (grid5.coords t) = true :=
  fun t _ h1 => idle5_3_of_not _ h1
/-- At a middle point of a group output 3's block is not written back. -/
theorem noFlush5_3_B : ∀ t : Fin cfg5.N, ¬cond5_0 (grid5.coords t) → ¬cond5_1 (grid5.coords t) → (cfg5.win 3).flush t = false :=
  fun t _ h1 => noFlush5_3_of_not t h1
/-- At the last point of a group output 3 is live: the epilogue is stored into it. -/
theorem liveAt5_3_C : ∀ t : Fin cfg5.N, ¬cond5_0 (grid5.coords t) → cond5_1 (grid5.coords t) → cfg5.idle 3 (grid5.coords t) = false :=
  fun t _ h1 => live5_3_of _ h1

/-! ## The kernel body on any staging memrefs -/

/-- One staging buffer of output window 3, through which its contents are stated. -/
abbrev VO5_3 : View sig .tc .vmem S2000x16 .f32 := (Memref.whole cc5_stg3_0 : Memref sig .tc .vmem S2000x16 .f32).view
/-- Each window's current staging memref at point `t`, and its wholeness. -/
abbrev ms5_0 (t : Fin cfg5.N) : Memref sig .tc .vmem S4096x16 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x4096 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2000x16 .f32 := win5_3.stage (cfg5.slots t 3)
abbrev hs5_3 (t : Fin cfg5.N) : (ms5_3 t).IsWhole := hstage5_3 ((cfg5.slots t 3).cast nbuf5_3)
/-- The scratch operand: a whole scoped buffer of the kernel's own, passed beside the windows. -/
abbrev scM5_0 : Memref sig .tc .vmem S2000x16 .f32 := Memref.whole cc5_scratch0
/-- The accumulator the kernel carries between points, as a view: what it holds is stated through it. -/
abbrev VS5_0 : View sig .tc .vmem S2000x16 .f32 := scM5_0.view

/-- The region invariant with the scratch operand as a memref owned at some contents, the other scoped buffers
    carried unopened beside it. -/
theorem PhiA5_eq (c : Dev nD) :
    (Pipeline.ΦA spec5 c : sProp 𝕄)
      = iprop(iprop(iprop((∃ d, owns (c : Thread nD τ) scM5_0 fullShare d)) ∗ Pipeline.scopedRestBut spec5 c [cc5_scratch0]) ∗ (∃ r, prngReg c r)) := by
  unfold Pipeline.ΦA; rw [scopedRest5_split]; simp only [scM5_0, owns_whole]; try rfl

end Cert.Kernel.Hand

end
-- ==== Proof.K.R5.RunA.lean ====
import proofs.«167680_j81389630259984_2_alg».proof.Proof.K.R5.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the first point of a group along the reduction axis: the accumulator is reset, then added to; nothing is stored into the output; with the proof that on whole
    memrefs — the inputs' at their contents — the body runs to the continuation holding the inputs' as they were,
    the accumulator with its pieces written, the output's buffer as stated. -/
noncomputable def kernelRun5_A (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) :
    Σ' (L3 : List (View.Piece (Elt F) S2000x16 .f32)), { LS0 : List (View.Piece (Elt F) S2000x16 .f32) //
      ∀ (xi3 : Vec F S2000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R5.RunB.lean ====
import proofs.«167680_j81389630259984_2_alg».proof.Proof.K.R5.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    a middle point of a group along the reduction axis: the accumulator is added to; nothing is stored into the output; with the proof that on whole
    memrefs — the inputs' at their contents — the body runs to the continuation holding the inputs' as they were,
    the accumulator with its pieces written, the output's buffer as stated. -/
noncomputable def kernelRun5_B (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) :
    Σ' (L3 : List (View.Piece (Elt F) S2000x16 .f32)), { LS0 : List (View.Piece (Elt F) S2000x16 .f32) //
      ∀ (xi3 : Vec F S2000x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R5.RunC.lean ====
import proofs.«167680_j81389630259984_2_alg».proof.Proof.K.R5.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 1000000 in
/-- What the body's stores leave in the output's staging memref and in the accumulator, as pieces (last first), at
    the last point of a group along the reduction axis: the accumulator is added to, then its epilogue is stored into the output; with the proof that on whole
    memrefs — the inputs' at their contents — the body runs to the continuation holding the inputs' as they were,
    the accumulator with its pieces written, the output's buffer as stated. -/
noncomputable def kernelRun5_C (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) :
    Σ' (L3 : List (View.Piece (Elt F) S2000x16 .f32)), { LS0 : List (View.Piece (Elt F) S2000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R5.lean ====
import proofs.«167680_j81389630259984_2_alg».proof.Proof.K.R5.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: what each case leaves, the accumulation point by point, the proof data, the body obligation -/

/-- Nothing is stored into output 3 at this point: a placeholder that nothing consults, the window being neither written back here nor read at the next point. -/
def out5_A_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) : Vec F S2000x16 .f32 :=
  VO5_3.read (Elt F) (VO5_3.writes (Elt F) VO5_3.junk (kernelRun5_A c i arg2 harg2 arg3 harg3 arg4 harg4 arg5 harg5 arg6 harg6 hc0 hc1 x0 x1 x2).1)

/-- The pieces stored into the accumulator at this point tile it, so they cover it. -/
theorem scover5_A_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) (y : S2000x16.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S2000x16.size (by sl_kernel_rfl) y

/-- What this point leaves in the accumulator: its pieces read back over an arbitrary buffer. -/
def sout5_A_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) : Vec F S2000x16 .f32 :=
  VS5_0.read (Elt F) (VS5_0.writes (Elt F) VS5_0.junk (kernelRun5_A c i arg2 harg2 arg3 harg3 arg4 harg4 arg5 harg5 arg6 harg6 hc0 hc1 x0 x1 x2).2.1)

/-- Nothing is stored into output 3 at this point: a placeholder that nothing consults, the window being neither written back here nor read at the next point. -/
def out5_B_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) : Vec F S2000x16 .f32 :=
  VO5_3.read (Elt F) (VO5_3.writes (Elt F) VO5_3.junk (kernelRun5_B c i arg2 harg2 arg3 harg3 arg4 harg4 arg5 harg5 arg6 harg6 hc0 hc1 x0 x1 x2 xs0).1)

/-- The pieces stored into the accumulator at this point tile it, so they cover it. -/
theorem scover5_B_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) (y : S2000x16.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S2000x16.size (by sl_kernel_rfl) y

/-- What this point leaves in the accumulator: its pieces read back over an arbitrary buffer. -/
def sout5_B_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) : Vec F S2000x16 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- At the last point of a group the pieces stored into output 3 tile its block, so they cover it. -/
theorem cover5_C_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) (y : S2000x16.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S2000x16.size (by sl_kernel_rfl) y

/-- What the last point of a group leaves in output 3's staging buffer: its pieces read back over an arbitrary buffer. -/
def out5_C_3 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) : Vec F S2000x16 .f32 :=
  VO5_3.read (Elt F) (VO5_3.writes (Elt F) VO5_3.junk (kernelRun5_C c i arg2 harg2 arg3 harg3 arg4 harg4 arg5 harg5 arg6 harg6 hc0 hc1 x0 x1 x2 xs0).1)

/-- The pieces stored into the accumulator at this point tile it, so they cover it. -/
theorem scover5_C_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) (y : S2000x16.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S2000x16.size (by sl_kernel_rfl) y

/-- What this point leaves in the accumulator: its pieces read back over an arbitrary buffer. -/
def sout5_C_0 (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) : Vec F S2000x16 .f32 :=
  VS5_0.read (Elt F) (VS5_0.writes (Elt F) VS5_0.junk (kernelRun5_C c i arg2 harg2 arg3 harg3 arg4 harg4 arg5 harg5 arg6 harg6 hc0 hc1 x0 x1 x2 xs0).2.1)

/-! ## What the output's buffer and the accumulator hold after each point -/

/-- The accumulation. What output 3's staging buffer and the accumulator hold after the body at position `n`
    (a pair: the output, then the accumulator): the case the closed forms select at `n`, run at the point's
    memrefs and input blocks, the accumulator at what the point before left. -/
def outsAt5 (c : Dev nD) : (n : ℕ) → n < cfg5.N → Vec F S2000x16 .f32 × Vec F S2000x16 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 416 = 0 then
      if h1 : (n + 1) % 416 = 415 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 416 = 415 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

/-- `outsAt5` at the first point of a group. -/
theorem outsAt5_A (c : Dev nD) (t : Fin cfg5.N) (h0 : t.val % 416 = 0) (h1 : ¬t.val % 416 = 415) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

/-- `outsAt5` at a middle point of a group: over what the point before left. -/
theorem outsAt5_B (c : Dev nD) (t : Fin cfg5.N) (h0 : ¬t.val % 416 = 0) (h1 : ¬t.val % 416 = 415) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last point of a group: over what the point before left. -/
theorem outsAt5_C (c : Dev nD) (t : Fin cfg5.N) (h0 : ¬t.val % 416 = 0) (h1 : t.val % 416 = 415) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- Before the first point the region's own invariant; afterwards the accumulator at what the point before left in
    it, the other scoped buffers carried unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut spec5 c [cc5_scratch0]) ∗ (∃ r, prngReg c r)) := by
  cases n with
  | zero => exact absurd rfl hz
  | succ n => rfl

/-! ## The pipeline's proof data -/

/-- The proof data of the region on core `c`: the arrays at the entry contents; after the body at point `t` each
    input's buffer at its block and the output's at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in;
    the invariant hands the body the accumulator at what the point before left (at anything at the very first
    point) and takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 20800 := lt_of_lt_of_eq t.isLt (show cfg5.N = 20800 from N_5)
  by_cases h0 : t.val % 416 = 0
  · by_cases h1 : t.val % 416 = 415
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 416 = 415
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_C_3 c _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the region's own back: the accumulator's named contents are forgotten. -/
theorem Phi_out5 (c : Dev nD) (t : Fin (cfg5.N + 1)) (ht : t.val ≠ 0) : (dat5 V c).Φ t ⊢ (Pipeline.ΦA spec5 c : sProp 𝕄) := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ (Pipeline.ΦA spec5 c : sProp 𝕄) :=
  Phi_out5 V c _ (by rw [Fin.val_last]; have : cfg5.N = 20800 := N_5; omega)

end Cert.Kernel.Hand

end
-- ==== Proof.K.Run.lean ====
import proofs.«167680_j81389630259984_2_alg».proof.Proof.K.R0
import proofs.«167680_j81389630259984_2_alg».proof.Proof.K.R1
import proofs.«167680_j81389630259984_2_alg».proof.Proof.K.R2
import proofs.«167680_j81389630259984_2_alg».proof.Proof.K.R3
import proofs.«167680_j81389630259984_2_alg».proof.Proof.K.R4
import proofs.«167680_j81389630259984_2_alg».proof.Proof.K.R5
import proofs.«167680_j81389630259984_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The whole program as a chain of nine segments: three stretches of host operations, then the six kernel regions.
Between two segments every unscoped buffer of the core is held whole at a named valuation: the launch memory, then the
host operations' results, then — after region K — region K's arrays at what its write-backs leave and every other buffer
as the region found it. Each region is entered from the valuation before it and left at the one after it; the generator
register and the core's debt (nothing) ride along. The run's post reads every unscoped buffer off the last valuation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
/-- After the second stretch. -/
abbrev W2 : Dev nD → Valuation τ sig (Elt F) := fun c => StableHlo.after hostOps0_1 (W1 m ρ c)
/-- After the third stretch: region 0's entry. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- At region 5's exit: its arrays at what the pipeline leaves, every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- The same read at the TensorCore's references. -/
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-! ## The arguments end as launched: no host operation writes one, and a region either stages it as an input window
    (whose array the write-backs leave alone) or does not touch it -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := (W4_arr m ρ c 1).trans (((dat0 (V3 m ρ) c).arrAt_in 1 rfl _).trans (A_eq0 (V3 m ρ) c 1))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := (W7_arr m ρ c 1).trans (((dat3 (V6 m ρ) c).arrAt_in 1 rfl _).trans (A_eq3 (V6 m ρ) c 1))
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- The result buffer at the end: region 5's output array as its write-backs leave it. -/
theorem W9_main_v45 (c : Dev nD) : W9 m ρ c (Proc.devRef .tc main_v45) = (dat5 (V8 m ρ) c).arrAt 3 cfg5.N :=
  W9_arr m ρ c 3

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debt, nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0: entered from every unscoped buffer at `W3`, left at `W4`. Its arrays are split out of the unscoped
    buffers and put back at the exit contents; the generator register and the scoped buffers no window stages go into the
    region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec0 c : sProp 𝕄) ⊢ (pdats m ρ 0 c).Φ 0 from hin0 (V3 m ρ) c)
    unfold Pipeline.ΦA
    iintro ⟨Hp, -, Hr⟩
    isplitl [Hr]; · iexact Hr
    iexact Hp
  hout c := by
    refine (show (pdats m ρ 0 c).Φ (Fin.last _) ⊢ (Pipeline.ΦA spec0 c : sProp 𝕄) from hout0 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W4`, left at `W5`. Its arrays are split out of the unscoped
    buffers and put back at the exit contents; the generator register and the scoped buffers no window stages go into the
    region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from hin1 (V4 m ρ) c)
    unfold Pipeline.ΦA
    iintro ⟨Hp, -, Hr⟩
    isplitl [Hr]; · iexact Hr
    iexact Hp
  hout c := by
    refine (show (pdats m ρ 1 c).Φ (Fin.last _) ⊢ (Pipeline.ΦA spec1 c : sProp 𝕄) from hout1 (V4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers and put back at the exit contents; the generator register and the scoped buffers no window stages go into the
    region's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec2 c : sProp 𝕄) ⊢ (pdats m ρ 2 c).Φ 0 from hin2 (V5 m ρ) c)
    unfold Pipeline.ΦA
    iintro ⟨Hp, -, Hr⟩
    isplitl [Hr]; · iexact Hr
    iexact Hp
  hout c := by
    refine (show (pdats m ρ 2 c).Φ (Fin.last _) ⊢ (Pipeline.ΦA spec2 c : sProp 𝕄) from hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W6`, left at `W7`. Its arrays are split out of the unscoped
    buffers and put back at the exit contents; the generator register and the scoped buffers no window stages go into the
    region's invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec3 c : sProp 𝕄) ⊢ (pdats m ρ 3 c).Φ 0 from hin3 (V6 m ρ) c)
    unfold Pipeline.ΦA
    iintro ⟨Hp, -, Hr⟩
    isplitl [Hr]; · iexact Hr
    iexact Hp
  hout c := by
    refine (show (pdats m ρ 3 c).Φ (Fin.last _) ⊢ (Pipeline.ΦA spec3 c : sProp 𝕄) from hout3 (V6 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W7`, left at `W8`. Its arrays are split out of the unscoped
    buffers and put back at the exit contents; the generator register and the scoped buffers no window stages go into the
    region's invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec4 c : sProp 𝕄) ⊢ (pdats m ρ 4 c).Φ 0 from hin4 (V7 m ρ) c)
    unfold Pipeline.ΦA
    iintro ⟨Hp, -, Hr⟩
    isplitl [Hr]; · iexact Hr
    iexact Hp
  hout c := by
    refine (show (pdats m ρ 4 c).Φ (Fin.last _) ⊢ (Pipeline.ΦA spec4 c : sProp 𝕄) from hout4 (V7 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W8`, left at `W9`. Its arrays are split out of the unscoped
    buffers and put back at the exit contents; the generator register and the scoped buffers no window stages go into the
    region's invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec5 c : sProp 𝕄) ⊢ (pdats m ρ 5 c).Φ 0 from hin5 (V8 m ρ) c)
    unfold Pipeline.ΦA
    iintro ⟨Hp, -, Hr⟩
    isplitl [Hr]; · iexact Hr
    iexact Hp
  hout c := by
    refine (show (pdats m ρ 5 c).Φ (Fin.last _) ⊢ (Pipeline.ΦA spec5 c : sProp 𝕄) from hout5 (V8 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- Region 5 is left at the last thread state and the core's debt. -/
theorem reg5_post (c : Dev nD) : (Pipeline.Seg.region (reg5 m ρ)).post c
    ⊢ (iprop(Tₙ m ρ c ∗ ∃ W, owes (c : Thread nD τ) (0 : CellTallies nD τ sig Unit) W) : sProp 𝕄) := .rfl

/-! ## The program as segments, and the launch -/

/-- The nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ), .region (reg1 m ρ), .region (reg2 m ρ), .region (reg3 m ρ), .region (reg4 m ρ), .region (reg5 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and in every
    final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => reg5_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run_all m ρ)

/-- The run with the result named: the result buffer ends at region 5's output array as its write-backs leave it, and every
    argument array ends as launched. -/
theorem run_result : θ_run defs (onTc (τ := τ) (main (F := F))) ⟨m, fun _ => 0, ρ⟩ (fun r => ∀ c : Dev nD,
      r.2.mem ((c.tc : Thread nD τ).loc main_v45) = (dat5 (V8 m ρ) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v45 (by decide))).trans (W9_main_v45 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run_all m ρ)

end Cert.Kernel.Hand

end
-- ==== Proof.LibAfterAppend.lean ====
/-
  The contents after two lines of host operations run one after the other are the second line's contents over the
  first line's: the fold over a concatenated list is the composition of the folds. General: nothing here depends on a
  program.
-/
import Idealize.ShloMosaic.Lib.StableHlo.Run

namespace Cert.LibAfterAppend

open Idealize.ShloMosaic Idealize.ShloMosaic.StableHlo

variable {τ : Topo} {sig : RefSig} {Val : EltTy → Type}

/-- Running `l₁` then `l₂` from contents `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.Ref.Fold.lean ====
/-
  The reference program's result as a composition of named stages, and its run.

  The buffers after @main's 94 host operations are a fold over the operation list. The list is cut into six parts
  (the edge list with self loops; the inverse square root of the degrees; the edge weights' normalization; the first
  layer; the second layer; the row-wise log-softmax). For each part and ANY contents `V` before it, the buffers the later
  parts read are stated as a named function of `V` at the buffers the part reads, and every buffer the part does not write
  keeps its contents. The last part is itself read in four pieces (the row maxima from minus infinity; their maximum with
  minus infinity; the entries shifted by the row maxima; the shifted entries minus the logarithm of the row sums of their
  exponentials). Chaining the parts gives the result buffer as `RefOut` of the five arguments; no operation writes an
  argument buffer; so the run of the program has the result buffer at `RefOut` of the launch contents and the arguments
  at their launch contents.
-/
import proofs.«167680_j81389630259984_2_alg».proof.Proof.Ref.Ops
import proofs.«167680_j81389630259984_2_alg».proof.Proof.LibAfterAppend
import proofs.«167680_j81389630259984_2_alg».proof.Proof.LibHostReads
import proofs.«167680_j81389630259984_2_alg».proof.Proof.LibKeeps

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibAfterAppend Cert.LibHostReads

variable {F : FTy → Type} [FloatOps F]

/-! ## The stages -/

/-- %3: the source node numbers of the 1600000 given edges followed by 0 … 99999 (one self loop per node). -/
def rowOf (a1 : (⟨S2x1600000, .i32⟩ : BufTy).Contents (Elt F)) : (⟨S1700000, .i32⟩ : BufTy).Contents (Elt F) :=
  concatenate S1700000 0 [⟨S1600000, shapeCast _ (extractStridedSlice S1x1600000 ![0, 0] a1 slices_S2x1600000_S1x1600000_0_0) shapeCasts_S1x1600000_S1600000⟩, ⟨S100000, iotaInDim S100000 32 0⟩] concatenates_S1600000_S100000_S1700000_d0

/-- %6: the target node numbers of the 1600000 given edges followed by 0 … 99999. -/
def colOf (a1 : (⟨S2x1600000, .i32⟩ : BufTy).Contents (Elt F)) : (⟨S1700000, .i32⟩ : BufTy).Contents (Elt F) :=
  concatenate S1700000 0 [⟨S1600000, shapeCast _ (extractStridedSlice S1x1600000 ![1, 0] a1 slices_S2x1600000_S1x1600000_1_0) shapeCasts_S1x1600000_S1600000⟩, ⟨S100000, iotaInDim S100000 32 0⟩] concatenates_S1600000_S100000_S1700000_d0

/-- %8: the given edge weights followed by 100000 ones (the self loops' weights). -/
def wtsOf (a2 : (⟨S1600000, .f32⟩ : BufTy).Contents (Elt F)) : (⟨S1700000, .f32⟩ : BufTy).Contents (Elt F) :=
  concatenate S1700000 0 [⟨S1600000, a2⟩, ⟨S100000, broadcastInDim S100000 ![] bcast_S_S100000 (constant S_ .f32 0x3F800000#32)⟩] concatenates_S1600000_S100000_S1700000_d0

/-- %11: each node's degree, the weights summed at the target numbers `col` into zero. -/
def degOf (col : (⟨S1700000, .i32⟩ : BufTy).Contents (Elt F)) (w : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 col) w

/-- %15: the inverse square root of the degree where the degree is positive, zero elsewhere. -/
def dinvOf (col : (⟨S1700000, .i32⟩ : BufTy).Contents (Elt F)) (w : (⟨S1700000, .f32⟩ : BufTy).Contents (Elt F)) : (⟨S100000, .f32⟩ : BufTy).Contents (Elt F) :=
  select (cmpf .ogt (degOf col w) (broadcastInDim S100000 ![] bcast_S_S100000 (constant S_ .f32 0x00000000#32))) (Host.rsqrt (degOf col w))
    (broadcastInDim S100000 ![] bcast_S_S100000 (id (constant S_ .f32 0x00000000#32)))

/-- %20, %28, %37, %52: a node number below zero counted from the end (100000 added), any other as it is. -/
def wrapIdx (r : (⟨S1700000, .i32⟩ : BufTy).Contents (Elt F)) : (⟨S1700000, .i32⟩ : BufTy).Contents (Elt F) :=
  select (cmpi .slt r (broadcastInDim S1700000 ![] bcast_S_S1700000 (constantI S_ 32 0#32)))
    (addi r (broadcastInDim S1700000 ![] bcast_S_S1700000 (constantI S_ 32 100000#32))) r

/-- %31 over the edge numbers, the weights and the inverse square roots: the weight times the inverse square roots at the
    edge's two ends. -/
def normCore (row col : (⟨S1700000, .i32⟩ : BufTy).Contents (Elt F)) (w : (⟨S1700000, .f32⟩ : BufTy).Contents (Elt F)) (dinv : (⟨S100000, .f32⟩ : BufTy).Contents (Elt F)) : (⟨S1700000, .f32⟩ : BufTy).Contents (Elt F) :=
  mulf (mulf (Host.gather gather_S100000_S1700000x1_S1700000_n_0_n_n_0_1_1 dinv (broadcastInDim S1700000x1 ![0] bcast_S1700000_S1700000x1_0 (wrapIdx row))) w)
    (Host.gather gather_S100000_S1700000x1_S1700000_n_0_n_n_0_1_1 dinv (broadcastInDim S1700000x1 ![0] bcast_S1700000_S1700000x1_0 (wrapIdx col)))

/-- %31: the normalized weight of each of the 1700000 edges, from the edge list and the given weights. -/
def normOf (a1 : (⟨S2x1600000, .i32⟩ : BufTy).Contents (Elt F)) (a2 : (⟨S1600000, .f32⟩ : BufTy).Contents (Elt F)) : (⟨S1700000, .f32⟩ : BufTy).Contents (Elt F) :=
  normCore (rowOf a1) (colOf a1) (wtsOf a2) (dinvOf (colOf a1) (wtsOf a2))

/-- %32: the features times the first layer's matrix. -/
def hid (a0 : (⟨S100000x128, .f32⟩ : BufTy).Contents (Elt F)) (a3 : (⟨S128x64, .f32⟩ : BufTy).Contents (Elt F)) : (⟨S100000x64, .f32⟩ : BufTy).Contents (Elt F) :=
  Host.dotGeneral dot_S100000x128_S128x64_S100000x64_1_0_0_1_n_n none a0 a3

/-- %45: the rows of `h` named by the source numbers, each scaled by its edge's normalized weight, summed at the target
    numbers into zero (64 columns). -/
def scat64 (h : (⟨S100000x64, .f32⟩ : BufTy).Contents (Elt F)) (row col : (⟨S1700000, .i32⟩ : BufTy).Contents (Elt F)) (nrm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 h (broadcastInDim S1700000x1 ![0] bcast_S1700000_S1700000x1_0 (wrapIdx row)))
      (broadcastInDim S1700000x64 ![0, 1] bcast_S1700000x1_S1700000x64_0_1 (broadcastInDim S1700000x1 ![0] bcast_S1700000_S1700000x1_0 nrm)))

/-- %46 over the layer's input, the edge numbers and the normalized weights: the maximum of `scat64` and zero. -/
def aggCore64 (h : (⟨S100000x64, .f32⟩ : BufTy).Contents (Elt F)) (row col : (⟨S1700000, .i32⟩ : BufTy).Contents (Elt F)) (nrm : (⟨S1700000, .f32⟩ : BufTy).Contents (Elt F)) : (⟨S100000x64, .f32⟩ : BufTy).Contents (Elt F) :=
  maximumf (scat64 h row col nrm) (broadcastInDim S100000x64 ![] bcast_S_S100000x64 (constant S_ .f32 0x00000000#32))

/-- %46 as a function of the first layer's input `h` (= %32), the edge list and the given weights. -/
def agg64 (h : (⟨S100000x64, .f32⟩ : BufTy).Contents (Elt F)) (a1 : (⟨S2x1600000, .i32⟩ : BufTy).Contents (Elt F)) (a2 : (⟨S1600000, .f32⟩ : BufTy).Contents (Elt F)) : (⟨S100000x64, .f32⟩ : BufTy).Contents (Elt F) :=
  aggCore64 h (rowOf a1) (colOf a1) (normOf a1 a2)

/-- %47: the first layer's output times the second layer's matrix. -/
def hid2 (g : (⟨S100000x64, .f32⟩ : BufTy).Contents (Elt F)) (a4 : (⟨S64x16, .f32⟩ : BufTy).Contents (Elt F)) : (⟨S100000x16, .f32⟩ : BufTy).Contents (Elt F) :=
  Host.dotGeneral dot_S100000x64_S64x16_S100000x16_1_0_0_1_n_n none g a4

/-- %60 over the layer's input, the edge numbers and the normalized weights (16 columns, no maximum). -/
def aggCore16 (h : (⟨S100000x16, .f32⟩ : BufTy).Contents (Elt F)) (row col : (⟨S1700000, .i32⟩ : BufTy).Contents (Elt F)) (nrm : (⟨S1700000, .f32⟩ : BufTy).Contents (Elt F)) : (⟨S100000x16, .f32⟩ : BufTy).Contents (Elt F) :=
  Host.scatterAdd scatter_S100000x16_S1700000x1_S1700000x16_1_0_0_1 (broadcastInDim S100000x16 ![] bcast_S_S100000x16 (constant S_ .f32 0x00000000#32))
    (broadcastInDim S1700000x1 ![0] bcast_S1700000_S1700000x1_0 col)
    (mulf (Host.gather gather_S100000x16_S1700000x1_S1700000x16_1_0_n_n_0_1_116 h (broadcastInDim S1700000x1 ![0] bcast_S1700000_S1700000x1_0 (wrapIdx row)))
      (broadcastInDim S1700000x16 ![0, 1] bcast_S1700000x1_S1700000x16_0_1 (broadcastInDim S1700000x1 ![0] bcast_S1700000_S1700000x1_0 nrm)))

/-- %60 as a function of the second layer's input `h` (= %47), the edge list and the given weights. -/
def agg16 (h : (⟨S100000x16, .f32⟩ : BufTy).Contents (Elt F)) (a1 : (⟨S2x1600000, .i32⟩ : BufTy).Contents (Elt F)) (a2 : (⟨S1600000, .f32⟩ : BufTy).Contents (Elt F)) : (⟨S100000x16, .f32⟩ : BufTy).Contents (Elt F) :=
  aggCore16 h (rowOf a1) (colOf a1) (normOf a1 a2)

/-- The row maxima of `z` from minus infinity, made at least minus infinity (@log_softmax's %0 … %2). -/
def lsmMax (z : (⟨S100000x16, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x16_S100000_d1 h_S_)

/-- `z` minus its row maximum (@log_softmax's %5). -/
def lsmShift (z : (⟨S100000x16, .f32⟩ : BufTy).Contents (Elt F)) : (⟨S100000x16, .f32⟩ : BufTy).Contents (Elt F) :=
  subf z (broadcastInDim S100000x16 ![0, 1] bcast_S100000x1_S100000x16_0_1 (broadcastInDim S100000x1 ![0] bcast_S100000_S100000x1_0 (lsmMax z)))

/-- %61 as a function of %60: the shifted entries minus the logarithm of the row sum of their exponentials. -/
def lsm (z : (⟨S100000x16, .f32⟩ : BufTy).Contents (Elt F)) : (⟨S100000x16, .f32⟩ : BufTy).Contents (Elt F) :=
  subf (lsmShift z)
    (broadcastInDim S100000x16 ![0, 1] bcast_S100000x1_S100000x16_0_1
      (Host.log (broadcastInDim S100000x1 ![0] bcast_S100000_S100000x1_0
        (Host.reduceAdd (Host.exp (lsmShift z)) (constant S_ .f32 0x00000000#32) reducesTo_S100000x16_S100000_d1 h_S_))))

/-- The reference's result as a function of its five arguments. -/
def RefOut (a0 : (⟨S100000x128, .f32⟩ : BufTy).Contents (Elt F)) (a1 : (⟨S2x1600000, .i32⟩ : BufTy).Contents (Elt F)) (a2 : (⟨S1600000, .f32⟩ : BufTy).Contents (Elt F)) (a3 : (⟨S128x64, .f32⟩ : BufTy).Contents (Elt F)) (a4 : (⟨S64x16, .f32⟩ : BufTy).Contents (Elt F)) : (⟨S100000x16, .f32⟩ : BufTy).Contents (Elt F) :=
  lsm (agg16 (hid2 (agg64 (hid a0 a3) a1 a2) a4) a1 a2)

/-! ## The operation list in six parts -/

/-- %0 … %8: the edge list with the self loops, and the weights with the self loops' ones. -/
def P1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- %9 … %15: the degrees and their inverse square roots. -/
def P2 : List (HloOp τ sig (Elt F)) :=
  [ nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- %16 … %31: the normalized weights. -/
def P3 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- %32 … %46: the first layer. -/
def P4 : List (HloOp τ sig (Elt F)) :=
  [ binary main_arg0 main_arg3 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v45) (TRef.of (T := ⟨S100000x64, .f32⟩) main_call1_v0) (TRef.of (T := ⟨S100000x64, .f32⟩) main_v46) maximumf ]

/-- %47 … %60: the second layer. -/
def P5 : List (HloOp τ sig (Elt F)) :=
  [ binary main_v46 main_arg4 main_v47 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    nullary main_c_9 (constantI S_ 32 0#32),
    unary main_c_9 main_v48 (broadcastInDim S1700000 ![] bcast_S_S1700000 : (⟨S_, .i32⟩ : BufTy).Contents (Elt F) → (⟨S1700000, .i32⟩ : BufTy).Contents (Elt F)),
    binary main_v3 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v31 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x16 ![0, 1] bcast_S1700000x1_S1700000x16_0_1 : (⟨S1700000x1, .f32⟩ : BufTy).Contents (Elt F) → (⟨S1700000x16, .f32⟩ : BufTy).Contents (Elt F)),
    binary main_v54 main_v56 main_v57 (mulf : (⟨S1700000x16, .f32⟩ : BufTy).Contents (Elt F) → (⟨S1700000x16, .f32⟩ : BufTy).Contents (Elt F) → (⟨S1700000x16, .f32⟩ : BufTy).Contents (Elt F)),
    nullary main_cst_11 (constant S_ .f32 0x00000000#32),
    unary main_cst_11 main_v58 (broadcastInDim S100000x16 ![] bcast_S_S100000x16 : (⟨S_, .f32⟩ : BufTy).Contents (Elt F) → (⟨S100000x16, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]

/-- @log_softmax's operations, result %61. -/
def P6 : List (HloOp τ sig (Elt F)) :=
  [ TRef.nullary (TRef.of (T := ⟨S_, .f32⟩) main_call2_cst) (constant S_ .f32 0xFF800000#32),
    TRef.binary (TRef.of (T := ⟨S100000x16, .f32⟩) main_v60) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v60) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v61) subf ]

/-- The list is its six parts in order. -/
theorem ops_parts : (ops : List (HloOp τ sig (Elt F))) = P1 ++ (P2 ++ (P3 ++ (P4 ++ (P5 ++ P6)))) := rfl

/-! ## Each part over any contents before it -/

theorem P1_v3 (V : Valuation τ sig (Elt F)) : after P1 V (Proc.devRef .tc main_v3) = rowOf (V (Proc.devRef .tc main_arg1)) := by
  simp only [P1]; after_results_simp; rfl
theorem P1_v6 (V : Valuation τ sig (Elt F)) : after P1 V (Proc.devRef .tc main_v6) = colOf (V (Proc.devRef .tc main_arg1)) := by
  simp only [P1]; after_results_simp; rfl
theorem P1_v8 (V : Valuation τ sig (Elt F)) : after P1 V (Proc.devRef .tc main_v8) = wtsOf (V (Proc.devRef .tc main_arg2)) := by
  simp only [P1]; after_results_simp; rfl
theorem P1_keeps_main_arg0 (V : Valuation τ sig (Elt F)) : after P1 V (Proc.devRef .tc main_arg0) = V (Proc.devRef .tc main_arg0) := by
  keeps_host P1
theorem P1_keeps_main_arg1 (V : Valuation τ sig (Elt F)) : after P1 V (Proc.devRef .tc main_arg1) = V (Proc.devRef .tc main_arg1) := by
  keeps_host P1
theorem P1_keeps_main_arg2 (V : Valuation τ sig (Elt F)) : after P1 V (Proc.devRef .tc main_arg2) = V (Proc.devRef .tc main_arg2) := by
  keeps_host P1
theorem P1_keeps_main_arg3 (V : Valuation τ sig (Elt F)) : after P1 V (Proc.devRef .tc main_arg3) = V (Proc.devRef .tc main_arg3) := by
  keeps_host P1
theorem P1_keeps_main_arg4 (V : Valuation τ sig (Elt F)) : after P1 V (Proc.devRef .tc main_arg4) = V (Proc.devRef .tc main_arg4) := by
  keeps_host P1

theorem P2_v15 (V : Valuation τ sig (Elt F)) : after P2 V (Proc.devRef .tc main_v15) = dinvOf (V (Proc.devRef .tc main_v6)) (V (Proc.devRef .tc main_v8)) := by
  simp only [P2]; after_results_simp; rfl
theorem P2_keeps_main_v3 (V : Valuation τ sig (Elt F)) : after P2 V (Proc.devRef .tc main_v3) = V (Proc.devRef .tc main_v3) := by
  keeps_host P2
theorem P2_keeps_main_v6 (V : Valuation τ sig (Elt F)) : after P2 V (Proc.devRef .tc main_v6) = V (Proc.devRef .tc main_v6) := by
  keeps_host P2
theorem P2_keeps_main_v8 (V : Valuation τ sig (Elt F)) : after P2 V (Proc.devRef .tc main_v8) = V (Proc.devRef .tc main_v8) := by
  keeps_host P2
theorem P2_keeps_main_arg0 (V : Valuation τ sig (Elt F)) : after P2 V (Proc.devRef .tc main_arg0) = V (Proc.devRef .tc main_arg0) := by
  keeps_host P2
theorem P2_keeps_main_arg3 (V : Valuation τ sig (Elt F)) : after P2 V (Proc.devRef .tc main_arg3) = V (Proc.devRef .tc main_arg3) := by
  keeps_host P2
theorem P2_keeps_main_arg4 (V : Valuation τ sig (Elt F)) : after P2 V (Proc.devRef .tc main_arg4) = V (Proc.devRef .tc main_arg4) := by
  keeps_host P2

theorem P3_v31 (V : Valuation τ sig (Elt F)) : after P3 V (Proc.devRef .tc main_v31)
    = normCore (V (Proc.devRef .tc main_v3)) (V (Proc.devRef .tc main_v6)) (V (Proc.devRef .tc main_v8)) (V (Proc.devRef .tc main_v15)) := by
  simp only [P3]; after_results_simp; rfl
theorem P3_keeps_main_v3 (V : Valuation τ sig (Elt F)) : after P3 V (Proc.devRef .tc main_v3) = V (Proc.devRef .tc main_v3) := by
  keeps_host P3
theorem P3_keeps_main_v6 (V : Valuation τ sig (Elt F)) : after P3 V (Proc.devRef .tc main_v6) = V (Proc.devRef .tc main_v6) := by
  keeps_host P3
theorem P3_keeps_main_arg0 (V : Valuation τ sig (Elt F)) : after P3 V (Proc.devRef .tc main_arg0) = V (Proc.devRef .tc main_arg0) := by
  keeps_host P3
theorem P3_keeps_main_arg3 (V : Valuation τ sig (Elt F)) : after P3 V (Proc.devRef .tc main_arg3) = V (Proc.devRef .tc main_arg3) := by
  keeps_host P3
theorem P3_keeps_main_arg4 (V : Valuation τ sig (Elt F)) : after P3 V (Proc.devRef .tc main_arg4) = V (Proc.devRef .tc main_arg4) := by
  keeps_host P3

theorem P4_v46 (V : Valuation τ sig (Elt F)) : after P4 V (Proc.devRef .tc main_v46)
    = aggCore64 (hid (V (Proc.devRef .tc main_arg0)) (V (Proc.devRef .tc main_arg3))) (V (Proc.devRef .tc main_v3)) (V (Proc.devRef .tc main_v6)) (V (Proc.devRef .tc main_v31)) := by
  simp only [P4]; after_results_simp; rfl
theorem P4_keeps_main_v3 (V : Valuation τ sig (Elt F)) : after P4 V (Proc.devRef .tc main_v3) = V (Proc.devRef .tc main_v3) := by
  keeps_host P4
theorem P4_keeps_main_v6 (V : Valuation τ sig (Elt F)) : after P4 V (Proc.devRef .tc main_v6) = V (Proc.devRef .tc main_v6) := by
  keeps_host P4
theorem P4_keeps_main_v31 (V : Valuation τ sig (Elt F)) : after P4 V (Proc.devRef .tc main_v31) = V (Proc.devRef .tc main_v31) := by
  keeps_host P4
theorem P4_keeps_main_arg4 (V : Valuation τ sig (Elt F)) : after P4 V (Proc.devRef .tc main_arg4) = V (Proc.devRef .tc main_arg4) := by
  keeps_host P4

theorem P5_v60 (V : Valuation τ sig (Elt F)) : after P5 V (Proc.devRef .tc main_v60)
    = aggCore16 (hid2 (V (Proc.devRef .tc main_v46)) (V (Proc.devRef .tc main_arg4))) (V (Proc.devRef .tc main_v3)) (V (Proc.devRef .tc main_v6)) (V (Proc.devRef .tc main_v31)) := by
  simp only [P5]; after_results_simp; rfl

/-! ## The row-wise log-softmax in three parts -/

/-- `z` minus the row-wise broadcast of a column `mx` (@log_softmax's %3 … %5 over %2). -/
def lsmSub (z : (⟨S100000x16, .f32⟩ : BufTy).Contents (Elt F)) (mx : (⟨S100000, .f32⟩ : BufTy).Contents (Elt F)) : (⟨S100000x16, .f32⟩ : BufTy).Contents (Elt F) :=
  subf z (broadcastInDim S100000x16 ![0, 1] bcast_S100000x1_S100000x16_0_1 (broadcastInDim S100000x1 ![0] bcast_S100000_S100000x1_0 mx))

/-- `s` minus the logarithm of the row sums of its exponentials (@log_softmax's %6 … %11 over %5). -/
def lsmTail (s : (⟨S100000x16, .f32⟩ : BufTy).Contents (Elt F)) : (⟨S100000x16, .f32⟩ : BufTy).Contents (Elt F) :=
  subf s
    (broadcastInDim S100000x16 ![0, 1] bcast_S100000x1_S100000x16_0_1
      (Host.log (broadcastInDim S100000x1 ![0] bcast_S100000_S100000x1_0
        (Host.reduceAdd (Host.exp s) (constant S_ .f32 0x00000000#32) reducesTo_S100000x16_S100000_d1 h_S_))))

/-- The log-softmax is the tail over the entries shifted by their row maxima. -/
theorem lsm_eq (z : (⟨S100000x16, .f32⟩ : BufTy).Contents (Elt F)) : lsm z = lsmTail (lsmSub z (lsmMax z)) := rfl

/-- @log_softmax's %0 … %2: the row maxima. -/
def P6a : List (HloOp τ sig (Elt F)) :=
  [ TRef.nullary (TRef.of (T := ⟨S_, .f32⟩) main_call2_cst) (constant S_ .f32 0xFF800000#32),
    TRef.binary (TRef.of (T := ⟨S100000x16, .f32⟩) main_v60) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- @log_softmax's %3 … %5: the entries shifted by their row maxima. -/
def P6b : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v60) (TRef.of (T := ⟨S100000x16, .f32⟩) main_call2_v4) (TRef.of (T := ⟨S100000x16, .f32⟩) main_call2_v5) subf ]

/-- @log_softmax's %6 … %11: the shifted entries minus the logarithm of the row sums of their exponentials. -/
def P6c : List (HloOp τ sig (Elt F)) :=
  [ TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v61) subf ]

/-- The log-softmax's operations are the three parts in order. -/
theorem P6_parts : (P6 : List (HloOp τ sig (Elt F))) = P6a ++ (P6b ++ P6c) := rfl

/-- @log_softmax's %0: the row maxima from minus infinity. -/
def P6a1 : List (HloOp τ sig (Elt F)) :=
  [ TRef.nullary (TRef.of (T := ⟨S_, .f32⟩) main_call2_cst) (constant S_ .f32 0xFF800000#32),
    TRef.binary (TRef.of (T := ⟨S100000x16, .f32⟩) main_v60) (TRef.of (T := ⟨S_, .f32⟩) main_call2_cst) (TRef.of (T := ⟨S100000, .f32⟩) main_call2_v0) (fun x v => Host.reduce FloatOps.maximumf x v reducesTo_S100000x16_S100000_d1 h_S_) ]

/-- @log_softmax's %1, %2: the row maxima made at least minus infinity. -/
def P6a2 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The row maxima's operations are the two parts in order. -/
theorem P6a_parts : (P6a : List (HloOp τ sig (Elt F))) = P6a1 ++ P6a2 := rfl

theorem P6a1_v0 (V : Valuation τ sig (Elt F)) : after P6a1 V (Proc.devRef .tc main_call2_v0)
    = Host.reduce FloatOps.maximumf (V (Proc.devRef .tc main_v60)) (constant S_ .f32 0xFF800000#32) reducesTo_S100000x16_S100000_d1 h_S_ := by
  simp only [P6a1]; after_results_simp
  simp only [cast_cast, cast_eq]
theorem P6a2_v2 (V : Valuation τ sig (Elt F)) : after P6a2 V (Proc.devRef .tc main_call2_v2)
    = maximumf (broadcastInDim S100000 ![] bcast_S_S100000 (constant S_ .f32 0xFF800000#32)) (V (Proc.devRef .tc main_call2_v0)) := by
  simp only [P6a2]; after_results_simp; rfl

theorem P6a_v2 (V : Valuation τ sig (Elt F)) : after P6a V (Proc.devRef .tc main_call2_v2) = lsmMax (V (Proc.devRef .tc main_v60)) := by
  rw [P6a_parts, after_append, P6a2_v2, P6a1_v0]; rfl
theorem P6a_keeps_main_v60 (V : Valuation τ sig (Elt F)) : after P6a V (Proc.devRef .tc main_v60) = V (Proc.devRef .tc main_v60) := by
  keeps_host P6a
theorem P6b_v5 (V : Valuation τ sig (Elt F)) : after P6b V (Proc.devRef .tc main_call2_v5)
    = lsmSub (V (Proc.devRef .tc main_v60)) (V (Proc.devRef .tc main_call2_v2)) := by
  simp only [P6b]; after_results_simp; rfl
theorem P6c_v61 (V : Valuation τ sig (Elt F)) : after P6c V (Proc.devRef .tc main_v61) = lsmTail (V (Proc.devRef .tc main_call2_v5)) := by
  simp only [P6c]; after_results_simp; rfl

/-- The log-softmax's result over any contents before it. -/
theorem P6_v61 (V : Valuation τ sig (Elt F)) : after P6 V (Proc.devRef .tc main_v61) = lsm (V (Proc.devRef .tc main_v60)) := by
  rw [P6_parts, after_append, after_append, P6c_v61, P6b_v5, P6a_v2, P6a_keeps_main_v60, lsm_eq]

/-! ## The six parts chained -/

/-- The result buffer after the six parts in order, from any contents `V`, is `RefOut` of `V` at the five arguments. -/
theorem parts_value (V : Valuation τ sig (Elt F)) :
    after (P1 ++ (P2 ++ (P3 ++ (P4 ++ (P5 ++ P6))))) V (Proc.devRef .tc main_v61)
      = RefOut (V (Proc.devRef .tc main_arg0)) (V (Proc.devRef .tc main_arg1)) (V (Proc.devRef .tc main_arg2)) (V (Proc.devRef .tc main_arg3)) (V (Proc.devRef .tc main_arg4)) := by
  rw [after_append, after_append, after_append, after_append, after_append]
  rw [P6_v61, P5_v60, P4_v46, P4_keeps_main_arg4, P4_keeps_main_v3, P4_keeps_main_v6, P4_keeps_main_v31]
  rw [P3_v31, P3_keeps_main_arg0, P3_keeps_main_arg3, P3_keeps_main_arg4, P3_keeps_main_v3, P3_keeps_main_v6]
  rw [P2_v15, P2_keeps_main_v3, P2_keeps_main_v6, P2_keeps_main_v8, P2_keeps_main_arg0, P2_keeps_main_arg3, P2_keeps_main_arg4]
  rw [P1_v3, P1_v6, P1_v8, P1_keeps_main_arg0, P1_keeps_main_arg3, P1_keeps_main_arg4]
  rfl

/-! ## The whole list, and the run -/

/-- The result buffer after @main's 94 operations, from any contents `V`, is `RefOut` of `V` at the five arguments. -/
theorem ref_value (V : Valuation τ sig (Elt F)) :
    after ops V (Proc.devRef .tc main_v61)
      = RefOut (V (Proc.devRef .tc main_arg0)) (V (Proc.devRef .tc main_arg1)) (V (Proc.devRef .tc main_arg2)) (V (Proc.devRef .tc main_arg3)) (V (Proc.devRef .tc main_arg4)) := by
  rw [ops_parts]; exact parts_value V

/-! No operation of @main writes an argument buffer. -/
theorem ops_keeps_main_arg0 (V : Valuation τ sig (Elt F)) : after ops V (Proc.devRef .tc main_arg0) = V (Proc.devRef .tc main_arg0) := by
  keeps_host ops
theorem ops_keeps_main_arg1 (V : Valuation τ sig (Elt F)) : after ops V (Proc.devRef .tc main_arg1) = V (Proc.devRef .tc main_arg1) := by
  keeps_host ops
theorem ops_keeps_main_arg2 (V : Valuation τ sig (Elt F)) : after ops V (Proc.devRef .tc main_arg2) = V (Proc.devRef .tc main_arg2) := by
  keeps_host ops
theorem ops_keeps_main_arg3 (V : Valuation τ sig (Elt F)) : after ops V (Proc.devRef .tc main_arg3) = V (Proc.devRef .tc main_arg3) := by
  keeps_host ops
theorem ops_keeps_main_arg4 (V : Valuation τ sig (Elt F)) : after ops V (Proc.devRef .tc main_arg4) = V (Proc.devRef .tc main_arg4) := by
  keeps_host ops

set_option maxHeartbeats 37600000 in
/-- `θ_run` of @main on the TensorCores, for any float values, from any memory with zero counters, with this post-condition:
    on every device the result buffer holds `RefOut` of the five arguments' launch contents, and the five argument
    buffers hold their launch contents. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
          = RefOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v61).trans (ref_value (launchContents m c)),
      (h c main_arg0).trans (ops_keeps_main_arg0 (launchContents m c)),
      (h c main_arg1).trans (ops_keeps_main_arg1 (launchContents m c)),
      (h c main_arg2).trans (ops_keeps_main_arg2 (launchContents m c)),
      (h c main_arg3).trans (ops_keeps_main_arg3 (launchContents m c)),
      (h c main_arg4).trans (ops_keeps_main_arg4 (launchContents m c))⟩)
    (run_seq scopedRefs_eq scopedSems_eq defs main (fun _ => ops) main_eq (fun _ => ops_sub) m ρ)

end Cert.ReferenceIdeal.Hand

end
-- ==== Proof.KI.Chain.lean ====
import proofs.«167680_j81389630259984_2_alg».proof.Proof.KI.Run

/-!
What each region finds when it is entered, buffer by buffer: a buffer written by an earlier region holds that region's
output array as its write-backs left it; every other buffer it reads holds what the host operations left, since no
region in between has it among its arrays.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The host operations write no argument. -/
theorem V3_arg0 (c : Dev nD) : V3 m ρ c main_arg0 = m ((c : Thread nD τ).loc main_arg0) :=
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem V3_arg3 (c : Dev nD) : V3 m ρ c main_arg3 = m ((c : Thread nD τ).loc main_arg3) :=
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem V3_arg4 (c : Dev nD) : V3 m ρ c main_arg4 = m ((c : Thread nD τ).loc main_arg4) :=
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

/-! ### Region 1's entry -/
theorem V4_v40 (c : Dev nD) : V4 m ρ c main_v40 = (dat0 (V3 m ρ) c).arrAt 2 cfg0.N := W4_arr m ρ c 2
theorem V4_v37 (c : Dev nD) : V4 m ρ c main_v37 = V3 m ρ c main_v37 := W4_of_ne m ρ c main_v37 (by decide)

/-! ### Region 2's entry -/
theorem V5_v41 (c : Dev nD) : V5 m ρ c main_v41 = (dat1 (V4 m ρ) c).arrAt 2 cfg1.N := W5_arr m ρ c 2
theorem V5_v38 (c : Dev nD) : V5 m ρ c main_v38 = V3 m ρ c main_v38 :=
  (W5_of_ne m ρ c main_v38 (by decide)).trans (W4_of_ne m ρ c main_v38 (by decide))
theorem V5_v39 (c : Dev nD) : V5 m ρ c main_v39 = V3 m ρ c main_v39 :=
  (W5_of_ne m ρ c main_v39 (by decide)).trans (W4_of_ne m ρ c main_v39 (by decide))

/-! ### Region 3's entry -/
theorem V6_v42 (c : Dev nD) : V6 m ρ c main_v42 = (dat2 (V5 m ρ) c).arrAt 3 cfg2.N := W6_arr m ρ c 3
theorem V6_arg4 (c : Dev nD) : V6 m ρ c main_arg4 = m ((c : Thread nD τ).loc main_arg4) :=
  (W6_of_ne m ρ c main_arg4 (by decide)).trans <| (W5_of_ne m ρ c main_arg4 (by decide)).trans <|
  (W4_of_ne m ρ c main_arg4 (by decide)).trans (V3_arg4 m ρ c)

/-! ### Region 4's entry -/
theorem V7_v43 (c : Dev nD) : V7 m ρ c main_v43 = (dat3 (V6 m ρ) c).arrAt 2 cfg3.N := W7_arr m ρ c 2
theorem V7_v37 (c : Dev nD) : V7 m ρ c main_v37 = V3 m ρ c main_v37 :=
  (W7_of_ne m ρ c main_v37 (by decide)).trans <| (W6_of_ne m ρ c main_v37 (by decide)).trans <|
  ((W5_arr m ρ c 0).trans (((dat1 (V4 m ρ) c).arrAt_in 0 rfl _).trans (A_eq1 (V4 m ρ) c 0))).trans (W4_of_ne m ρ c main_v37 (by decide))

/-! ### Region 5's entry -/
theorem V8_v44 (c : Dev nD) : V8 m ρ c main_v44 = (dat4 (V7 m ρ) c).arrAt 2 cfg4.N := W8_arr m ρ c 2
theorem V8_v38 (c : Dev nD) : V8 m ρ c main_v38 = V3 m ρ c main_v38 :=
  (W8_of_ne m ρ c main_v38 (by decide)).trans <| (W7_of_ne m ρ c main_v38 (by decide)).trans <|
  ((W6_arr m ρ c 1).trans (((dat2 (V5 m ρ) c).arrAt_in 1 rfl _).trans (A_eq2 (V5 m ρ) c 1))).trans (V5_v38 m ρ c)
theorem V8_v39 (c : Dev nD) : V8 m ρ c main_v39 = V3 m ρ c main_v39 :=
  (W8_of_ne m ρ c main_v39 (by decide)).trans <| (W7_of_ne m ρ c main_v39 (by decide)).trans <|
  ((W6_arr m ρ c 2).trans (((dat2 (V5 m ρ) c).arrAt_in 2 rfl _).trans (A_eq2 (V5 m ρ) c 2))).trans (V5_v39 m ρ c)

end Cert.KernelIdeal.Hand

end
-- ==== Proof.KI.Val0.lean ====
import proofs.«167680_j81389630259984_2_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # REGION 0, the value: the output array after the region is the matrix product of the two input arrays

All at the extended reals. -/

/-- The product of a [100000,128] array and a [128,64] array, index by index. -/
def matProd0 (a0 : S100000x128.Idx → EReal) (a1 : S128x64.Idx → EReal) : S100000x64.Idx → EReal :=
  fun i => ∑ k : Fin 128, a0 (ix2 (⟨(i 0).val, idx2_lt0 i⟩ : Fin 100000) k) * a1 (ix2 k (⟨(i 1).val, idx2_lt1 i⟩ : Fin 64))

theorem matProd0_apply (a0 : S100000x128.Idx → EReal) (a1 : S128x64.Idx → EReal) (n : Fin 100000) (j : Fin 64) :
    matProd0 a0 a1 (ix2 n j) = ∑ k : Fin 128, a0 (ix2 n k) * a1 (ix2 k j) := rfl

/-- The same at an index known by its coordinates. -/
theorem matProd0_at (a0 : S100000x128.Idx → EReal) (a1 : S128x64.Idx → EReal) (i : S100000x64.Idx) (n : Fin 100000) (j : Fin 64)
    (h0 : (i 0).val = n.val) (h1 : (i 1).val = j.val) : matProd0 a0 a1 i = ∑ k : Fin 128, a0 (ix2 n k) * a1 (ix2 k j) := by
  have e : i = ix2 n j := funext fun a => Fin.ext (by
    match a with
    | ⟨0, _⟩ => exact h0
    | ⟨1, _⟩ => exact h1)
  rw [e]; rfl

/-! ## The body's payload at an index -/

theorem lhs0_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs0_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs0_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The stored block at row `r`, column `j`: the sum over the contraction axis of the products of the left block's
    row `r` and the right block's column `j` (rounding to bf16 is the identity at the extended reals; the accumulator
    is the zero constant). -/
theorem pay0_apply (x0 : FVec Ideal S5000x128 .f32) (x1 : FVec Ideal S128x64 .f32) (r : Fin 5000) (j : Fin 64) :
    k0_pay1 (F := Ideal) x0 x1 (ix2 r j) = ∑ k : Fin 128, x0 (ix2 r k) * x1 (ix2 k j) := by
  unfold k0_pay1
  refine (Ideal.matmul_constant_zero_apply dot_S5000x128_S128x64_S5000x64_1_0_0_1_n_n none _ _ (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs0_0 _ _
    | ⟨1, _⟩ => exact (lhs0_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs0_0 _ _).trans hk
    | ⟨1, _⟩ => exact rhs0_1 _ _)
  rw [el, er]
  rfl

/-! ## From blocks to the array -/

theorem hz0 : (![0, 0] : Fin 2 → Nat) = fun _ => 0 := funext fun a => by fin_cases a <;> rfl

/-- The windows' block indices, decided over the grid: at point `t` the left factor's and the output's blocks are
    the same one along the rows, one of twenty; the right factor's is the only one. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every block of rows is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of the two arrays as the region finds them. -/
theorem flushed0_eq (c : Dev nD) (t : Fin cfg0.N) :
    (dat0 (F := Ideal) V c).flushed 2 t = ((cfg0.win 2).blk t).view.read (Elt Ideal) (matProd0 (V c main_arg0) (V c main_arg3)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x64) hz0]
  obtain ⟨e0, e1, e2, e3, e4, e5⟩ := idx_facts0 t
  funext y
  obtain ⟨r, j, rfl⟩ : ∃ (r : Fin 5000) (j : Fin 64), y = ix2 r j := ⟨y 0, y 1, eq_ix2 y⟩
  have hr : r.val < 5000 := r.isLt
  have hn : win0_2.index t (0 : Fin 2) * 5000 + r.val < 100000 := by omega
  refine (pay0_apply (iblk0 V c 0 t) (iblk0 V c 1 t) r j).trans ?_
  show _ = matProd0 (V c main_arg0) (V c main_arg3) (((cfg0.win 2).blk t).view.emb (ix2 r j))
  refine Eq.trans ?_ (matProd0_at (V c main_arg0) (V c main_arg3) (((cfg0.win 2).blk t).view.emb (ix2 r j))
    ⟨win0_2.index t (0 : Fin 2) * 5000 + r.val, hn⟩ j ?_ ?_).symm
  · refine Finset.sum_congr rfl fun k _ => ?_
    have h0 : ((cfg0.win 0).blk t).view.emb (ix2 r k)
        = ix2 (⟨win0_2.index t (0 : Fin 2) * 5000 + r.val, hn⟩ : Fin 100000) k := by
      funext a; apply Fin.ext
      match a with
      | ⟨0, _⟩ => show win0_0.index t (0 : Fin 2) * 5000 + 1 * r.val = win0_2.index t (0 : Fin 2) * 5000 + r.val; omega
      | ⟨1, _⟩ => show win0_0.index t (1 : Fin 2) * 128 + 1 * k.val = k.val; omega
    have h1 : ((cfg0.win 1).blk t).view.emb (ix2 k j) = ix2 k j := by
      funext a; apply Fin.ext
      match a with
      | ⟨0, _⟩ => show win0_1.index t (0 : Fin 2) * 128 + 1 * k.val = k.val; omega
      | ⟨1, _⟩ => show win0_1.index t (1 : Fin 2) * 64 + 1 * j.val = j.val; omega
    have hA0 : iblk0 V c 0 t (ix2 r k) = V c main_arg0 (ix2 (⟨win0_2.index t (0 : Fin 2) * 5000 + r.val, hn⟩ : Fin 100000) k) :=
      congrArg (V c main_arg0) h0
    have hA1 : iblk0 V c 1 t (ix2 k j) = V c main_arg3 (ix2 k j) := congrArg (V c main_arg3) h1
    first
      | (rw [hA0, hA1]; done)
      | (rw [hA0, hA1]; rfl)
  · show win0_2.index t (0 : Fin 2) * 5000 + 1 * r.val = win0_2.index t (0 : Fin 2) * 5000 + r.val; omega
  · show win0_2.index t (1 : Fin 2) * 64 + 1 * j.val = j.val; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v40).slice (win0_2.rect t)).set ↔ _
  rw [View.set_slice_whole, Rect.mem_set_unit]
  exact Iff.rfl

/-- Every index of the output array is in some point's block: row `n` is in the block of point `n / 5000`. -/
theorem cover0 (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after the region is the product of the two input arrays as the region finds them. -/
theorem final0_eq (c : Dev nD) : (dat0 (F := Ideal) V c).arrAt 2 cfg0.N = matProd0 (V c main_arg0) (V c main_arg3) :=
  (dat0 (F := Ideal) V c).arrAt_eq_of_cover 2 (matProd0 (V c main_arg0) (V c main_arg3)) (fun t _ => flushed0_eq V c t) (cover0)

/-- Index by index: row `n`, column `j` of the output array is the product's entry there, the sum over the contraction
    axis that `matProd0_apply` spells out. -/
theorem final0 (c : Dev nD) (n : Fin 100000) (j : Fin 64) :
    (dat0 (F := Ideal) V c).arrAt 2 cfg0.N (ix2 n j) = matProd0 (V c main_arg0) (V c main_arg3) (ix2 n j) :=
  congrFun (final0_eq V c) (ix2 n j)

end Cert.KernelIdeal.Hand

end
-- ==== Proof.KI.Val3.lean ====
import proofs.«167680_j81389630259984_2_alg».proof.Proof.KI.R3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # REGION 3, the value: the output array after the region is the matrix product of the two input arrays

All at the extended reals. -/

/-- The product of a [100000,64] array and a [64,16] array, index by index. -/
def matProd3 (a0 : S100000x64.Idx → EReal) (a1 : S64x16.Idx → EReal) : S100000x16.Idx → EReal :=
  fun i => ∑ k : Fin 64, a0 (ix2 (⟨(i 0).val, idx2_lt0 i⟩ : Fin 100000) k) * a1 (ix2 k (⟨(i 1).val, idx2_lt1 i⟩ : Fin 16))

theorem matProd3_apply (a0 : S100000x64.Idx → EReal) (a1 : S64x16.Idx → EReal) (n : Fin 100000) (j : Fin 16) :
    matProd3 a0 a1 (ix2 n j) = ∑ k : Fin 64, a0 (ix2 n k) * a1 (ix2 k j) := rfl

/-- The same at an index known by its coordinates. -/
theorem matProd3_at (a0 : S100000x64.Idx → EReal) (a1 : S64x16.Idx → EReal) (i : S100000x16.Idx) (n : Fin 100000) (j : Fin 16)
    (h0 : (i 0).val = n.val) (h1 : (i 1).val = j.val) : matProd3 a0 a1 i = ∑ k : Fin 64, a0 (ix2 n k) * a1 (ix2 k j) := by
  have e : i = ix2 n j := funext fun a => Fin.ext (by
    match a with
    | ⟨0, _⟩ => exact h0
    | ⟨1, _⟩ => exact h1)
  rw [e]; rfl

/-! ## The body's payload at an index -/

theorem lhs3_0 (i : S5000x16.Idx) (q : dot_S5000x64_S64x16_S5000x16_1_0_0_1_n_n.contr.Idx) : (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs3_1 (i : S5000x16.Idx) (q : dot_S5000x64_S64x16_S5000x16_1_0_0_1_n_n.contr.Idx) : (dot_S5000x64_S64x16_S5000x16_1_0_0_1_n_n.lhsIdx i q 1).val = (q ⟨0, by decide⟩).val :=
  dot_S5000x64_S64x16_S5000x16_1_0_0_1_n_n.lhsIdx_val_of_single rfl i q
theorem rhs3_0 (i : S5000x16.Idx) (q : dot_S5000x64_S64x16_S5000x16_1_0_0_1_n_n.contr.Idx) : (dot_S5000x64_S64x16_S5000x16_1_0_0_1_n_n.rhsIdx i q 0).val = (q ⟨0, by decide⟩).val :=
  dot_S5000x64_S64x16_S5000x16_1_0_0_1_n_n.rhsIdx_val_of_single rfl i q
theorem rhs3_1 (i : S5000x16.Idx) (q : dot_S5000x64_S64x16_S5000x16_1_0_0_1_n_n.contr.Idx) : (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The stored block at row `r`, column `j`: the sum over the contraction axis of the products of the left block's
    row `r` and the right block's column `j` (the cast of the left block to its own shape is the identity; rounding to
    bf16 is the identity at the extended reals; the accumulator is the zero constant). -/
theorem pay3_apply (x0 : FVec Ideal S5000x64 .f32) (x1 : FVec Ideal S64x16 .f32) (r : Fin 5000) (j : Fin 16) :
    k3_pay1 (F := Ideal) x0 x1 (ix2 r j) = ∑ k : Fin 64, x0 (ix2 r k) * x1 (ix2 k j) := by
  unfold k3_pay1
  rw [shapeCast_self]
  refine (Ideal.matmul_constant_zero_apply dot_S5000x64_S64x16_S5000x16_1_0_0_1_n_n none _ _ (ix2 r j)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 r j) ((contrEquiv1 dot_S5000x64_S64x16_S5000x16_1_0_0_1_n_n 64 rfl rfl).symm k) = ix2 r k := funext fun a => Fin.ext (by
    match a with
    | ⟨0, _⟩ => exact lhs3_0 _ _
    | ⟨1, _⟩ => exact (lhs3_1 _ _).trans hk)
  have er : dot_S5000x64_S64x16_S5000x16_1_0_0_1_n_n.rhsIdx (ix2 r j) ((contrEquiv1 dot_S5000x64_S64x16_S5000x16_1_0_0_1_n_n 64 rfl rfl).symm k) = ix2 k j := funext fun a => Fin.ext (by
    match a with
    | ⟨0, _⟩ => exact (rhs3_0 _ _).trans hk
    | ⟨1, _⟩ => exact rhs3_1 _ _)
  rw [el, er]
  rfl

/-! ## From blocks to the array -/

theorem hz3 : (![0, 0] : Fin 2 → Nat) = fun _ => 0 := funext fun a => by fin_cases a <;> rfl

/-- The windows' block indices, decided over the grid: at point `t` the left factor's and the output's blocks are
    the same one along the rows, one of twenty; the right factor's is the only one. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 19
    ∧ win3_2.index t (1 : Fin 2) = 0 :=
  (by decide +kernel : ∀ t : Fin grid3.N, _)

/-- Every block of rows is some point's. -/
theorem idx_onto3 : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the product of the two arrays as the region finds them. -/
theorem flushed3_eq (c : Dev nD) (t : Fin cfg3.N) :
    (dat3 (F := Ideal) V c).flushed 2 t = ((cfg3.win 2).blk t).view.read (Elt Ideal) (matProd3 (V c main_v42) (V c main_arg4)) := by
  show (cfg3.win 2).cut (grid3.coords t) ((dat3 (F := Ideal) V c).after 2 t) = _
  rw [after3_2]
  unfold out3_2
  rw [View.canon_unit_zero hz3]
  simp only [View.ld_unit_zero (S := S5000x64) hz3, View.ld_unit_zero (S := S64x16) hz3]
  obtain ⟨e0, e1, e2, e3, e4, e5⟩ := idx_facts3 t
  funext y
  obtain ⟨r, j, rfl⟩ : ∃ (r : Fin 5000) (j : Fin 16), y = ix2 r j := ⟨y 0, y 1, eq_ix2 y⟩
  have hr : r.val < 5000 := r.isLt
  have hn : win3_2.index t (0 : Fin 2) * 5000 + r.val < 100000 := by omega
  refine (pay3_apply (iblk3 V c 0 t) (iblk3 V c 1 t) r j).trans ?_
  show _ = matProd3 (V c main_v42) (V c main_arg4) (((cfg3.win 2).blk t).view.emb (ix2 r j))
  refine Eq.trans ?_ (matProd3_at (V c main_v42) (V c main_arg4) (((cfg3.win 2).blk t).view.emb (ix2 r j))
    ⟨win3_2.index t (0 : Fin 2) * 5000 + r.val, hn⟩ j ?_ ?_).symm
  · refine Finset.sum_congr rfl fun k _ => ?_
    have h0 : ((cfg3.win 0).blk t).view.emb (ix2 r k)
        = ix2 (⟨win3_2.index t (0 : Fin 2) * 5000 + r.val, hn⟩ : Fin 100000) k := by
      funext a; apply Fin.ext
      match a with
      | ⟨0, _⟩ => show win3_0.index t (0 : Fin 2) * 5000 + 1 * r.val = win3_2.index t (0 : Fin 2) * 5000 + r.val; omega
      | ⟨1, _⟩ => show win3_0.index t (1 : Fin 2) * 64 + 1 * k.val = k.val; omega
    have h1 : ((cfg3.win 1).blk t).view.emb (ix2 k j) = ix2 k j := by
      funext a; apply Fin.ext
      match a with
      | ⟨0, _⟩ => show win3_1.index t (0 : Fin 2) * 64 + 1 * k.val = k.val; omega
      | ⟨1, _⟩ => show win3_1.index t (1 : Fin 2) * 16 + 1 * j.val = j.val; omega
    have hA0 : iblk3 V c 0 t (ix2 r k) = V c main_v42 (ix2 (⟨win3_2.index t (0 : Fin 2) * 5000 + r.val, hn⟩ : Fin 100000) k) :=
      congrArg (V c main_v42) h0
    have hA1 : iblk3 V c 1 t (ix2 k j) = V c main_arg4 (ix2 k j) := congrArg (V c main_arg4) h1
    first
      | (rw [hA0, hA1]; done)
      | (rw [hA0, hA1]; rfl)
  · show win3_2.index t (0 : Fin 2) * 5000 + 1 * r.val = win3_2.index t (0 : Fin 2) * 5000 + r.val; omega
  · show win3_2.index t (1 : Fin 2) * 16 + 1 * j.val = j.val; omega

/-- An index of the output array is in point `t`'s block iff each coordinate is in the block's range on its axis. -/
theorem mem_blk3 (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v43).slice (win3_2.rect t)).set ↔ _
  rw [View.set_slice_whole, Rect.mem_set_unit]
  exact Iff.rfl

/-- Every index of the output array is in some point's block: row `n` is in the block of point `n / 5000`. -/
theorem cover3 (i : S100000x16.Idx) : ∃ t : Fin cfg3.N, (cfg3.win 2).flush t = true ∧ i ∈ ((cfg3.win 2).blk t).view.set := by
  have hi0 : (i 0).val < 100000 := idx2_lt0 i
  have hi1 : (i 1).val < 16 := idx2_lt1 i
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- THE OUTPUT ARRAY after the region is the product of the two input arrays as the region finds them. -/
theorem final3_eq (c : Dev nD) : (dat3 (F := Ideal) V c).arrAt 2 cfg3.N = matProd3 (V c main_v42) (V c main_arg4) :=
  (dat3 (F := Ideal) V c).arrAt_eq_of_cover 2 (matProd3 (V c main_v42) (V c main_arg4)) (fun t _ => flushed3_eq V c t) (cover3)

/-- Index by index: row `n`, column `j` of the output array is the product's entry there, the sum over the contraction
    axis that `matProd3_apply` spells out. -/
theorem final3 (c : Dev nD) (n : Fin 100000) (j : Fin 16) :
    (dat3 (F := Ideal) V c).arrAt 2 cfg3.N (ix2 n j) = matProd3 (V c main_v42) (V c main_arg4) (ix2 n j) :=
  congrFun (final3_eq V c) (ix2 n j)

end Cert.KernelIdeal.Hand

end
-- ==== Proof.LibOneHot.lean ====
import Mathlib.Algebra.BigOperators.Fin
import Mathlib.Algebra.BigOperators.Ring.Finset
import Mathlib.Data.EReal.Operations

/-!
# Sums against a one-hot weight

In any additive commutative monoid that also has a multiplication with `0 * x = 0` and `1 * x = x` (no distributivity is
asked: the extended reals qualify), a finite sum whose terms are weighted by the indicator of one index is that index's term,
a sum weighted by the indicator of a predicate is the sum over the indices satisfying it, and a sum weighted by an indicator
that is nowhere one is zero. These are the two facts by which a gather written as a product with a one-hot matrix is a
lookup, and a scatter-add written as a product with a one-hot matrix is the sum over the matching updates.
-/

namespace LibOneHot

open Finset

variable {ι : Type*}

local notation "M" => EReal

/-- The indicator of a proposition as an element of `M`. -/
noncomputable def ind (p : Prop) [Decidable p] : M := if p then 1 else 0

theorem ind_mul (p : Prop) [Decidable p] (x : M) : (ind p : M) * x = if p then x else 0 := by
  unfold ind; split <;> simp

@[simp] theorem ind_true_mul {p : Prop} [Decidable p] (h : p) (x : M) : (ind p : M) * x = x := by
  rw [ind_mul, if_pos h]

@[simp] theorem ind_false_mul {p : Prop} [Decidable p] (h : ¬p) (x : M) : (ind p : M) * x = 0 := by
  rw [ind_mul, if_neg h]

/-- A sum weighted by the indicator of one index is that index's term. -/
theorem sum_ind_eq_mul [Fintype ι] [DecidableEq ι] (r : ι) (h : ι → M) :
    ∑ n, (ind (n = r) : M) * h n = h r := by
  rw [Finset.sum_eq_single r]
  · exact ind_true_mul rfl (h r)
  · intro n _ hn; exact ind_false_mul hn (h n)
  · intro hr; exact absurd (Finset.mem_univ r) hr

/-- The same with the equation the other way round. -/
theorem sum_ind_eq_mul' [Fintype ι] [DecidableEq ι] (r : ι) (h : ι → M) :
    ∑ n, (ind (r = n) : M) * h n = h r := by
  rw [Finset.sum_eq_single r]
  · exact ind_true_mul rfl (h r)
  · intro n _ hn; exact ind_false_mul (fun e : r = n => hn e.symm) (h n)
  · intro hr; exact absurd (Finset.mem_univ r) hr

/-- A sum weighted by the indicator of a predicate is the sum over the indices satisfying it. -/
theorem sum_ind_mul_eq_filter [Fintype ι] (p : ι → Prop) [DecidablePred p] (f : ι → M) :
    ∑ e, (ind (p e) : M) * f e = ∑ e ∈ Finset.univ.filter p, f e := by
  rw [Finset.sum_filter]
  refine Finset.sum_congr rfl fun e _ => ?_
  by_cases hp : p e
  · rw [ind_true_mul hp, if_pos hp]
  · rw [ind_false_mul hp, if_neg hp]

/-- A sum weighted by an indicator that is nowhere one is zero. -/
theorem sum_ind_mul_eq_zero [Fintype ι] (p : ι → Prop) [DecidablePred p] (f : ι → M) (hp : ∀ e, ¬p e) :
    ∑ e, (ind (p e) : M) * f e = 0 :=
  Finset.sum_eq_zero fun e _ => ind_false_mul (hp e) (f e)

/-- Indices named by words, one word each: a sum weighted by "the word is index n's name" is the named index's term. -/
theorem sum_ind_word [Fintype ι] {W : Type*} [DecidableEq W] (name : ι → W) (hinj : Function.Injective name) (r : ι) (h : ι → M) :
    ∑ n, (ind (name r = name n) : M) * h n = h r := by
  rw [Finset.sum_eq_single r]
  · exact ind_true_mul rfl (h r)
  · intro n _ hn; exact ind_false_mul (fun e : name r = name n => hn (hinj e.symm)) (h n)
  · intro hr; exact absurd (Finset.mem_univ r) hr

/-- A word that names no index contributes nothing. -/
theorem sum_ind_word_none [Fintype ι] {W : Type*} [DecidableEq W] (name : ι → W) (w : W) (hw : ∀ n, w ≠ name n) (h : ι → M) :
    ∑ n, (ind (w = name n) : M) * h n = 0 :=
  sum_ind_mul_eq_zero _ _ hw

end LibOneHot
-- ==== Proof.LibGraphAgg.lean ====
import proofs.«167680_j81389630259984_2_alg».proof.Proof.LibOneHot

/-!
# One message-passing layer in two arrangements

A graph layer sends, along every edge `e`, row `row e` of a node table `h`, scaled by `norm e`, to node `col e`, and adds up
what arrives at each node. One arrangement gathers the rows and scatter-adds the scaled messages. The other multiplies by
one-hot matrices: the message of edge `e` is `Σ_{n'} [row e = n'] · h n'`, and node `n` receives `Σ_e [col e = n] · (message e · norm e)`,
the edge list padded to a whole number of blocks with edges whose column number is the out-of-range word `N`. Over the
extended reals the two agree, with no finiteness asked: a one-hot weight is `0` or `1`, `0 · x = 0` and `1 · x = x` for
every `x`, and only the order of a finite sum changes. Node numbers are 32-bit words read signed; a number below 2^31 is
named by exactly one word.
-/

namespace LibGraphAgg

open LibOneHot

/-- A word equals the word of a number below 2^31 exactly when its signed value is that number. -/
theorem word_eq_iff (w : BitVec 32) (n : ℕ) (hn : n < 2 ^ 31) : w = BitVec.ofNat 32 n ↔ w.toInt = (n : ℤ) := by
  have h : (BitVec.ofNat 32 n).toInt = (n : ℤ) := by
    rw [BitVec.toInt_ofNat']
    unfold Int.bmod
    have : ((n : ℤ) % ((2 : ℕ) ^ 32 : ℕ)) = (n : ℤ) := Int.emod_eq_of_lt (by omega) (by push_cast; omega)
    simp only [this]
    split
    · rfl
    · rename_i hlt; exfalso; apply hlt; push_cast; omega
  constructor
  · rintro rfl; exact h
  · intro e; exact BitVec.eq_of_toInt_eq (e.trans h.symm)

/-- Distinct numbers below 2^32 are named by distinct words. -/
theorem ofNat_inj_of_lt {a b : ℕ} (ha : a < 2 ^ 32) (hb : b < 2 ^ 32) (h : BitVec.ofNat 32 a = BitVec.ofNat 32 b) : a = b := by
  have := congrArg BitVec.toNat h
  simp only [BitVec.toNat_ofNat] at this
  omega

variable {N E P C : ℕ}

/-- THE LAYER IN TWO ARRANGEMENTS. `rowP`, `colP`, `normP` are the edge arrays padded from `E` to `E + P` entries; on the
    first `E` entries the row word names node `rowIx e`, the column word is `col e` and the scale is `norm e`; on the padding
    the column word is the word of `N`, which names no node. Then the one-hot arrangement's entry `(n, j)` is the sum over
    the edges whose column number, read signed, is `n` of `h (rowIx e) j · norm e`. -/
theorem layer_eq (hN : N < 2 ^ 31)
    (rowP colP : Fin (E + P) → BitVec 32) (normP : Fin (E + P) → EReal)
    (rowIx : Fin E → Fin N) (col : Fin E → BitVec 32) (norm : Fin E → EReal)
    (hrow : ∀ e : Fin E, rowP (Fin.castAdd P e) = BitVec.ofNat 32 (rowIx e).val)
    (hcol : ∀ e : Fin E, colP (Fin.castAdd P e) = col e)
    (hnorm : ∀ e : Fin E, normP (Fin.castAdd P e) = norm e)
    (hpad : ∀ p : Fin P, colP (Fin.natAdd E p) = BitVec.ofNat 32 N)
    (h : Fin N → Fin C → EReal) (n : Fin N) (j : Fin C) :
    ∑ e : Fin (E + P), ind (colP e = BitVec.ofNat 32 n.val)
        * ((∑ n' : Fin N, ind (rowP e = BitVec.ofNat 32 n'.val) * h n' j) * normP e)
      = ∑ e : Fin E, if (col e).toInt = (n.val : ℤ) then h (rowIx e) j * norm e else 0 := by
  have hname : Function.Injective fun n' : Fin N => BitVec.ofNat 32 n'.val := fun a b hab =>
    Fin.ext (ofNat_inj_of_lt (by have := a.isLt; omega) (by have := b.isLt; omega) hab)
  rw [Fin.sum_univ_add]
  have hpad0 : ∑ p : Fin P, ind (colP (Fin.natAdd E p) = BitVec.ofNat 32 n.val)
      * ((∑ n' : Fin N, ind (rowP (Fin.natAdd E p) = BitVec.ofNat 32 n'.val) * h n' j) * normP (Fin.natAdd E p)) = 0 := by
    refine Finset.sum_eq_zero fun p _ => ?_
    refine ind_false_mul ?_ _
    rw [hpad p]
    intro e
    have := ofNat_inj_of_lt (by omega) (by have := n.isLt; omega) e
    have := n.isLt
    omega
  rw [hpad0, add_zero]
  refine Finset.sum_congr rfl fun e _ => ?_
  rw [hrow e, hcol e, hnorm e]
  rw [sum_ind_word (fun n' : Fin N => BitVec.ofNat 32 n'.val) hname (rowIx e) (fun n' => h n' j)]
  rw [ind_mul]
  by_cases hc : col e = BitVec.ofNat 32 n.val
  · rw [if_pos hc, if_pos ((word_eq_iff _ _ (by have := n.isLt; omega)).mp hc)]
  · rw [if_neg hc, if_neg (fun hh => hc ((word_eq_iff _ _ (by have := n.isLt; omega)).mpr hh))]

end LibGraphAgg
-- ==== Proof.KI.Host.lean ====
import proofs.«167680_j81389630259984_2_alg».proof.Proof.Gen.KernelIdeal.Launch
import proofs.«167680_j81389630259984_2_alg».proof.Proof.Gen.KernelIdeal.Regions
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

open Idealize.ShloMosaic.StableHlo in
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

/-! ## The prelude's arrays as functions of the two edge arguments -/

/-- Row 0 of the edge list made a vector of 1600000 words, followed by the words 0 … 99999 (one self loop per node). -/
def rowOfK (a1 : IVec S2x1600000 32) : IVec S1700000 32 :=
  concatenate S1700000 0
    [⟨S1600000, shapeCast S1600000 (extractStridedSlice S1x1600000 ![0, 0] a1 slices_S2x1600000_S1x1600000_0_0) shapeCasts_S1x1600000_S1600000⟩,
     ⟨S100000, iotaInDim S100000 32 0⟩] concatenates_S1600000_S100000_S1700000_d0

/-- Row 1 of the edge list made a vector, followed by the words 0 … 99999. -/
def colOfK (a1 : IVec S2x1600000 32) : IVec S1700000 32 :=
  concatenate S1700000 0
    [⟨S1600000, shapeCast S1600000 (extractStridedSlice S1x1600000 ![1, 0] a1 slices_S2x1600000_S1x1600000_1_0) shapeCasts_S1x1600000_S1600000⟩,
     ⟨S100000, iotaInDim S100000 32 0⟩] concatenates_S1600000_S100000_S1700000_d0

/-- The edge weights followed by 100000 ones (the self loops' weights). -/
def wOfK (a2 : FVec Ideal S1600000 .f32) : FVec Ideal S1700000 .f32 :=
  concatenate S1700000 0
    [⟨S1600000, a2⟩,
     ⟨S100000, broadcastInDim S100000 ![] bcast_S_S100000 (constant (F := Ideal) S_ .f32 0x3F800000#32)⟩] concatenates_S1600000_S100000_S1700000_d0

/-- The weighted in-degree: the weights added up at their column ids, from zero. -/
def degOfK (a1 : IVec S2x1600000 32) (a2 : FVec Ideal S1600000 .f32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (colOfK a1))
    (wOfK a2)

/-- The inverse square root of the degree where it is positive, zero elsewhere. -/
def dinvOfK (a1 : IVec S2x1600000 32) (a2 : FVec Ideal S1600000 .f32) : FVec Ideal S100000 .f32 :=
  select (cmpf .ogt (degOfK a1 a2) (broadcastInDim S100000 ![] bcast_S_S100000 (constant (F := Ideal) S_ .f32 0x00000000#32)))
    (Host.rsqrt (degOfK a1 a2))
    (broadcastInDim S100000 ![] bcast_S_S100000 (id (constant (F := Ideal) S_ .f32 0x00000000#32)))

/-- An index vector with its negative entries moved up by 100000, as a column of indices. -/
def wrapIdxK (x : IVec S1700000 32) : IVec S1700000x1 32 :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- The edge coefficient from the four arrays it is computed from: dinv at the row id, times the weight, times dinv at the column id. -/
def normFromK (dinv : FVec Ideal S100000 .f32) (row col : IVec S1700000 32) (w : FVec Ideal S1700000 .f32) : FVec Ideal S1700000 .f32 :=
  mulf (mulf (Host.gather gather_S100000_S1700000x1_S1700000_n_0_n_n_0_1_1 dinv (wrapIdxK row)) w)
    (Host.gather gather_S100000_S1700000x1_S1700000_n_0_n_n_0_1_1 dinv (wrapIdxK col))

/-- The edge coefficients as a function of the two edge arguments. -/
def normOfK (a1 : IVec S2x1600000 32) (a2 : FVec Ideal S1600000 .f32) : FVec Ideal S1700000 .f32 :=
  normFromK (dinvOfK a1 a2) (rowOfK a1) (colOfK a1) (wOfK a2)

/-- An index vector followed by 3936 words 100000, as one row. -/
def padRow (x : IVec S1700000 32) : IVec S1x1703936 32 :=
  shapeCast S1x1703936
    (concatenate S1703936 0
      [⟨S1700000, x⟩, ⟨S3936, broadcastInDim S3936 ![] bcast_S_S3936 (constantI S_ 32 100000#32)⟩] concatenates_S1700000_S3936_S1703936_d0)
    shapeCasts_S1703936_S1x1703936

/-- The same padding (the column ids take the same sentinel). -/
def padCol (x : IVec S1700000 32) : IVec S1x1703936 32 := padRow x

/-- A coefficient vector followed by 3936 zeros, as one column. -/
def padNorm (y : FVec Ideal S1700000 .f32) : FVec Ideal S1703936x1 .f32 :=
  shapeCast S1703936x1
    (concatenate S1703936 0
      [⟨S1700000, y⟩, ⟨S3936, broadcastInDim S3936 ![] bcast_S_S3936 (constant (F := Ideal) S_ .f32 0x00000000#32)⟩] concatenates_S1700000_S3936_S1703936_d0)
    shapeCasts_S1703936_S1703936x1

/-! ## The three stretches, each over any contents before it -/

section Stretches
open Idealize.ShloMosaic.StableHlo
variable (V : Valuation τ sig (Elt Ideal))

theorem host0_v3 : after (hostOps0 (F := Ideal)) V (Proc.devRef .tc main_v3) = rowOfK (V (Proc.devRef .tc main_arg1)) := by
  simp only [hostOps0]; after_results_simp; host_reads; rfl

theorem host0_v6 : after (hostOps0 (F := Ideal)) V (Proc.devRef .tc main_v6) = colOfK (V (Proc.devRef .tc main_arg1)) := by
  simp only [hostOps0]; after_results_simp; host_reads; rfl

theorem host0_v8 : after (hostOps0 (F := Ideal)) V (Proc.devRef .tc main_v8) = wOfK (V (Proc.devRef .tc main_arg2)) := by
  simp only [hostOps0]; after_results_simp; host_reads; rfl

theorem host0_v11 : after (hostOps0 (F := Ideal)) V (Proc.devRef .tc main_v11)
    = degOfK (V (Proc.devRef .tc main_arg1)) (V (Proc.devRef .tc main_arg2)) := by
  simp only [hostOps0]; after_results_simp; host_reads; rfl

theorem host0_v13 : after (hostOps0 (F := Ideal)) V (Proc.devRef .tc main_v13)
    = cmpf .ogt (degOfK (V (Proc.devRef .tc main_arg1)) (V (Proc.devRef .tc main_arg2))) (broadcastInDim S100000 ![] bcast_S_S100000 (constant (F := Ideal) S_ .f32 0x00000000#32)) := by
  simp only [hostOps0]; after_results_simp; host_reads; rfl

theorem host0_v14 : after (hostOps0 (F := Ideal)) V (Proc.devRef .tc main_v14) = Host.rsqrt (degOfK (V (Proc.devRef .tc main_arg1)) (V (Proc.devRef .tc main_arg2))) := by
  simp only [hostOps0]; after_results_simp; host_reads; rfl

theorem host0_cst_2 : after (hostOps0 (F := Ideal)) V (Proc.devRef .tc main_cst_2) = constant (F := Ideal) S_ .f32 0x00000000#32 := by
  simp only [hostOps0]; after_results_simp

/-! The second stretch (the selection of the inverse square roots) writes none of the edge arrays. -/

theorem host1_v15 : after (hostOps0_1 (F := Ideal)) V (Proc.devRef .tc main_v15)
    = select (V (Proc.devRef .tc main_v13)) (V (Proc.devRef .tc main_v14))
        (broadcastInDim S100000 ![] bcast_S_S100000 (id (V (Proc.devRef .tc main_cst_2)))) := by
  simp only [hostOps0_1]; after_results_simp; rfl

theorem host1_keeps_v3 : after (hostOps0_1 (F := Ideal)) V (Proc.devRef .tc main_v3) = V (Proc.devRef .tc main_v3) := by
  simp only [hostOps0_1]; after_results_simp
theorem host1_keeps_v6 : after (hostOps0_1 (F := Ideal)) V (Proc.devRef .tc main_v6) = V (Proc.devRef .tc main_v6) := by
  simp only [hostOps0_1]; after_results_simp
theorem host1_keeps_v8 : after (hostOps0_1 (F := Ideal)) V (Proc.devRef .tc main_v8) = V (Proc.devRef .tc main_v8) := by
  simp only [hostOps0_1]; after_results_simp

/-! The third stretch: the edge coefficients and the three padded arrays the kernels read. -/

/-! The third stretch in two parts: the edge coefficients, then the paddings. -/

/-- Running one line of host operations after another is running the second from what the first leaves. -/
theorem after_append' (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The third stretch's first 20 operations: the wrapped index columns, the two gathers of the inverse square roots, the coefficients. -/
def hostOps0_2a {F : FTy → Type} [FloatOps F] : List (HloOp τ sig (Elt F)) :=
  [ StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v3 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v3 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v8 main_v23 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Its last 10 operations: the sentinel and zero paddings, the three joins, the three reshapes. -/
def hostOps0_2b {F : FTy → Type} [FloatOps F] : List (HloOp τ sig (Elt F)) :=
  [ StableHlo.nullary main_c_6 (constantI S_ 32 100000#32),
    StableHlo.unary main_c_6 main_v32 (broadcastInDim S3936 ![] bcast_S_S3936 : (⟨S_, .i32⟩ : BufTy).Contents (Elt F) → (⟨S3936, .i32⟩ : BufTy).Contents (Elt F)),
    StableHlo.nullary main_cst_7 (constant S_ .f32 0x00000000#32),
    StableHlo.unary main_cst_7 main_v33 (broadcastInDim S3936 ![] bcast_S_S3936 : (⟨S_, .f32⟩ : BufTy).Contents (Elt F) → (⟨S3936, .f32⟩ : BufTy).Contents (Elt F)),
    StableHlo.binary main_v3 main_v32 main_v34 ((fun a b => concatenate S1703936 0 [⟨S1700000, a⟩, ⟨S3936, b⟩] concatenates_S1700000_S3936_S1703936_d0) : (⟨S1700000, .i32⟩ : BufTy).Contents (Elt F) → (⟨S3936, .i32⟩ : BufTy).Contents (Elt F) → (⟨S1703936, .i32⟩ : BufTy).Contents (Elt F)),
    StableHlo.binary main_v6 main_v32 main_v35 ((fun a b => concatenate S1703936 0 [⟨S1700000, a⟩, ⟨S3936, b⟩] concatenates_S1700000_S3936_S1703936_d0) : (⟨S1700000, .i32⟩ : BufTy).Contents (Elt F) → (⟨S3936, .i32⟩ : BufTy).Contents (Elt F) → (⟨S1703936, .i32⟩ : BufTy).Contents (Elt F)),
    StableHlo.binary main_v31 main_v33 main_v36 ((fun a b => concatenate S1703936 0 [⟨S1700000, a⟩, ⟨S3936, b⟩] concatenates_S1700000_S3936_S1703936_d0) : (⟨S1700000, .f32⟩ : BufTy).Contents (Elt F) → (⟨S3936, .f32⟩ : BufTy).Contents (Elt F) → (⟨S1703936, .f32⟩ : BufTy).Contents (Elt F)),
    StableHlo.reshape main_v34 main_v37 rfl shapeCasts_S1703936_S1x1703936,
    StableHlo.reshape main_v35 main_v38 rfl shapeCasts_S1703936_S1x1703936,
    StableHlo.reshape main_v36 main_v39 rfl shapeCasts_S1703936_S1703936x1 ]

theorem hostOps0_2_parts {F : FTy → Type} [FloatOps F] : (hostOps0_2 (F := F)) = hostOps0_2a ++ hostOps0_2b := rfl

theorem host2a_v31 : after (hostOps0_2a (F := Ideal)) V (Proc.devRef .tc main_v31)
    = normFromK (V (Proc.devRef .tc main_v15)) (V (Proc.devRef .tc main_v3)) (V (Proc.devRef .tc main_v6)) (V (Proc.devRef .tc main_v8)) := by
  simp only [hostOps0_2a]; after_results_simp; rfl
theorem host2a_keeps_v3 : after (hostOps0_2a (F := Ideal)) V (Proc.devRef .tc main_v3) = V (Proc.devRef .tc main_v3) := by
  simp only [hostOps0_2a]; after_results_simp
theorem host2a_keeps_v6 : after (hostOps0_2a (F := Ideal)) V (Proc.devRef .tc main_v6) = V (Proc.devRef .tc main_v6) := by
  simp only [hostOps0_2a]; after_results_simp

theorem host2b_v37 : after (hostOps0_2b (F := Ideal)) V (Proc.devRef .tc main_v37) = padRow (V (Proc.devRef .tc main_v3)) := by
  simp only [hostOps0_2b]; after_results_simp; host_reads; rfl
theorem host2b_v38 : after (hostOps0_2b (F := Ideal)) V (Proc.devRef .tc main_v38) = padCol (V (Proc.devRef .tc main_v6)) := by
  simp only [hostOps0_2b]; after_results_simp; host_reads; rfl
theorem host2b_v39 : after (hostOps0_2b (F := Ideal)) V (Proc.devRef .tc main_v39) = padNorm (V (Proc.devRef .tc main_v31)) := by
  simp only [hostOps0_2b]; after_results_simp; host_reads; rfl

theorem host2_v37 : after (hostOps0_2 (F := Ideal)) V (Proc.devRef .tc main_v37) = padRow (V (Proc.devRef .tc main_v3)) := by
  rw [hostOps0_2_parts, after_append', host2b_v37, host2a_keeps_v3]

theorem host2_v38 : after (hostOps0_2 (F := Ideal)) V (Proc.devRef .tc main_v38) = padCol (V (Proc.devRef .tc main_v6)) := by
  rw [hostOps0_2_parts, after_append', host2b_v38, host2a_keeps_v6]

theorem host2_v39 : after (hostOps0_2 (F := Ideal)) V (Proc.devRef .tc main_v39)
    = padNorm (normFromK (V (Proc.devRef .tc main_v15)) (V (Proc.devRef .tc main_v3)) (V (Proc.devRef .tc main_v6)) (V (Proc.devRef .tc main_v8))) := by
  rw [hostOps0_2_parts, after_append', host2b_v39, host2a_v31]

/-! ## The three stretches in order, from any contents -/

theorem host_v37 : after (hostOps0_2 (F := Ideal)) (after (hostOps0_1 (F := Ideal)) (after (hostOps0 (F := Ideal)) V)) (Proc.devRef .tc main_v37)
    = padRow (rowOfK (V (Proc.devRef .tc main_arg1))) := by
  rw [host2_v37, host1_keeps_v3, host0_v3]

theorem host_v38 : after (hostOps0_2 (F := Ideal)) (after (hostOps0_1 (F := Ideal)) (after (hostOps0 (F := Ideal)) V)) (Proc.devRef .tc main_v38)
    = padCol (colOfK (V (Proc.devRef .tc main_arg1))) := by
  rw [host2_v38, host1_keeps_v6, host0_v6]

theorem host_v39 : after (hostOps0_2 (F := Ideal)) (after (hostOps0_1 (F := Ideal)) (after (hostOps0 (F := Ideal)) V)) (Proc.devRef .tc main_v39)
    = padNorm (normOfK (V (Proc.devRef .tc main_arg1)) (V (Proc.devRef .tc main_arg2))) := by
  rw [host2_v39, host1_v15, host1_keeps_v3, host1_keeps_v6, host1_keeps_v8, host0_v13, host0_v14, host0_cst_2, host0_v3, host0_v6, host0_v8]
  rfl

end Stretches

/-! ## The padded arrays read at an entry -/

section Pads
open Idealize.ShloMosaic.Ideal
variable {α : Type}

/-- A vector made one row reads, at `(0, k)`, the vector's entry `k`. -/
theorem asRow_apply (y : S1703936.Idx → α) (k : Fin 1703936) :
    shapeCast S1x1703936 y shapeCasts_S1703936_S1x1703936 (ix2 (0 : Fin 1) k) = y (ix1 k) :=
  shapeCast_apply y shapeCasts_S1703936_S1x1703936 _ _ (by
    rw [Shape.rowMajor_val_two, Shape.rowMajor_val_one]
    show k.val = 0 * 1703936 + k.val
    omega)

/-- A vector made one column reads, at `(k, 0)`, the vector's entry `k`. -/
theorem asCol_apply (y : S1703936.Idx → α) (k : Fin 1703936) :
    shapeCast S1703936x1 y shapeCasts_S1703936_S1703936x1 (ix2 k (0 : Fin 1)) = y (ix1 k) :=
  shapeCast_apply y shapeCasts_S1703936_S1703936x1 _ _ (by
    rw [Shape.rowMajor_val_two, Shape.rowMajor_val_one]
    show k.val = k.val * 1 + 0
    omega)

/-- Followed by 3936 further entries, an entry below 1700000 reads the first piece … -/
theorem joinPad_left (x : S1700000.Idx → α) (b : S3936.Idx → α) (e : Fin 1700000) :
    concatenate S1703936 0 [⟨S1700000, x⟩, ⟨S3936, b⟩] concatenates_S1700000_S3936_S1703936_d0 (ix1 ⟨e.val, by have := e.isLt; omega⟩) = x (ix1 e) :=
  concatenate_pair_apply_left 0 x b concatenates_S1700000_S3936_S1703936_d0 _ rfl (ix1 e) (fun a => by
    match a with
    | ⟨0, _⟩ => rfl)

/-- … and an entry at or above it the second piece, 1700000 entries up. -/
theorem joinPad_right (x : S1700000.Idx → α) (b : S3936.Idx → α) (p : Fin 3936) :
    concatenate S1703936 0 [⟨S1700000, x⟩, ⟨S3936, b⟩] concatenates_S1700000_S3936_S1703936_d0 (ix1 ⟨1700000 + p.val, by have := p.isLt; omega⟩) = b (ix1 p) :=
  concatenate_pair_apply_right 0 x b concatenates_S1700000_S3936_S1703936_d0 _ rfl rfl (ix1 p) (fun a ha => by
    match a with
    | ⟨0, _⟩ => exact absurd rfl ha) (by show p.val + 1700000 = 1700000 + p.val; omega)

/-- The padded index row at an edge: the index vector's entry. -/
theorem padRow_left (x : IVec S1700000 32) (e : Fin 1700000) :
    padRow x (ix2 (0 : Fin 1) ⟨e.val, by have := e.isLt; omega⟩) = x (ix1 e) := by
  unfold padRow
  rw [asRow_apply, joinPad_left]

/-- The padded index row past the edges: the word of 100000, which names no node. -/
theorem padRow_right (x : IVec S1700000 32) (p : Fin 3936) :
    padRow x (ix2 (0 : Fin 1) ⟨1700000 + p.val, by have := p.isLt; omega⟩) = BitVec.ofNat 32 100000 := by
  unfold padRow
  rw [asRow_apply, joinPad_right]
  exact broadcastInDim_apply _ bcast_S_S3936 _ (ix1 p) (fun a => a.elim0) (fun a => a.elim0)

theorem padCol_left (x : IVec S1700000 32) (e : Fin 1700000) :
    padCol x (ix2 (0 : Fin 1) ⟨e.val, by have := e.isLt; omega⟩) = x (ix1 e) := padRow_left x e

theorem padCol_right (x : IVec S1700000 32) (p : Fin 3936) :
    padCol x (ix2 (0 : Fin 1) ⟨1700000 + p.val, by have := p.isLt; omega⟩) = BitVec.ofNat 32 100000 := padRow_right x p

/-- The padded coefficient column at an edge: the coefficient. -/
theorem padNorm_left (y : FVec Ideal S1700000 .f32) (e : Fin 1700000) :
    padNorm y (ix2 ⟨e.val, by have := e.isLt; omega⟩ (0 : Fin 1)) = y (ix1 e) := by
  unfold padNorm
  rw [asCol_apply, joinPad_left]

/-- The padded coefficient column past the edges: zero. -/
theorem padNorm_right (y : FVec Ideal S1700000 .f32) (p : Fin 3936) :
    padNorm y (ix2 ⟨1700000 + p.val, by have := p.isLt; omega⟩ (0 : Fin 1)) = (0 : EReal) := by
  unfold padNorm
  rw [asCol_apply, joinPad_right, broadcastInDim_apply _ bcast_S_S3936 _ (ix1 p) (fun a => a.elim0) (fun a => a.elim0),
    constant_apply, ofBits_zero_f32]

end Pads

end Cert.KernelIdeal.Hand
-- ==== Proof.KI.HostPad.lean ====
/-
  The padded edge arrays read at an entry numbered as the layer lemma numbers them: an edge `e` below 1700000 as
  `Fin.castAdd 3936 e`, a padding entry `p` as `Fin.natAdd 1700000 p`.
-/
import proofs.«167680_j81389630259984_2_alg».proof.Proof.KI.Host

set_option maxRecDepth 16384

noncomputable section

namespace Cert.KernelIdeal.Hand

open Cert.KernelIdeal Cert.KernelIdeal.Gen
open Idealize.ShloMosaic Idealize.ShloMosaic.TcCoe
open Idealize.ShloMosaic.ValueIdx

section PadsAdd

theorem padRow_castAdd (x : IVec S1700000 32) (e : Fin 1700000) :
    padRow x (ix2 (0 : Fin 1) (Fin.castAdd 3936 e)) = x (ix1 e) := padRow_left x e

theorem padRow_natAdd (x : IVec S1700000 32) (p : Fin 3936) :
    padRow x (ix2 (0 : Fin 1) (Fin.natAdd 1700000 p)) = BitVec.ofNat 32 100000 := padRow_right x p

theorem padCol_castAdd (x : IVec S1700000 32) (e : Fin 1700000) :
    padCol x (ix2 (0 : Fin 1) (Fin.castAdd 3936 e)) = x (ix1 e) := padRow_left x e

theorem padCol_natAdd (x : IVec S1700000 32) (p : Fin 3936) :
    padCol x (ix2 (0 : Fin 1) (Fin.natAdd 1700000 p)) = BitVec.ofNat 32 100000 := padRow_right x p

theorem padNorm_castAdd (y : FVec Ideal S1700000 .f32) (e : Fin 1700000) :
    padNorm y (ix2 (Fin.castAdd 3936 e) (0 : Fin 1)) = y (ix1 e) := padNorm_left y e

theorem padNorm_natAdd (y : FVec Ideal S1700000 .f32) (p : Fin 3936) :
    padNorm y (ix2 (Fin.natAdd 1700000 p) (0 : Fin 1)) = (0 : EReal) := padNorm_right y p

end PadsAdd

end Cert.KernelIdeal.Hand

end
-- ==== Proof.KI.HostRef.lean ====
/-
  The kernel program's host prelude and the reference's are the same operations on the same shapes.

  Both programs begin with the same operations on the edge list: the two rows of the edge array made vectors and followed by
  one self loop per node, the weights followed by ones, the degrees, their inverse square roots, the index wrap, the
  coefficient of every edge. The stage functions named on the kernel side and those named on the reference side are
  therefore equal, each by unfolding.
-/
import proofs.«167680_j81389630259984_2_alg».proof.Proof.KI.Host
import proofs.«167680_j81389630259984_2_alg».proof.Proof.Ref.Fold

set_option maxRecDepth 16384

noncomputable section

/-! The kernel program's host prelude and the reference's are the same operations on the same shapes: the stage functions
    named on either side are equal. -/

namespace Cert.HostRef

open Idealize.ShloMosaic

theorem rowOfK_eq (a1 : IVec Cert.KernelIdeal.S2x1600000 32) : Cert.KernelIdeal.Hand.rowOfK a1 = Cert.ReferenceIdeal.Hand.rowOf (F := Ideal) a1 := rfl

theorem colOfK_eq (a1 : IVec Cert.KernelIdeal.S2x1600000 32) : Cert.KernelIdeal.Hand.colOfK a1 = Cert.ReferenceIdeal.Hand.colOf (F := Ideal) a1 := rfl

theorem wOfK_eq (a2 : FVec Ideal Cert.KernelIdeal.S1600000 .f32) : Cert.KernelIdeal.Hand.wOfK a2 = Cert.ReferenceIdeal.Hand.wtsOf (F := Ideal) a2 := rfl

theorem degOfK_eq (a1 : IVec Cert.KernelIdeal.S2x1600000 32) (a2 : FVec Ideal Cert.KernelIdeal.S1600000 .f32) :
    Cert.KernelIdeal.Hand.degOfK a1 a2 = Cert.ReferenceIdeal.Hand.degOf (F := Ideal) (Cert.ReferenceIdeal.Hand.colOf (F := Ideal) a1) (Cert.ReferenceIdeal.Hand.wtsOf (F := Ideal) a2) := rfl

theorem dinvOfK_eq (a1 : IVec Cert.KernelIdeal.S2x1600000 32) (a2 : FVec Ideal Cert.KernelIdeal.S1600000 .f32) :
    Cert.KernelIdeal.Hand.dinvOfK a1 a2 = Cert.ReferenceIdeal.Hand.dinvOf (F := Ideal) (Cert.ReferenceIdeal.Hand.colOf (F := Ideal) a1) (Cert.ReferenceIdeal.Hand.wtsOf (F := Ideal) a2) := rfl

theorem normFromK_eq (dinv : FVec Ideal Cert.KernelIdeal.S100000 .f32) (row col : IVec Cert.KernelIdeal.S1700000 32) (w : FVec Ideal Cert.KernelIdeal.S1700000 .f32) :
    Cert.KernelIdeal.Hand.normFromK dinv row col w = Cert.ReferenceIdeal.Hand.normCore (F := Ideal) row col w dinv := rfl

theorem normOfK_eq (a1 : IVec Cert.KernelIdeal.S2x1600000 32) (a2 : FVec Ideal Cert.KernelIdeal.S1600000 .f32) :
    Cert.KernelIdeal.Hand.normOfK a1 a2 = Cert.ReferenceIdeal.Hand.normOf (F := Ideal) a1 a2 := rfl

end Cert.HostRef

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.Ref.Spec.lean ====
/-
  The reference's two graph layers and two matrix products, read entry by entry over the extended reals.

  A layer gathers, for every edge, the row of a node table that the edge's source number names, scales it by the edge's
  weight, and adds it into the row that the edge's target number names, starting from zero. Read at an entry `(n, j)` of
  the result this is a sum over the 1700000 edges of the terms whose target number, read as a signed word, is `n`; the
  source number passes through a wrap (a negative number counted from the end) and a clamp into the table, and both are the
  identity on a number in `[0, 100000)`. The first layer ends with the maximum with zero. The statements are over any node
  table, any two arrays of edge numbers and any array of weights, then over the stages `rowOf`, `colOf`, `normOf` of the edge
  list, which are not opened here. The two matrix products are the sums over the contracted axis.
-/
import proofs.«167680_j81389630259984_2_alg».proof.Proof.Ref.Fold
import proofs.«167680_j81389630259984_2_alg».proof.Proof.LibGatherRows
import proofs.«167680_j81389630259984_2_alg».proof.Proof.LibScatterRows
import proofs.«167680_j81389630259984_2_alg».proof.Proof.LibPlainDot
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Ideal
open Cert.LibGatherRows (clampRow clampRow_of_toInt)
open scoped BigOperators

/-- A one-column copy of a vector, read at row `e`. -/
theorem bcastCol_apply {α : Type} (x : S1700000.Idx → α) (e : Fin 1700000) :
    broadcastInDim S1700000x1 ![0] bcast_S1700000_S1700000x1_0 x (ix2 e ⟨0, Nat.one_pos⟩) = x (ix1 e) :=
  broadcastInDim_apply _ bcast_S1700000_S1700000x1_0 x _ (ix1 e) (fun a => match a with
    | ⟨0, _⟩ => by show e.val = if (1700000 : Nat) = 1 then 0 else e.val; rw [if_neg (by decide)])

theorem bcastRow64_apply {α : Type} (x : S1700000x1.Idx → α) (e : Fin 1700000) (j : Fin 64) :
    broadcastInDim S1700000x64 ![0, 1] bcast_S1700000x1_S1700000x64_0_1 x (ix2 e j) = x (ix2 e ⟨0, Nat.one_pos⟩) :=
  broadcastInDim_apply _ bcast_S1700000x1_S1700000x64_0_1 x _ (ix2 e ⟨0, Nat.one_pos⟩) (fun a => match a with
    | ⟨0, _⟩ => by show e.val = if (1700000 : Nat) = 1 then 0 else e.val; rw [if_neg (by decide)]
    | ⟨1, _⟩ => by show 0 = if (1 : Nat) = 1 then 0 else j.val; rw [if_pos rfl])

theorem zero64_apply (i : S100000x64.Idx) :
    broadcastInDim S100000x64 ![] bcast_S_S100000x64 (constant (F := Ideal) S_ .f32 0x00000000#32) i = (0 : EReal) := by
  rw [broadcastInDim_apply _ bcast_S_S100000x64 _ i (fun a => a.elim0) (fun a => a.elim0), constant_apply, Ideal.ofBits_zero_f32]

theorem bcastRow16_apply {α : Type} (x : S1700000x1.Idx → α) (e : Fin 1700000) (j : Fin 16) :
    broadcastInDim S1700000x16 ![0, 1] bcast_S1700000x1_S1700000x16_0_1 x (ix2 e j) = x (ix2 e ⟨0, Nat.one_pos⟩) :=
  broadcastInDim_apply _ bcast_S1700000x1_S1700000x16_0_1 x _ (ix2 e ⟨0, Nat.one_pos⟩) (fun a => match a with
    | ⟨0, _⟩ => by show e.val = if (1700000 : Nat) = 1 then 0 else e.val; rw [if_neg (by decide)]
    | ⟨1, _⟩ => by show 0 = if (1 : Nat) = 1 then 0 else j.val; rw [if_pos rfl])

theorem zero16_apply (i : S100000x16.Idx) :
    broadcastInDim S100000x16 ![] bcast_S_S100000x16 (constant (F := Ideal) S_ .f32 0x00000000#32) i = (0 : EReal) := by
  rw [broadcastInDim_apply _ bcast_S_S100000x16 _ i (fun a => a.elim0) (fun a => a.elim0), constant_apply, Ideal.ofBits_zero_f32]

/-- THE FIRST LAYER'S SUM AT `(n, j)`: over the edges whose target number, read signed, is `n`, the source row of `h`
    (the row the wrapped source number names, clamped into the table) at column `j` times the edge's weight. -/
theorem scat64_apply (h : (⟨S100000x64, .f32⟩ : BufTy).Contents (Elt Ideal)) (row col : (⟨S1700000, .i32⟩ : BufTy).Contents (Elt Ideal)) (nrm : (⟨S1700000, .f32⟩ : BufTy).Contents (Elt Ideal)) (n : Fin 100000) (j : Fin 64) :
    scat64 (F := Ideal) h row col nrm (ix2 n j)
      = ∑ e : Fin 1700000, if (col (ix1 e)).toInt = (n.val : Int)
          then h (ix2 (clampRow 100000 (by omega) (wrapIdx (F := Ideal) row (ix1 e))) j) * nrm (ix1 e) else 0 := by
  unfold scat64
  rw [Cert.LibScatterRows.host_scatterAdd_rows_apply scatter_S100000x64_S1700000x1_S1700000x64_1_0_0_1_wf
        scatter_S100000x64_S1700000x1_S1700000x64_1_0_0_1 rfl, zero64_apply, zero_add]
  refine Finset.sum_congr rfl fun e _ => ?_
  rw [bcastCol_apply col e]
  refine if_congr Iff.rfl ?_ rfl
  show (Host.gather gather_S100000x64_S1700000x1_S1700000x64_1_0_n_n_0_1_164 h _ (ix2 e j) : EReal) * _ = _
  rw [Cert.LibGatherRows.host_gather_rows_apply gather_S100000x64_S1700000x1_S1700000x64_1_0_n_n_0_1_164_wf (by omega)
        gather_S100000x64_S1700000x1_S1700000x64_1_0_n_n_0_1_164 rfl, bcastRow64_apply, bcastCol_apply nrm e, bcastCol_apply (wrapIdx (F := Ideal) row) e]

/-- The first layer's output at `(n, j)`: the larger of that sum and zero. -/
theorem aggCore64_apply (h : (⟨S100000x64, .f32⟩ : BufTy).Contents (Elt Ideal)) (row col : (⟨S1700000, .i32⟩ : BufTy).Contents (Elt Ideal)) (nrm : (⟨S1700000, .f32⟩ : BufTy).Contents (Elt Ideal)) (n : Fin 100000) (j : Fin 64) :
    aggCore64 (F := Ideal) h row col nrm (ix2 n j)
      = max (∑ e : Fin 1700000, if (col (ix1 e)).toInt = (n.val : Int)
          then h (ix2 (clampRow 100000 (by omega) (wrapIdx (F := Ideal) row (ix1 e))) j) * nrm (ix1 e) else 0) 0 := by
  unfold aggCore64
  rw [maximumf_apply, scat64_apply, zero64_apply]

/-- THE SECOND LAYER'S SUM AT `(n, j)` (16 columns, no maximum). -/
theorem aggCore16_apply (h : (⟨S100000x16, .f32⟩ : BufTy).Contents (Elt Ideal)) (row col : (⟨S1700000, .i32⟩ : BufTy).Contents (Elt Ideal)) (nrm : (⟨S1700000, .f32⟩ : BufTy).Contents (Elt Ideal)) (n : Fin 100000) (j : Fin 16) :
    aggCore16 (F := Ideal) h row col nrm (ix2 n j)
      = ∑ e : Fin 1700000, if (col (ix1 e)).toInt = (n.val : Int)
          then h (ix2 (clampRow 100000 (by omega) (wrapIdx (F := Ideal) row (ix1 e))) j) * nrm (ix1 e) else 0 := by
  unfold aggCore16
  rw [Cert.LibScatterRows.host_scatterAdd_rows_apply scatter_S100000x16_S1700000x1_S1700000x16_1_0_0_1_wf
        scatter_S100000x16_S1700000x1_S1700000x16_1_0_0_1 rfl, zero16_apply, zero_add]
  refine Finset.sum_congr rfl fun e _ => ?_
  rw [bcastCol_apply col e]
  refine if_congr Iff.rfl ?_ rfl
  show (Host.gather gather_S100000x16_S1700000x1_S1700000x16_1_0_n_n_0_1_116 h _ (ix2 e j) : EReal) * _ = _
  rw [Cert.LibGatherRows.host_gather_rows_apply gather_S100000x16_S1700000x1_S1700000x16_1_0_n_n_0_1_116_wf (by omega)
        gather_S100000x16_S1700000x1_S1700000x16_1_0_n_n_0_1_116 rfl, bcastRow16_apply, bcastCol_apply nrm e, bcastCol_apply (wrapIdx (F := Ideal) row) e]

/-! ## Source numbers in range: the wrap and the clamp are the identity -/

/-- A number that is not negative is left as it is by the wrap. -/
theorem wrapIdx_apply_of_nonneg (r : (⟨S1700000, .i32⟩ : BufTy).Contents (Elt Ideal)) (i : S1700000.Idx) (h0 : 0 ≤ (r i).toInt) : wrapIdx (F := Ideal) r i = r i := by
  have hs : (r i).slt 0#32 = false := by
    show decide ((r i).toInt < (0#32 : BitVec 32).toInt) = false
    exact decide_eq_false (by rw [show (0#32 : BitVec 32).toInt = 0 from by decide]; omega)
  show (if BitVec.ofBool ((r i).slt 0#32) = 1 then _ else r i) = r i
  rw [hs]; exact if_neg (by decide)

/-- The node a source number in `[0, 100000)` names. -/
def rowIx (row : (⟨S1700000, .i32⟩ : BufTy).Contents (Elt Ideal)) (hrow : ∀ e : Fin 1700000, 0 ≤ (row (ix1 e)).toInt ∧ (row (ix1 e)).toInt < 100000) (e : Fin 1700000) : Fin 100000 :=
  ⟨(row (ix1 e)).toInt.toNat, by have := hrow e; omega⟩

theorem clampRow_wrapIdx (row : (⟨S1700000, .i32⟩ : BufTy).Contents (Elt Ideal)) (hrow : ∀ e : Fin 1700000, 0 ≤ (row (ix1 e)).toInt ∧ (row (ix1 e)).toInt < 100000) (e : Fin 1700000) :
    clampRow 100000 (by omega) (wrapIdx (F := Ideal) row (ix1 e)) = rowIx row hrow e := by
  rw [wrapIdx_apply_of_nonneg row _ (hrow e).1]
  exact clampRow_of_toInt _ _ _ (by show (row (ix1 e)).toInt = (((row (ix1 e)).toInt.toNat : Nat) : Int); have := (hrow e).1; omega)

/-- THE FIRST LAYER AT `(n, j)`, source numbers in range: the larger of zero and the sum, over the edges whose target
    number is `n`, of row `rowIx e` of `h` at column `j` times the edge's weight. -/
theorem aggCore64_apply_inRange (h : (⟨S100000x64, .f32⟩ : BufTy).Contents (Elt Ideal)) (row col : (⟨S1700000, .i32⟩ : BufTy).Contents (Elt Ideal)) (nrm : (⟨S1700000, .f32⟩ : BufTy).Contents (Elt Ideal))
    (hrow : ∀ e : Fin 1700000, 0 ≤ (row (ix1 e)).toInt ∧ (row (ix1 e)).toInt < 100000) (n : Fin 100000) (j : Fin 64) :
    aggCore64 (F := Ideal) h row col nrm (ix2 n j)
      = max (∑ e : Fin 1700000, if (col (ix1 e)).toInt = (n.val : Int) then h (ix2 (rowIx row hrow e) j) * nrm (ix1 e) else 0) 0 := by
  rw [aggCore64_apply]; simp only [clampRow_wrapIdx row hrow]

/-- THE SECOND LAYER AT `(n, j)`, source numbers in range. -/
theorem aggCore16_apply_inRange (h : (⟨S100000x16, .f32⟩ : BufTy).Contents (Elt Ideal)) (row col : (⟨S1700000, .i32⟩ : BufTy).Contents (Elt Ideal)) (nrm : (⟨S1700000, .f32⟩ : BufTy).Contents (Elt Ideal))
    (hrow : ∀ e : Fin 1700000, 0 ≤ (row (ix1 e)).toInt ∧ (row (ix1 e)).toInt < 100000) (n : Fin 100000) (j : Fin 16) :
    aggCore16 (F := Ideal) h row col nrm (ix2 n j)
      = ∑ e : Fin 1700000, if (col (ix1 e)).toInt = (n.val : Int) then h (ix2 (rowIx row hrow e) j) * nrm (ix1 e) else 0 := by
  rw [aggCore16_apply]; simp only [clampRow_wrapIdx row hrow]

/-- THE FIRST LAYER OVER THE HOST STAGES AT `(n, j)`, the source numbers `rowOf a1` in range: the larger of zero and the sum, over
    the edges whose target number `colOf a1` is `n`, of the named row of `h` at column `j` times the edge's normalized weight. -/
theorem agg64_apply (h : (⟨S100000x64, .f32⟩ : BufTy).Contents (Elt Ideal)) (a1 : (⟨S2x1600000, .i32⟩ : BufTy).Contents (Elt Ideal)) (a2 : (⟨S1600000, .f32⟩ : BufTy).Contents (Elt Ideal)) (hrow : ∀ e : Fin 1700000, 0 ≤ (rowOf (F := Ideal) a1 (ix1 e)).toInt ∧ (rowOf (F := Ideal) a1 (ix1 e)).toInt < 100000) (n : Fin 100000) (j : Fin 64) :
    agg64 (F := Ideal) h a1 a2 (ix2 n j)
      = max (∑ e : Fin 1700000, if (colOf (F := Ideal) a1 (ix1 e)).toInt = (n.val : Int)
          then h (ix2 (rowIx (rowOf (F := Ideal) a1) hrow e) j) * normOf (F := Ideal) a1 a2 (ix1 e) else 0) 0 :=
  aggCore64_apply_inRange h (rowOf (F := Ideal) a1) (colOf (F := Ideal) a1) (normOf (F := Ideal) a1 a2) hrow n j

/-- THE SECOND LAYER OVER THE HOST STAGES AT `(n, j)`, the source numbers in range. -/
theorem agg16_apply (h : (⟨S100000x16, .f32⟩ : BufTy).Contents (Elt Ideal)) (a1 : (⟨S2x1600000, .i32⟩ : BufTy).Contents (Elt Ideal)) (a2 : (⟨S1600000, .f32⟩ : BufTy).Contents (Elt Ideal)) (hrow : ∀ e : Fin 1700000, 0 ≤ (rowOf (F := Ideal) a1 (ix1 e)).toInt ∧ (rowOf (F := Ideal) a1 (ix1 e)).toInt < 100000) (n : Fin 100000) (j : Fin 16) :
    agg16 (F := Ideal) h a1 a2 (ix2 n j)
      = ∑ e : Fin 1700000, if (colOf (F := Ideal) a1 (ix1 e)).toInt = (n.val : Int)
          then h (ix2 (rowIx (rowOf (F := Ideal) a1) hrow e) j) * normOf (F := Ideal) a1 a2 (ix1 e) else 0 :=
  aggCore16_apply_inRange h (rowOf (F := Ideal) a1) (colOf (F := Ideal) a1) (normOf (F := Ideal) a1 a2) hrow n j

/-- THE FIRST PRODUCT AT `(p, c)`: the sum over the 128 features. -/
theorem hid_apply (a0 : (⟨S100000x128, .f32⟩ : BufTy).Contents (Elt Ideal)) (a3 : (⟨S128x64, .f32⟩ : BufTy).Contents (Elt Ideal)) (p : Fin 100000) (c : Fin 64) :
    hid (F := Ideal) a0 a3 (ix2 p c) = ∑ k : Fin 128, a0 (ix2 p k) * a3 (ix2 k c) := by
  unfold hid
  simp only [Host.dotGeneral]
  exact Cert.LibPlainDot.Plain.dotGeneral_apply (D := dot_S100000x128_S128x64_S100000x64_1_0_0_1_n_n) ⟨rfl, rfl, rfl, rfl, rfl, rfl⟩ _ _ a0 a3 p c

/-- THE SECOND PRODUCT AT `(p, c)`: the sum over the 64 hidden columns. -/
theorem hid2_apply (g : (⟨S100000x64, .f32⟩ : BufTy).Contents (Elt Ideal)) (a4 : (⟨S64x16, .f32⟩ : BufTy).Contents (Elt Ideal)) (p : Fin 100000) (c : Fin 16) :
    hid2 (F := Ideal) g a4 (ix2 p c) = ∑ k : Fin 64, g (ix2 p k) * a4 (ix2 k c) := by
  unfold hid2
  simp only [Host.dotGeneral]
  exact Cert.LibPlainDot.Plain.dotGeneral_apply (D := dot_S100000x64_S64x16_S100000x16_1_0_0_1_n_n) ⟨rfl, rfl, rfl, rfl, rfl, rfl⟩ _ _ g a4 p c

end Cert.ReferenceIdeal.Hand

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.Ref.SpecRow.lean ====
/-
  The source numbers of the reference's edge list are node numbers.

  The edge list with self loops is the given edges' source row — the first row of the two-row edge array, sliced out and
  made one-axis — followed by the numbers 0 … 99999. An entry below 1600000 therefore reads the edge array's first row,
  an entry at or above it reads the word of a number below 100000. So when every given source number, read as a signed
  word, lies in `[0, 100000)`, every one of the 1700000 source numbers does.
-/
import proofs.«167680_j81389630259984_2_alg».proof.Proof.Ref.Fold
import proofs.«167680_j81389630259984_2_alg».proof.Proof.Ref.Read
import proofs.«167680_j81389630259984_2_alg».proof.Proof.LibJoinedRows
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Ideal
open scoped BigOperators

/-- A given edge's source number is the edge list's first row at that edge. -/
theorem rowOf_left (a1 : (⟨S2x1600000, .i32⟩ : BufTy).Contents (Elt Ideal)) (e : Fin 1700000) (he : e.val < 1600000) :
    rowOf (F := Ideal) a1 (ix1 e) = a1 (ix2 (0 : Fin 2) ⟨e.val, he⟩) := by
  unfold rowOf
  refine (Cert.LibJoinedRows.join_vec_left concatenates_S1600000_S100000_S1700000_d0 _ _ ⟨e.val, he⟩ e.isLt).trans ?_
  refine (Cert.ReferenceIdeal.ReadP.val_main_v2_apply (F := Ideal) a1 (ix1 ⟨e.val, he⟩)).trans ?_
  refine (Cert.ReferenceIdeal.ReadP.val_main_v1_apply (F := Ideal) a1 _).trans ?_
  exact congrArg a1 (funext fun a => Fin.ext (by
    match a with
    | ⟨0, _⟩ => rfl
    | ⟨1, _⟩ => exact Nat.mod_eq_of_lt he))

/-- A self loop's source number is the word of its node's number. -/
theorem rowOf_right (a1 : (⟨S2x1600000, .i32⟩ : BufTy).Contents (Elt Ideal)) (e : Fin 1700000) (he : 1600000 ≤ e.val) :
    rowOf (F := Ideal) a1 (ix1 e) = BitVec.ofNat 32 (e.val - 1600000) := by
  have hidx : ix1 e = ix1 (⟨1600000 + (e.val - 1600000), by have := e.isLt; omega⟩ : Fin 1700000) :=
    congrArg ix1 (Fin.ext (by show e.val = 1600000 + (e.val - 1600000); omega))
  rw [hidx]
  unfold rowOf
  exact (Cert.LibJoinedRows.join_vec_right concatenates_S1600000_S100000_S1700000_d0 _ _
    (⟨e.val - 1600000, by have := e.isLt; omega⟩ : Fin 100000) (by have := e.isLt; show 1600000 + (e.val - 1600000) < 1700000; omega)).trans rfl

/-- The word of a number below 100000, read signed, is that number. -/
theorem toInt_ofNat_of_lt (n : Nat) (hn : n < 100000) : (BitVec.ofNat 32 n).toInt = (n : Int) := by
  rw [BitVec.toInt_ofNat']
  unfold Int.bmod
  have : ((n : Int) % ((2 : Nat) ^ 32 : Nat)) = (n : Int) := Int.emod_eq_of_lt (by omega) (by push_cast; omega)
  simp only [this]
  split
  · rfl
  · rename_i hlt; exfalso; apply hlt; push_cast; omega

/-- THE SOURCE NUMBERS ARE IN RANGE when the given edges' are: the added self loops name the nodes 0 … 99999. -/
theorem rowOf_inRange (a1 : (⟨S2x1600000, .i32⟩ : BufTy).Contents (Elt Ideal))
    (ha : ∀ e : Fin 1600000, 0 ≤ (a1 (ix2 (0 : Fin 2) e)).toInt ∧ (a1 (ix2 (0 : Fin 2) e)).toInt < 100000) :
    ∀ e : Fin 1700000, 0 ≤ (rowOf (F := Ideal) a1 (ix1 e)).toInt ∧ (rowOf (F := Ideal) a1 (ix1 e)).toInt < 100000 := by
  intro e
  by_cases he : e.val < 1600000
  · rw [rowOf_left a1 e he]; exact ha ⟨e.val, he⟩
  · have hlt := e.isLt
    rw [rowOf_right a1 e (by omega), toInt_ofNat_of_lt (e.val - 1600000) (by omega)]
    constructor <;> omega

end Cert.ReferenceIdeal.Hand

end
-- ==== Proof.Ref.SpecWord.lean ====
/-
  A source word in `[0, 100000)`, read as a signed word, is the 32-bit word of the node it names.
-/
import proofs.«167680_j81389630259984_2_alg».proof.Proof.Ref.Spec
import proofs.«167680_j81389630259984_2_alg».proof.Proof.Ref.SpecRow
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Ideal
open scoped BigOperators

/-- A source word in range is the word of the node it names. -/
theorem word_eq_ofNat_rowIx (row : (⟨S1700000, .i32⟩ : BufTy).Contents (Elt Ideal)) (hrow : ∀ e : Fin 1700000, 0 ≤ (row (ix1 e)).toInt ∧ (row (ix1 e)).toInt < 100000) (e : Fin 1700000) :
    row (ix1 e) = BitVec.ofNat 32 (rowIx row hrow e).val := by
  refine BitVec.eq_of_toInt_eq ?_
  rw [toInt_ofNat_of_lt _ (rowIx row hrow e).isLt]
  show (row (ix1 e)).toInt = (((row (ix1 e)).toInt.toNat : Nat) : Int)
  have := (hrow e).1
  omega

end Cert.ReferenceIdeal.Hand

end
-- ==== Proof.KI.LayerBridge.lean ====
/-
  One graph layer in the kernel's arrangement and in the reference's.

  The kernel program multiplies by one-hot matrices built from the padded edge arrays: node `n` receives, over the 1703936
  padded edges whose column word is the word of `n`, the row of the node table picked by the row word's one-hot vector,
  scaled by the padded coefficient. The reference gathers and scatter-adds over the 1700000 edges. The padded arrays read,
  on the edges, the same stage functions the reference uses, and past them a column word that names no node; so the two
  sums are equal, with the source numbers in range, and the reference's layers are the kernel's arrangement.
-/
import proofs.«167680_j81389630259984_2_alg».proof.Proof.LibGraphAgg
import proofs.«167680_j81389630259984_2_alg».proof.Proof.KI.HostPad
import proofs.«167680_j81389630259984_2_alg».proof.Proof.KI.HostRef
import proofs.«167680_j81389630259984_2_alg».proof.Proof.Ref.Spec
import proofs.«167680_j81389630259984_2_alg».proof.Proof.Ref.SpecWord

set_option maxRecDepth 16384

noncomputable section

namespace Cert.LayerBridge

open Idealize.ShloMosaic Idealize.ShloMosaic.ValueIdx LibOneHot
open Cert.KernelIdeal.Hand (padRow padCol padNorm rowOfK colOfK normOfK padRow_castAdd padCol_castAdd padCol_natAdd padNorm_castAdd)
open Cert.ReferenceIdeal.Hand (rowOf colOf normOf rowIx agg64 agg16 agg64_apply agg16_apply word_eq_ofNat_rowIx)
open Cert.HostRef
open scoped BigOperators

/-- THE TWO ARRANGEMENTS OF A LAYER'S SUM, for a node table of any number of columns. -/
theorem layer_onehot {C : Nat} (a1 : IVec ⟨2, ![2, 1600000]⟩ 32) (a2 : FVec Ideal ⟨1, ![1600000]⟩ .f32)
    (hrow : ∀ e : Fin 1700000, 0 ≤ (rowOf (F := Ideal) a1 (ix1 e)).toInt ∧ (rowOf (F := Ideal) a1 (ix1 e)).toInt < 100000)
    (tbl : (⟨2, ![100000, C]⟩ : Shape).Idx → EReal) (n : Fin 100000) (j : Fin C) :
    ∑ e : Fin (1700000 + 3936), ind (padCol (colOfK a1) (ix2 (0 : Fin 1) e) = BitVec.ofNat 32 n.val)
        * ((∑ n' : Fin 100000, ind (padRow (rowOfK a1) (ix2 (0 : Fin 1) e) = BitVec.ofNat 32 n'.val) * tbl (ix2 n' j))
            * padNorm (normOfK a1 a2) (ix2 e (0 : Fin 1)))
      = ∑ e : Fin 1700000, if (colOf (F := Ideal) a1 (ix1 e)).toInt = (n.val : Int)
          then tbl (ix2 (rowIx (rowOf (F := Ideal) a1) hrow e) j) * normOf (F := Ideal) a1 a2 (ix1 e) else 0 :=
  LibGraphAgg.layer_eq (N := 100000) (E := 1700000) (P := 3936) (C := C) (by norm_num)
    (fun e => padRow (rowOfK a1) (ix2 (0 : Fin 1) e)) (fun e => padCol (colOfK a1) (ix2 (0 : Fin 1) e))
    (fun e => padNorm (normOfK a1 a2) (ix2 e (0 : Fin 1)))
    (rowIx (rowOf (F := Ideal) a1) hrow) (fun e => colOf (F := Ideal) a1 (ix1 e)) (fun e => normOf (F := Ideal) a1 a2 (ix1 e))
    (fun e => by
      show padRow (rowOfK a1) (ix2 (0 : Fin 1) (Fin.castAdd 3936 e)) = _
      rw [padRow_castAdd, rowOfK_eq]; exact word_eq_ofNat_rowIx _ hrow e)
    (fun e => by
      show padCol (colOfK a1) (ix2 (0 : Fin 1) (Fin.castAdd 3936 e)) = _
      rw [padCol_castAdd, colOfK_eq])
    (fun e => by
      show padNorm (normOfK a1 a2) (ix2 (Fin.castAdd 3936 e) (0 : Fin 1)) = _
      rw [padNorm_castAdd, normOfK_eq])
    (fun p => padCol_natAdd (colOfK a1) p)
    (fun n' j' => tbl (ix2 n' j')) n j

/-- The same with the padded edges numbered 0 … 1703935. -/
theorem layer_onehot' {C : Nat} (a1 : IVec ⟨2, ![2, 1600000]⟩ 32) (a2 : FVec Ideal ⟨1, ![1600000]⟩ .f32)
    (hrow : ∀ e : Fin 1700000, 0 ≤ (rowOf (F := Ideal) a1 (ix1 e)).toInt ∧ (rowOf (F := Ideal) a1 (ix1 e)).toInt < 100000)
    (tbl : (⟨2, ![100000, C]⟩ : Shape).Idx → EReal) (n : Fin 100000) (j : Fin C) :
    ∑ e : Fin 1703936, ind (padCol (colOfK a1) (ix2 (0 : Fin 1) e) = BitVec.ofNat 32 n.val)
        * ((∑ n' : Fin 100000, ind (padRow (rowOfK a1) (ix2 (0 : Fin 1) e) = BitVec.ofNat 32 n'.val) * tbl (ix2 n' j)) * padNorm (normOfK a1 a2) (ix2 e (0 : Fin 1)))
      = ∑ e : Fin 1700000, if (colOf (F := Ideal) a1 (ix1 e)).toInt = (n.val : Int)
          then tbl (ix2 (rowIx (rowOf (F := Ideal) a1) hrow e) j) * normOf (F := Ideal) a1 a2 (ix1 e) else 0 :=
  layer_onehot a1 a2 hrow tbl n j

/-- The reference's first layer at `(n, j)` is the larger of zero and the kernel's arrangement of the sum. -/
theorem agg64_eq_onehot (tbl : FVec Ideal ⟨2, ![100000, 64]⟩ .f32) (a1 : IVec ⟨2, ![2, 1600000]⟩ 32) (a2 : FVec Ideal ⟨1, ![1600000]⟩ .f32)
    (hrow : ∀ e : Fin 1700000, 0 ≤ (rowOf (F := Ideal) a1 (ix1 e)).toInt ∧ (rowOf (F := Ideal) a1 (ix1 e)).toInt < 100000) (n : Fin 100000) (j : Fin 64) :
    agg64 (F := Ideal) tbl a1 a2 (ix2 n j) = max (∑ e : Fin 1703936, ind (padCol (colOfK a1) (ix2 (0 : Fin 1) e) = BitVec.ofNat 32 n.val)
        * ((∑ n' : Fin 100000, ind (padRow (rowOfK a1) (ix2 (0 : Fin 1) e) = BitVec.ofNat 32 n'.val) * tbl (ix2 n' j)) * padNorm (normOfK a1 a2) (ix2 e (0 : Fin 1)))) 0 :=
  (agg64_apply tbl a1 a2 hrow n j).trans (congrArg (fun s => max s 0) (layer_onehot' a1 a2 hrow tbl n j).symm)

/-- The reference's second layer at `(n, j)` is the kernel's arrangement of the sum. -/
theorem agg16_eq_onehot (tbl : FVec Ideal ⟨2, ![100000, 16]⟩ .f32) (a1 : IVec ⟨2, ![2, 1600000]⟩ 32) (a2 : FVec Ideal ⟨1, ![1600000]⟩ .f32)
    (hrow : ∀ e : Fin 1700000, 0 ≤ (rowOf (F := Ideal) a1 (ix1 e)).toInt ∧ (rowOf (F := Ideal) a1 (ix1 e)).toInt < 100000) (n : Fin 100000) (j : Fin 16) :
    agg16 (F := Ideal) tbl a1 a2 (ix2 n j) = ∑ e : Fin 1703936, ind (padCol (colOfK a1) (ix2 (0 : Fin 1) e) = BitVec.ofNat 32 n.val)
        * ((∑ n' : Fin 100000, ind (padRow (rowOfK a1) (ix2 (0 : Fin 1) e) = BitVec.ofNat 32 n'.val) * tbl (ix2 n' j)) * padNorm (normOfK a1 a2) (ix2 e (0 : Fin 1))) :=
  (agg16_apply tbl a1 a2 hrow n j).trans (layer_onehot' a1 a2 hrow tbl n j).symm

end Cert.LayerBridge

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.Ref.SpecLsm.lean ====
/-
  The reference's row-wise log-softmax, read entry by entry over the extended reals.

  From minus infinity the maximum along a row is the supremum of the row's entries; the entries are shifted by it; the
  result at `(i, j)` is the shifted entry minus the logarithm of zero plus the sum over the row of the exponentials of the
  shifted entries.
-/
import proofs.«167680_j81389630259984_2_alg».proof.Proof.Ref.Fold
import proofs.«167680_j81389630259984_2_alg».proof.Proof.LibRowMax
import Idealize.ShloMosaic.PureOps.Ideal.Laws
import Idealize.ShloMosaic.Lib.ValueIdx
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.Ideal
open scoped BigOperators

/-- The maximum along the 16 columns from minus infinity, read at row `i`: the supremum of the row. -/
theorem rowMax16_apply (x : FVec Ideal S100000x16 .f32) (i : Fin 100000) :
    Host.reduce (FloatOps.maximumf (F := Ideal) (φ := .f32)) x (constant (F := Ideal) S_ .f32 0xFF800000#32) reducesTo_S100000x16_S100000_d1 h_S_ (ix1 i)
      = Finset.univ.sup fun k : Fin 16 => x (ix2 i k) := by
  have hR : S100000x16.Reduces [1] S100000 := by decide
  refine (Host.reduce_eq_fold_single (FloatOps.maximumf (F := Ideal) (φ := .f32)) x _ reducesTo_S100000x16_S100000_d1 hR h_S_ (ix1 i)).trans ?_
  have hf : (x ∘ hR.lift (ix1 i)) = fun k : Fin 16 => x (ix2 i k) :=
    funext fun k => congrArg x (funext fun ax => Fin.ext (by
      match ax with
      | ⟨0, _⟩ => rfl
      | ⟨1, _⟩ => rfl))
  rw [hf, constant_apply, Cert.LibRowMax.ofBits_neg_inf_f32]
  exact Cert.LibRowMax.fold_max_bot_eq_sup _ _

/-- THE ROW MAXIMUM AT ROW `i`: the supremum of the row's 16 entries. -/
theorem lsmMax_apply (z : (⟨S100000x16, .f32⟩ : BufTy).Contents (Elt Ideal)) (i : Fin 100000) :
    lsmMax (F := Ideal) z (ix1 i) = Finset.univ.sup fun k : Fin 16 => z (ix2 i k) := by
  unfold lsmMax
  rw [maximumf_apply, broadcastInDim_apply _ bcast_S_S100000 _ (ix1 i) (fun a => a.elim0) (fun a => a.elim0), constant_apply,
    Cert.LibRowMax.ofBits_neg_inf_f32]
  exact (max_bot_left _).trans (rowMax16_apply z i)

/-- A one-column copy of a vector of node values, read at row `i`. -/
theorem bcastColN_apply {α : Type} (x : S100000.Idx → α) (i : Fin 100000) :
    broadcastInDim S100000x1 ![0] bcast_S100000_S100000x1_0 x (ix2 i ⟨0, Nat.one_pos⟩) = x (ix1 i) :=
  broadcastInDim_apply _ bcast_S100000_S100000x1_0 x _ (ix1 i) (fun a => match a with
    | ⟨0, _⟩ => by show i.val = if (100000 : Nat) = 1 then 0 else i.val; rw [if_neg (by decide)])

/-- A one-column array spread over 16 columns, read at `(i, j)`. -/
theorem bcastRowN16_apply {α : Type} (x : S100000x1.Idx → α) (i : Fin 100000) (j : Fin 16) :
    broadcastInDim S100000x16 ![0, 1] bcast_S100000x1_S100000x16_0_1 x (ix2 i j) = x (ix2 i ⟨0, Nat.one_pos⟩) :=
  broadcastInDim_apply _ bcast_S100000x1_S100000x16_0_1 x _ (ix2 i ⟨0, Nat.one_pos⟩) (fun a => match a with
    | ⟨0, _⟩ => by show i.val = if (100000 : Nat) = 1 then 0 else i.val; rw [if_neg (by decide)]
    | ⟨1, _⟩ => by show 0 = if (1 : Nat) = 1 then 0 else j.val; rw [if_pos rfl])

/-- The host's logarithm and exponential read at an entry. -/
theorem hostLog_at {s : Shape} (v : FVec Ideal s .f32) (i : s.Idx) : Host.log v i = Ideal.log (v i) := rfl
theorem hostExp_at {s : Shape} (v : FVec Ideal s .f32) (i : s.Idx) : Host.exp v i = Ideal.exp (v i) := rfl

/-- The sum along the 16 columns from zero, read at row `i`. -/
theorem rowSum16_apply (x : FVec Ideal S100000x16 .f32) (i : Fin 100000) :
    Host.reduceAdd x (constant (F := Ideal) S_ .f32 0x00000000#32) reducesTo_S100000x16_S100000_d1 h_S_ (ix1 i)
      = 0 + ∑ k : Fin 16, x (ix2 i k) := by
  simp only [Host.reduceAdd, Ideal.hostReduceAdd_def]
  rw [Ideal.hostReduceAdd_single reducesTo_S100000x16_S100000_d1 (by decide), constant_apply, Ideal.ofBits_zero_f32]
  exact congrArg (0 + ·) (Finset.sum_congr rfl fun k _ => congrArg x (funext fun a => Fin.ext (by match a with | ⟨0, _⟩ => rfl | ⟨1, _⟩ => rfl)))

/-- The shift at `(i, j)`: the entry minus the row's value. -/
theorem lsmSub_apply (z : (⟨S100000x16, .f32⟩ : BufTy).Contents (Elt Ideal)) (mx : (⟨S100000, .f32⟩ : BufTy).Contents (Elt Ideal)) (i : Fin 100000) (j : Fin 16) :
    lsmSub (F := Ideal) z mx (ix2 i j) = z (ix2 i j) - mx (ix1 i) := by
  unfold lsmSub
  rw [subf_apply, bcastRowN16_apply, bcastColN_apply]

/-- The tail at `(i, j)`: the entry minus the logarithm of zero plus the row's sum of exponentials. -/
theorem lsmTail_apply (s : (⟨S100000x16, .f32⟩ : BufTy).Contents (Elt Ideal)) (i : Fin 100000) (j : Fin 16) :
    lsmTail (F := Ideal) s (ix2 i j) = s (ix2 i j) - Ideal.log (0 + ∑ k : Fin 16, Ideal.exp (s (ix2 i k))) := by
  unfold lsmTail
  rw [subf_apply, bcastRowN16_apply, hostLog_at, bcastColN_apply, rowSum16_apply]
  simp only [hostExp_at]

/-- THE LOG-SOFTMAX AT `(i, j)`: with `M` the supremum of row `i`, the entry minus `M` minus the logarithm of the sum over the
    row of the exponentials of the entries minus `M`. -/
theorem lsm_apply (z : (⟨S100000x16, .f32⟩ : BufTy).Contents (Elt Ideal)) (i : Fin 100000) (j : Fin 16) :
    lsm (F := Ideal) z (ix2 i j)
      = (z (ix2 i j) - Finset.univ.sup fun k : Fin 16 => z (ix2 i k))
          - Ideal.log (0 + ∑ k : Fin 16, Ideal.exp (z (ix2 i k) - Finset.univ.sup fun k' : Fin 16 => z (ix2 i k'))) := by
  rw [lsm_eq, lsmTail_apply]
  simp only [lsmSub_apply, lsmMax_apply]

end Cert.ReferenceIdeal.Hand

end
-- ==== Proof.KI.Bridge.lean ====
/-
  From what the six regions leave to the reference's result.

  Stated over hypotheses: six arrays, each given entry by entry in the arrangement its region computes it in — the two
  matrix products as sums over the contracted axis, the two gathers as one-hot selections of a row by the padded row word,
  the first scatter as the larger of zero and the one-hot sum over the padded edges, the last as the row-wise log-softmax of
  that sum with 16 columns. With the given edges' source numbers in `[0, 100000)`, the last array is the reference's
  result, entry by entry.
-/
import proofs.«167680_j81389630259984_2_alg».proof.Proof.KI.LayerBridge
import proofs.«167680_j81389630259984_2_alg».proof.Proof.Ref.SpecLsm
import proofs.«167680_j81389630259984_2_alg».proof.Proof.Ref.SpecRow

set_option maxRecDepth 16384

noncomputable section

namespace Cert.LayerBridge

open Idealize.ShloMosaic Idealize.ShloMosaic.ValueIdx LibOneHot
open Cert.KernelIdeal.Hand (padRow padCol padNorm rowOfK colOfK normOfK)
open Cert.ReferenceIdeal.Hand (rowOf RefOut hid hid2 agg64 agg16 lsm hid_apply hid2_apply lsm_apply rowOf_inRange)
open scoped BigOperators

/-- THE RESULT: under the six readings of the regions' arrays, the last array is the reference's result. -/
theorem out_eq_RefOut
    (a0 : (⟨2, ![100000, 128]⟩ : Shape).Idx → EReal) (a1 : IVec ⟨2, ![2, 1600000]⟩ 32) (a2 : FVec Ideal ⟨1, ![1600000]⟩ .f32)
    (a3 : (⟨2, ![128, 64]⟩ : Shape).Idx → EReal) (a4 : (⟨2, ![64, 16]⟩ : Shape).Idx → EReal)
    (h1 h1agg : (⟨2, ![100000, 64]⟩ : Shape).Idx → EReal) (g1 : (⟨2, ![1703936, 64]⟩ : Shape).Idx → EReal) (h2 out : (⟨2, ![100000, 16]⟩ : Shape).Idx → EReal) (g2 : (⟨2, ![1703936, 16]⟩ : Shape).Idx → EReal)
    (ha : ∀ e : Fin 1600000, 0 ≤ (a1 (ix2 (0 : Fin 2) e)).toInt ∧ (a1 (ix2 (0 : Fin 2) e)).toInt < 100000)
    (H1 : ∀ (p : Fin 100000) (c : Fin 64), h1 (ix2 p c) = ∑ k : Fin 128, a0 (ix2 p k) * a3 (ix2 k c))
    (G1 : ∀ (e : Fin 1703936) (j : Fin 64), g1 (ix2 e j) = (∑ n' : Fin 100000, ind (padRow (rowOfK a1) (ix2 (0 : Fin 1) e) = BitVec.ofNat 32 n'.val) * h1 (ix2 n' j)))
    (A1 : ∀ (n : Fin 100000) (j : Fin 64), h1agg (ix2 n j) = max (∑ e : Fin 1703936, ind (padCol (colOfK a1) (ix2 (0 : Fin 1) e) = BitVec.ofNat 32 n.val)
        * (g1 (ix2 e j) * padNorm (normOfK a1 a2) (ix2 e (0 : Fin 1)))) 0)
    (H2 : ∀ (p : Fin 100000) (c : Fin 16), h2 (ix2 p c) = ∑ k : Fin 64, h1agg (ix2 p k) * a4 (ix2 k c))
    (G2 : ∀ (e : Fin 1703936) (j : Fin 16), g2 (ix2 e j) = (∑ n' : Fin 100000, ind (padRow (rowOfK a1) (ix2 (0 : Fin 1) e) = BitVec.ofNat 32 n'.val) * h2 (ix2 n' j)))
    (OUT : ∀ (i : Fin 100000) (j : Fin 16), out (ix2 i j)
      = ((∑ e : Fin 1703936, ind (padCol (colOfK a1) (ix2 (0 : Fin 1) e) = BitVec.ofNat 32 i.val)
        * (g2 (ix2 e j) * padNorm (normOfK a1 a2) (ix2 e (0 : Fin 1)))) - Finset.univ.sup fun k : Fin 16 => (∑ e : Fin 1703936, ind (padCol (colOfK a1) (ix2 (0 : Fin 1) e) = BitVec.ofNat 32 i.val)
        * (g2 (ix2 e k) * padNorm (normOfK a1 a2) (ix2 e (0 : Fin 1)))))
          - Ideal.log (∑ k : Fin 16, Ideal.exp ((∑ e : Fin 1703936, ind (padCol (colOfK a1) (ix2 (0 : Fin 1) e) = BitVec.ofNat 32 i.val)
        * (g2 (ix2 e k) * padNorm (normOfK a1 a2) (ix2 e (0 : Fin 1)))) - Finset.univ.sup fun k' : Fin 16 => (∑ e : Fin 1703936, ind (padCol (colOfK a1) (ix2 (0 : Fin 1) e) = BitVec.ofNat 32 i.val)
        * (g2 (ix2 e k') * padNorm (normOfK a1 a2) (ix2 e (0 : Fin 1))))))) :
    ∀ (i : Fin 100000) (j : Fin 16), out (ix2 i j) = RefOut (F := Ideal) a0 a1 a2 a3 a4 (ix2 i j) := by
  have hrow := rowOf_inRange a1 ha
  have e1 : h1 = hid (F := Ideal) a0 a3 := funext fun i => by
    obtain ⟨p, c, rfl⟩ : ∃ p c, i = ix2 p c := ⟨i 0, i 1, eq_ix2 i⟩
    rw [H1, hid_apply]
  have e2 : h1agg = agg64 (F := Ideal) h1 a1 a2 := funext fun i => by
    obtain ⟨n, j, rfl⟩ : ∃ n j, i = ix2 n j := ⟨i 0, i 1, eq_ix2 i⟩
    rw [A1, agg64_eq_onehot h1 a1 a2 hrow n j]
    simp only [G1]
  have e3 : h2 = hid2 (F := Ideal) h1agg a4 := funext fun i => by
    obtain ⟨p, c, rfl⟩ : ∃ p c, i = ix2 p c := ⟨i 0, i 1, eq_ix2 i⟩
    rw [H2, hid2_apply]
  intro i j
  rw [OUT]
  show _ = lsm (F := Ideal) (agg16 (F := Ideal) (hid2 (F := Ideal) (agg64 (F := Ideal) (hid (F := Ideal) a0 a3) a1 a2) a4) a1 a2) (ix2 i j)
  rw [lsm_apply, zero_add, ← e1, ← e2, ← e3]
  simp only [agg16_eq_onehot h2 a1 a2 hrow, G2]

end Cert.LayerBridge

end
-- ==== Proof.KI.Final.lean ====
/-
  The kernel program's result array is the reference's result.

  The six regions run in order; each leaves its output array as a function of what it finds at entry. The two matrix
  products are read entry by entry; the two gathers, the first scatter and the last scatter with its log-softmax are
  taken here as hypotheses in the arrangement they compute in, over any contents at the region's entry. What a region
  finds is an earlier region's output or one of the three padded edge arrays the host operations leave, which are the
  paddings of the stage functions of the edge list. With the given edges' source numbers in `[0, 100000)`, the last
  region's output array is the reference's result of the five arguments.
-/
import proofs.«167680_j81389630259984_2_alg».proof.Proof.KI.Chain
import proofs.«167680_j81389630259984_2_alg».proof.Proof.KI.Val0
import proofs.«167680_j81389630259984_2_alg».proof.Proof.KI.Val3
import proofs.«167680_j81389630259984_2_alg».proof.Proof.KI.Bridge

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem LibOneHot
open Idealize.ShloMosaic.Pipeline (Dat)
open scoped BigOperators

section Final

/-- A float buffer read as a function into the extended reals, and an index buffer read as a function into words. -/
abbrev asF (s : Shape) (x : FVec Ideal s .f32) : s.Idx → EReal := x
abbrev asI (s : Shape) (x : IVec s 32) : s.Idx → BitVec 32 := x

variable (m : (ℓ : Loc nD τ sig) → Buf (Elt Ideal) ℓ) (ρ : Dev nD → PrngReg)

/-- What the host operations leave in the three padded edge arrays. -/
theorem V3_v37 (c : Dev nD) : V3 m ρ c main_v37 = padRow (rowOfK (m ((c : Thread nD τ).loc main_arg1))) := host_v37 (W0 m ρ c)
theorem V3_v38 (c : Dev nD) : V3 m ρ c main_v38 = padCol (colOfK (m ((c : Thread nD τ).loc main_arg1))) := host_v38 (W0 m ρ c)
theorem V3_v39 (c : Dev nD) : V3 m ρ c main_v39 = padNorm (normOfK (m ((c : Thread nD τ).loc main_arg1)) (m ((c : Thread nD τ).loc main_arg2))) := host_v39 (W0 m ρ c)

set_option maxHeartbeats 4000000 in
/-- THE KERNEL'S RESULT ARRAY IS THE REFERENCE'S RESULT, given the four region values still to be read. -/
theorem final_value
    (hVal1 : ∀ (V : (c : Dev nD) → (b : Ref sig .tc) → Buf (Elt Ideal) ((c : Thread nD τ).loc b)) (c : Dev nD) (e : Fin 1703936) (j : Fin 64),
      asF S1703936x64 ((dat1 (F := Ideal) V c).arrAt 2 cfg1.N) (ix2 e j)
        = ∑ n' : Fin 100000, ind (asI S1x1703936 (V c main_v37) (ix2 (0 : Fin 1) e) = BitVec.ofNat 32 n'.val) * asF S100000x64 (V c main_v40) (ix2 n' j))
    (hVal2 : ∀ (V : (c : Dev nD) → (b : Ref sig .tc) → Buf (Elt Ideal) ((c : Thread nD τ).loc b)) (c : Dev nD) (n : Fin 100000) (j : Fin 64),
      asF S100000x64 ((dat2 (F := Ideal) V c).arrAt 3 cfg2.N) (ix2 n j) = max (∑ e : Fin 1703936, ind (asI S1x1703936 (V c main_v38) (ix2 (0 : Fin 1) e) = BitVec.ofNat 32 n.val) * (asF S1703936x64 (V c main_v41) (ix2 e j) * asF S1703936x1 (V c main_v39) (ix2 e (0 : Fin 1)))) 0)
    (hVal4 : ∀ (V : (c : Dev nD) → (b : Ref sig .tc) → Buf (Elt Ideal) ((c : Thread nD τ).loc b)) (c : Dev nD) (e : Fin 1703936) (j : Fin 16),
      asF S1703936x16 ((dat4 (F := Ideal) V c).arrAt 2 cfg4.N) (ix2 e j)
        = ∑ n' : Fin 100000, ind (asI S1x1703936 (V c main_v37) (ix2 (0 : Fin 1) e) = BitVec.ofNat 32 n'.val) * asF S100000x16 (V c main_v43) (ix2 n' j))
    (hVal5 : ∀ (V : (c : Dev nD) → (b : Ref sig .tc) → Buf (Elt Ideal) ((c : Thread nD τ).loc b)) (c : Dev nD) (i : Fin 100000) (j : Fin 16),
      asF S100000x16 ((dat5 (F := Ideal) V c).arrAt 3 cfg5.N) (ix2 i j)
        = ((∑ e : Fin 1703936, ind (asI S1x1703936 (V c main_v38) (ix2 (0 : Fin 1) e) = BitVec.ofNat 32 i.val) * (asF S1703936x16 (V c main_v44) (ix2 e j) * asF S1703936x1 (V c main_v39) (ix2 e (0 : Fin 1)))) - Finset.univ.sup fun k : Fin 16 => (∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))))
            - Ideal.log (∑ k : Fin 16, Ideal.exp ((∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))) - Finset.univ.sup fun k' : Fin 16 => (∑ e : Fin 1703936, ind (asI S1x1703936 (V c main_v38) (ix2 (0 : Fin 1) e) = BitVec.ofNat 32 i.val) * (asF S1703936x16 (V c main_v44) (ix2 e k') * asF S1703936x1 (V c main_v39) (ix2 e (0 : Fin 1)))))))
    (c : Dev nD)
    (ha : ∀ e : Fin 1600000, 0 ≤ ((asI S2x1600000 (m ((c : Thread nD τ).loc main_arg1))) (ix2 (0 : Fin 2) e)).toInt ∧ ((asI S2x1600000 (m ((c : Thread nD τ).loc main_arg1))) (ix2 (0 : Fin 2) e)).toInt < 100000) :
    asF S100000x16 ((dat5 (F := Ideal) (V8 m ρ) c).arrAt 3 cfg5.N)
      = Cert.ReferenceIdeal.Hand.RefOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨p, q, rfl⟩ : ∃ p q, i = ix2 p q := ⟨i 0, i 1, eq_ix2 i⟩
  refine Cert.LayerBridge.out_eq_RefOut (asF S100000x128 (m ((c : Thread nD τ).loc main_arg0))) (asI S2x1600000 (m ((c : Thread nD τ).loc main_arg1))) (asF S1600000 (m ((c : Thread nD τ).loc main_arg2))) (asF S128x64 (m ((c : Thread nD τ).loc main_arg3))) (asF S64x16 (m ((c : Thread nD τ).loc main_arg4)))
    (asF S100000x64 ((dat0 (F := Ideal) (V3 m ρ) c).arrAt 2 cfg0.N)) (asF S100000x64 ((dat2 (F := Ideal) (V5 m ρ) c).arrAt 3 cfg2.N))
    (asF S1703936x64 ((dat1 (F := Ideal) (V4 m ρ) c).arrAt 2 cfg1.N)) (asF S100000x16 ((dat3 (F := Ideal) (V6 m ρ) c).arrAt 2 cfg3.N))
    (asF S100000x16 ((dat5 (F := Ideal) (V8 m ρ) c).arrAt 3 cfg5.N)) (asF S1703936x16 ((dat4 (F := Ideal) (V7 m ρ) c).arrAt 2 cfg4.N))
    ha ?H1 ?G1 ?A1 ?H2 ?G2 ?OUT p q
  case H1 =>
    intro p' c'
    show (dat0 (F := Ideal) (V3 m ρ) c).arrAt 2 cfg0.N (ix2 p' c') = _
    rw [final0 (V3 m ρ) c p' c', matProd0_apply, V3_arg0 m ρ c, V3_arg3 m ρ c]
  case G1 =>
    intro e j
    rw [hVal1 (V4 m ρ) c e j, V4_v37 m ρ c, V3_v37 m ρ c, V4_v40 m ρ c]
  case A1 =>
    intro n j
    rw [hVal2 (V5 m ρ) c n j, V5_v38 m ρ c, V3_v38 m ρ c, V5_v39 m ρ c, V3_v39 m ρ c, V5_v41 m ρ c]
  case H2 =>
    intro p' c'
    show (dat3 (F := Ideal) (V6 m ρ) c).arrAt 2 cfg3.N (ix2 p' c') = _
    rw [final3 (V6 m ρ) c p' c', matProd3_apply, V6_v42 m ρ c, V6_arg4 m ρ c]
  case G2 =>
    intro e j
    rw [hVal4 (V7 m ρ) c e j, V7_v37 m ρ c, V3_v37 m ρ c, V7_v43 m ρ c]
  case OUT =>
    intro i j
    rw [hVal5 (V8 m ρ) c i j, V8_v38 m ρ c, V3_v38 m ρ c, V8_v39 m ρ c, V3_v39 m ρ c, V8_v44 m ρ c]

end Final

end Cert.KernelIdeal.Hand

end
-- ==== Proof.KI.Acc1.lean ====
import proofs.«167680_j81389630259984_2_alg».proof.Proof.KI.R1
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

/-! # REGION 1, towards the value, at any number format: what each point leaves in the accumulator and in the output's staging
    buffer, the accumulator as a chain of the body's sum payload, and the windows' blocks from the point's number -/

theorem hz1 : (![0, 0] : Fin 2 → Nat) = fun _ => 0 := funext fun a => by fin_cases a <;> rfl

/-- A middle point of a group leaves in the accumulator, found at `xs0`, the body's sum payload of the two input blocks over `xs0`:
    its one covering store's payload, whose loads read the whole buffers. -/
theorem sout1_B_0_eq (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : ¬cond1_1 i)
    (x0 : Vec F S1x4096 .i32) (x1 : Vec F S2000x64 .f32) (xs0 : Vec F S4096x64 .f32) :
    sout1_B_0 c i arg2 harg2 arg3 harg3 arg4 harg4 arg5 harg5 hc0 hc1 x0 x1 xs0 = k1_pay2 i x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz1]
  simp only [View.readAt_eq_ld, harg2.read_unread, harg3.read_unread, harg5.read_unread, View.ld_unit_zero (S := S1x4096) hz1, View.ld_unit_zero (S := S2000x64) hz1, View.ld_unit_zero (S := S4096x64) hz1]

/-- The last point of a group leaves the same in the accumulator, -/
theorem sout1_C_0_eq (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) :
    sout1_C_0 c i arg2 harg2 arg3 harg3 arg4 harg4 arg5 harg5 hc0 hc1 x0 x1 xs0 = k1_pay2 i x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz1]
  simp only [View.readAt_eq_ld, harg2.read_unread, harg3.read_unread, harg5.read_unread, View.ld_unit_zero (S := S1x4096) hz1, View.ld_unit_zero (S := S2000x64) hz1, View.ld_unit_zero (S := S4096x64) hz1]

/-- and stores what it has just left in the accumulator, read back, into the output's staging buffer. -/
theorem out1_C_2_eq (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (hc1 : cond1_1 i)
    (x0 : Vec F S1x4096 .i32) (x1 : Vec F S2000x64 .f32) (xs0 : Vec F S4096x64 .f32) :
    out1_C_2 c i arg2 harg2 arg3 harg3 arg4 harg4 arg5 harg5 hc0 hc1 x0 x1 xs0 = k1_pay2 i x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz1, View.readCov_unit_zero (S := S4096x64) _ hz1]
  simp only [View.readAt_eq_ld, harg2.read_unread, harg3.read_unread, harg5.read_unread, View.ld_unit_zero (S := S1x4096) hz1, View.ld_unit_zero (S := S2000x64) hz1, View.ld_unit_zero (S := S4096x64) hz1]

/-- The first point of a group stores the zero block into the accumulator, reads it back, and leaves the sum payload over it. -/
theorem sout1_A_0_eq (c : Dev nD) (i : grid1.Coords) (arg2 : Memref sig .tc .vmem S1x4096 .i32) (harg2 : arg2.IsWhole) (arg3 : Memref sig .tc .vmem S2000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (hc1 : ¬cond1_1 i)
    (x0 : Vec F S1x4096 .i32) (x1 : Vec F S2000x64 .f32) :
    sout1_A_0 c i arg2 harg2 arg3 harg3 arg4 harg4 arg5 harg5 hc0 hc1 x0 x1 = k1_pay2 i x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S4096x64) hz1, View.readCov_unit_zero (S := S4096x64) _ hz1]
  simp only [View.readAt_eq_ld, harg2.read_unread, harg3.read_unread, harg5.read_unread, View.ld_unit_zero (S := S1x4096) hz1, View.ld_unit_zero (S := S2000x64) hz1, View.ld_unit_zero (S := S4096x64) hz1]

-- from here on the pieces are used only through the four lemmas above
attribute [local irreducible] sout1_A_0 sout1_B_0 sout1_C_0 out1_A_2 out1_B_2 out1_C_2

variable (V : (c : Dev nD) → (b : Ref sig .tc) → Buf (Elt F) ((c : Thread nD τ).loc b))

/-! ## The accumulator after each point, as a chain of the body's sum payload -/

/-- The accumulator after position `n`: at the first point of a group the sum payload of the point's two input blocks over the
    zero block; at any other point the sum payload of the point's two input blocks over what the point before left. -/
def acc1 (c : Dev nD) : (n : ℕ) → n < cfg1.N → Vec F S4096x64 .f32
  | 0, h => k1_pay2 (grid1.coords ⟨0, h⟩) (iblk1 V c 0 ⟨0, h⟩) (iblk1 V c 1 ⟨0, h⟩) (k1_pay1 (F := F))
  | n + 1, h =>
    if (n + 1) % 50 = 0 then
      k1_pay2 (grid1.coords ⟨n + 1, h⟩) (iblk1 V c 0 ⟨n + 1, h⟩) (iblk1 V c 1 ⟨n + 1, h⟩) (k1_pay1 (F := F))
    else
      k1_pay2 (grid1.coords ⟨n + 1, h⟩) (iblk1 V c 0 ⟨n + 1, h⟩) (iblk1 V c 1 ⟨n + 1, h⟩) (acc1 c n (Nat.lt_of_succ_lt h))

theorem acc1_zero (c : Dev nD) (h : 0 < cfg1.N) :
    acc1 V c 0 h = k1_pay2 (grid1.coords ⟨0, h⟩) (iblk1 V c 0 ⟨0, h⟩) (iblk1 V c 1 ⟨0, h⟩) (k1_pay1 (F := F)) := rfl

theorem acc1_first (c : Dev nD) (n : ℕ) (h : n + 1 < cfg1.N) (h0 : (n + 1) % 50 = 0) :
    acc1 V c (n + 1) h = k1_pay2 (grid1.coords ⟨n + 1, h⟩) (iblk1 V c 0 ⟨n + 1, h⟩) (iblk1 V c 1 ⟨n + 1, h⟩) (k1_pay1 (F := F)) :=
  if_pos h0

theorem acc1_next (c : Dev nD) (n : ℕ) (h : n + 1 < cfg1.N) (h0 : ¬(n + 1) % 50 = 0) :
    acc1 V c (n + 1) h = k1_pay2 (grid1.coords ⟨n + 1, h⟩) (iblk1 V c 0 ⟨n + 1, h⟩) (iblk1 V c 1 ⟨n + 1, h⟩) (acc1 V c n (Nat.lt_of_succ_lt h)) :=
  if_neg h0

set_option maxHeartbeats 400000 in
/-- What the accumulator holds after position `n` is that chain: by induction on the point, the three cases' values. -/
theorem outsAt1_snd (c : Dev nD) : ∀ (n : ℕ) (h : n < cfg1.N), (outsAt1 V c n h).2 = acc1 V c n h
  | 0, h =>
    (congrArg Prod.snd (outsAt1_A V c ⟨0, h⟩ (Nat.zero_mod _) (show ¬(0 % 50 = 49) by decide))).trans
      ((sout1_A_0_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) scM1_0 (Memref.isWhole_whole _) _ _ (iblk1 V c 0 ⟨0, h⟩) (iblk1 V c 1 ⟨0, h⟩)).trans (acc1_zero V c h).symm)
  | n + 1, h => by
    by_cases h0 : (n + 1) % 50 = 0
    · have h1 : ¬(n + 1) % 50 = 49 := by omega
      exact (congrArg Prod.snd (outsAt1_A V c ⟨n + 1, h⟩ h0 h1)).trans
        ((sout1_A_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) _ _ (iblk1 V c 0 ⟨n + 1, h⟩) (iblk1 V c 1 ⟨n + 1, h⟩)).trans (acc1_first V c n h h0).symm)
    · by_cases h1 : (n + 1) % 50 = 49
      · exact (congrArg Prod.snd (outsAt1_C V c ⟨n + 1, h⟩ h0 h1)).trans
          ((sout1_C_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) _ _ (iblk1 V c 0 ⟨n + 1, h⟩) (iblk1 V c 1 ⟨n + 1, h⟩) (outsAt1 V c n (Nat.lt_of_succ_lt h)).2).trans
            ((congrArg (k1_pay2 (grid1.coords ⟨n + 1, h⟩) (iblk1 V c 0 ⟨n + 1, h⟩) (iblk1 V c 1 ⟨n + 1, h⟩)) (outsAt1_snd c n (Nat.lt_of_succ_lt h))).trans
              (acc1_next V c n h h0).symm))
      · exact (congrArg Prod.snd (outsAt1_B V c ⟨n + 1, h⟩ h0 h1)).trans
          ((sout1_B_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) _ _ (iblk1 V c 0 ⟨n + 1, h⟩) (iblk1 V c 1 ⟨n + 1, h⟩) (outsAt1 V c n (Nat.lt_of_succ_lt h)).2).trans
            ((congrArg (k1_pay2 (grid1.coords ⟨n + 1, h⟩) (iblk1 V c 0 ⟨n + 1, h⟩) (iblk1 V c 1 ⟨n + 1, h⟩)) (outsAt1_snd c n (Nat.lt_of_succ_lt h))).trans
              (acc1_next V c n h h0).symm))

set_option maxHeartbeats 400000 in
/-- At the last point of a group the output's staging buffer holds the accumulator's chain too. -/
theorem outsAt1_fst_last (c : Dev nD) (t : Fin cfg1.N) (h1 : t.val % 50 = 49) : (outsAt1 V c t.val t.isLt).1 = acc1 V c t.val t.isLt := by
  have h0 : ¬t.val % 50 = 0 := by omega
  exact (congrArg Prod.fst (outsAt1_C V c t h0 h1)).trans
    ((out1_C_2_eq c (grid1.coords t) (ms1_0 t) (hs1_0 t) (ms1_1 t) (hs1_1 t) (ms1_2 t) (hs1_2 t) scM1_0 (Memref.isWhole_whole _) _ _ (iblk1 V c 0 t) (iblk1 V c 1 t) (outsAt1 V c (t.val - 1) (Nat.lt_of_le_of_lt (Nat.sub_le _ _) t.isLt)).2).trans
      ((sout1_C_0_eq c (grid1.coords t) (ms1_0 t) (hs1_0 t) (ms1_1 t) (hs1_1 t) (ms1_2 t) (hs1_2 t) scM1_0 (Memref.isWhole_whole _) _ _ (iblk1 V c 0 t) (iblk1 V c 1 t) (outsAt1 V c (t.val - 1) (Nat.lt_of_le_of_lt (Nat.sub_le _ _) t.isLt)).2).symm.trans
        ((congrArg Prod.snd (outsAt1_C V c t h0 h1)).symm.trans (outsAt1_snd V c t.val t.isLt))))

/-! ## The windows' block indices, from the point's number

The grid is 416 × 50 with the last axis fastest: point `t` is the `t % 50`-th point of group `t / 50`. -/

theorem lt_N1 (t : Fin cfg1.N) : t.val < 20800 :=
  Nat.lt_of_lt_of_eq t.isLt (show cfg1.N = 20800 from N_1)

/-- The point's coordinate along the reduction axis. -/
theorem coords1_1 (t : Fin cfg1.N) : (grid1.coords t (1 : Fin 2)).val = t.val % 50 := by
  have hN := lt_N1 t
  show t.val / 1 % 50 = t.val % 50
  omega

/-- The point's group. -/
theorem coords1_0 (t : Fin cfg1.N) : (grid1.coords t (0 : Fin 2)).val = t.val / 50 := by
  have hN := lt_N1 t
  show t.val / 50 % 416 = t.val / 50
  omega

/-- The index window: block `t / 50` along the edge axis. -/
theorem index1_0 (t : Fin cfg1.N) : win1_0.index t (0 : Fin 2) = 0 ∧ win1_0.index t (1 : Fin 2) = t.val / 50 := by
  have hN := lt_N1 t
  refine ⟨rfl, ?_⟩
  show (t.val / 50 % 416) % 4294967296 = t.val / 50
  omega

/-- The table window: block `t % 50` of rows. -/
theorem index1_1 (t : Fin cfg1.N) : win1_1.index t (0 : Fin 2) = t.val % 50 ∧ win1_1.index t (1 : Fin 2) = 0 := by
  have hN := lt_N1 t
  refine ⟨?_, rfl⟩
  show (t.val / 1 % 50) % 4294967296 = t.val % 50
  omega

/-- The output window: block `t / 50` of rows. -/
theorem index1_2 (t : Fin cfg1.N) : win1_2.index t (0 : Fin 2) = t.val / 50 ∧ win1_2.index t (1 : Fin 2) = 0 := by
  have hN := lt_N1 t
  refine ⟨?_, rfl⟩
  show (t.val / 50 % 416) % 4294967296 = t.val / 50
  omega

/-! ## The input blocks at a point, read off the arrays -/

theorem edge_lt1 (t : Fin cfg1.N) (e : Fin 4096) : t.val / 50 * 4096 + e.val < 1703936 := by
  have := lt_N1 t; have := e.isLt; omega

theorem row_lt1 (t : Fin cfg1.N) (r : Fin 2000) : t.val % 50 * 2000 + r.val < 100000 := by
  have := r.isLt; omega

/-- The index block at point `t` is the stretch of 4096 edges of the point's group. -/
theorem iblk1_0_apply (c : Dev nD) (t : Fin cfg1.N) (e : Fin 4096) :
    iblk1 V c 0 t (ix2 (0 : Fin 1) e) = V c main_v37 (ix2 (0 : Fin 1) (⟨t.val / 50 * 4096 + e.val, edge_lt1 t e⟩ : Fin 1703936)) := by
  obtain ⟨i0, i1⟩ := index1_0 t
  have h : ((cfg1.win 0).blk t).view.emb (ix2 (0 : Fin 1) e)
      = ix2 (0 : Fin 1) (⟨t.val / 50 * 4096 + e.val, edge_lt1 t e⟩ : Fin 1703936) := by
    funext a; apply Fin.ext
    match a with
    | ⟨0, _⟩ => show win1_0.index t (0 : Fin 2) * 1 + 1 * 0 = 0; omega
    | ⟨1, _⟩ => show win1_0.index t (1 : Fin 2) * 4096 + 1 * e.val = t.val / 50 * 4096 + e.val; omega
  exact congrArg (V c main_v37) h

/-- The table block at point `t` is the stretch of 2000 rows numbered by the point's place in its group. -/
theorem iblk1_1_apply (c : Dev nD) (t : Fin cfg1.N) (r : Fin 2000) (j : Fin 64) :
    iblk1 V c 1 t (ix2 r j) = V c main_v40 (ix2 (⟨t.val % 50 * 2000 + r.val, row_lt1 t r⟩ : Fin 100000) j) := by
  obtain ⟨i0, i1⟩ := index1_1 t
  have h : ((cfg1.win 1).blk t).view.emb (ix2 r j)
      = ix2 (⟨t.val % 50 * 2000 + r.val, row_lt1 t r⟩ : Fin 100000) j := by
    funext a; apply Fin.ext
    match a with
    | ⟨0, _⟩ => show win1_1.index t (0 : Fin 2) * 2000 + 1 * r.val = t.val % 50 * 2000 + r.val; omega
    | ⟨1, _⟩ => show win1_1.index t (1 : Fin 2) * 64 + 1 * j.val = j.val; omega
  exact congrArg (V c main_v40) h

end Cert.KernelIdeal.Hand

end
-- ==== Proof.LibColsDot.lean ====
/-
  A product of the transpose of a matrix with another matrix, read at an entry.

  A contraction whose dimension numbers say "the first axis of a [K, A] operand against the first axis of a [K, B]
  operand, no batch axis, result [A, B]" reads its left operand at (k, row of the result) and its right operand at
  (k, column of the result), `k` ranging over the one contracted axis.  So the sum over the contraction index of the
  operands' products, at result entry (p, c), is `Σ_{k < K} l (k, p) · r (k, c)`: column p of the left operand against
  column c of the right one; a `tpu.matmul` into the zero splat is exactly that sum at the ideal values.  Generic in K, A, B,
  in the record and in the operands' float formats: the hypotheses are the record's six lists.
-/
import Idealize.ShloMosaic.PureOps.Ideal.Laws
import Idealize.ShloMosaic.Lib.ValueIdx

noncomputable section

namespace Cert.LibColsDot

open Idealize.ShloMosaic Idealize.ShloMosaic.ValueIdx

/-- The dimension numbers of a product of columns `[K, A] × [K, B] → [A, B]`. -/
structure Cols {K A B : Nat} (D : DotDims ⟨2, ![K, A]⟩ ⟨2, ![K, B]⟩ ⟨2, ![A, B]⟩) : Prop where
  lc : D.lhsContracting = [0]
  rc : D.rhsContracting = [0]
  ln : D.lhsNonContracting = [1]
  rn : D.rhsNonContracting = [1]
  lb : D.lhsBatch = []
  rb : D.rhsBatch = []

variable {K A B : Nat} {D : DotDims ⟨2, ![K, A]⟩ ⟨2, ![K, B]⟩ ⟨2, ![A, B]⟩}

/-- One axis is contracted. -/
theorem Cols.rank (h : Cols D) : D.contr.rank = 1 := by rw [D.rank_contr, h.lc]; rfl

/-- Its extent is `K`. -/
theorem Cols.size (h : Cols D) : D.contr.size ⟨0, by rw [h.rank]; exact Nat.one_pos⟩ = K := by
  rw [D.size_contr 0 (by rw [h.lc]; exact Nat.one_pos)]
  simp only [h.lc, List.getElem_cons_zero]
  rfl

/-- The left operand is read at the contraction position … -/
theorem Cols.lhs0 (h : Cols D) (j : (⟨2, ![A, B]⟩ : Shape).Idx) (q : D.contr.Idx) :
    (D.lhsIdx j q 0).val = (q ⟨0, by rw [h.rank]; exact Nat.one_pos⟩).val :=
  D.lhsIdx_val_of_single h.lc j q

/-- … and the result's row, which is ITS column, -/
theorem Cols.lhs1 (h : Cols D) (j : (⟨2, ![A, B]⟩ : Shape).Idx) (q : D.contr.Idx) : (D.lhsIdx j q 1).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- the right operand at the contraction position … -/
theorem Cols.rhs0 (h : Cols D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Cols.rhs1 (h : Cols D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (k, p) · r (k, c)`. -/
theorem Cols.sum_eq (h : Cols D) (l : (⟨2, ![K, A]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 k p) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 k p := funext fun a => Fin.ext (by
    match a with
    | ⟨0, _⟩ => exact (h.lhs0 _ _).trans hk
    | ⟨1, _⟩ => exact h.lhs1 _ _)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Cols.matmul_zero_apply (h : Cols D) (prec : Option ContractPrecision) {φ₁ φ₂ : FTy}
    (l : FVec Ideal ⟨2, ![K, A]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 k p) * r (ix2 k c) :=
  (Ideal.matmul_constant_zero_apply D prec l r (ix2 p c)).trans (h.sum_eq l r p c)

end Cert.LibColsDot

end
-- ==== Proof.KI.Pay1.lean ====
import proofs.«167680_j81389630259984_2_alg».proof.Proof.Gen.KernelIdeal.Skeleton
import proofs.«167680_j81389630259984_2_alg».proof.Proof.LibColsDot
import proofs.«167680_j81389630259984_2_alg».proof.Proof.LibOneHot
import Idealize.ShloMosaic.Lib.ValueIdx
import Idealize.ShloMosaic.Lib.ValueLayout
import Idealize.ShloMosaic.Lib.Pipeline.Value

set_option maxRecDepth 16384

/-!
# The gather's accumulation step at an entry

One point of the gather adds to the accumulator, at entry `(e, j)`, the sum over the point's 2000 rows `r` of the
block's entry `(r, j)` weighted by one if the index word of edge `e` names row `r` of the point's group of rows and by
zero otherwise: the product of the transposed one-hot matrix with the block, read at an entry, at the ideal values.
-/

noncomputable section

namespace Cert.KernelIdeal.Hand

open Cert.KernelIdeal Cert.KernelIdeal.Gen
open Idealize.ShloMosaic Idealize.ShloMosaic.ValueIdx
open LibOneHot (ind)

/-- A comparison bit, widened to a word and read as a signed integer, is one where the words agree and zero elsewhere. -/
theorem eqBit_toInt (a b : BitVec 32) :
    ((((IntOp.cmpi .eq a b).setWidth 32).toInt : ℝ) : EReal) = ind (a = b) := by
  show ((((BitVec.ofBool (a == b)).setWidth 32).toInt : ℝ) : EReal) = ind (a = b)
  unfold LibOneHot.ind
  by_cases h : a = b
  · have hb : (a == b) = true := by simp [h]
    have h1 : ((BitVec.ofBool true).setWidth 32).toInt = 1 := by decide
    rw [if_pos h, hb, h1]; simp
  · have hb : (a == b) = false := by simp [h]
    have h0 : ((BitVec.ofBool false).setWidth 32).toInt = 0 := by decide
    rw [if_neg h, hb, h0]; simp

/-- The index words, one row of 4096, repeated down 2000 rows: entry `(r, e)` is the word of edge `e`. -/
theorem idxRow_apply (x0 : IVec S1x4096 32) (h1 : S1x4096.ShapeCasts S1x4096) (h2 : S1x4096.Broadcasts S2000x4096)
    (r : Fin 2000) (e : Fin 4096) :
    broadcastTo S2000x4096 (shapeCast S1x4096 x0 h1) h2 (ix2 r e) = x0 (ix2 (0 : Fin 1) e) :=
  (broadcastTo_1b_ab_apply (shapeCast S1x4096 x0 h1) h2 r e).trans (congrFun (shapeCast_self x0 h1) (ix2 (0 : Fin 1) e))

/-- The row numbers of the point's group, one column of 2000, repeated across 4096 columns: entry `(r, e)` is the
    group's first row number plus `r`, as words. -/
theorem rowNo_apply (w : BitVec 32) (hi : S2000x1.Iotas .tc 32 [0]) (h3 : S2000x1.Broadcasts S2000x4096)
    (r : Fin 2000) (e : Fin 4096) :
    broadcastTo S2000x4096 (addi (broadcast S2000x1 w) (iota .tc S2000x1 32 [0] hi)) h3 (ix2 r e) = w + BitVec.ofNat 32 r.val := by
  refine (broadcastTo_apply _ h3 (ix2 r e) (ix2 r (0 : Fin 1)) fun ax => ?_).trans ?_
  · match ax with
    | ⟨0, _⟩ => rfl
    | ⟨1, _⟩ => rfl
  · show IntOp.addi w (iota .tc S2000x1 32 [0] hi (ix2 r (0 : Fin 1))) = w + BitVec.ofNat 32 r.val
    exact congrArg (w + ·) (iota_single_apply .tc S2000x1 32 0 hi (ix2 r (0 : Fin 1)))

/-- The product's dimension numbers: the first axis of each operand is contracted, the second kept. -/
theorem cols1 : Cert.LibColsDot.Cols dot_S2000x4096_S2000x64_S4096x64_0_0_1_1_n_n := ⟨rfl, rfl, rfl, rfl, rfl, rfl⟩

/-- THE STEP AT AN ENTRY: what one point stores into the accumulator, at `(e, j)`, is what the accumulator held there
    plus the sum over the point's rows of the indicator that edge `e`'s index word is the row's number times the
    block's entry in that row and column `j`. -/
theorem k1_pay2_apply (i : grid1.Coords) (x0 : Vec Ideal S1x4096 .i32) (x1 : Vec Ideal S2000x64 .f32) (acc : Vec Ideal S4096x64 .f32)
    (e : Fin 4096) (j : Fin 64) :
    k1_pay2 (F := Ideal) i x0 x1 acc (ix2 e j)
      = acc (ix2 e j) + ∑ r : Fin 2000,
          ind (x0 (ix2 (0 : Fin 1) e) = Scalar.muli (BitVec.ofNat 32 (i 1).val) 2000#32 + BitVec.ofNat 32 r.val) * x1 (ix2 r j) := by
  unfold k1_pay2
  dsimp only
  refine (congrFun (shapeCast_self _ _) (ix2 e j)).trans ?_
  show acc (ix2 e j) + _ = _
  refine congrArg (acc (ix2 e j) + ·) ?_
  refine (cols1.matmul_zero_apply none _ _ e j).trans ?_
  refine Finset.sum_congr rfl fun r _ => ?_
  refine congrArg₂ (· * ·) ?_ ?_
  · refine Eq.trans ?_ (eqBit_toInt _ _)
    exact congrArg₂ (fun a b : BitVec 32 => ((((IntOp.cmpi .eq a b).setWidth 32).toInt : ℝ) : EReal))
      (idxRow_apply x0 _ _ r e) (rowNo_apply _ _ _ r e)
  · exact congrFun (shapeCast_self x1 _) (ix2 r j)

end Cert.KernelIdeal.Hand

end
-- ==== Proof.KI.Val1.lean ====
import proofs.«167680_j81389630259984_2_alg».proof.Proof.KI.Acc1
import proofs.«167680_j81389630259984_2_alg».proof.Proof.KI.Pay1
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators
open LibOneHot (ind)

/-! # At the ideal values: the accumulator at an entry is a partial sum over the table's rows -/

/-- The gather's summand for edge `E`, column `j` and row number `s`: the table's entry in row `s`, column `j`, weighted by one
    if the edge's index word names row `s` and by zero otherwise; zero past the table's rows. -/
def term1 (a37 : S1x1703936.Idx → BitVec 32) (a40 : S100000x64.Idx → EReal) (E : Fin 1703936) (j : Fin 64) (s : ℕ) : EReal :=
  if h : s < 100000 then ind (a37 (ix2 (0 : Fin 1) E) = BitVec.ofNat 32 s) * a40 (ix2 (⟨s, h⟩ : Fin 100000) j) else 0

/-- The row number the body compares the index words with: the block's number times the block's height, plus the row in the block. -/
theorem word1 (a r : ℕ) : Scalar.muli (BitVec.ofNat 32 a) 2000#32 + BitVec.ofNat 32 r = BitVec.ofNat 32 (a * 2000 + r) := by
  show BitVec.ofNat 32 a * BitVec.ofNat 32 2000 + BitVec.ofNat 32 r = BitVec.ofNat 32 (a * 2000 + r)
  rw [← BitVec.ofNat_mul, ← BitVec.ofNat_add]

/-- The block the reset stores is zero everywhere. -/
theorem k1_pay1_apply (y : S4096x64.Idx) : k1_pay1 (F := Ideal) y = 0 := by
  unfold k1_pay1
  rw [shapeCast_self]
  exact Ideal.ofBits_zero_f32

/-- One more block of 2000 rows in a sum over the first rows. -/
theorem range_step (f : ℕ → EReal) (k : ℕ) :
    ∑ s ∈ Finset.range ((k + 1) * 2000), f s = ∑ s ∈ Finset.range (k * 2000), f s + ∑ r : Fin 2000, f (k * 2000 + r.val) := by
  have e : (k + 1) * 2000 = k * 2000 + 2000 := by omega
  rw [e, Finset.sum_range_add, Finset.sum_range fun x => f (k * 2000 + x)]

/-- The first block of rows. -/
theorem range_first (f : ℕ → EReal) : ∑ r : Fin 2000, f (0 * 2000 + r.val) = ∑ s ∈ Finset.range ((0 + 1) * 2000), f s := by
  rw [range_step f 0, Nat.zero_mul, Finset.range_zero, Finset.sum_empty, zero_add]

/-- One point's step at an entry: the accumulator's entry plus the summands of the point's block of rows, for the point's
    stretch of edges. -/
theorem step1 (V : (c : Dev nD) → (b : Ref sig .tc) → Buf (Elt Ideal) ((c : Thread nD τ).loc b)) (c : Dev nD) (n : ℕ) (h : n < cfg1.N)
    (acc : Vec Ideal S4096x64 .f32) (e : Fin 4096) (j : Fin 64) :
    k1_pay2 (F := Ideal) (grid1.coords ⟨n, h⟩) (iblk1 V c 0 ⟨n, h⟩) (iblk1 V c 1 ⟨n, h⟩) acc (ix2 e j)
      = acc (ix2 e j) + ∑ r : Fin 2000, term1 (V c main_v37) (V c main_v40) ⟨n / 50 * 4096 + e.val, edge_lt1 ⟨n, h⟩ e⟩ j (n % 50 * 2000 + r.val) := by
  refine (k1_pay2_apply (grid1.coords ⟨n, h⟩) (iblk1 V c 0 ⟨n, h⟩) (iblk1 V c 1 ⟨n, h⟩) acc e j).trans ?_
  refine congrArg (fun z => acc (ix2 e j) + z) (Finset.sum_congr rfl fun r _ => ?_)
  have e0 := iblk1_0_apply V c ⟨n, h⟩ e
  have e1 := iblk1_1_apply V c ⟨n, h⟩ r j
  have e2 := coords1_1 ⟨n, h⟩
  rw [e0, e1, e2, word1]
  unfold term1
  rw [dif_pos (row_lt1 ⟨n, h⟩ r)]
  try rfl

/-- The accumulator after position `n`, at an entry: the summands of the rows of the blocks done so far in the point's group,
    for the point's stretch of edges. By induction on the point. -/
theorem acc1_apply (V : (c : Dev nD) → (b : Ref sig .tc) → Buf (Elt Ideal) ((c : Thread nD τ).loc b)) (c : Dev nD) : ∀ (n : ℕ) (h : n < cfg1.N) (e : Fin 4096) (j : Fin 64),
    acc1 (F := Ideal) V c n h (ix2 e j)
      = ∑ s ∈ Finset.range ((n % 50 + 1) * 2000), term1 (V c main_v37) (V c main_v40) ⟨n / 50 * 4096 + e.val, edge_lt1 ⟨n, h⟩ e⟩ j s
  | 0, h, e, j => by
    rw [acc1_zero V c h]
    refine (step1 V c 0 h (k1_pay1 (F := Ideal)) e j).trans ?_
    rw [k1_pay1_apply, zero_add]
    exact range_first _
  | n + 1, h, e, j => by
    by_cases h0 : (n + 1) % 50 = 0
    · rw [acc1_first V c n h h0]
      refine (step1 V c (n + 1) h (k1_pay1 (F := Ideal)) e j).trans ?_
      rw [k1_pay1_apply, zero_add, h0]
      exact range_first _
    · have hq : (n + 1) / 50 = n / 50 := by omega
      have hm : (n + 1) % 50 = n % 50 + 1 := by omega
      rw [acc1_next V c n h h0]
      refine (step1 V c (n + 1) h (acc1 V c n (Nat.lt_of_succ_lt h)) e j).trans ?_
      rw [acc1_apply V c n (Nat.lt_of_succ_lt h) e j]
      have hE : (⟨(n + 1) / 50 * 4096 + e.val, edge_lt1 ⟨n + 1, h⟩ e⟩ : Fin 1703936)
          = ⟨n / 50 * 4096 + e.val, edge_lt1 ⟨n, Nat.lt_of_succ_lt h⟩ e⟩ :=
        Fin.ext (by show (n + 1) / 50 * 4096 + e.val = n / 50 * 4096 + e.val; rw [hq])
      rw [hE, hm, range_step _ (n % 50 + 1)]

/-! # The output array after the region -/

/-- The gathered array, index by index: row `E` is the table's row that edge `E`'s index word names, written as the sum over the
    table's rows of the row weighted by one where the word names it and by zero elsewhere. -/
def gath1 (a37 : S1x1703936.Idx → BitVec 32) (a40 : S100000x64.Idx → EReal) : S1703936x64.Idx → EReal :=
  fun i => ∑ n' : Fin 100000, ind (a37 (ix2 (0 : Fin 1) (⟨(i 0).val, idx2_lt0 i⟩ : Fin 1703936)) = BitVec.ofNat 32 n'.val)
    * a40 (ix2 n' (⟨(i 1).val, idx2_lt1 i⟩ : Fin 64))

theorem gath1_apply (a37 : S1x1703936.Idx → BitVec 32) (a40 : S100000x64.Idx → EReal) (E : Fin 1703936) (j : Fin 64) :
    gath1 a37 a40 (ix2 E j) = ∑ n' : Fin 100000, ind (a37 (ix2 (0 : Fin 1) E) = BitVec.ofNat 32 n'.val) * a40 (ix2 n' j) := rfl

-- from here on the gathered array is used only through `gath1_apply`
attribute [local irreducible] gath1

/-- Over all fifty blocks the summands are those of all the table's rows. -/
theorem term1_sum (a37 : S1x1703936.Idx → BitVec 32) (a40 : S100000x64.Idx → EReal) (E : Fin 1703936) (j : Fin 64) :
    ∑ s ∈ Finset.range (50 * 2000), term1 a37 a40 E j s
      = ∑ n' : Fin 100000, ind (a37 (ix2 (0 : Fin 1) E) = BitVec.ofNat 32 n'.val) * a40 (ix2 n' j) := by
  rw [show 50 * 2000 = 100000 from rfl, Finset.sum_range]
  refine Finset.sum_congr rfl fun n' _ => ?_
  unfold term1
  rw [dif_pos n'.isLt]

/-- What a point that writes back — the last of its group — writes is its block of the gathered array. -/
theorem flushed1_eq (V : (c : Dev nD) → (b : Ref sig .tc) → Buf (Elt Ideal) ((c : Thread nD τ).loc b)) (c : Dev nD) (t : Fin cfg1.N) (hf : (cfg1.win 2).flush t = true) :
    (dat1 (F := Ideal) V c).flushed 2 t = ((cfg1.win 2).blk t).view.read (Elt Ideal) (gath1 (V c main_v37) (V c main_v40)) := by
  have h49 : t.val % 50 = 49 := (flush1_2 t).mp hf
  show (cfg1.win 2).cut (grid1.coords t) ((dat1 (F := Ideal) V c).after 2 t) = _
  rw [after1_2, outsAt1_fst_last V c t h49]
  obtain ⟨i0, i1⟩ := index1_2 t
  funext y
  obtain ⟨e, j, rfl⟩ : ∃ (e : Fin 4096) (j : Fin 64), y = ix2 e j := ⟨y 0, y 1, eq_ix2 y⟩
  refine (acc1_apply V c t.val t.isLt e j).trans ?_
  show _ = gath1 (V c main_v37) (V c main_v40) (((cfg1.win 2).blk t).view.emb (ix2 e j))
  have hemb : ((cfg1.win 2).blk t).view.emb (ix2 e j) = ix2 (⟨t.val / 50 * 4096 + e.val, edge_lt1 t e⟩ : Fin 1703936) j := by
    funext a; apply Fin.ext
    match a with
    | ⟨0, _⟩ => show win1_2.index t (0 : Fin 2) * 4096 + 1 * e.val = t.val / 50 * 4096 + e.val; omega
    | ⟨1, _⟩ => show win1_2.index t (1 : Fin 2) * 64 + 1 * j.val = j.val; omega
  rw [hemb, gath1_apply, h49]
  exact term1_sum _ _ _ _

/-- An index of the output array is in point `t`'s block iff each coordinate is in the block's range on its axis. -/
theorem mem_blk1 (t : Fin cfg1.N) (i : S1703936x64.Idx) :
    i ∈ ((cfg1.win 2).blk t).view.set ↔ ∀ a : Fin 2, win1_2.index t a * S4096x64.size a ≤ (i a).val ∧ (i a).val < win1_2.index t a * S4096x64.size a + S4096x64.size a := by
  show i ∈ ((View.whole main_v41).slice (win1_2.rect t)).set ↔ _
  rw [View.set_slice_whole, Rect.mem_set_unit]
  exact Iff.rfl

/-- Every index of the output array is in the block of a point that writes back: row `E` in that of the last point of group `E / 4096`. -/
theorem cover1 (i : S1703936x64.Idx) : ∃ t : Fin cfg1.N, (cfg1.win 2).flush t = true ∧ i ∈ ((cfg1.win 2).blk t).view.set := by
  have hi0 : (i 0).val < 1703936 := idx2_lt0 i
  have hi1 : (i 1).val < 64 := idx2_lt1 i
  have ht : (i 0).val / 4096 * 50 + 49 < cfg1.N := Nat.lt_of_lt_of_eq (by omega : (i 0).val / 4096 * 50 + 49 < 20800) (show cfg1.N = 20800 from N_1).symm
  have hf : (cfg1.win 2).flush ⟨(i 0).val / 4096 * 50 + 49, ht⟩ = true :=
    (flush1_2 ⟨(i 0).val / 4096 * 50 + 49, ht⟩).mpr (by show ((i 0).val / 4096 * 50 + 49) % 50 = 49; omega)
  refine ⟨⟨(i 0).val / 4096 * 50 + 49, ht⟩, hf, ?_⟩
  have q0 : win1_2.index ⟨(i 0).val / 4096 * 50 + 49, ht⟩ (0 : Fin 2) = ((i 0).val / 4096 * 50 + 49) / 50 := (index1_2 _).1
  have q1 : win1_2.index ⟨(i 0).val / 4096 * 50 + 49, ht⟩ (1 : Fin 2) = 0 := (index1_2 _).2
  rw [mem_blk1]
  intro a
  match a with
  | ⟨0, _⟩ =>
    show win1_2.index ⟨(i 0).val / 4096 * 50 + 49, ht⟩ (0 : Fin 2) * 4096 ≤ (i 0).val
      ∧ (i 0).val < win1_2.index ⟨(i 0).val / 4096 * 50 + 49, ht⟩ (0 : Fin 2) * 4096 + 4096
    rw [q0]; omega
  | ⟨1, _⟩ =>
    show win1_2.index ⟨(i 0).val / 4096 * 50 + 49, ht⟩ (1 : Fin 2) * 64 ≤ (i 1).val
      ∧ (i 1).val < win1_2.index ⟨(i 0).val / 4096 * 50 + 49, ht⟩ (1 : Fin 2) * 64 + 64
    rw [q1]; omega

/-- THE OUTPUT ARRAY after the region is the gathered array of the index words and the table as the region finds them. -/
theorem final1_eq (V : (c : Dev nD) → (b : Ref sig .tc) → Buf (Elt Ideal) ((c : Thread nD τ).loc b)) (c : Dev nD) : (dat1 (F := Ideal) V c).arrAt 2 cfg1.N = gath1 (V c main_v37) (V c main_v40) :=
  (dat1 (F := Ideal) V c).arrAt_eq_of_cover 2 (gath1 (V c main_v37) (V c main_v40)) (fun t hf => flushed1_eq V c t hf) cover1

/-- Index by index (`gath1_apply` spells the entry out as the sum over the table's rows). -/
theorem final1 (V : (c : Dev nD) → (b : Ref sig .tc) → Buf (Elt Ideal) ((c : Thread nD τ).loc b)) (c : Dev nD) (E : Fin 1703936) (j : Fin 64) :
    (dat1 (F := Ideal) V c).arrAt 2 cfg1.N (ix2 E j) = gath1 (V c main_v37) (V c main_v40) (ix2 E j) :=
  congrFun (final1_eq V c) (ix2 E j)

end Cert.KernelIdeal.Hand

end
-- ==== Proof.KI.Acc4.lean ====
import proofs.«167680_j81389630259984_2_alg».proof.Proof.KI.R4
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

/-! # REGION 4, towards the value, at any number format: what each point leaves in the accumulator and in the output's staging
    buffer, the accumulator as a chain of the body's sum payload, and the windows' blocks from the point's number -/

theorem hz4 : (![0, 0] : Fin 2 → Nat) = fun _ => 0 := funext fun a => by fin_cases a <;> rfl

/-- A middle point of a group leaves in the accumulator, found at `xs0`, the body's sum payload of the two input blocks over `xs0`:
    its one covering store's payload, whose loads read the whole buffers. -/
theorem sout4_B_0_eq (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : ¬cond4_1 i)
    (x0 : Vec F S1x4096 .i32) (x1 : Vec F S2000x16 .f32) (xs0 : Vec F S4096x16 .f32) :
    sout4_B_0 c i arg2 harg2 arg3 harg3 arg4 harg4 arg5 harg5 hc0 hc1 x0 x1 xs0 = k4_pay2 i x0 x1 xs0 := by
  unfold sout4_B_0
  rw [View.read_writes_eq_canon _ _ _ (scover4_B_0 c i arg2 harg2 arg3 harg3 arg4 harg4 arg5 harg5 hc0 hc1 x0 x1 xs0)]
  unfold kernelRun4_B
  dsimp only
  rw [View.canon_unit_zero hz4]
  simp only [View.readAt_eq_ld, harg2.read_unread, harg3.read_unread, harg5.read_unread, View.ld_unit_zero (S := S1x4096) hz4, View.ld_unit_zero (S := S2000x16) hz4, View.ld_unit_zero (S := S4096x16) hz4]

/-- The last point of a group leaves the same in the accumulator, -/
theorem sout4_C_0_eq (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) :
    sout4_C_0 c i arg2 harg2 arg3 harg3 arg4 harg4 arg5 harg5 hc0 hc1 x0 x1 xs0 = k4_pay2 i x0 x1 xs0 := by
  unfold sout4_C_0
  rw [View.read_writes_eq_canon _ _ _ (scover4_C_0 c i arg2 harg2 arg3 harg3 arg4 harg4 arg5 harg5 hc0 hc1 x0 x1 xs0)]
  unfold kernelRun4_C
  dsimp only
  sl_unfold_words
  rw [View.canon_unit_zero hz4]
  simp only [View.readAt_eq_ld, harg2.read_unread, harg3.read_unread, harg5.read_unread, View.ld_unit_zero (S := S1x4096) hz4, View.ld_unit_zero (S := S2000x16) hz4, View.ld_unit_zero (S := S4096x16) hz4]

/-- and stores what it has just left in the accumulator, read back, into the output's staging buffer. -/
theorem out4_C_2_eq (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : ¬cond4_0 i) (hc1 : cond4_1 i)
    (x0 : Vec F S1x4096 .i32) (x1 : Vec F S2000x16 .f32) (xs0 : Vec F S4096x16 .f32) :
    out4_C_2 c i arg2 harg2 arg3 harg3 arg4 harg4 arg5 harg5 hc0 hc1 x0 x1 xs0 = k4_pay2 i x0 x1 xs0 := by
  unfold out4_C_2
  rw [View.read_writes_eq_canon _ _ _ (cover4_C_2 c i arg2 harg2 arg3 harg3 arg4 harg4 arg5 harg5 hc0 hc1 x0 x1 xs0)]
  unfold kernelRun4_C
  dsimp only
  sl_unfold_words
  rw [View.canon_unit_zero hz4, View.readCov_unit_zero (S := S4096x16) _ hz4]
  simp only [View.readAt_eq_ld, harg2.read_unread, harg3.read_unread, harg5.read_unread, View.ld_unit_zero (S := S1x4096) hz4, View.ld_unit_zero (S := S2000x16) hz4, View.ld_unit_zero (S := S4096x16) hz4]

/-- The first point of a group stores the zero block into the accumulator, reads it back, and leaves the sum payload over it. -/
theorem sout4_A_0_eq (c : Dev nD) (i : grid4.Coords) (arg2 : Memref sig .tc .vmem S1x4096 .i32) (harg2 : arg2.IsWhole) (arg3 : Memref sig .tc .vmem S2000x16 .f32) (harg3 : arg3.IsWhole) (arg4 : Memref sig .tc .vmem S4096x16 .f32) (harg4 : arg4.IsWhole) (arg5 : Memref sig .tc .vmem S4096x16 .f32) (harg5 : arg5.IsWhole) (hc0 : cond4_0 i) (hc1 : ¬cond4_1 i)
    (x0 : Vec F S1x4096 .i32) (x1 : Vec F S2000x16 .f32) :
    sout4_A_0 c i arg2 harg2 arg3 harg3 arg4 harg4 arg5 harg5 hc0 hc1 x0 x1 = k4_pay2 i x0 x1 (k4_pay1 (F := F)) := by
  unfold sout4_A_0
  rw [View.read_writes_eq_canon _ _ _ (scover4_A_0 c i arg2 harg2 arg3 harg3 arg4 harg4 arg5 harg5 hc0 hc1 x0 x1)]
  unfold kernelRun4_A
  dsimp only
  sl_unfold_words
  rw [View.canon_cons_unit_zero (S := S4096x16) hz4, View.readCov_unit_zero (S := S4096x16) _ hz4]
  simp only [View.readAt_eq_ld, harg2.read_unread, harg3.read_unread, harg5.read_unread, View.ld_unit_zero (S := S1x4096) hz4, View.ld_unit_zero (S := S2000x16) hz4, View.ld_unit_zero (S := S4096x16) hz4]

-- from here on the pieces are used only through the four lemmas above
attribute [local irreducible] sout4_A_0 sout4_B_0 sout4_C_0 out4_A_2 out4_B_2 out4_C_2

variable (V : (c : Dev nD) → (b : Ref sig .tc) → Buf (Elt F) ((c : Thread nD τ).loc b))

/-! ## The accumulator after each point, as a chain of the body's sum payload -/

/-- The accumulator after position `n`: at the first point of a group the sum payload of the point's two input blocks over the
    zero block; at any other point the sum payload of the point's two input blocks over what the point before left. -/
def acc4 (c : Dev nD) : (n : ℕ) → n < cfg4.N → Vec F S4096x16 .f32
  | 0, h => k4_pay2 (grid4.coords ⟨0, h⟩) (iblk4 V c 0 ⟨0, h⟩) (iblk4 V c 1 ⟨0, h⟩) (k4_pay1 (F := F))
  | n + 1, h =>
    if (n + 1) % 50 = 0 then
      k4_pay2 (grid4.coords ⟨n + 1, h⟩) (iblk4 V c 0 ⟨n + 1, h⟩) (iblk4 V c 1 ⟨n + 1, h⟩) (k4_pay1 (F := F))
    else
      k4_pay2 (grid4.coords ⟨n + 1, h⟩) (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (grid4.coords ⟨0, h⟩) (iblk4 V c 0 ⟨0, h⟩) (iblk4 V c 1 ⟨0, h⟩) (k4_pay1 (F := F)) := rfl

theorem acc4_first (c : Dev nD) (n : ℕ) (h : n + 1 < cfg4.N) (h0 : (n + 1) % 50 = 0) :
    acc4 V c (n + 1) h = k4_pay2 (grid4.coords ⟨n + 1, h⟩) (iblk4 V c 0 ⟨n + 1, h⟩) (iblk4 V c 1 ⟨n + 1, h⟩) (k4_pay1 (F := F)) :=
  if_pos h0

theorem acc4_next (c : Dev nD) (n : ℕ) (h : n + 1 < cfg4.N) (h0 : ¬(n + 1) % 50 = 0) :
    acc4 V c (n + 1) h = k4_pay2 (grid4.coords ⟨n + 1, h⟩) (iblk4 V c 0 ⟨n + 1, h⟩) (iblk4 V c 1 ⟨n + 1, h⟩) (acc4 V c n (Nat.lt_of_succ_lt h)) :=
  if_neg h0

set_option maxHeartbeats 400000 in
/-- What the accumulator holds after position `n` is that chain: by induction on the point, the three cases' values. -/
theorem outsAt4_snd (c : Dev nD) : ∀ (n : ℕ) (h : n < cfg4.N), (outsAt4 V c n h).2 = acc4 V c n h
  | 0, h =>
    (congrArg Prod.snd (outsAt4_A V c ⟨0, h⟩ (Nat.zero_mod _) (show ¬(0 % 50 = 49) by decide))).trans
      ((sout4_A_0_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) scM4_0 (Memref.isWhole_whole _) _ _ (iblk4 V c 0 ⟨0, h⟩) (iblk4 V c 1 ⟨0, h⟩)).trans (acc4_zero V c h).symm)
  | n + 1, h => by
    by_cases h0 : (n + 1) % 50 = 0
    · have h1 : ¬(n + 1) % 50 = 49 := by omega
      exact (congrArg Prod.snd (outsAt4_A V c ⟨n + 1, h⟩ h0 h1)).trans
        ((sout4_A_0_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) scM4_0 (Memref.isWhole_whole _) _ _ (iblk4 V c 0 ⟨n + 1, h⟩) (iblk4 V c 1 ⟨n + 1, h⟩)).trans (acc4_first V c n h h0).symm)
    · by_cases h1 : (n + 1) % 50 = 49
      · exact (congrArg Prod.snd (outsAt4_C V c ⟨n + 1, h⟩ h0 h1)).trans
          ((sout4_C_0_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) scM4_0 (Memref.isWhole_whole _) _ _ (iblk4 V c 0 ⟨n + 1, h⟩) (iblk4 V c 1 ⟨n + 1, h⟩) (outsAt4 V c n (Nat.lt_of_succ_lt h)).2).trans
            ((congrArg (k4_pay2 (grid4.coords ⟨n + 1, h⟩) (iblk4 V c 0 ⟨n + 1, h⟩) (iblk4 V c 1 ⟨n + 1, h⟩)) (outsAt4_snd c n (Nat.lt_of_succ_lt h))).trans
              (acc4_next V c n h h0).symm))
      · exact (congrArg Prod.snd (outsAt4_B V c ⟨n + 1, h⟩ h0 h1)).trans
          ((sout4_B_0_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) scM4_0 (Memref.isWhole_whole _) _ _ (iblk4 V c 0 ⟨n + 1, h⟩) (iblk4 V c 1 ⟨n + 1, h⟩) (outsAt4 V c n (Nat.lt_of_succ_lt h)).2).trans
            ((congrArg (k4_pay2 (grid4.coords ⟨n + 1, h⟩) (iblk4 V c 0 ⟨n + 1, h⟩) (iblk4 V c 1 ⟨n + 1, h⟩)) (outsAt4_snd c n (Nat.lt_of_succ_lt h))).trans
              (acc4_next V c n h h0).symm))

set_option maxHeartbeats 400000 in
/-- At the last point of a group the output's staging buffer holds the accumulator's chain too. -/
theorem outsAt4_fst_last (c : Dev nD) (t : Fin cfg4.N) (h1 : t.val % 50 = 49) : (outsAt4 V c t.val t.isLt).1 = acc4 V c t.val t.isLt := by
  have h0 : ¬t.val % 50 = 0 := by omega
  exact (congrArg Prod.fst (outsAt4_C V c t h0 h1)).trans
    ((out4_C_2_eq c (grid4.coords t) (ms4_0 t) (hs4_0 t) (ms4_1 t) (hs4_1 t) (ms4_2 t) (hs4_2 t) scM4_0 (Memref.isWhole_whole _) _ _ (iblk4 V c 0 t) (iblk4 V c 1 t) (outsAt4 V c (t.val - 1) (Nat.lt_of_le_of_lt (Nat.sub_le _ _) t.isLt)).2).trans
      ((sout4_C_0_eq c (grid4.coords t) (ms4_0 t) (hs4_0 t) (ms4_1 t) (hs4_1 t) (ms4_2 t) (hs4_2 t) scM4_0 (Memref.isWhole_whole _) _ _ (iblk4 V c 0 t) (iblk4 V c 1 t) (outsAt4 V c (t.val - 1) (Nat.lt_of_le_of_lt (Nat.sub_le _ _) t.isLt)).2).symm.trans
        ((congrArg Prod.snd (outsAt4_C V c t h0 h1)).symm.trans (outsAt4_snd V c t.val t.isLt))))

/-! ## The windows' block indices, from the point's number

The grid is 416 × 50 with the last axis fastest: point `t` is the `t % 50`-th point of group `t / 50`. -/

theorem lt_N4 (t : Fin cfg4.N) : t.val < 20800 :=
  Nat.lt_of_lt_of_eq t.isLt (show cfg4.N = 20800 from N_4)

/-- The point's coordinate along the reduction axis. -/
theorem coords4_1 (t : Fin cfg4.N) : (grid4.coords t (1 : Fin 2)).val = t.val % 50 := by
  have hN := lt_N4 t
  show t.val / 1 % 50 = t.val % 50
  omega

/-- The point's group. -/
theorem coords4_0 (t : Fin cfg4.N) : (grid4.coords t (0 : Fin 2)).val = t.val / 50 := by
  have hN := lt_N4 t
  show t.val / 50 % 416 = t.val / 50
  omega

/-- The index window: block `t / 50` along the edge axis. -/
theorem index4_0 (t : Fin cfg4.N) : win4_0.index t (0 : Fin 2) = 0 ∧ win4_0.index t (1 : Fin 2) = t.val / 50 := by
  have hN := lt_N4 t
  refine ⟨rfl, ?_⟩
  show (t.val / 50 % 416) % 4294967296 = t.val / 50
  omega

/-- The table window: block `t % 50` of rows. -/
theorem index4_1 (t : Fin cfg4.N) : win4_1.index t (0 : Fin 2) = t.val % 50 ∧ win4_1.index t (1 : Fin 2) = 0 := by
  have hN := lt_N4 t
  refine ⟨?_, rfl⟩
  show (t.val / 1 % 50) % 4294967296 = t.val % 50
  omega

/-- The output window: block `t / 50` of rows. -/
theorem index4_2 (t : Fin cfg4.N) : win4_2.index t (0 : Fin 2) = t.val / 50 ∧ win4_2.index t (1 : Fin 2) = 0 := by
  have hN := lt_N4 t
  refine ⟨?_, rfl⟩
  show (t.val / 50 % 416) % 4294967296 = t.val / 50
  omega

/-! ## The input blocks at a point, read off the arrays -/

theorem edge_lt4 (t : Fin cfg4.N) (e : Fin 4096) : t.val / 50 * 4096 + e.val < 1703936 := by
  have := lt_N4 t; have := e.isLt; omega

theorem row_lt4 (t : Fin cfg4.N) (r : Fin 2000) : t.val % 50 * 2000 + r.val < 100000 := by
  have := r.isLt; omega

/-- The index block at point `t` is the stretch of 4096 edges of the point's group. -/
theorem iblk4_0_apply (c : Dev nD) (t : Fin cfg4.N) (e : Fin 4096) :
    iblk4 V c 0 t (ix2 (0 : Fin 1) e) = V c main_v37 (ix2 (0 : Fin 1) (⟨t.val / 50 * 4096 + e.val, edge_lt4 t e⟩ : Fin 1703936)) := by
  obtain ⟨i0, i1⟩ := index4_0 t
  have h : ((cfg4.win 0).blk t).view.emb (ix2 (0 : Fin 1) e)
      = ix2 (0 : Fin 1) (⟨t.val / 50 * 4096 + e.val, edge_lt4 t e⟩ : Fin 1703936) := by
    funext a; apply Fin.ext
    match a with
    | ⟨0, _⟩ => show win4_0.index t (0 : Fin 2) * 1 + 1 * 0 = 0; omega
    | ⟨1, _⟩ => show win4_0.index t (1 : Fin 2) * 4096 + 1 * e.val = t.val / 50 * 4096 + e.val; omega
  exact congrArg (V c main_v37) h

/-- The table block at point `t` is the stretch of 2000 rows numbered by the point's place in its group. -/
theorem iblk4_1_apply (c : Dev nD) (t : Fin cfg4.N) (r : Fin 2000) (j : Fin 16) :
    iblk4 V c 1 t (ix2 r j) = V c main_v43 (ix2 (⟨t.val % 50 * 2000 + r.val, row_lt4 t r⟩ : Fin 100000) j) := by
  obtain ⟨i0, i1⟩ := index4_1 t
  have h : ((cfg4.win 1).blk t).view.emb (ix2 r j)
      = ix2 (⟨t.val % 50 * 2000 + r.val, row_lt4 t r⟩ : Fin 100000) j := by
    funext a; apply Fin.ext
    match a with
    | ⟨0, _⟩ => show win4_1.index t (0 : Fin 2) * 2000 + 1 * r.val = t.val % 50 * 2000 + r.val; omega
    | ⟨1, _⟩ => show win4_1.index t (1 : Fin 2) * 16 + 1 * j.val = j.val; omega
  exact congrArg (V c main_v43) h

end Cert.KernelIdeal.Hand

end
-- ==== Proof.KI.Pay4.lean ====
import proofs.«167680_j81389630259984_2_alg».proof.Proof.KI.Pay1

set_option maxRecDepth 16384

/-!
# The second gather's accumulation step at an entry

The same step as the first gather's, over blocks of 16 columns.
-/

noncomputable section

namespace Cert.KernelIdeal.Hand

open Cert.KernelIdeal Cert.KernelIdeal.Gen
open Idealize.ShloMosaic Idealize.ShloMosaic.ValueIdx
open LibOneHot (ind)

/-- The product's dimension numbers: the first axis of each operand is contracted, the second kept. -/
theorem cols4 : Cert.LibColsDot.Cols dot_S2000x4096_S2000x16_S4096x16_0_0_1_1_n_n := ⟨rfl, rfl, rfl, rfl, rfl, rfl⟩

/-- THE STEP AT AN ENTRY: what one point stores into the accumulator, at `(e, j)`, is what the accumulator held there
    plus the sum over the point's rows of the indicator that edge `e`'s index word is the row's number times the
    block's entry in that row and column `j`. -/
theorem k4_pay2_apply (i : grid4.Coords) (x0 : Vec Ideal S1x4096 .i32) (x1 : Vec Ideal S2000x16 .f32) (acc : Vec Ideal S4096x16 .f32)
    (e : Fin 4096) (j : Fin 16) :
    k4_pay2 (F := Ideal) i x0 x1 acc (ix2 e j)
      = acc (ix2 e j) + ∑ r : Fin 2000,
          ind (x0 (ix2 (0 : Fin 1) e) = Scalar.muli (BitVec.ofNat 32 (i 1).val) 2000#32 + BitVec.ofNat 32 r.val) * x1 (ix2 r j) := by
  unfold k4_pay2
  dsimp only
  refine (congrFun (shapeCast_self _ _) (ix2 e j)).trans ?_
  show acc (ix2 e j) + _ = _
  refine congrArg (acc (ix2 e j) + ·) ?_
  refine (cols4.matmul_zero_apply none _ _ e j).trans ?_
  refine Finset.sum_congr rfl fun r _ => ?_
  refine congrArg₂ (· * ·) ?_ ?_
  · refine Eq.trans ?_ (eqBit_toInt _ _)
    exact congrArg₂ (fun a b : BitVec 32 => ((((IntOp.cmpi .eq a b).setWidth 32).toInt : ℝ) : EReal))
      (idxRow_apply x0 _ _ r e) (rowNo_apply _ _ _ r e)
  · exact congrFun (shapeCast_self x1 _) (ix2 r j)

end Cert.KernelIdeal.Hand

end
-- ==== Proof.KI.Val4.lean ====
import proofs.«167680_j81389630259984_2_alg».proof.Proof.KI.Acc4
import proofs.«167680_j81389630259984_2_alg».proof.Proof.KI.Pay4
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators
open LibOneHot (ind)

/-! # At the ideal values: the accumulator at an entry is a partial sum over the table's rows -/

/-- The gather's summand for edge `E`, column `j` and row number `s`: the table's entry in row `s`, column `j`, weighted by one
    if the edge's index word names row `s` and by zero otherwise; zero past the table's rows. -/
def term4 (a37 : S1x1703936.Idx → BitVec 32) (a40 : S100000x16.Idx → EReal) (E : Fin 1703936) (j : Fin 16) (s : ℕ) : EReal :=
  if h : s < 100000 then ind (a37 (ix2 (0 : Fin 1) E) = BitVec.ofNat 32 s) * a40 (ix2 (⟨s, h⟩ : Fin 100000) j) else 0

/-- The row number the body compares the index words with: the block's number times the block's height, plus the row in the block. -/
theorem word4 (a r : ℕ) : Scalar.muli (BitVec.ofNat 32 a) 2000#32 + BitVec.ofNat 32 r = BitVec.ofNat 32 (a * 2000 + r) := by
  show BitVec.ofNat 32 a * BitVec.ofNat 32 2000 + BitVec.ofNat 32 r = BitVec.ofNat 32 (a * 2000 + r)
  rw [← BitVec.ofNat_mul, ← BitVec.ofNat_add]

/-- The block the reset stores is zero everywhere. -/
theorem k4_pay1_apply (y : S4096x16.Idx) : k4_pay1 (F := Ideal) y = 0 := by
  unfold k4_pay1
  rw [shapeCast_self]
  exact Ideal.ofBits_zero_f32

/-- One more block of 2000 rows in a sum over the first rows. -/
theorem range_step4 (f : ℕ → EReal) (k : ℕ) :
    ∑ s ∈ Finset.range ((k + 1) * 2000), f s = ∑ s ∈ Finset.range (k * 2000), f s + ∑ r : Fin 2000, f (k * 2000 + r.val) := by
  have e : (k + 1) * 2000 = k * 2000 + 2000 := by omega
  rw [e, Finset.sum_range_add, Finset.sum_range fun x => f (k * 2000 + x)]

/-- The first block of rows. -/
theorem range_first4 (f : ℕ → EReal) : ∑ r : Fin 2000, f (0 * 2000 + r.val) = ∑ s ∈ Finset.range ((0 + 1) * 2000), f s := by
  rw [range_step4 f 0, Nat.zero_mul, Finset.range_zero, Finset.sum_empty, zero_add]

/-- One point's step at an entry: the accumulator's entry plus the summands of the point's block of rows, for the point's
    stretch of edges. -/
theorem step4 (V : (c : Dev nD) → (b : Ref sig .tc) → Buf (Elt Ideal) ((c : Thread nD τ).loc b)) (c : Dev nD) (n : ℕ) (h : n < cfg4.N)
    (acc : Vec Ideal S4096x16 .f32) (e : Fin 4096) (j : Fin 16) :
    k4_pay2 (F := Ideal) (grid4.coords ⟨n, h⟩) (iblk4 V c 0 ⟨n, h⟩) (iblk4 V c 1 ⟨n, h⟩) acc (ix2 e j)
      = acc (ix2 e j) + ∑ r : Fin 2000, term4 (V c main_v37) (V c main_v43) ⟨n / 50 * 4096 + e.val, edge_lt4 ⟨n, h⟩ e⟩ j (n % 50 * 2000 + r.val) := by
  refine (k4_pay2_apply (grid4.coords ⟨n, h⟩) (iblk4 V c 0 ⟨n, h⟩) (iblk4 V c 1 ⟨n, h⟩) acc e j).trans ?_
  refine congrArg (fun z => acc (ix2 e j) + z) (Finset.sum_congr rfl fun r _ => ?_)
  have e0 := iblk4_0_apply V c ⟨n, h⟩ e
  have e1 := iblk4_1_apply V c ⟨n, h⟩ r j
  have e2 := coords4_1 ⟨n, h⟩
  rw [e0, e1, e2, word4]
  unfold term4
  rw [dif_pos (row_lt4 ⟨n, h⟩ r)]
  try rfl

/-- The accumulator after position `n`, at an entry: the summands of the rows of the blocks done so far in the point's group,
    for the point's stretch of edges. By induction on the point. -/
theorem acc4_apply (V : (c : Dev nD) → (b : Ref sig .tc) → Buf (Elt Ideal) ((c : Thread nD τ).loc b)) (c : Dev nD) : ∀ (n : ℕ) (h : n < cfg4.N) (e : Fin 4096) (j : Fin 16),
    acc4 (F := Ideal) V c n h (ix2 e j)
      = ∑ s ∈ Finset.range ((n % 50 + 1) * 2000), term4 (V c main_v37) (V c main_v43) ⟨n / 50 * 4096 + e.val, edge_lt4 ⟨n, h⟩ e⟩ j s
  | 0, h, e, j => by
    rw [acc4_zero V c h]
    refine (step4 V c 0 h (k4_pay1 (F := Ideal)) e j).trans ?_
    rw [k4_pay1_apply, zero_add]
    exact range_first4 _
  | n + 1, h, e, j => by
    by_cases h0 : (n + 1) % 50 = 0
    · rw [acc4_first V c n h h0]
      refine (step4 V c (n + 1) h (k4_pay1 (F := Ideal)) e j).trans ?_
      rw [k4_pay1_apply, zero_add, h0]
      exact range_first4 _
    · have hq : (n + 1) / 50 = n / 50 := by omega
      have hm : (n + 1) % 50 = n % 50 + 1 := by omega
      rw [acc4_next V c n h h0]
      refine (step4 V c (n + 1) h (acc4 V c n (Nat.lt_of_succ_lt h)) e j).trans ?_
      rw [acc4_apply V c n (Nat.lt_of_succ_lt h) e j]
      have hE : (⟨(n + 1) / 50 * 4096 + e.val, edge_lt4 ⟨n + 1, h⟩ e⟩ : Fin 1703936)
          = ⟨n / 50 * 4096 + e.val, edge_lt4 ⟨n, Nat.lt_of_succ_lt h⟩ e⟩ :=
        Fin.ext (by show (n + 1) / 50 * 4096 + e.val = n / 50 * 4096 + e.val; rw [hq])
      rw [hE, hm, range_step4 _ (n % 50 + 1)]

/-! # The output array after the region -/

/-- The gathered array, index by index: row `E` is the table's row that edge `E`'s index word names, written as the sum over the
    table's rows of the row weighted by one where the word names it and by zero elsewhere. -/
def gath4 (a37 : S1x1703936.Idx → BitVec 32) (a40 : S100000x16.Idx → EReal) : S1703936x16.Idx → EReal :=
  fun i => ∑ n' : Fin 100000, ind (a37 (ix2 (0 : Fin 1) (⟨(i 0).val, idx2_lt0 i⟩ : Fin 1703936)) = BitVec.ofNat 32 n'.val)
    * a40 (ix2 n' (⟨(i 1).val, idx2_lt1 i⟩ : Fin 16))

theorem gath4_apply (a37 : S1x1703936.Idx → BitVec 32) (a40 : S100000x16.Idx → EReal) (E : Fin 1703936) (j : Fin 16) :
    gath4 a37 a40 (ix2 E j) = ∑ n' : Fin 100000, ind (a37 (ix2 (0 : Fin 1) E) = BitVec.ofNat 32 n'.val) * a40 (ix2 n' j) := rfl

-- from here on the gathered array is used only through `gath4_apply`
attribute [local irreducible] gath4

/-- Over all fifty blocks the summands are those of all the table's rows. -/
theorem term4_sum (a37 : S1x1703936.Idx → BitVec 32) (a40 : S100000x16.Idx → EReal) (E : Fin 1703936) (j : Fin 16) :
    ∑ s ∈ Finset.range (50 * 2000), term4 a37 a40 E j s
      = ∑ n' : Fin 100000, ind (a37 (ix2 (0 : Fin 1) E) = BitVec.ofNat 32 n'.val) * a40 (ix2 n' j) := by
  rw [show 50 * 2000 = 100000 from rfl, Finset.sum_range]
  refine Finset.sum_congr rfl fun n' _ => ?_
  unfold term4
  rw [dif_pos n'.isLt]

/-- What a point that writes back — the last of its group — writes is its block of the gathered array. -/
theorem flushed4_eq (V : (c : Dev nD) → (b : Ref sig .tc) → Buf (Elt Ideal) ((c : Thread nD τ).loc b)) (c : Dev nD) (t : Fin cfg4.N) (hf : (cfg4.win 2).flush t = true) :
    (dat4 (F := Ideal) V c).flushed 2 t = ((cfg4.win 2).blk t).view.read (Elt Ideal) (gath4 (V c main_v37) (V c main_v43)) := by
  have h49 : t.val % 50 = 49 := (flush4_2 t).mp hf
  show (cfg4.win 2).cut (grid4.coords t) ((dat4 (F := Ideal) V c).after 2 t) = _
  rw [after4_2, outsAt4_fst_last V c t h49]
  obtain ⟨i0, i1⟩ := index4_2 t
  funext y
  obtain ⟨e, j, rfl⟩ : ∃ (e : Fin 4096) (j : Fin 16), y = ix2 e j := ⟨y 0, y 1, eq_ix2 y⟩
  refine (acc4_apply V c t.val t.isLt e j).trans ?_
  show _ = gath4 (V c main_v37) (V c main_v43) (((cfg4.win 2).blk t).view.emb (ix2 e j))
  have hemb : ((cfg4.win 2).blk t).view.emb (ix2 e j) = ix2 (⟨t.val / 50 * 4096 + e.val, edge_lt4 t e⟩ : Fin 1703936) j := by
    funext a; apply Fin.ext
    match a with
    | ⟨0, _⟩ => show win4_2.index t (0 : Fin 2) * 4096 + 1 * e.val = t.val / 50 * 4096 + e.val; omega
    | ⟨1, _⟩ => show win4_2.index t (1 : Fin 2) * 16 + 1 * j.val = j.val; omega
  rw [hemb, gath4_apply, h49]
  exact term4_sum _ _ _ _

/-- An index of the output array is in point `t`'s block iff each coordinate is in the block's range on its axis. -/
theorem mem_blk4 (t : Fin cfg4.N) (i : S1703936x16.Idx) :
    i ∈ ((cfg4.win 2).blk t).view.set ↔ ∀ a : Fin 2, win4_2.index t a * S4096x16.size a ≤ (i a).val ∧ (i a).val < win4_2.index t a * S4096x16.size a + S4096x16.size a := by
  show i ∈ ((View.whole main_v44).slice (win4_2.rect t)).set ↔ _
  rw [View.set_slice_whole, Rect.mem_set_unit]
  exact Iff.rfl

/-- Every index of the output array is in the block of a point that writes back: row `E` in that of the last point of group `E / 4096`. -/
theorem cover4 (i : S1703936x16.Idx) : ∃ t : Fin cfg4.N, (cfg4.win 2).flush t = true ∧ i ∈ ((cfg4.win 2).blk t).view.set := by
  have hi0 : (i 0).val < 1703936 := idx2_lt0 i
  have hi1 : (i 1).val < 16 := idx2_lt1 i
  have ht : (i 0).val / 4096 * 50 + 49 < cfg4.N := Nat.lt_of_lt_of_eq (by omega : (i 0).val / 4096 * 50 + 49 < 20800) (show cfg4.N = 20800 from N_4).symm
  have hf : (cfg4.win 2).flush ⟨(i 0).val / 4096 * 50 + 49, ht⟩ = true :=
    (flush4_2 ⟨(i 0).val / 4096 * 50 + 49, ht⟩).mpr (by show ((i 0).val / 4096 * 50 + 49) % 50 = 49; omega)
  refine ⟨⟨(i 0).val / 4096 * 50 + 49, ht⟩, hf, ?_⟩
  have q0 : win4_2.index ⟨(i 0).val / 4096 * 50 + 49, ht⟩ (0 : Fin 2) = ((i 0).val / 4096 * 50 + 49) / 50 := (index4_2 _).1
  have q1 : win4_2.index ⟨(i 0).val / 4096 * 50 + 49, ht⟩ (1 : Fin 2) = 0 := (index4_2 _).2
  rw [mem_blk4]
  intro a
  match a with
  | ⟨0, _⟩ =>
    show win4_2.index ⟨(i 0).val / 4096 * 50 + 49, ht⟩ (0 : Fin 2) * 4096 ≤ (i 0).val
      ∧ (i 0).val < win4_2.index ⟨(i 0).val / 4096 * 50 + 49, ht⟩ (0 : Fin 2) * 4096 + 4096
    rw [q0]; omega
  | ⟨1, _⟩ =>
    show win4_2.index ⟨(i 0).val / 4096 * 50 + 49, ht⟩ (1 : Fin 2) * 16 ≤ (i 1).val
      ∧ (i 1).val < win4_2.index ⟨(i 0).val / 4096 * 50 + 49, ht⟩ (1 : Fin 2) * 16 + 16
    rw [q1]; omega

/-- THE OUTPUT ARRAY after the region is the gathered array of the index words and the table as the region finds them. -/
theorem final4_eq (V : (c : Dev nD) → (b : Ref sig .tc) → Buf (Elt Ideal) ((c : Thread nD τ).loc b)) (c : Dev nD) : (dat4 (F := Ideal) V c).arrAt 2 cfg4.N = gath4 (V c main_v37) (V c main_v43) :=
  (dat4 (F := Ideal) V c).arrAt_eq_of_cover 2 (gath4 (V c main_v37) (V c main_v43)) (fun t hf => flushed4_eq V c t hf) cover4

/-- Index by index (`gath4_apply` spells the entry out as the sum over the table's rows). -/
theorem final4 (V : (c : Dev nD) → (b : Ref sig .tc) → Buf (Elt Ideal) ((c : Thread nD τ).loc b)) (c : Dev nD) (E : Fin 1703936) (j : Fin 16) :
    (dat4 (F := Ideal) V c).arrAt 2 cfg4.N (ix2 E j) = gath4 (V c main_v37) (V c main_v43) (ix2 E j) :=
  congrFun (final4_eq V c) (ix2 E j)

end Cert.KernelIdeal.Hand

end
-- ==== Proof.KI.PreRows.lean ====
/-
  The precondition's statement about the edge list, read back.

  The precondition is a conjunction of five facts, each an "all entries" over an array: the four float arguments are
  finite, and every entry of the edge array's first row, read as a signed word, is at least 0 and below 100000. The
  conjunction being 1 makes each conjunct 1; an "all" that is 1 has a 1 at every entry; a comparison that is 1 is the
  inequality of the signed values; and the first row, sliced out and made one-axis, reads the edge array at row 0.
-/
import proofs.«167680_j81389630259984_2_alg».proof.Defs
import proofs.«167680_j81389630259984_2_alg».proof.Proof.Gen.Pre_finite_inputs
import Idealize.ShloMosaic.Lib.ReduceAll
import Idealize.ShloMosaic.Lib.Pipeline.Value
import Idealize.ShloMosaic.Lib.ValueIdx

set_option maxRecDepth 16384

noncomputable section

namespace Cert.PreRows

open Idealize.ShloMosaic Idealize.ShloMosaic.TcCoe Idealize.SL.Sem Idealize.ShloMosaic.ValueIdx
open Cert.Pre_finite_inputs Cert.Pre_finite_inputs.Facts

/-- The scalar shape has one index. -/
instance : Subsingleton S_.Idx := ⟨fun a b => funext fun d => d.elim0⟩

/-- The edge array's first row, sliced out and made one-axis, reads the edge array at row 0. -/
theorem firstRow_apply (a1 : IVec S2x1600000 32) (e : Fin 1600000) :
    shapeCast S1600000 (extractStridedSlice S1x1600000 ![0, 0] a1 slices_S2x1600000_S1x1600000_0_0) shapeCasts_S1x1600000_S1600000 (ix1 e)
      = a1 (ix2 (0 : Fin 2) e) := by
  refine (shapeCast_apply _ shapeCasts_S1x1600000_S1600000 (ix1 e) (ix2 (0 : Fin 1) e) (by
    rw [Shape.rowMajor_val_two, Shape.rowMajor_val_one]
    show 0 * 1600000 + e.val = e.val
    omega)).trans ?_
  exact extractStridedSlice_apply ![0, 0] a1 slices_S2x1600000_S1x1600000_0_0 (ix2 (0 : Fin 1) e) (ix2 (0 : Fin 2) e) (fun a => by
    match a with
    | ⟨0, _⟩ => rfl
    | ⟨1, _⟩ => show e.val = 0 + e.val; omega)

/-- THE FIFTH CONJUNCT READ BACK, for any five arrays of which the precondition's function is all ones. -/
theorem rows_of_fn (a0 : FVec Ideal S100000x128 .f32) (a1 : IVec S2x1600000 32) (a2 : FVec Ideal S1600000 .f32)
    (a3 : FVec Ideal S128x64 .f32) (a4 : FVec Ideal S64x16 .f32) (h : fn (F := Ideal) a0 a1 a2 a3 a4 = fun _ => 1#1) :
    ∀ e : Fin 1600000, 0 ≤ (a1 (ix2 (0 : Fin 2) e)).toInt ∧ (a1 (ix2 (0 : Fin 2) e)).toInt < 100000 := by
  intro e
  have e0 := congrFun h ix0
  unfold fn fn_part1 at e0
  dsimp only at e0
  obtain ⟨-, h28⟩ := IntOp.andi_eq_one.1 e0
  have h27 := Host.reduce_andi_all _ _ _ _ _ h28 (ix1 e)
  obtain ⟨hge, hlt⟩ := IntOp.andi_eq_one.1 h27
  have hge' := IntOp.cmpi_sge.1 hge
  have hlt' := IntOp.cmpi_slt.1 hlt
  rw [firstRow_apply] at hge' hlt'
  have z0 : (broadcastInDim S1600000 ![] bcast_S_S1600000 (constantI S_ 32 0#32) (ix1 e)).toInt = 0 := by
    rw [broadcastInDim_apply _ bcast_S_S1600000 _ (ix1 e) ix0 (fun a => a.elim0)]
    show (0#32 : BitVec 32).toInt = 0
    decide
  have z1 : (broadcastInDim S1600000 ![] bcast_S_S1600000 (constantI S_ 32 100000#32) (ix1 e)).toInt = 100000 := by
    rw [broadcastInDim_apply _ bcast_S_S1600000 _ (ix1 e) ix0 (fun a => a.elim0)]
    show (100000#32 : BitVec 32).toInt = 100000
    decide
  rw [z0] at hge'
  rw [z1] at hlt'
  exact ⟨hge', hlt'⟩

/-- The kernel program's precondition gives, on every device, the source numbers of the given edges in `[0, 100000)`. -/
theorem ha_of_pre (m : (ℓ : Loc Cert.KernelIdeal.nD Cert.KernelIdeal.τ Cert.KernelIdeal.sig) → Buf (Elt Ideal) ℓ) (h : Cert.Pre_KernelIdeal m) (c : Dev Cert.KernelIdeal.nD) :
    ∀ e : Fin 1600000, 0 ≤ ((m ((c.tc : Thread Cert.KernelIdeal.nD Cert.KernelIdeal.τ).loc Cert.KernelIdeal.main_arg1) : IVec S2x1600000 32) (ix2 (0 : Fin 2) e)).toInt
      ∧ ((m ((c.tc : Thread Cert.KernelIdeal.nD Cert.KernelIdeal.τ).loc Cert.KernelIdeal.main_arg1) : IVec S2x1600000 32) (ix2 (0 : Fin 2) e)).toInt < 100000 :=
  rows_of_fn _ _ _ _ _ (h c)

end Cert.PreRows

end
-- ==== Proof.KI.Final2.lean ====
/-
  The two gathers read, and the algebraic claim over the two scatter values still to be read.

  A gather region leaves, at edge `e` and column `j`, the one-hot selection by the padded row word of the node table's
  column `j`. With these two read, the last region's output array is the reference's result given the two scatter values;
  and the two runs end with equal result buffers and unchanged arguments.
-/
import proofs.«167680_j81389630259984_2_alg».proof.Defs
import proofs.«167680_j81389630259984_2_alg».proof.Proof.KI.Final
import proofs.«167680_j81389630259984_2_alg».proof.Proof.KI.Val1
import proofs.«167680_j81389630259984_2_alg».proof.Proof.KI.Val4
import proofs.«167680_j81389630259984_2_alg».proof.Proof.KI.PreRows

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem LibOneHot
open Idealize.ShloMosaic.Pipeline (Dat)
open scoped BigOperators

/-- The first gather's value, in the arrangement the assembly takes. -/
theorem hVal1_holds : ∀ (V : (c : Dev nD) → (b : Ref sig .tc) → Buf (Elt Ideal) ((c : Thread nD τ).loc b)) (c : Dev nD) (e : Fin 1703936) (j : Fin 64),
      asF S1703936x64 ((dat1 (F := Ideal) V c).arrAt 2 cfg1.N) (ix2 e j)
        = ∑ n' : Fin 100000, ind (asI S1x1703936 (V c main_v37) (ix2 (0 : Fin 1) e) = BitVec.ofNat 32 n'.val) * asF S100000x64 (V c main_v40) (ix2 n' j) :=
  fun V c e j => (final1 V c e j).trans (gath1_apply _ _ e j)

/-- The second gather's value, in the arrangement the assembly takes. -/
theorem hVal4_holds : ∀ (V : (c : Dev nD) → (b : Ref sig .tc) → Buf (Elt Ideal) ((c : Thread nD τ).loc b)) (c : Dev nD) (e : Fin 1703936) (j : Fin 16),
      asF S1703936x16 ((dat4 (F := Ideal) V c).arrAt 2 cfg4.N) (ix2 e j)
        = ∑ n' : Fin 100000, ind (asI S1x1703936 (V c main_v37) (ix2 (0 : Fin 1) e) = BitVec.ofNat 32 n'.val) * asF S100000x16 (V c main_v43) (ix2 n' j) :=
  fun V c e j => (final4 V c e j).trans (gath4_apply _ _ e j)

set_option maxHeartbeats 4000000 in
/-- THE ALGEBRAIC CLAIM, given the four region values still to be read. -/
theorem algebraic_of_region_values
    (hVal1 : ∀ (V : (c : Dev nD) → (b : Ref sig .tc) → Buf (Elt Ideal) ((c : Thread nD τ).loc b)) (c : Dev nD) (e : Fin 1703936) (j : Fin 64),
      asF S1703936x64 ((dat1 (F := Ideal) V c).arrAt 2 cfg1.N) (ix2 e j)
        = ∑ n' : Fin 100000, ind (asI S1x1703936 (V c main_v37) (ix2 (0 : Fin 1) e) = BitVec.ofNat 32 n'.val) * asF S100000x64 (V c main_v40) (ix2 n' j))
    (hVal2 : ∀ (V : (c : Dev nD) → (b : Ref sig .tc) → Buf (Elt Ideal) ((c : Thread nD τ).loc b)) (c : Dev nD) (n : Fin 100000) (j : Fin 64),
      asF S100000x64 ((dat2 (F := Ideal) V c).arrAt 3 cfg2.N) (ix2 n j) = max (∑ e : Fin 1703936, ind (asI S1x1703936 (V c main_v38) (ix2 (0 : Fin 1) e) = BitVec.ofNat 32 n.val) * (asF S1703936x64 (V c main_v41) (ix2 e j) * asF S1703936x1 (V c main_v39) (ix2 e (0 : Fin 1)))) 0)
    (hVal4 : ∀ (V : (c : Dev nD) → (b : Ref sig .tc) → Buf (Elt Ideal) ((c : Thread nD τ).loc b)) (c : Dev nD) (e : Fin 1703936) (j : Fin 16),
      asF S1703936x16 ((dat4 (F := Ideal) V c).arrAt 2 cfg4.N) (ix2 e j)
        = ∑ n' : Fin 100000, ind (asI S1x1703936 (V c main_v37) (ix2 (0 : Fin 1) e) = BitVec.ofNat 32 n'.val) * asF S100000x16 (V c main_v43) (ix2 n' j))
    (hVal5 : ∀ (V : (c : Dev nD) → (b : Ref sig .tc) → Buf (Elt Ideal) ((c : Thread nD τ).loc b)) (c : Dev nD) (i : Fin 100000) (j : Fin 16),
      asF S100000x16 ((dat5 (F := Ideal) V c).arrAt 3 cfg5.N) (ix2 i j)
        = ((∑ e : Fin 1703936, ind (asI S1x1703936 (V c main_v38) (ix2 (0 : Fin 1) e) = BitVec.ofNat 32 i.val) * (asF S1703936x16 (V c main_v44) (ix2 e j) * asF S1703936x1 (V c main_v39) (ix2 e (0 : Fin 1)))) - Finset.univ.sup fun k : Fin 16 => (∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))))
            - Ideal.log (∑ k : Fin 16, Ideal.exp ((∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))) - Finset.univ.sup fun k' : Fin 16 => (∑ e : Fin 1703936, ind (asI S1x1703936 (V c main_v38) (ix2 (0 : Fin 1) e) = BitVec.ofNat 32 i.val) * (asF S1703936x16 (V c main_v44) (ix2 e k') * asF S1703936x1 (V c main_v39) (ix2 e (0 : Fin 1))))))) :
    Cert.algebraic_KernelIdeal_ReferenceIdeal := by
  intro m g m' g' hpre hagree
  refine ⟨fun c => (dat5 (F := Ideal) (V8 m g) c).arrAt 3 cfg5.N, run_result m g, ?_⟩
  refine (θ_run _ _ _).mono (fun _ h c => ?_) (Cert.ReferenceIdeal.Hand.ref_run (F := Ideal) m' g')
  obtain ⟨h61, h0, h1, h2, h3, h4⟩ := h c
  obtain ⟨e0, e1, e2, e3, e4⟩ := hagree c
  refine ⟨?_, h0, h1, h2, h3, h4⟩
  rw [h61, e0, e1, e2, e3, e4]
  exact (final_value m g hVal1 hVal2 hVal4 hVal5 c (Cert.PreRows.ha_of_pre m hpre c)).symm

/-- THE KERNEL'S RESULT ARRAY IS THE REFERENCE'S RESULT, given the two scatter values. -/
theorem final_value' (m : (ℓ : Loc nD τ sig) → Buf (Elt Ideal) ℓ) (ρ : Dev nD → PrngReg)
    (hVal2 : ∀ (V : (c : Dev nD) → (b : Ref sig .tc) → Buf (Elt Ideal) ((c : Thread nD τ).loc b)) (c : Dev nD) (n : Fin 100000) (j : Fin 64),
      asF S100000x64 ((dat2 (F := Ideal) V c).arrAt 3 cfg2.N) (ix2 n j) = max (∑ e : Fin 1703936, ind (asI S1x1703936 (V c main_v38) (ix2 (0 : Fin 1) e) = BitVec.ofNat 32 n.val) * (asF S1703936x64 (V c main_v41) (ix2 e j) * asF S1703936x1 (V c main_v39) (ix2 e (0 : Fin 1)))) 0)
    (hVal5 : ∀ (V : (c : Dev nD) → (b : Ref sig .tc) → Buf (Elt Ideal) ((c : Thread nD τ).loc b)) (c : Dev nD) (i : Fin 100000) (j : Fin 16),
      asF S100000x16 ((dat5 (F := Ideal) V c).arrAt 3 cfg5.N) (ix2 i j)
        = ((∑ e : Fin 1703936, ind (asI S1x1703936 (V c main_v38) (ix2 (0 : Fin 1) e) = BitVec.ofNat 32 i.val) * (asF S1703936x16 (V c main_v44) (ix2 e j) * asF S1703936x1 (V c main_v39) (ix2 e (0 : Fin 1)))) - Finset.univ.sup fun k : Fin 16 => (∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))))
            - Ideal.log (∑ k : Fin 16, Ideal.exp ((∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))) - Finset.univ.sup fun k' : Fin 16 => (∑ e : Fin 1703936, ind (asI S1x1703936 (V c main_v38) (ix2 (0 : Fin 1) e) = BitVec.ofNat 32 i.val) * (asF S1703936x16 (V c main_v44) (ix2 e k') * asF S1703936x1 (V c main_v39) (ix2 e (0 : Fin 1)))))))
    (c : Dev nD)
    (ha : ∀ e : Fin 1600000, 0 ≤ ((asI S2x1600000 (m ((c : Thread nD τ).loc main_arg1))) (ix2 (0 : Fin 2) e)).toInt ∧ ((asI S2x1600000 (m ((c : Thread nD τ).loc main_arg1))) (ix2 (0 : Fin 2) e)).toInt < 100000) :
    asF S100000x16 ((dat5 (F := Ideal) (V8 m ρ) c).arrAt 3 cfg5.N)
      = Cert.ReferenceIdeal.Hand.RefOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  final_value m ρ hVal1_holds hVal2 hVal4_holds hVal5 c ha

/-- THE ALGEBRAIC CLAIM at the generated side conditions, given the two scatter values. -/
theorem algebraic'
    (hVal2 : ∀ (V : (c : Dev nD) → (b : Ref sig .tc) → Buf (Elt Ideal) ((c : Thread nD τ).loc b)) (c : Dev nD) (n : Fin 100000) (j : Fin 64),
      asF S100000x64 ((dat2 (F := Ideal) V c).arrAt 3 cfg2.N) (ix2 n j) = max (∑ e : Fin 1703936, ind (asI S1x1703936 (V c main_v38) (ix2 (0 : Fin 1) e) = BitVec.ofNat 32 n.val) * (asF S1703936x64 (V c main_v41) (ix2 e j) * asF S1703936x1 (V c main_v39) (ix2 e (0 : Fin 1)))) 0)
    (hVal5 : ∀ (V : (c : Dev nD) → (b : Ref sig .tc) → Buf (Elt Ideal) ((c : Thread nD τ).loc b)) (c : Dev nD) (i : Fin 100000) (j : Fin 16),
      asF S100000x16 ((dat5 (F := Ideal) V c).arrAt 3 cfg5.N) (ix2 i j)
        = ((∑ e : Fin 1703936, ind (asI S1x1703936 (V c main_v38) (ix2 (0 : Fin 1) e) = BitVec.ofNat 32 i.val) * (asF S1703936x16 (V c main_v44) (ix2 e j) * asF S1703936x1 (V c main_v39) (ix2 e (0 : Fin 1)))) - Finset.univ.sup fun k : Fin 16 => (∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))))
            - Ideal.log (∑ k : Fin 16, Ideal.exp ((∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))) - Finset.univ.sup fun k' : Fin 16 => (∑ e : Fin 1703936, ind (asI S1x1703936 (V c main_v38) (ix2 (0 : Fin 1) e) = BitVec.ofNat 32 i.val) * (asF S1703936x16 (V c main_v44) (ix2 e k') * asF S1703936x1 (V c main_v39) (ix2 e (0 : Fin 1))))))) :
    @Cert.algebraic_KernelIdeal_ReferenceIdeal Cert.KernelIdeal.Gen.facts Cert.ReferenceIdeal.Gen.facts Cert.Pre_finite_inputs.Gen.facts :=
  algebraic_of_region_values hVal1_holds hVal2 hVal4_holds hVal5

end Cert.KernelIdeal.Hand

end
-- ==== Proof.KI.Val2.Pieces.lean ====
import proofs.«167680_j81389630259984_2_alg».proof.Proof.KI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! # Region 2: what each case's stores leave, as the body's arithmetic of the blocks -/

theorem hz2 : (![0, 0] : Fin 2 → Nat) = fun _ => 0 := funext fun a => by fin_cases a <;> rfl

/-- A middle point of a group leaves in the accumulator the body's sum: the accumulator as the point before left it
    plus the one-hot product of this point's blocks. -/
theorem sout2_B_0_eq (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : ¬cond2_1 i)
    (x0 : Vec F S4096x64 .f32) (x1 : Vec F S1x4096 .i32) (x2 : Vec F S4096x1 .f32) (xs0 : Vec F S2000x64 .f32) :
    sout2_B_0 c i arg2 harg2 arg3 harg3 arg4 harg4 arg5 harg5 arg6 harg6 hc0 hc1 x0 x1 x2 xs0 = k2_pay2 i x1 x0 x2 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  rw [View.canon_unit_zero hz2]
  simp only [View.readAt_eq_ld, harg2.read_unread, harg3.read_unread, harg4.read_unread, harg5.read_unread, harg6.read_unread, View.ld_unit_zero (S := S4096x64) hz2, View.ld_unit_zero (S := S1x4096) hz2, View.ld_unit_zero (S := S4096x1) hz2, View.ld_unit_zero (S := S2000x64) hz2]

/-- The last point of a group leaves in the accumulator the same sum. -/
theorem sout2_C_0_eq (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) :
    sout2_C_0 c i arg2 harg2 arg3 harg3 arg4 harg4 arg5 harg5 arg6 harg6 hc0 hc1 x0 x1 x2 xs0 = k2_pay2 i x1 x0 x2 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero hz2]
  simp only [View.readAt_eq_ld, harg2.read_unread, harg3.read_unread, harg4.read_unread, harg5.read_unread, harg6.read_unread, View.ld_unit_zero (S := S4096x64) hz2, View.ld_unit_zero (S := S1x4096) hz2, View.ld_unit_zero (S := S4096x1) hz2, View.ld_unit_zero (S := S2000x64) hz2]

/-- The last point of a group leaves in output 3's staging buffer the epilogue of that sum. -/
theorem out2_C_3_eq (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : ¬cond2_0 i) (hc1 : cond2_1 i)
    (x0 : Vec F S4096x64 .f32) (x1 : Vec F S1x4096 .i32) (x2 : Vec F S4096x1 .f32) (xs0 : Vec F S2000x64 .f32) :
    out2_C_3 c i arg2 harg2 arg3 harg3 arg4 harg4 arg5 harg5 arg6 harg6 hc0 hc1 x0 x1 x2 xs0 = k2_pay3 (k2_pay2 i x1 x0 x2 xs0) := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero hz2]
  rw [View.readCov_unit_zero (S := S2000x64) _ hz2]
  simp only [View.readAt_eq_ld, harg2.read_unread, harg3.read_unread, harg4.read_unread, harg5.read_unread, harg6.read_unread, View.ld_unit_zero (S := S4096x64) hz2, View.ld_unit_zero (S := S1x4096) hz2, View.ld_unit_zero (S := S4096x1) hz2, View.ld_unit_zero (S := S2000x64) hz2]

/-- The first point of a group leaves in the accumulator the body's sum over the zero block it has just stored. -/
theorem sout2_A_0_eq (c : Dev nD) (i : grid2.Coords) (arg2 : Memref sig .tc .vmem S4096x64 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x64 .f32) (harg5 : arg5.IsWhole) (arg6 : Memref sig .tc .vmem S2000x64 .f32) (harg6 : arg6.IsWhole) (hc0 : cond2_0 i) (hc1 : ¬cond2_1 i)
    (x0 : Vec F S4096x64 .f32) (x1 : Vec F S1x4096 .i32) (x2 : Vec F S4096x1 .f32) :
    sout2_A_0 c i arg2 harg2 arg3 harg3 arg4 harg4 arg5 harg5 arg6 harg6 hc0 hc1 x0 x1 x2 = k2_pay2 i x1 x0 x2 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S2000x64) hz2]
  rw [View.readCov_unit_zero (S := S2000x64) _ hz2]
  simp only [View.readAt_eq_ld, harg2.read_unread, harg3.read_unread, harg4.read_unread, harg5.read_unread, harg6.read_unread, View.ld_unit_zero (S := S4096x64) hz2, View.ld_unit_zero (S := S1x4096) hz2, View.ld_unit_zero (S := S4096x1) hz2, View.ld_unit_zero (S := S2000x64) hz2]

end Cert.KernelIdeal.Hand

end
-- ==== Proof.KI.Val2.Acc.lean ====
import proofs.«167680_j81389630259984_2_alg».proof.Proof.KI.Val2.Pieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! # Region 2: the accumulator after each point, as a chain of the body's sum -/

-- from here on the pieces are used only through the four lemmas on them
attribute [local irreducible] sout2_A_0 sout2_B_0 sout2_C_0 out2_A_3 out2_B_3 out2_C_3

variable (V : (c : Dev nD) → (b : Ref sig .tc) → Buf (Elt F) ((c : Thread nD τ).loc b))

/-- The accumulator after position `n`: at the first point of a group the body's sum of the point's three input blocks over
    the zero block; at any other point the body's sum of the point's three input blocks over what the point before left. -/
def acc2 (c : Dev nD) : (n : ℕ) → n < cfg2.N → Vec F S2000x64 .f32
  | 0, h => k2_pay2 (grid2.coords ⟨0, h⟩) (iblk2 V c 1 ⟨0, h⟩) (iblk2 V c 0 ⟨0, h⟩) (iblk2 V c 2 ⟨0, h⟩) (k2_pay1 (F := F))
  | n + 1, h =>
    if (n + 1) % 416 = 0 then
      k2_pay2 (grid2.coords ⟨n + 1, h⟩) (iblk2 V c 1 ⟨n + 1, h⟩) (iblk2 V c 0 ⟨n + 1, h⟩) (iblk2 V c 2 ⟨n + 1, h⟩) (k2_pay1 (F := F))
    else
      k2_pay2 (grid2.coords ⟨n + 1, h⟩) (iblk2 V c 1 ⟨n + 1, h⟩) (iblk2 V c 0 ⟨n + 1, h⟩) (iblk2 V c 2 ⟨n + 1, h⟩) (acc2 c n (Nat.lt_of_succ_lt h))

theorem acc2_zero (c : Dev nD) (h : 0 < cfg2.N) :
    acc2 V c 0 h = k2_pay2 (grid2.coords ⟨0, h⟩) (iblk2 V c 1 ⟨0, h⟩) (iblk2 V c 0 ⟨0, h⟩) (iblk2 V c 2 ⟨0, h⟩) (k2_pay1 (F := F)) := rfl

theorem acc2_first (c : Dev nD) (n : ℕ) (h : n + 1 < cfg2.N) (h0 : (n + 1) % 416 = 0) :
    acc2 V c (n + 1) h = k2_pay2 (grid2.coords ⟨n + 1, h⟩) (iblk2 V c 1 ⟨n + 1, h⟩) (iblk2 V c 0 ⟨n + 1, h⟩) (iblk2 V c 2 ⟨n + 1, h⟩) (k2_pay1 (F := F)) :=
  if_pos h0

theorem acc2_next (c : Dev nD) (n : ℕ) (h : n + 1 < cfg2.N) (h0 : ¬(n + 1) % 416 = 0) :
    acc2 V c (n + 1) h = k2_pay2 (grid2.coords ⟨n + 1, h⟩) (iblk2 V c 1 ⟨n + 1, h⟩) (iblk2 V c 0 ⟨n + 1, h⟩) (iblk2 V c 2 ⟨n + 1, h⟩) (acc2 V c n (Nat.lt_of_succ_lt h)) :=
  if_neg h0

set_option maxHeartbeats 400000 in
/-- What the accumulator holds after position `n` is that chain: by induction on the point, the three cases' values. -/
theorem outsAt2_snd (c : Dev nD) : ∀ (n : ℕ) (h : n < cfg2.N), (outsAt2 V c n h).2 = acc2 V c n h
  | 0, h =>
    (congrArg Prod.snd (outsAt2_A V c ⟨0, h⟩ (Nat.zero_mod _) (show ¬(0 % 416 = 415) by decide))).trans
      ((sout2_A_0_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) scM2_0 (Memref.isWhole_whole _) _ _ (iblk2 V c 0 ⟨0, h⟩) (iblk2 V c 1 ⟨0, h⟩) (iblk2 V c 2 ⟨0, h⟩)).trans (acc2_zero V c h).symm)
  | n + 1, h => by
    by_cases h0 : (n + 1) % 416 = 0
    · have h1 : ¬(n + 1) % 416 = 415 := by omega
      exact (congrArg Prod.snd (outsAt2_A V c ⟨n + 1, h⟩ h0 h1)).trans
        ((sout2_A_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) _ _ (iblk2 V c 0 ⟨n + 1, h⟩) (iblk2 V c 1 ⟨n + 1, h⟩) (iblk2 V c 2 ⟨n + 1, h⟩)).trans (acc2_first V c n h h0).symm)
    · by_cases h1 : (n + 1) % 416 = 415
      · exact (congrArg Prod.snd (outsAt2_C V c ⟨n + 1, h⟩ h0 h1)).trans
          ((sout2_C_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) _ _ (iblk2 V c 0 ⟨n + 1, h⟩) (iblk2 V c 1 ⟨n + 1, h⟩) (iblk2 V c 2 ⟨n + 1, h⟩) (outsAt2 V c n (Nat.lt_of_succ_lt h)).2).trans
            ((congrArg (k2_pay2 (grid2.coords ⟨n + 1, h⟩) (iblk2 V c 1 ⟨n + 1, h⟩) (iblk2 V c 0 ⟨n + 1, h⟩) (iblk2 V c 2 ⟨n + 1, h⟩)) (outsAt2_snd c n (Nat.lt_of_succ_lt h))).trans
              (acc2_next V c n h h0).symm))
      · exact (congrArg Prod.snd (outsAt2_B V c ⟨n + 1, h⟩ h0 h1)).trans
          ((sout2_B_0_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) _ _ (iblk2 V c 0 ⟨n + 1, h⟩) (iblk2 V c 1 ⟨n + 1, h⟩) (iblk2 V c 2 ⟨n + 1, h⟩) (outsAt2 V c n (Nat.lt_of_succ_lt h)).2).trans
            ((congrArg (k2_pay2 (grid2.coords ⟨n + 1, h⟩) (iblk2 V c 1 ⟨n + 1, h⟩) (iblk2 V c 0 ⟨n + 1, h⟩) (iblk2 V c 2 ⟨n + 1, h⟩)) (outsAt2_snd c n (Nat.lt_of_succ_lt h))).trans
              (acc2_next V c n h h0).symm))

set_option maxHeartbeats 400000 in
/-- At the last point of a group output 3's staging buffer holds the epilogue of the accumulator's chain. -/
theorem outsAt2_fst_last (c : Dev nD) (t : Fin cfg2.N) (h1 : t.val % 416 = 415) :
    (outsAt2 V c t.val t.isLt).1 = k2_pay3 (acc2 V c t.val t.isLt) := by
  have h0 : ¬t.val % 416 = 0 := by omega
  exact (congrArg Prod.fst (outsAt2_C V c t h0 h1)).trans
    ((out2_C_3_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t) (outsAt2 V c (t.val - 1) (Nat.lt_of_le_of_lt (Nat.sub_le _ _) t.isLt)).2).trans
      (congrArg k2_pay3
        ((sout2_C_0_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t) (outsAt2 V c (t.val - 1) (Nat.lt_of_le_of_lt (Nat.sub_le _ _) t.isLt)).2).symm.trans
          ((congrArg Prod.snd (outsAt2_C V c t h0 h1)).symm.trans (outsAt2_snd V c t.val t.isLt)))))

end Cert.KernelIdeal.Hand

end
-- ==== Proof.KI.Val2.Blocks.lean ====
import proofs.«167680_j81389630259984_2_alg».proof.Proof.KI.Val2.Acc
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # Region 2: the grid's points and the windows' blocks at them

The grid is 50 × 416 with the last axis fastest: point `t` is the `t % 416`-th point of group `t / 416`. -/

theorem lt_N2 (t : Fin cfg2.N) : t.val < 20800 :=
  Nat.lt_of_lt_of_eq t.isLt (show cfg2.N = 20800 from N_2)

/-- The point's coordinate along the reduction axis. -/
theorem coords2_1 (t : Fin cfg2.N) : (grid2.coords t (1 : Fin 2)).val = t.val % 416 := by
  have hN := lt_N2 t
  show t.val / 1 % 416 = t.val % 416
  omega

/-- The point's group. -/
theorem coords2_0 (t : Fin cfg2.N) : (grid2.coords t (0 : Fin 2)).val = t.val / 416 := by
  have hN := lt_N2 t
  show t.val / 416 % 50 = t.val / 416
  omega

/-- The rows window: block `t % 416` along the edge axis. -/
theorem index2_0 (t : Fin cfg2.N) : win2_0.index t (0 : Fin 2) = t.val % 416 ∧ win2_0.index t (1 : Fin 2) = 0 := by
  have hN := lt_N2 t
  refine ⟨?_, rfl⟩
  show (t.val / 1 % 416) % 4294967296 = t.val % 416
  omega

/-- The index window: block `t % 416` along the edge axis. -/
theorem index2_1 (t : Fin cfg2.N) : win2_1.index t (0 : Fin 2) = 0 ∧ win2_1.index t (1 : Fin 2) = t.val % 416 := by
  have hN := lt_N2 t
  refine ⟨rfl, ?_⟩
  show (t.val / 1 % 416) % 4294967296 = t.val % 416
  omega

/-- The weight window: block `t % 416` along the edge axis. -/
theorem index2_2 (t : Fin cfg2.N) : win2_2.index t (0 : Fin 2) = t.val % 416 ∧ win2_2.index t (1 : Fin 2) = 0 := by
  have hN := lt_N2 t
  refine ⟨?_, rfl⟩
  show (t.val / 1 % 416) % 4294967296 = t.val % 416
  omega

/-- The output window: block `t / 416` of rows. -/
theorem index2_3 (t : Fin cfg2.N) : win2_3.index t (0 : Fin 2) = t.val / 416 ∧ win2_3.index t (1 : Fin 2) = 0 := by
  have hN := lt_N2 t
  refine ⟨?_, rfl⟩
  show (t.val / 416 % 50) % 4294967296 = t.val / 416
  omega

/-! ## The input blocks at a point, read off the arrays -/

theorem edge_lt2 (t : Fin cfg2.N) (e : Fin 4096) : t.val % 416 * 4096 + e.val < 1703936 := by
  have := e.isLt; omega

theorem row_lt2 (t : Fin cfg2.N) (r : Fin 2000) : t.val / 416 * 2000 + r.val < 100000 := by
  have := lt_N2 t; have := r.isLt; omega

/-- The rows block at point `t` is the stretch of 4096 edges numbered by the point's place in its group. -/
theorem iblk2_0_apply (c : Dev nD) (t : Fin cfg2.N) (e : Fin 4096) (j : Fin 64) :
    iblk2 V c 0 t (ix2 e j) = V c main_v41 (ix2 (⟨t.val % 416 * 4096 + e.val, edge_lt2 t e⟩ : Fin 1703936) j) := by
  obtain ⟨i0, i1⟩ := index2_0 t
  have h : ((cfg2.win 0).blk t).view.emb (ix2 e j)
      = ix2 (⟨t.val % 416 * 4096 + e.val, edge_lt2 t e⟩ : Fin 1703936) j := by
    funext a; apply Fin.ext
    match a with
    | ⟨0, _⟩ => show win2_0.index t (0 : Fin 2) * 4096 + 1 * e.val = t.val % 416 * 4096 + e.val; omega
    | ⟨1, _⟩ => show win2_0.index t (1 : Fin 2) * 64 + 1 * j.val = j.val; omega
  exact congrArg (V c main_v41) h

/-- The index block at point `t` is the same stretch of the index words. -/
theorem iblk2_1_apply (c : Dev nD) (t : Fin cfg2.N) (e : Fin 4096) :
    iblk2 V c 1 t (ix2 (0 : Fin 1) e) = V c main_v38 (ix2 (0 : Fin 1) (⟨t.val % 416 * 4096 + e.val, edge_lt2 t e⟩ : Fin 1703936)) := by
  obtain ⟨i0, i1⟩ := index2_1 t
  have h : ((cfg2.win 1).blk t).view.emb (ix2 (0 : Fin 1) e)
      = ix2 (0 : Fin 1) (⟨t.val % 416 * 4096 + e.val, edge_lt2 t e⟩ : Fin 1703936) := by
    funext a; apply Fin.ext
    match a with
    | ⟨0, _⟩ => show win2_1.index t (0 : Fin 2) * 1 + 1 * 0 = 0; omega
    | ⟨1, _⟩ => show win2_1.index t (1 : Fin 2) * 4096 + 1 * e.val = t.val % 416 * 4096 + e.val; omega
  exact congrArg (V c main_v38) h

/-- The weight block at point `t` is the same stretch of the weights. -/
theorem iblk2_2_apply (c : Dev nD) (t : Fin cfg2.N) (e : Fin 4096) :
    iblk2 V c 2 t (ix2 e (0 : Fin 1)) = V c main_v39 (ix2 (⟨t.val % 416 * 4096 + e.val, edge_lt2 t e⟩ : Fin 1703936) (0 : Fin 1)) := by
  obtain ⟨i0, i1⟩ := index2_2 t
  have h : ((cfg2.win 2).blk t).view.emb (ix2 e (0 : Fin 1))
      = ix2 (⟨t.val % 416 * 4096 + e.val, edge_lt2 t e⟩ : Fin 1703936) (0 : Fin 1) := by
    funext a; apply Fin.ext
    match a with
    | ⟨0, _⟩ => show win2_2.index t (0 : Fin 2) * 4096 + 1 * e.val = t.val % 416 * 4096 + e.val; omega
    | ⟨1, _⟩ => show win2_2.index t (1 : Fin 2) * 1 + 1 * 0 = 0; omega
  exact congrArg (V c main_v39) h

end Cert.KernelIdeal.Hand

end
-- ==== Proof.KI.Pay2.lean ====
import proofs.«167680_j81389630259984_2_alg».proof.Proof.KI.Pay1
import proofs.«167680_j81389630259984_2_alg».proof.Proof.LibPlainDot

set_option maxRecDepth 16384

/-!
# The scatter's accumulation step at an entry

One point of the scatter adds to the accumulator, at entry `(r, j)`, the sum over the point's 4096 edges `e` of the
edge's row entry `(e, j)` times the edge's weight, counted if the index word of edge `e` names row `r` of the point's
group of rows and not otherwise: the product of the one-hot matrix with the weighted block, read at an entry, at the
ideal values.
-/

noncomputable section

namespace Cert.KernelIdeal.Hand

open Cert.KernelIdeal Cert.KernelIdeal.Gen
open Idealize.ShloMosaic Idealize.ShloMosaic.ValueIdx
open LibOneHot (ind)

/-- The product's dimension numbers: the second axis of the left operand is contracted with the first of the right. -/
theorem plain2 : Cert.LibPlainDot.Plain dot_S2000x4096_S4096x64_S2000x64_1_0_0_1_n_n := ⟨rfl, rfl, rfl, rfl, rfl, rfl⟩

/-- THE STEP AT AN ENTRY: what one point stores into the accumulator, at `(r, j)`, is what the accumulator held there
    plus the sum over the point's edges of the indicator that edge `e`'s index word is the row's number times the
    edge's row entry in column `j` times the edge's weight. -/
theorem k2_pay2_apply (i : grid2.Coords) (x1 : Vec Ideal S1x4096 .i32) (x0 : Vec Ideal S4096x64 .f32) (x2 : Vec Ideal S4096x1 .f32)
    (acc : Vec Ideal S2000x64 .f32) (r : Fin 2000) (j : Fin 64) :
    k2_pay2 (F := Ideal) i x1 x0 x2 acc (ix2 r j)
      = acc (ix2 r j) + ∑ e : Fin 4096,
          ind (x1 (ix2 (0 : Fin 1) e) = Scalar.muli (BitVec.ofNat 32 (i 0).val) 2000#32 + BitVec.ofNat 32 r.val)
            * (x0 (ix2 e j) * x2 (ix2 e (0 : Fin 1))) := by
  unfold k2_pay2
  dsimp only
  refine (congrFun (shapeCast_self _ _) (ix2 r j)).trans ?_
  show acc (ix2 r j) + _ = _
  refine congrArg (acc (ix2 r j) + ·) ?_
  refine ((Ideal.matmul_constant_zero_apply (φ₁ := .bf16) (φ₂ := .bf16) _ none _ _ (ix2 r j)).trans (plain2.sum_eq _ _ r j)).trans ?_
  refine Finset.sum_congr rfl fun e _ => ?_
  refine congrArg₂ (· * ·) ?_ ?_
  · refine Eq.trans ?_ (eqBit_toInt _ _)
    exact congrArg₂ (fun a b : BitVec 32 => ((((IntOp.cmpi .eq a b).setWidth 32).toInt : ℝ) : EReal))
      (idxRow_apply x1 _ _ r e) (rowNo_apply _ _ _ r e)
  · refine congrArg₂ (· * ·) (congrFun (shapeCast_self x0 _) (ix2 e j)) ?_
    refine (broadcastTo_apply _ _ (ix2 e j) (ix2 e (0 : Fin 1)) fun ax => ?_).trans (congrFun (shapeCast_self x2 _) (ix2 e (0 : Fin 1)))
    match ax with
    | ⟨0, _⟩ => rfl
    | ⟨1, _⟩ => rfl

end Cert.KernelIdeal.Hand

end
-- ==== Proof.KI.Val2.Sum.lean ====
import proofs.«167680_j81389630259984_2_alg».proof.Proof.KI.Val2.Blocks
import proofs.«167680_j81389630259984_2_alg».proof.Proof.KI.Pay2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open LibOneHot (ind)

-- the pieces are used only through the lemmas on them
attribute [local irreducible] sout2_A_0 sout2_B_0 sout2_C_0 out2_A_3 out2_B_3 out2_C_3

/-! # Region 2 at the ideal values: what the output array holds after the region -/

/-- The scatter's summand for row number `n`, column `j` and edge number `s`: the edge's row entry in column `j` times the
    edge's weight, counted if the edge's index word names row `n` and not otherwise; zero past the edges. -/
def term2 (a38 : S1x1703936.Idx → BitVec 32) (a41 : S1703936x64.Idx → EReal) (a39 : S1703936x1.Idx → EReal) (n : ℕ) (j : Fin 64) (s : ℕ) : EReal :=
  if h : s < 1703936 then
    ind (a38 (ix2 (0 : Fin 1) (⟨s, h⟩ : Fin 1703936)) = BitVec.ofNat 32 n) * (a41 (ix2 (⟨s, h⟩ : Fin 1703936) j) * a39 (ix2 (⟨s, h⟩ : Fin 1703936) (0 : Fin 1)))
  else 0

/-- The row number the body compares the index words with: the group's number times the block's height, plus the row in the block. -/
theorem word2 (a r : ℕ) : Scalar.muli (BitVec.ofNat 32 a) 2000#32 + BitVec.ofNat 32 r = BitVec.ofNat 32 (a * 2000 + r) := by
  show BitVec.ofNat 32 a * BitVec.ofNat 32 2000 + BitVec.ofNat 32 r = BitVec.ofNat 32 (a * 2000 + r)
  rw [← BitVec.ofNat_mul, ← BitVec.ofNat_add]

/-- The block the reset stores is zero everywhere. -/
theorem k2_pay1_apply (y : S2000x64.Idx) : k2_pay1 (F := Ideal) y = 0 := by
  unfold k2_pay1
  rw [shapeCast_self]
  exact Ideal.ofBits_zero_f32

/-- One more stretch of 4096 edges in a sum over the first edges. -/
theorem range_step2 (f : ℕ → EReal) (k : ℕ) :
    ∑ s ∈ Finset.range ((k + 1) * 4096), f s = ∑ s ∈ Finset.range (k * 4096), f s + ∑ e : Fin 4096, f (k * 4096 + e.val) := by
  have e : (k + 1) * 4096 = k * 4096 + 4096 := by omega
  rw [e, Finset.sum_range_add, Finset.sum_range fun x => f (k * 4096 + x)]

/-- The first stretch of edges. -/
theorem range_first2 (f : ℕ → EReal) : ∑ e : Fin 4096, f (0 * 4096 + e.val) = ∑ s ∈ Finset.range ((0 + 1) * 4096), f s := by
  rw [range_step2 f 0, Nat.zero_mul, Finset.range_zero, Finset.sum_empty, zero_add]

/-- One point's step at an entry: the accumulator's entry plus the summands of the point's stretch of edges, for the row of the
    point's group. -/
theorem step2 (V : (c : Dev nD) → (b : Ref sig .tc) → Buf (Elt Ideal) ((c : Thread nD τ).loc b)) (c : Dev nD) (n : ℕ) (h : n < cfg2.N)
    (acc : Vec Ideal S2000x64 .f32) (r : Fin 2000) (j : Fin 64) :
    k2_pay2 (F := Ideal) (grid2.coords ⟨n, h⟩) (iblk2 V c 1 ⟨n, h⟩) (iblk2 V c 0 ⟨n, h⟩) (iblk2 V c 2 ⟨n, h⟩) acc (ix2 r j)
      = acc (ix2 r j) + ∑ e : Fin 4096, term2 (V c main_v38) (V c main_v41) (V c main_v39) (n / 416 * 2000 + r.val) j (n % 416 * 4096 + e.val) := by
  refine (k2_pay2_apply (grid2.coords ⟨n, h⟩) (iblk2 V c 1 ⟨n, h⟩) (iblk2 V c 0 ⟨n, h⟩) (iblk2 V c 2 ⟨n, h⟩) acc r j).trans ?_
  refine congrArg (fun z => acc (ix2 r j) + z) (Finset.sum_congr rfl fun e _ => ?_)
  have e0 := iblk2_0_apply V c ⟨n, h⟩ e j
  have e1 := iblk2_1_apply V c ⟨n, h⟩ e
  have e2 := iblk2_2_apply V c ⟨n, h⟩ e
  have e3 := coords2_0 ⟨n, h⟩
  rw [e1, e0, e2, e3, word2]
  unfold term2
  rw [dif_pos (edge_lt2 ⟨n, h⟩ e)]
  try rfl

/-- The accumulator after position `n`, at an entry: the summands of the edges of the stretches done so far in the point's
    group, for the entry's row of the group. By induction on the point. -/
theorem acc2_apply (V : (c : Dev nD) → (b : Ref sig .tc) → Buf (Elt Ideal) ((c : Thread nD τ).loc b)) (c : Dev nD) : ∀ (n : ℕ) (h : n < cfg2.N) (r : Fin 2000) (j : Fin 64),
    acc2 (F := Ideal) V c n h (ix2 r j)
      = ∑ s ∈ Finset.range ((n % 416 + 1) * 4096), term2 (V c main_v38) (V c main_v41) (V c main_v39) (n / 416 * 2000 + r.val) j s
  | 0, h, r, j => by
    rw [acc2_zero V c h]
    refine (step2 V c 0 h (k2_pay1 (F := Ideal)) r j).trans ?_
    rw [k2_pay1_apply, zero_add]
    exact range_first2 _
  | n + 1, h, r, j => by
    by_cases h0 : (n + 1) % 416 = 0
    · rw [acc2_first V c n h h0]
      refine (step2 V c (n + 1) h (k2_pay1 (F := Ideal)) r j).trans ?_
      rw [k2_pay1_apply, zero_add, h0]
      exact range_first2 _
    · have hq : (n + 1) / 416 = n / 416 := by omega
      have hm : (n + 1) % 416 = n % 416 + 1 := by omega
      rw [acc2_next V c n h h0]
      refine (step2 V c (n + 1) h (acc2 V c n (Nat.lt_of_succ_lt h)) r j).trans ?_
      rw [acc2_apply V c n (Nat.lt_of_succ_lt h) r j, hq, hm, range_step2 _ (n % 416 + 1)]

/-- The scattered array, index by index: entry `(n, j)` is the larger of zero and the sum over all edges whose index word names
    row `n` of the edge's row entry in column `j` times the edge's weight. -/
def scat2 (a38 : S1x1703936.Idx → BitVec 32) (a41 : S1703936x64.Idx → EReal) (a39 : S1703936x1.Idx → EReal) : S100000x64.Idx → EReal :=
  fun i => max (∑ e : Fin 1703936, ind (a38 (ix2 (0 : Fin 1) e) = BitVec.ofNat 32 (i 0).val)
    * (a41 (ix2 e (⟨(i 1).val, idx2_lt1 i⟩ : Fin 64)) * a39 (ix2 e (0 : Fin 1)))) 0

theorem scat2_apply (a38 : S1x1703936.Idx → BitVec 32) (a41 : S1703936x64.Idx → EReal) (a39 : S1703936x1.Idx → EReal) (n : Fin 100000) (j : Fin 64) :
    scat2 a38 a41 a39 (ix2 n j)
      = max (∑ e : Fin 1703936, ind (a38 (ix2 (0 : Fin 1) e) = BitVec.ofNat 32 n.val) * (a41 (ix2 e j) * a39 (ix2 e (0 : Fin 1)))) 0 := rfl

-- from here on the scattered array is used only through `scat2_apply`
attribute [local irreducible] scat2

/-- Over all 416 stretches the summands are those of all the edges. -/
theorem term2_sum (a38 : S1x1703936.Idx → BitVec 32) (a41 : S1703936x64.Idx → EReal) (a39 : S1703936x1.Idx → EReal) (n : ℕ) (j : Fin 64) :
    ∑ s ∈ Finset.range ((415 + 1) * 4096), term2 a38 a41 a39 n j s
      = ∑ e : Fin 1703936, ind (a38 (ix2 (0 : Fin 1) e) = BitVec.ofNat 32 n) * (a41 (ix2 e j) * a39 (ix2 e (0 : Fin 1))) := by
  rw [show (415 + 1) * 4096 = 1703936 from rfl, Finset.sum_range]
  refine Finset.sum_congr rfl fun e _ => ?_
  unfold term2
  rw [dif_pos e.isLt]

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v42).slice (win2_3.rect t)).set ↔ _
  rw [View.set_slice_whole, Rect.mem_set_unit]
  exact Iff.rfl

/-- Every index of the output array is in the block of a point that writes back: row `n` in that of the last point of group `n / 2000`. -/
theorem cover2 (i : S100000x64.Idx) : ∃ t : Fin cfg2.N, (cfg2.win 3).flush t = true ∧ i ∈ ((cfg2.win 3).blk t).view.set := by
  have hi0 : (i 0).val < 100000 := idx2_lt0 i
  have hi1 : (i 1).val < 64 := idx2_lt1 i
  have ht : (i 0).val / 2000 * 416 + 415 < cfg2.N := Nat.lt_of_lt_of_eq (by omega : (i 0).val / 2000 * 416 + 415 < 20800) (show cfg2.N = 20800 from N_2).symm
  have hf : (cfg2.win 3).flush ⟨(i 0).val / 2000 * 416 + 415, ht⟩ = true :=
    (flush2_3 ⟨(i 0).val / 2000 * 416 + 415, ht⟩).mpr (by show ((i 0).val / 2000 * 416 + 415) % 416 = 415; omega)
  refine ⟨⟨(i 0).val / 2000 * 416 + 415, ht⟩, hf, ?_⟩
  have q0 : win2_3.index ⟨(i 0).val / 2000 * 416 + 415, ht⟩ (0 : Fin 2) = ((i 0).val / 2000 * 416 + 415) / 416 := (index2_3 _).1
  have q1 : win2_3.index ⟨(i 0).val / 2000 * 416 + 415, ht⟩ (1 : Fin 2) = 0 := (index2_3 _).2
  rw [mem_blk2]
  intro a
  match a with
  | ⟨0, _⟩ =>
    show win2_3.index ⟨(i 0).val / 2000 * 416 + 415, ht⟩ (0 : Fin 2) * 2000 ≤ (i 0).val
      ∧ (i 0).val < win2_3.index ⟨(i 0).val / 2000 * 416 + 415, ht⟩ (0 : Fin 2) * 2000 + 2000
    rw [q0]; omega
  | ⟨1, _⟩ =>
    show win2_3.index ⟨(i 0).val / 2000 * 416 + 415, ht⟩ (1 : Fin 2) * 64 ≤ (i 1).val
      ∧ (i 1).val < win2_3.index ⟨(i 0).val / 2000 * 416 + 415, ht⟩ (1 : Fin 2) * 64 + 64
    rw [q1]; omega

/-- At the last point of a group the larger of zero and the accumulator's entry is the scattered array's entry in the group's row. -/
theorem last2_apply (V : (c : Dev nD) → (b : Ref sig .tc) → Buf (Elt Ideal) ((c : Thread nD τ).loc b)) (c : Dev nD) (t : Fin cfg2.N) (h415 : t.val % 416 = 415) (r : Fin 2000) (j : Fin 64) :
    max (acc2 (F := Ideal) V c t.val t.isLt (ix2 r j)) 0
      = scat2 (V c main_v38) (V c main_v41) (V c main_v39) (ix2 (⟨t.val / 416 * 2000 + r.val, row_lt2 t r⟩ : Fin 100000) j) := by
  rw [acc2_apply V c t.val t.isLt r j, scat2_apply, h415]
  exact congrArg (fun z => max z 0) (term2_sum (V c main_v38) (V c main_v41) (V c main_v39) (t.val / 416 * 2000 + r.val) j)

end Cert.KernelIdeal.Hand

end
-- ==== Proof.KI.Epi2.lean ====
import proofs.«167680_j81389630259984_2_alg».proof.Proof.Gen.KernelIdeal.Skeleton
import Idealize.ShloMosaic.PureOps.Ideal.Laws
import Idealize.ShloMosaic.Lib.ValueIdx

set_option maxRecDepth 16384

/-!
# The first scatter's epilogue at an entry

What the last point of a group stores into the output is the accumulator with every negative entry replaced by zero:
at each entry, the larger of the accumulator's entry and zero.
-/

noncomputable section

namespace Cert.KernelIdeal.Hand

open Cert.KernelIdeal Cert.KernelIdeal.Gen
open Idealize.ShloMosaic Idealize.ShloMosaic.ValueIdx

/-- The epilogue at an entry: the maximum of the accumulator's entry and zero. -/
theorem k2_pay3_apply (acc : Vec Ideal S2000x64 .f32) (r : Fin 2000) (j : Fin 64) :
    k2_pay3 (F := Ideal) acc (ix2 r j) = max (acc (ix2 r j)) 0 := by
  unfold k2_pay3
  show max (acc (ix2 r j)) (Ideal.ofBits .f32 0x00000000#32) = max (acc (ix2 r j)) 0
  exact congrArg (max (acc (ix2 r j))) Ideal.ofBits_zero_f32

/-- The same at any index of the block. -/
theorem k2_pay3_apply' (acc : Vec Ideal S2000x64 .f32) (y : S2000x64.Idx) :
    k2_pay3 (F := Ideal) acc y = max (acc y) 0 := by
  unfold k2_pay3
  show max (acc y) (Ideal.ofBits .f32 0x00000000#32) = max (acc y) 0
  exact congrArg (max (acc y)) Ideal.ofBits_zero_f32

end Cert.KernelIdeal.Hand

end
-- ==== Proof.KI.Val2.lean ====
import proofs.«167680_j81389630259984_2_alg».proof.Proof.KI.Val2.Sum
import proofs.«167680_j81389630259984_2_alg».proof.Proof.KI.Epi2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open LibOneHot (ind)

/-! # Region 2 at the ideal values: the output array after the region -/

-- the pieces, the accumulator's chain, the epilogue and the scattered array are used only through the lemmas on them
attribute [local irreducible] sout2_A_0 sout2_B_0 sout2_C_0 out2_A_3 out2_B_3 out2_C_3 outsAt2 acc2 k2_pay3 scat2

/-- The output window's blocks are whole: what a point writes back is what the body left, entry by entry. -/
theorem cut2_3_apply (t : Fin cfg2.N) (X : Vec Ideal S2000x64 .f32) (y : S2000x64.Idx) :
    (cfg2.win 3).cut (grid2.coords t) X y = X y := rfl

/-- The output block's entry `(r, j)` at point `t` is the array's entry in the group's row `r`, column `j`. -/
theorem emb2_3 (t : Fin cfg2.N) (r : Fin 2000) (j : Fin 64) :
    ((cfg2.win 3).blk t).view.emb (ix2 r j) = ix2 (⟨t.val / 416 * 2000 + r.val, row_lt2 t r⟩ : Fin 100000) j := by
  obtain ⟨i0, i1⟩ := index2_3 t
  funext a; apply Fin.ext
  match a with
  | ⟨0, _⟩ => show win2_3.index t (0 : Fin 2) * 2000 + 1 * r.val = t.val / 416 * 2000 + r.val; omega
  | ⟨1, _⟩ => show win2_3.index t (1 : Fin 2) * 64 + 1 * j.val = j.val; omega

/-- What a point that writes back — the last of its group — writes is its block of ANY array whose entries in the group's rows are
    the larger of zero and the accumulator's entries: the array is a variable here, so nothing about it is ever unfolded. -/
theorem flushed2_of (V : (c : Dev nD) → (b : Ref sig .tc) → Buf (Elt Ideal) ((c : Thread nD τ).loc b)) (c : Dev nD) (t : Fin cfg2.N) (h415 : t.val % 416 = 415)
    (G : S100000x64.Idx → EReal)
    (hlast : ∀ (r : Fin 2000) (j : Fin 64), max (acc2 (F := Ideal) V c t.val t.isLt (ix2 r j)) 0 = G (ix2 (⟨t.val / 416 * 2000 + r.val, row_lt2 t r⟩ : Fin 100000) j)) :
    (dat2 (F := Ideal) V c).flushed 3 t = ((cfg2.win 3).blk t).view.read (Elt Ideal) G := by
  have hstage : (dat2 (F := Ideal) V c).after 3 t = k2_pay3 (acc2 (F := Ideal) V c t.val t.isLt) :=
    (after2_3 V c t).trans (outsAt2_fst_last V c t h415)
  show (cfg2.win 3).cut (grid2.coords t) ((dat2 (F := Ideal) V c).after 3 t) = _
  rw [hstage]
  funext y
  obtain ⟨r, j, rfl⟩ : ∃ (r : Fin 2000) (j : Fin 64), y = ix2 r j := ⟨y 0, y 1, eq_ix2 y⟩
  refine (cut2_3_apply t (k2_pay3 (acc2 (F := Ideal) V c t.val t.isLt)) (ix2 r j)).trans ?_
  refine (k2_pay3_apply (acc2 (F := Ideal) V c t.val t.isLt) r j).trans ?_
  refine (hlast r j).trans ?_
  show G _ = G (((cfg2.win 3).blk t).view.emb (ix2 r j))
  rw [emb2_3 t r j]

/-- What a point that writes back — the last of its group — writes is its block of the scattered array. -/
theorem flushed2_eq (V : (c : Dev nD) → (b : Ref sig .tc) → Buf (Elt Ideal) ((c : Thread nD τ).loc b)) (c : Dev nD) (t : Fin cfg2.N) (hf : (cfg2.win 3).flush t = true) :
    (dat2 (F := Ideal) V c).flushed 3 t = ((cfg2.win 3).blk t).view.read (Elt Ideal) (scat2 (V c main_v38) (V c main_v41) (V c main_v39)) :=
  flushed2_of V c t ((flush2_3 t).mp hf) (scat2 (V c main_v38) (V c main_v41) (V c main_v39))
    (fun r j => last2_apply V c t ((flush2_3 t).mp hf) r j)

/-- THE OUTPUT ARRAY after the region is the scattered array of the index words, the rows and the weights as the region finds them. -/
theorem final2_eq (V : (c : Dev nD) → (b : Ref sig .tc) → Buf (Elt Ideal) ((c : Thread nD τ).loc b)) (c : Dev nD) :
    (dat2 (F := Ideal) V c).arrAt 3 cfg2.N = scat2 (V c main_v38) (V c main_v41) (V c main_v39) :=
  (dat2 (F := Ideal) V c).arrAt_eq_of_cover 3 (scat2 (V c main_v38) (V c main_v41) (V c main_v39)) (fun t hf => flushed2_eq V c t hf) cover2

/-- Index by index (`scat2_apply` spells the entry out as the larger of zero and the sum over the edges). -/
theorem final2 (V : (c : Dev nD) → (b : Ref sig .tc) → Buf (Elt Ideal) ((c : Thread nD τ).loc b)) (c : Dev nD) (n : Fin 100000) (j : Fin 64) :
    (dat2 (F := Ideal) V c).arrAt 3 cfg2.N (ix2 n j) = scat2 (V c main_v38) (V c main_v41) (V c main_v39) (ix2 n j) :=
  congrFun (final2_eq V c) (ix2 n j)

end Cert.KernelIdeal.Hand

end
-- ==== Proof.KI.Val5.Pieces.lean ====
import proofs.«167680_j81389630259984_2_alg».proof.Proof.KI.R5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! # Region 5: what each case's stores leave, as the body's arithmetic of the blocks -/

theorem hz5 : (![0, 0] : Fin 2 → Nat) = fun _ => 0 := funext fun a => by fin_cases a <;> rfl

/-- A middle point of a group leaves in the accumulator the body's sum: the accumulator as the point before left it
    plus the one-hot product of this point's blocks. -/
theorem sout5_B_0_eq (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : ¬cond5_1 i)
    (x0 : Vec F S4096x16 .f32) (x1 : Vec F S1x4096 .i32) (x2 : Vec F S4096x1 .f32) (xs0 : Vec F S2000x16 .f32) :
    sout5_B_0 c i arg2 harg2 arg3 harg3 arg4 harg4 arg5 harg5 arg6 harg6 hc0 hc1 x0 x1 x2 xs0 = k5_pay2 i x1 x0 x2 xs0 := by
  unfold sout5_B_0
  rw [View.read_writes_eq_canon _ _ _ (scover5_B_0 c i arg2 harg2 arg3 harg3 arg4 harg4 arg5 harg5 arg6 harg6 hc0 hc1 x0 x1 x2 xs0)]
  unfold kernelRun5_B
  dsimp only
  rw [View.canon_unit_zero hz5]
  simp only [View.readAt_eq_ld, harg2.read_unread, harg3.read_unread, harg4.read_unread, harg5.read_unread, harg6.read_unread, View.ld_unit_zero (S := S4096x16) hz5, View.ld_unit_zero (S := S1x4096) hz5, View.ld_unit_zero (S := S4096x1) hz5, View.ld_unit_zero (S := S2000x16) hz5]

/-- The last point of a group leaves in the accumulator the same sum. -/
theorem sout5_C_0_eq (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) :
    sout5_C_0 c i arg2 harg2 arg3 harg3 arg4 harg4 arg5 harg5 arg6 harg6 hc0 hc1 x0 x1 x2 xs0 = k5_pay2 i x1 x0 x2 xs0 := by
  unfold sout5_C_0
  rw [View.read_writes_eq_canon _ _ _ (scover5_C_0 c i arg2 harg2 arg3 harg3 arg4 harg4 arg5 harg5 arg6 harg6 hc0 hc1 x0 x1 x2 xs0)]
  unfold kernelRun5_C
  dsimp only
  sl_unfold_words
  rw [View.canon_unit_zero hz5]
  simp only [View.readAt_eq_ld, harg2.read_unread, harg3.read_unread, harg4.read_unread, harg5.read_unread, harg6.read_unread, View.ld_unit_zero (S := S4096x16) hz5, View.ld_unit_zero (S := S1x4096) hz5, View.ld_unit_zero (S := S4096x1) hz5, View.ld_unit_zero (S := S2000x16) hz5]

/-- The last point of a group leaves in output 3's staging buffer the epilogue of that sum. -/
theorem out5_C_3_eq (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : ¬cond5_0 i) (hc1 : cond5_1 i)
    (x0 : Vec F S4096x16 .f32) (x1 : Vec F S1x4096 .i32) (x2 : Vec F S4096x1 .f32) (xs0 : Vec F S2000x16 .f32) :
    out5_C_3 c i arg2 harg2 arg3 harg3 arg4 harg4 arg5 harg5 arg6 harg6 hc0 hc1 x0 x1 x2 xs0 = k5_pay3 (k5_pay2 i x1 x0 x2 xs0) := by
  unfold out5_C_3
  rw [View.read_writes_eq_canon _ _ _ (cover5_C_3 c i arg2 harg2 arg3 harg3 arg4 harg4 arg5 harg5 arg6 harg6 hc0 hc1 x0 x1 x2 xs0)]
  unfold kernelRun5_C
  dsimp only
  sl_unfold_words
  rw [View.canon_unit_zero hz5]
  rw [View.readCov_unit_zero (S := S2000x16) _ hz5]
  simp only [View.readAt_eq_ld, harg2.read_unread, harg3.read_unread, harg4.read_unread, harg5.read_unread, harg6.read_unread, View.ld_unit_zero (S := S4096x16) hz5, View.ld_unit_zero (S := S1x4096) hz5, View.ld_unit_zero (S := S4096x1) hz5, View.ld_unit_zero (S := S2000x16) hz5]

/-- The first point of a group leaves in the accumulator the body's sum over the zero block it has just stored. -/
theorem sout5_A_0_eq (c : Dev nD) (i : grid5.Coords) (arg2 : Memref sig .tc .vmem S4096x16 .f32) (harg2 : arg2.IsWhole) (arg3 : Memref sig .tc .vmem S1x4096 .i32) (harg3 : arg3.IsWhole) (arg4 : Memref sig .tc .vmem S4096x1 .f32) (harg4 : arg4.IsWhole) (arg5 : Memref sig .tc .vmem S2000x16 .f32) (harg5 : arg5.IsWhole) (arg6 : Memref sig .tc .vmem S2000x16 .f32) (harg6 : arg6.IsWhole) (hc0 : cond5_0 i) (hc1 : ¬cond5_1 i)
    (x0 : Vec F S4096x16 .f32) (x1 : Vec F S1x4096 .i32) (x2 : Vec F S4096x1 .f32) :
    sout5_A_0 c i arg2 harg2 arg3 harg3 arg4 harg4 arg5 harg5 arg6 harg6 hc0 hc1 x0 x1 x2 = k5_pay2 i x1 x0 x2 (k5_pay1 (F := F)) := by
  unfold sout5_A_0
  rw [View.read_writes_eq_canon _ _ _ (scover5_A_0 c i arg2 harg2 arg3 harg3 arg4 harg4 arg5 harg5 arg6 harg6 hc0 hc1 x0 x1 x2)]
  unfold kernelRun5_A
  dsimp only
  sl_unfold_words
  rw [View.canon_cons_unit_zero (S := S2000x16) hz5]
  rw [View.readCov_unit_zero (S := S2000x16) _ hz5]
  simp only [View.readAt_eq_ld, harg2.read_unread, harg3.read_unread, harg4.read_unread, harg5.read_unread, harg6.read_unread, View.ld_unit_zero (S := S4096x16) hz5, View.ld_unit_zero (S := S1x4096) hz5, View.ld_unit_zero (S := S4096x1) hz5, View.ld_unit_zero (S := S2000x16) hz5]

end Cert.KernelIdeal.Hand

end
-- ==== Proof.KI.Val5.Acc.lean ====
import proofs.«167680_j81389630259984_2_alg».proof.Proof.KI.Val5.Pieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! # Region 5: the accumulator after each point, as a chain of the body's sum -/

-- from here on the pieces are used only through the four lemmas on them
attribute [local irreducible] sout5_A_0 sout5_B_0 sout5_C_0 out5_A_3 out5_B_3 out5_C_3

variable (V : (c : Dev nD) → (b : Ref sig .tc) → Buf (Elt F) ((c : Thread nD τ).loc b))

/-- The accumulator after position `n`: at the first point of a group the body's sum of the point's three input blocks over
    the zero block; at any other point the body's sum of the point's three input blocks over what the point before left. -/
def acc5 (c : Dev nD) : (n : ℕ) → n < cfg5.N → Vec F S2000x16 .f32
  | 0, h => k5_pay2 (grid5.coords ⟨0, h⟩) (iblk5 V c 1 ⟨0, h⟩) (iblk5 V c 0 ⟨0, h⟩) (iblk5 V c 2 ⟨0, h⟩) (k5_pay1 (F := F))
  | n + 1, h =>
    if (n + 1) % 416 = 0 then
      k5_pay2 (grid5.coords ⟨n + 1, h⟩) (iblk5 V c 1 ⟨n + 1, h⟩) (iblk5 V c 0 ⟨n + 1, h⟩) (iblk5 V c 2 ⟨n + 1, h⟩) (k5_pay1 (F := F))
    else
      k5_pay2 (grid5.coords ⟨n + 1, h⟩) (iblk5 V c 1 ⟨n + 1, h⟩) (iblk5 V c 0 ⟨n + 1, h⟩) (iblk5 V c 2 ⟨n + 1, h⟩) (acc5 c n (Nat.lt_of_succ_lt h))

theorem acc5_zero (c : Dev nD) (h : 0 < cfg5.N) :
    acc5 V c 0 h = k5_pay2 (grid5.coords ⟨0, h⟩) (iblk5 V c 1 ⟨0, h⟩) (iblk5 V c 0 ⟨0, h⟩) (iblk5 V c 2 ⟨0, h⟩) (k5_pay1 (F := F)) := rfl

theorem acc5_first (c : Dev nD) (n : ℕ) (h : n + 1 < cfg5.N) (h0 : (n + 1) % 416 = 0) :
    acc5 V c (n + 1) h = k5_pay2 (grid5.coords ⟨n + 1, h⟩) (iblk5 V c 1 ⟨n + 1, h⟩) (iblk5 V c 0 ⟨n + 1, h⟩) (iblk5 V c 2 ⟨n + 1, h⟩) (k5_pay1 (F := F)) :=
  if_pos h0

theorem acc5_next (c : Dev nD) (n : ℕ) (h : n + 1 < cfg5.N) (h0 : ¬(n + 1) % 416 = 0) :
    acc5 V c (n + 1) h = k5_pay2 (grid5.coords ⟨n + 1, h⟩) (iblk5 V c 1 ⟨n + 1, h⟩) (iblk5 V c 0 ⟨n + 1, h⟩) (iblk5 V c 2 ⟨n + 1, h⟩) (acc5 V c n (Nat.lt_of_succ_lt h)) :=
  if_neg h0

set_option maxHeartbeats 400000 in
/-- What the accumulator holds after position `n` is that chain: by induction on the point, the three cases' values. -/
theorem outsAt5_snd (c : Dev nD) : ∀ (n : ℕ) (h : n < cfg5.N), (outsAt5 V c n h).2 = acc5 V c n h
  | 0, h =>
    (congrArg Prod.snd (outsAt5_A V c ⟨0, h⟩ (Nat.zero_mod _) (show ¬(0 % 416 = 415) by decide))).trans
      ((sout5_A_0_eq c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) scM5_0 (Memref.isWhole_whole _) _ _ (iblk5 V c 0 ⟨0, h⟩) (iblk5 V c 1 ⟨0, h⟩) (iblk5 V c 2 ⟨0, h⟩)).trans (acc5_zero V c h).symm)
  | n + 1, h => by
    by_cases h0 : (n + 1) % 416 = 0
    · have h1 : ¬(n + 1) % 416 = 415 := by omega
      exact (congrArg Prod.snd (outsAt5_A V c ⟨n + 1, h⟩ h0 h1)).trans
        ((sout5_A_0_eq c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) scM5_0 (Memref.isWhole_whole _) _ _ (iblk5 V c 0 ⟨n + 1, h⟩) (iblk5 V c 1 ⟨n + 1, h⟩) (iblk5 V c 2 ⟨n + 1, h⟩)).trans (acc5_first V c n h h0).symm)
    · by_cases h1 : (n + 1) % 416 = 415
      · exact (congrArg Prod.snd (outsAt5_C V c ⟨n + 1, h⟩ h0 h1)).trans
          ((sout5_C_0_eq c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) scM5_0 (Memref.isWhole_whole _) _ _ (iblk5 V c 0 ⟨n + 1, h⟩) (iblk5 V c 1 ⟨n + 1, h⟩) (iblk5 V c 2 ⟨n + 1, h⟩) (outsAt5 V c n (Nat.lt_of_succ_lt h)).2).trans
            ((congrArg (k5_pay2 (grid5.coords ⟨n + 1, h⟩) (iblk5 V c 1 ⟨n + 1, h⟩) (iblk5 V c 0 ⟨n + 1, h⟩) (iblk5 V c 2 ⟨n + 1, h⟩)) (outsAt5_snd c n (Nat.lt_of_succ_lt h))).trans
              (acc5_next V c n h h0).symm))
      · exact (congrArg Prod.snd (outsAt5_B V c ⟨n + 1, h⟩ h0 h1)).trans
          ((sout5_B_0_eq c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) scM5_0 (Memref.isWhole_whole _) _ _ (iblk5 V c 0 ⟨n + 1, h⟩) (iblk5 V c 1 ⟨n + 1, h⟩) (iblk5 V c 2 ⟨n + 1, h⟩) (outsAt5 V c n (Nat.lt_of_succ_lt h)).2).trans
            ((congrArg (k5_pay2 (grid5.coords ⟨n + 1, h⟩) (iblk5 V c 1 ⟨n + 1, h⟩) (iblk5 V c 0 ⟨n + 1, h⟩) (iblk5 V c 2 ⟨n + 1, h⟩)) (outsAt5_snd c n (Nat.lt_of_succ_lt h))).trans
              (acc5_next V c n h h0).symm))

set_option maxHeartbeats 400000 in
/-- At the last point of a group output 3's staging buffer holds the epilogue of the accumulator's chain. -/
theorem outsAt5_fst_last (c : Dev nD) (t : Fin cfg5.N) (h1 : t.val % 416 = 415) :
    (outsAt5 V c t.val t.isLt).1 = k5_pay3 (acc5 V c t.val t.isLt) := by
  have h0 : ¬t.val % 416 = 0 := by omega
  exact (congrArg Prod.fst (outsAt5_C V c t h0 h1)).trans
    ((out5_C_3_eq c (grid5.coords t) (ms5_0 t) (hs5_0 t) (ms5_1 t) (hs5_1 t) (ms5_2 t) (hs5_2 t) (ms5_3 t) (hs5_3 t) scM5_0 (Memref.isWhole_whole _) _ _ (iblk5 V c 0 t) (iblk5 V c 1 t) (iblk5 V c 2 t) (outsAt5 V c (t.val - 1) (Nat.lt_of_le_of_lt (Nat.sub_le _ _) t.isLt)).2).trans
      (congrArg k5_pay3
        ((sout5_C_0_eq c (grid5.coords t) (ms5_0 t) (hs5_0 t) (ms5_1 t) (hs5_1 t) (ms5_2 t) (hs5_2 t) (ms5_3 t) (hs5_3 t) scM5_0 (Memref.isWhole_whole _) _ _ (iblk5 V c 0 t) (iblk5 V c 1 t) (iblk5 V c 2 t) (outsAt5 V c (t.val - 1) (Nat.lt_of_le_of_lt (Nat.sub_le _ _) t.isLt)).2).symm.trans
          ((congrArg Prod.snd (outsAt5_C V c t h0 h1)).symm.trans (outsAt5_snd V c t.val t.isLt)))))

end Cert.KernelIdeal.Hand

end
-- ==== Proof.KI.Val5.Blocks.lean ====
import proofs.«167680_j81389630259984_2_alg».proof.Proof.KI.Val5.Acc
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ (UR sig nD τ) ℕ

variable (V : (c : Dev nD) → (b : Ref sig .tc) → Buf (Elt F) ((c : Thread nD τ).loc b))

/-! # Region 5: the grid's points and the windows' blocks at them

The grid is 50 × 416 with the last axis fastest: point `t` is the `t % 416`-th point of group `t / 416`. -/

theorem lt_N5 (t : Fin cfg5.N) : t.val < 20800 :=
  Nat.lt_of_lt_of_eq t.isLt (show cfg5.N = 20800 from N_5)

/-- The point's coordinate along the reduction axis. -/
theorem coords5_1 (t : Fin cfg5.N) : (grid5.coords t (1 : Fin 2)).val = t.val % 416 := by
  have hN := lt_N5 t
  show t.val / 1 % 416 = t.val % 416
  omega

/-- The point's group. -/
theorem coords5_0 (t : Fin cfg5.N) : (grid5.coords t (0 : Fin 2)).val = t.val / 416 := by
  have hN := lt_N5 t
  show t.val / 416 % 50 = t.val / 416
  omega

/-- The rows window: block `t % 416` along the edge axis. -/
theorem index5_0 (t : Fin cfg5.N) : win5_0.index t (0 : Fin 2) = t.val % 416 ∧ win5_0.index t (1 : Fin 2) = 0 := by
  have hN := lt_N5 t
  refine ⟨?_, rfl⟩
  show (t.val / 1 % 416) % 4294967296 = t.val % 416
  omega

/-- The index window: block `t % 416` along the edge axis. -/
theorem index5_1 (t : Fin cfg5.N) : win5_1.index t (0 : Fin 2) = 0 ∧ win5_1.index t (1 : Fin 2) = t.val % 416 := by
  have hN := lt_N5 t
  refine ⟨rfl, ?_⟩
  show (t.val / 1 % 416) % 4294967296 = t.val % 416
  omega

/-- The weight window: block `t % 416` along the edge axis. -/
theorem index5_2 (t : Fin cfg5.N) : win5_2.index t (0 : Fin 2) = t.val % 416 ∧ win5_2.index t (1 : Fin 2) = 0 := by
  have hN := lt_N5 t
  refine ⟨?_, rfl⟩
  show (t.val / 1 % 416) % 4294967296 = t.val % 416
  omega

/-- The output window: block `t / 416` of rows. -/
theorem index5_3 (t : Fin cfg5.N) : win5_3.index t (0 : Fin 2) = t.val / 416 ∧ win5_3.index t (1 : Fin 2) = 0 := by
  have hN := lt_N5 t
  refine ⟨?_, rfl⟩
  show (t.val / 416 % 50) % 4294967296 = t.val / 416
  omega

/-! ## The input blocks at a point, read off the arrays -/

theorem edge_lt5 (t : Fin cfg5.N) (e : Fin 4096) : t.val % 416 * 4096 + e.val < 1703936 := by
  have := e.isLt; omega

theorem row_lt5 (t : Fin cfg5.N) (r : Fin 2000) : t.val / 416 * 2000 + r.val < 100000 := by
  have := lt_N5 t; have := r.isLt; omega

/-- The rows block at point `t` is the stretch of 4096 edges numbered by the point's place in its group. -/
theorem iblk5_0_apply (c : Dev nD) (t : Fin cfg5.N) (e : Fin 4096) (j : Fin 16) :
    iblk5 V c 0 t (ix2 e j) = V c main_v44 (ix2 (⟨t.val % 416 * 4096 + e.val, edge_lt5 t e⟩ : Fin 1703936) j) := by
  obtain ⟨i0, i1⟩ := index5_0 t
  have h : ((cfg5.win 0).blk t).view.emb (ix2 e j)
      = ix2 (⟨t.val % 416 * 4096 + e.val, edge_lt5 t e⟩ : Fin 1703936) j := by
    funext a; apply Fin.ext
    match a with
    | ⟨0, _⟩ => show win5_0.index t (0 : Fin 2) * 4096 + 1 * e.val = t.val % 416 * 4096 + e.val; omega
    | ⟨1, _⟩ => show win5_0.index t (1 : Fin 2) * 16 + 1 * j.val = j.val; omega
  exact congrArg (V c main_v44) h

/-- The index block at point `t` is the same stretch of the index words. -/
theorem iblk5_1_apply (c : Dev nD) (t : Fin cfg5.N) (e : Fin 4096) :
    iblk5 V c 1 t (ix2 (0 : Fin 1) e) = V c main_v38 (ix2 (0 : Fin 1) (⟨t.val % 416 * 4096 + e.val, edge_lt5 t e⟩ : Fin 1703936)) := by
  obtain ⟨i0, i1⟩ := index5_1 t
  have h : ((cfg5.win 1).blk t).view.emb (ix2 (0 : Fin 1) e)
      = ix2 (0 : Fin 1) (⟨t.val % 416 * 4096 + e.val, edge_lt5 t e⟩ : Fin 1703936) := by
    funext a; apply Fin.ext
    match a with
    | ⟨0, _⟩ => show win5_1.index t (0 : Fin 2) * 1 + 1 * 0 = 0; omega
    | ⟨1, _⟩ => show win5_1.index t (1 : Fin 2) * 4096 + 1 * e.val = t.val % 416 * 4096 + e.val; omega
  exact congrArg (V c main_v38) h

/-- The weight block at point `t` is the same stretch of the weights. -/
theorem iblk5_2_apply (c : Dev nD) (t : Fin cfg5.N) (e : Fin 4096) :
    iblk5 V c 2 t (ix2 e (0 : Fin 1)) = V c main_v39 (ix2 (⟨t.val % 416 * 4096 + e.val, edge_lt5 t e⟩ : Fin 1703936) (0 : Fin 1)) := by
  obtain ⟨i0, i1⟩ := index5_2 t
  have h : ((cfg5.win 2).blk t).view.emb (ix2 e (0 : Fin 1))
      = ix2 (⟨t.val % 416 * 4096 + e.val, edge_lt5 t e⟩ : Fin 1703936) (0 : Fin 1) := by
    funext a; apply Fin.ext
    match a with
    | ⟨0, _⟩ => show win5_2.index t (0 : Fin 2) * 4096 + 1 * e.val = t.val % 416 * 4096 + e.val; omega
    | ⟨1, _⟩ => show win5_2.index t (1 : Fin 2) * 1 + 1 * 0 = 0; omega
  exact congrArg (V c main_v39) h

end Cert.KernelIdeal.Hand

end
-- ==== Proof.KI.Pay5.lean ====
import proofs.«167680_j81389630259984_2_alg».proof.Proof.KI.Pay1
import proofs.«167680_j81389630259984_2_alg».proof.Proof.LibPlainDot

set_option maxRecDepth 16384

/-!
# The scatter's accumulation step at an entry

One point of the scatter adds to the accumulator, at entry `(r, j)`, the sum over the point's 4096 edges `e` of the
edge's row entry `(e, j)` times the edge's weight, counted if the index word of edge `e` names row `r` of the point's
group of rows and not otherwise: the product of the one-hot matrix with the weighted block, read at an entry, at the
ideal values.
-/

noncomputable section

namespace Cert.KernelIdeal.Hand

open Cert.KernelIdeal Cert.KernelIdeal.Gen
open Idealize.ShloMosaic Idealize.ShloMosaic.ValueIdx
open LibOneHot (ind)

/-- The product's dimension numbers: the second axis of the left operand is contracted with the first of the right. -/
theorem plain5 : Cert.LibPlainDot.Plain dot_S2000x4096_S4096x16_S2000x16_1_0_0_1_n_n := ⟨rfl, rfl, rfl, rfl, rfl, rfl⟩

/-- THE STEP AT AN ENTRY: what one point stores into the accumulator, at `(r, j)`, is what the accumulator held there
    plus the sum over the point's edges of the indicator that edge `e`'s index word is the row's number times the
    edge's row entry in column `j` times the edge's weight. -/
theorem k5_pay2_apply (i : grid5.Coords) (x1 : Vec Ideal S1x4096 .i32) (x0 : Vec Ideal S4096x16 .f32) (x2 : Vec Ideal S4096x1 .f32)
    (acc : Vec Ideal S2000x16 .f32) (r : Fin 2000) (j : Fin 16) :
    k5_pay2 (F := Ideal) i x1 x0 x2 acc (ix2 r j)
      = acc (ix2 r j) + ∑ e : Fin 4096,
          ind (x1 (ix2 (0 : Fin 1) e) = Scalar.muli (BitVec.ofNat 32 (i 0).val) 2000#32 + BitVec.ofNat 32 r.val)
            * (x0 (ix2 e j) * x2 (ix2 e (0 : Fin 1))) := by
  unfold k5_pay2
  dsimp only
  refine (congrFun (shapeCast_self _ _) (ix2 r j)).trans ?_
  show acc (ix2 r j) + _ = _
  refine congrArg (acc (ix2 r j) + ·) ?_
  refine ((Ideal.matmul_constant_zero_apply (φ₁ := .bf16) (φ₂ := .bf16) _ none _ _ (ix2 r j)).trans (plain5.sum_eq _ _ r j)).trans ?_
  refine Finset.sum_congr rfl fun e _ => ?_
  refine congrArg₂ (· * ·) ?_ ?_
  · refine Eq.trans ?_ (eqBit_toInt _ _)
    exact congrArg₂ (fun a b : BitVec 32 => ((((IntOp.cmpi .eq a b).setWidth 32).toInt : ℝ) : EReal))
      (idxRow_apply x1 _ _ r e) (rowNo_apply _ _ _ r e)
  · refine congrArg₂ (· * ·) (congrFun (shapeCast_self x0 _) (ix2 e j)) ?_
    refine (broadcastTo_apply _ _ (ix2 e j) (ix2 e (0 : Fin 1)) fun ax => ?_).trans (congrFun (shapeCast_self x2 _) (ix2 e (0 : Fin 1)))
    match ax with
    | ⟨0, _⟩ => rfl
    | ⟨1, _⟩ => rfl

end Cert.KernelIdeal.Hand

end
-- ==== Proof.KI.Val5.Sum.lean ====
import proofs.«167680_j81389630259984_2_alg».proof.Proof.KI.Val5.Blocks
import proofs.«167680_j81389630259984_2_alg».proof.Proof.KI.Pay5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open LibOneHot (ind)

-- the pieces are used only through the lemmas on them
attribute [local irreducible] sout5_A_0 sout5_B_0 sout5_C_0 out5_A_3 out5_B_3 out5_C_3

/-! # Region 5 at the ideal values: what the output array holds after the region -/

/-- The scatter's summand for row number `n`, column `j` and edge number `s`: the edge's row entry in column `j` times the
    edge's weight, counted if the edge's index word names row `n` and not otherwise; zero past the edges. -/
def term5 (a38 : S1x1703936.Idx → BitVec 32) (a41 : S1703936x16.Idx → EReal) (a39 : S1703936x1.Idx → EReal) (n : ℕ) (j : Fin 16) (s : ℕ) : EReal :=
  if h : s < 1703936 then
    ind (a38 (ix2 (0 : Fin 1) (⟨s, h⟩ : Fin 1703936)) = BitVec.ofNat 32 n) * (a41 (ix2 (⟨s, h⟩ : Fin 1703936) j) * a39 (ix2 (⟨s, h⟩ : Fin 1703936) (0 : Fin 1)))
  else 0

/-- The row number the body compares the index words with: the group's number times the block's height, plus the row in the block. -/
theorem word5 (a r : ℕ) : Scalar.muli (BitVec.ofNat 32 a) 2000#32 + BitVec.ofNat 32 r = BitVec.ofNat 32 (a * 2000 + r) := by
  show BitVec.ofNat 32 a * BitVec.ofNat 32 2000 + BitVec.ofNat 32 r = BitVec.ofNat 32 (a * 2000 + r)
  rw [← BitVec.ofNat_mul, ← BitVec.ofNat_add]

/-- The block the reset stores is zero everywhere. -/
theorem k5_pay1_apply (y : S2000x16.Idx) : k5_pay1 (F := Ideal) y = 0 := by
  unfold k5_pay1
  rw [shapeCast_self]
  exact Ideal.ofBits_zero_f32

/-- One more stretch of 4096 edges in a sum over the first edges. -/
theorem range_step5 (f : ℕ → EReal) (k : ℕ) :
    ∑ s ∈ Finset.range ((k + 1) * 4096), f s = ∑ s ∈ Finset.range (k * 4096), f s + ∑ e : Fin 4096, f (k * 4096 + e.val) := by
  have e : (k + 1) * 4096 = k * 4096 + 4096 := by omega
  rw [e, Finset.sum_range_add, Finset.sum_range fun x => f (k * 4096 + x)]

/-- The first stretch of edges. -/
theorem range_first5 (f : ℕ → EReal) : ∑ e : Fin 4096, f (0 * 4096 + e.val) = ∑ s ∈ Finset.range ((0 + 1) * 4096), f s := by
  rw [range_step5 f 0, Nat.zero_mul, Finset.range_zero, Finset.sum_empty, zero_add]

/-- One point's step at an entry: the accumulator's entry plus the summands of the point's stretch of edges, for the row of the
    point's group. -/
theorem step5 (V : (c : Dev nD) → (b : Ref sig .tc) → Buf (Elt Ideal) ((c : Thread nD τ).loc b)) (c : Dev nD) (n : ℕ) (h : n < cfg5.N)
    (acc : Vec Ideal S2000x16 .f32) (r : Fin 2000) (j : Fin 16) :
    k5_pay2 (F := Ideal) (grid5.coords ⟨n, h⟩) (iblk5 V c 1 ⟨n, h⟩) (iblk5 V c 0 ⟨n, h⟩) (iblk5 V c 2 ⟨n, h⟩) acc (ix2 r j)
      = acc (ix2 r j) + ∑ e : Fin 4096, term5 (V c main_v38) (V c main_v44) (V c main_v39) (n / 416 * 2000 + r.val) j (n % 416 * 4096 + e.val) := by
  refine (k5_pay2_apply (grid5.coords ⟨n, h⟩) (iblk5 V c 1 ⟨n, h⟩) (iblk5 V c 0 ⟨n, h⟩) (iblk5 V c 2 ⟨n, h⟩) acc r j).trans ?_
  refine congrArg (fun z => acc (ix2 r j) + z) (Finset.sum_congr rfl fun e _ => ?_)
  have e0 := iblk5_0_apply V c ⟨n, h⟩ e j
  have e1 := iblk5_1_apply V c ⟨n, h⟩ e
  have e2 := iblk5_2_apply V c ⟨n, h⟩ e
  have e3 := coords5_0 ⟨n, h⟩
  rw [e1, e0, e2, e3, word5]
  unfold term5
  rw [dif_pos (edge_lt5 ⟨n, h⟩ e)]
  try rfl

/-- The accumulator after position `n`, at an entry: the summands of the edges of the stretches done so far in the point's
    group, for the entry's row of the group. By induction on the point. -/
theorem acc5_apply (V : (c : Dev nD) → (b : Ref sig .tc) → Buf (Elt Ideal) ((c : Thread nD τ).loc b)) (c : Dev nD) : ∀ (n : ℕ) (h : n < cfg5.N) (r : Fin 2000) (j : Fin 16),
    acc5 (F := Ideal) V c n h (ix2 r j)
      = ∑ s ∈ Finset.range ((n % 416 + 1) * 4096), term5 (V c main_v38) (V c main_v44) (V c main_v39) (n / 416 * 2000 + r.val) j s
  | 0, h, r, j => by
    rw [acc5_zero V c h]
    refine (step5 V c 0 h (k5_pay1 (F := Ideal)) r j).trans ?_
    rw [k5_pay1_apply, zero_add]
    exact range_first5 _
  | n + 1, h, r, j => by
    by_cases h0 : (n + 1) % 416 = 0
    · rw [acc5_first V c n h h0]
      refine (step5 V c (n + 1) h (k5_pay1 (F := Ideal)) r j).trans ?_
      rw [k5_pay1_apply, zero_add, h0]
      exact range_first5 _
    · have hq : (n + 1) / 416 = n / 416 := by omega
      have hm : (n + 1) % 416 = n % 416 + 1 := by omega
      rw [acc5_next V c n h h0]
      refine (step5 V c (n + 1) h (acc5 V c n (Nat.lt_of_succ_lt h)) r j).trans ?_
      rw [acc5_apply V c n (Nat.lt_of_succ_lt h) r j, hq, hm, range_step5 _ (n % 416 + 1)]

/-- The row sums, index by index: entry `(n, j)` is the sum over all edges whose index word names row `n` of the edge's
    row entry in column `j` times the edge's weight. -/
def sums5 (a38 : S1x1703936.Idx → BitVec 32) (a41 : S1703936x16.Idx → EReal) (a39 : S1703936x1.Idx → EReal) : S100000x16.Idx → EReal :=
  fun i => ∑ e : Fin 1703936, ind (a38 (ix2 (0 : Fin 1) e) = BitVec.ofNat 32 (i 0).val)
    * (a41 (ix2 e (⟨(i 1).val, idx2_lt1 i⟩ : Fin 16)) * a39 (ix2 e (0 : Fin 1)))

theorem sums5_apply (a38 : S1x1703936.Idx → BitVec 32) (a41 : S1703936x16.Idx → EReal) (a39 : S1703936x1.Idx → EReal) (n : Fin 100000) (j : Fin 16) :
    sums5 a38 a41 a39 (ix2 n j)
      = ∑ e : Fin 1703936, ind (a38 (ix2 (0 : Fin 1) e) = BitVec.ofNat 32 n.val) * (a41 (ix2 e j) * a39 (ix2 e (0 : Fin 1))) := rfl

-- from here on the row sums are used only through `sums5_apply`
attribute [local irreducible] sums5

/-- Over all 416 stretches the summands are those of all the edges. -/
theorem term5_sum (a38 : S1x1703936.Idx → BitVec 32) (a41 : S1703936x16.Idx → EReal) (a39 : S1703936x1.Idx → EReal) (n : ℕ) (j : Fin 16) :
    ∑ s ∈ Finset.range ((415 + 1) * 4096), term5 a38 a41 a39 n j s
      = ∑ e : Fin 1703936, ind (a38 (ix2 (0 : Fin 1) e) = BitVec.ofNat 32 n) * (a41 (ix2 e j) * a39 (ix2 e (0 : Fin 1))) := by
  rw [show (415 + 1) * 4096 = 1703936 from rfl, Finset.sum_range]
  refine Finset.sum_congr rfl fun e _ => ?_
  unfold term5
  rw [dif_pos e.isLt]

/-- An index of the output array is in point `t`'s block iff each coordinate is in the block's range on its axis. -/
theorem mem_blk5 (t : Fin cfg5.N) (i : S100000x16.Idx) :
    i ∈ ((cfg5.win 3).blk t).view.set ↔ ∀ a : Fin 2, win5_3.index t a * S2000x16.size a ≤ (i a).val ∧ (i a).val < win5_3.index t a * S2000x16.size a + S2000x16.size a := by
  show i ∈ ((View.whole main_v45).slice (win5_3.rect t)).set ↔ _
  rw [View.set_slice_whole, Rect.mem_set_unit]
  exact Iff.rfl

/-- Every index of the output array is in the block of a point that writes back: row `n` in that of the last point of group `n / 2000`. -/
theorem cover5 (i : S100000x16.Idx) : ∃ t : Fin cfg5.N, (cfg5.win 3).flush t = true ∧ i ∈ ((cfg5.win 3).blk t).view.set := by
  have hi0 : (i 0).val < 100000 := idx2_lt0 i
  have hi1 : (i 1).val < 16 := idx2_lt1 i
  have ht : (i 0).val / 2000 * 416 + 415 < cfg5.N := Nat.lt_of_lt_of_eq (by omega : (i 0).val / 2000 * 416 + 415 < 20800) (show cfg5.N = 20800 from N_5).symm
  have hf : (cfg5.win 3).flush ⟨(i 0).val / 2000 * 416 + 415, ht⟩ = true :=
    (flush5_3 ⟨(i 0).val / 2000 * 416 + 415, ht⟩).mpr (by show ((i 0).val / 2000 * 416 + 415) % 416 = 415; omega)
  refine ⟨⟨(i 0).val / 2000 * 416 + 415, ht⟩, hf, ?_⟩
  have q0 : win5_3.index ⟨(i 0).val / 2000 * 416 + 415, ht⟩ (0 : Fin 2) = ((i 0).val / 2000 * 416 + 415) / 416 := (index5_3 _).1
  have q1 : win5_3.index ⟨(i 0).val / 2000 * 416 + 415, ht⟩ (1 : Fin 2) = 0 := (index5_3 _).2
  rw [mem_blk5]
  intro a
  match a with
  | ⟨0, _⟩ =>
    show win5_3.index ⟨(i 0).val / 2000 * 416 + 415, ht⟩ (0 : Fin 2) * 2000 ≤ (i 0).val
      ∧ (i 0).val < win5_3.index ⟨(i 0).val / 2000 * 416 + 415, ht⟩ (0 : Fin 2) * 2000 + 2000
    rw [q0]; omega
  | ⟨1, _⟩ =>
    show win5_3.index ⟨(i 0).val / 2000 * 416 + 415, ht⟩ (1 : Fin 2) * 16 ≤ (i 1).val
      ∧ (i 1).val < win5_3.index ⟨(i 0).val / 2000 * 416 + 415, ht⟩ (1 : Fin 2) * 16 + 16
    rw [q1]; omega

/-- At the last point of a group the accumulator's entry is the row sums' entry in the group's row. -/
theorem last5_sum (V : (c : Dev nD) → (b : Ref sig .tc) → Buf (Elt Ideal) ((c : Thread nD τ).loc b)) (c : Dev nD) (t : Fin cfg5.N) (h415 : t.val % 416 = 415) (r : Fin 2000) (j : Fin 16) :
    acc5 (F := Ideal) V c t.val t.isLt (ix2 r j)
      = sums5 (V c main_v38) (V c main_v44) (V c main_v39) (ix2 (⟨t.val / 416 * 2000 + r.val, row_lt5 t r⟩ : Fin 100000) j) := by
  rw [acc5_apply V c t.val t.isLt r j, sums5_apply, h415]
  exact term5_sum (V c main_v38) (V c main_v44) (V c main_v39) (t.val / 416 * 2000 + r.val) j

end Cert.KernelIdeal.Hand

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.KI.Epi5.lean ====
import proofs.«167680_j81389630259984_2_alg».proof.Proof.Gen.KernelIdeal.Skeleton
import proofs.«167680_j81389630259984_2_alg».proof.Proof.LibRowMax
import proofs.«167680_j81389630259984_2_alg».proof.Proof.LibKeepdims
import Idealize.ShloMosaic.Lib.ValueIdx
import Idealize.ShloMosaic.Lib.Pipeline.Value
import Idealize.ShloMosaic.PureOps.Ideal.Laws

set_option maxRecDepth 16384

/-!
# The scatter's closing step at an entry

The last point of a group turns the accumulated block into its row-wise log-softmax: from each entry the row's largest
entry is taken away, and then the logarithm of the row's sum of the exponentials of those differences. At the ideal values,
read at row `r` and column `j`.
-/

noncomputable section

namespace Cert.KernelIdeal.Hand

open Cert.KernelIdeal Cert.KernelIdeal.Gen
open Idealize.ShloMosaic Idealize.ShloMosaic.ValueIdx
open scoped BigOperators

/-- An exponential of a block reads, at an index, the exponential of the entry. -/
theorem exp_at {s : Shape} {φ : FTy} (x : FVec Ideal s φ) (i : s.Idx) : exp x i = Ideal.exp (x i) := rfl
/-- A logarithm of a block reads, at an index, the logarithm of the entry. -/
theorem log_at {s : Shape} {φ : FTy} (x : FVec Ideal s φ) (i : s.Idx) : log x i = Ideal.log (x i) := rfl

set_option maxRecDepth 262144 in
/-- The closing step at row `r`, column `j`: the entry less the row's supremum, less the logarithm of the row's sum of the
    exponentials of the entries less the row's supremum. -/
theorem k5_pay3_apply (acc : Vec Ideal S2000x16 .f32) (r : Fin 2000) (j : Fin 16) :
    k5_pay3 (F := Ideal) acc (ix2 r j)
      = (acc (ix2 r j) - Finset.univ.sup fun k : Fin 16 => acc (ix2 r k))
        - Ideal.log (∑ k : Fin 16, Ideal.exp (acc (ix2 r k) - Finset.univ.sup fun k' : Fin 16 => acc (ix2 r k'))) := by
  unfold k5_pay3
  dsimp only
  simp only [subf_apply, exp_at, log_at, Cert.LibKeepdims.broadcastTo_a1_ab_apply, Cert.LibKeepdims.shapeCast_a_a1_apply]
  erw [Cert.LibKeepdims.multiReduction_add_rows_apply (a := 2000) (b := 16) _ _ _ _ r]
  simp only [subf_apply, exp_at, Cert.LibKeepdims.broadcastTo_a1_ab_apply, Cert.LibKeepdims.shapeCast_a_a1_apply]
  erw [Cert.LibRowMax.multiReduction_max_rows_apply (a := 2000) (b := 16) acc _ _ _ r]

end Cert.KernelIdeal.Hand

end
-- ==== Proof.KI.Val5.lean ====
import proofs.«167680_j81389630259984_2_alg».proof.Proof.KI.Val5.Sum
import proofs.«167680_j81389630259984_2_alg».proof.Proof.KI.Epi5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)
open Idealize.ShloMosaic.ValueIdx
open LibOneHot (ind)
open scoped BigOperators

-- the pieces are used only through the lemmas on them
attribute [local irreducible] sout5_A_0 sout5_B_0 sout5_C_0 out5_A_3 out5_B_3 out5_C_3

/-! # Region 5 at the ideal values: the output array after the region -/

-- the accumulator's chain and the closing step are used only through the lemmas on them
attribute [local irreducible] outsAt5 acc5 k5_pay3

/-- The output window's blocks are whole: what a point writes back is what the body left, entry by entry. -/
theorem cut5_3_apply (t : Fin cfg5.N) (X : Vec Ideal S2000x16 .f32) (y : S2000x16.Idx) :
    (cfg5.win 3).cut (grid5.coords t) X y = X y := rfl

/-- The output block's entry `(r, j)` at point `t` is the array's entry in the group's row `r`, column `j`. -/
theorem emb5_3 (t : Fin cfg5.N) (r : Fin 2000) (j : Fin 16) :
    ((cfg5.win 3).blk t).view.emb (ix2 r j) = ix2 (⟨t.val / 416 * 2000 + r.val, row_lt5 t r⟩ : Fin 100000) j := by
  obtain ⟨i0, i1⟩ := index5_3 t
  funext a; apply Fin.ext
  match a with
  | ⟨0, _⟩ => show win5_3.index t (0 : Fin 2) * 2000 + 1 * r.val = t.val / 416 * 2000 + r.val; omega
  | ⟨1, _⟩ => show win5_3.index t (1 : Fin 2) * 16 + 1 * j.val = j.val; omega

/-- What a point that writes back — the last of its group — writes is its block of ANY array whose entries in the group's rows are
    the row-wise log-softmax of the accumulator's rows: the array is a variable here, so nothing about it is ever unfolded. -/
theorem flushed5_of (V : (c : Dev nD) → (b : Ref sig .tc) → Buf (Elt Ideal) ((c : Thread nD τ).loc b)) (c : Dev nD) (t : Fin cfg5.N) (h415 : t.val % 416 = 415)
    (G : S100000x16.Idx → EReal)
    (hlast : ∀ (r : Fin 2000) (j : Fin 16),
      (acc5 (F := Ideal) V c t.val t.isLt (ix2 r j) - Finset.univ.sup fun k : Fin 16 => acc5 (F := Ideal) V c t.val t.isLt (ix2 r k))
        - Ideal.log (∑ k : Fin 16, Ideal.exp (acc5 (F := Ideal) V c t.val t.isLt (ix2 r k) - Finset.univ.sup fun k' : Fin 16 => acc5 (F := Ideal) V c t.val t.isLt (ix2 r k')))
        = G (ix2 (⟨t.val / 416 * 2000 + r.val, row_lt5 t r⟩ : Fin 100000) j)) :
    (dat5 (F := Ideal) V c).flushed 3 t = ((cfg5.win 3).blk t).view.read (Elt Ideal) G := by
  have hstage : (dat5 (F := Ideal) V c).after 3 t = k5_pay3 (acc5 (F := Ideal) V c t.val t.isLt) :=
    (after5_3 V c t).trans (outsAt5_fst_last V c t h415)
  show (cfg5.win 3).cut (grid5.coords t) ((dat5 (F := Ideal) V c).after 3 t) = _
  rw [hstage]
  funext y
  obtain ⟨r, j, rfl⟩ : ∃ (r : Fin 2000) (j : Fin 16), y = ix2 r j := ⟨y 0, y 1, eq_ix2 y⟩
  refine (cut5_3_apply t (k5_pay3 (acc5 (F := Ideal) V c t.val t.isLt)) (ix2 r j)).trans ?_
  refine (k5_pay3_apply (acc5 (F := Ideal) V c t.val t.isLt) r j).trans ?_
  refine (hlast r j).trans ?_
  show G _ = G (((cfg5.win 3).blk t).view.emb (ix2 r j))
  rw [emb5_3 t r j]

/-- The sum, over all edges whose index word names row `n`, of the edge's row entry in column `k` times the edge's weight. -/
def rowsum5 (a38 : S1x1703936.Idx → BitVec 32) (a44 : S1703936x16.Idx → EReal) (a39 : S1703936x1.Idx → EReal) (n : ℕ) (k : Fin 16) : EReal :=
  ∑ e : Fin 1703936, ind (a38 (ix2 (0 : Fin 1) e) = BitVec.ofNat 32 n) * (a44 (ix2 e k) * a39 (ix2 e (0 : Fin 1)))

/-- At the last point of a group the accumulator's entry in row `r`, column `k` is that sum for the group's row `r`. -/
theorem last5_row (V : (c : Dev nD) → (b : Ref sig .tc) → Buf (Elt Ideal) ((c : Thread nD τ).loc b)) (c : Dev nD) (t : Fin cfg5.N) (h415 : t.val % 416 = 415) (r : Fin 2000) (k : Fin 16) :
    acc5 (F := Ideal) V c t.val t.isLt (ix2 r k) = rowsum5 (V c main_v38) (V c main_v44) (V c main_v39) (t.val / 416 * 2000 + r.val) k := by
  rw [acc5_apply V c t.val t.isLt r k, h415]
  exact term5_sum (V c main_v38) (V c main_v44) (V c main_v39) (t.val / 416 * 2000 + r.val) k

/-- The scattered array, index by index: row `n` is the row-wise log-softmax of those sums: each sum less the row's largest,
    less the logarithm of the row's sum of the exponentials of those differences. -/
def scat5 (a38 : S1x1703936.Idx → BitVec 32) (a44 : S1703936x16.Idx → EReal) (a39 : S1703936x1.Idx → EReal) : S100000x16.Idx → EReal :=
  fun i => (rowsum5 a38 a44 a39 (i 0).val (⟨(i 1).val, idx2_lt1 i⟩ : Fin 16) - Finset.univ.sup fun k : Fin 16 => rowsum5 a38 a44 a39 (i 0).val k)
    - Ideal.log (∑ k : Fin 16, Ideal.exp (rowsum5 a38 a44 a39 (i 0).val k - Finset.univ.sup fun k' : Fin 16 => rowsum5 a38 a44 a39 (i 0).val k'))

/-- The same through the sums' name. -/
theorem scat5_rows (a38 : S1x1703936.Idx → BitVec 32) (a44 : S1703936x16.Idx → EReal) (a39 : S1703936x1.Idx → EReal) (n : Fin 100000) (j : Fin 16) :
    scat5 a38 a44 a39 (ix2 n j)
      = (rowsum5 a38 a44 a39 n.val j - Finset.univ.sup fun k : Fin 16 => rowsum5 a38 a44 a39 n.val k)
        - Ideal.log (∑ k : Fin 16, Ideal.exp (rowsum5 a38 a44 a39 n.val k - Finset.univ.sup fun k' : Fin 16 => rowsum5 a38 a44 a39 n.val k')) := rfl

theorem scat5_apply (a38 : S1x1703936.Idx → BitVec 32) (a44 : S1703936x16.Idx → EReal) (a39 : S1703936x1.Idx → EReal) (n : Fin 100000) (j : Fin 16) :
    scat5 a38 a44 a39 (ix2 n j)
      = ((∑ e : Fin 1703936, ind (a38 (ix2 (0 : Fin 1) e) = BitVec.ofNat 32 n.val) * (a44 (ix2 e j) * a39 (ix2 e (0 : Fin 1))))
          - Finset.univ.sup fun k : Fin 16 => ∑ e : Fin 1703936, ind (a38 (ix2 (0 : Fin 1) e) = BitVec.ofNat 32 n.val) * (a44 (ix2 e k) * a39 (ix2 e (0 : Fin 1))))
        - Ideal.log (∑ k : Fin 16, Ideal.exp ((∑ e : Fin 1703936, ind (a38 (ix2 (0 : Fin 1) e) = BitVec.ofNat 32 n.val) * (a44 (ix2 e k) * a39 (ix2 e (0 : Fin 1))))
          - Finset.univ.sup fun k' : Fin 16 => ∑ e : Fin 1703936, ind (a38 (ix2 (0 : Fin 1) e) = BitVec.ofNat 32 n.val) * (a44 (ix2 e k') * a39 (ix2 e (0 : Fin 1))))) := rfl

-- from here on the scattered array is used only through `scat5_rows` and `scat5_apply`
attribute [local irreducible] scat5

/-- At the last point of a group the row-wise log-softmax of the accumulator's row is the scattered array's entry in the group's row. -/
theorem last5_apply (V : (c : Dev nD) → (b : Ref sig .tc) → Buf (Elt Ideal) ((c : Thread nD τ).loc b)) (c : Dev nD) (t : Fin cfg5.N) (h415 : t.val % 416 = 415) (r : Fin 2000) (j : Fin 16) :
    (acc5 (F := Ideal) V c t.val t.isLt (ix2 r j) - Finset.univ.sup fun k : Fin 16 => acc5 (F := Ideal) V c t.val t.isLt (ix2 r k))
        - Ideal.log (∑ k : Fin 16, Ideal.exp (acc5 (F := Ideal) V c t.val t.isLt (ix2 r k) - Finset.univ.sup fun k' : Fin 16 => acc5 (F := Ideal) V c t.val t.isLt (ix2 r k')))
      = scat5 (V c main_v38) (V c main_v44) (V c main_v39) (ix2 (⟨t.val / 416 * 2000 + r.val, row_lt5 t r⟩ : Fin 100000) j) := by
  rw [scat5_rows]
  simp only [last5_row V c t h415 r, Fin.val_mk]

/-- What a point that writes back — the last of its group — writes is its block of the scattered array. -/
theorem flushed5_eq (V : (c : Dev nD) → (b : Ref sig .tc) → Buf (Elt Ideal) ((c : Thread nD τ).loc b)) (c : Dev nD) (t : Fin cfg5.N) (hf : (cfg5.win 3).flush t = true) :
    (dat5 (F := Ideal) V c).flushed 3 t = ((cfg5.win 3).blk t).view.read (Elt Ideal) (scat5 (V c main_v38) (V c main_v44) (V c main_v39)) :=
  flushed5_of V c t ((flush5_3 t).mp hf) (scat5 (V c main_v38) (V c main_v44) (V c main_v39))
    (fun r j => last5_apply V c t ((flush5_3 t).mp hf) r j)

/-- THE OUTPUT ARRAY after the region is the scattered array of the index words, the rows and the weights as the region finds them. -/
theorem final5_eq (V : (c : Dev nD) → (b : Ref sig .tc) → Buf (Elt Ideal) ((c : Thread nD τ).loc b)) (c : Dev nD) :
    (dat5 (F := Ideal) V c).arrAt 3 cfg5.N = scat5 (V c main_v38) (V c main_v44) (V c main_v39) :=
  (dat5 (F := Ideal) V c).arrAt_eq_of_cover 3 (scat5 (V c main_v38) (V c main_v44) (V c main_v39)) (fun t hf => flushed5_eq V c t hf) cover5

/-- Index by index (`scat5_apply` spells the entry out). -/
theorem final5 (V : (c : Dev nD) → (b : Ref sig .tc) → Buf (Elt Ideal) ((c : Thread nD τ).loc b)) (c : Dev nD) (n : Fin 100000) (j : Fin 16) :
    (dat5 (F := Ideal) V c).arrAt 3 cfg5.N (ix2 n j) = scat5 (V c main_v38) (V c main_v44) (V c main_v39) (ix2 n j) :=
  congrFun (final5_eq V c) (ix2 n j)

end Cert.KernelIdeal.Hand

end
-- ==== Proof.KI.Final3.lean ====
/-
  The two scatters read, and the algebraic claim.

  A scatter region leaves, at node `n` and column `j`, the one-hot sum over the padded edges whose column word is the word
  of `n` of the gathered entry times the padded coefficient — the first with the larger of that and zero, the last with the
  row-wise log-softmax of the 16 sums. With all four region values read, the two runs end with equal result buffers and
  unchanged arguments.
-/
import proofs.«167680_j81389630259984_2_alg».proof.Proof.KI.Final2
import proofs.«167680_j81389630259984_2_alg».proof.Proof.KI.Val2
import proofs.«167680_j81389630259984_2_alg».proof.Proof.KI.Val5

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem LibOneHot
open Idealize.ShloMosaic.Pipeline (Dat)
open scoped BigOperators

/-- The first scatter's value, in the arrangement the assembly takes. -/
theorem hVal2_holds : ∀ (V : (c : Dev nD) → (b : Ref sig .tc) → Buf (Elt Ideal) ((c : Thread nD τ).loc b)) (c : Dev nD) (n : Fin 100000) (j : Fin 64),
      asF S100000x64 ((dat2 (F := Ideal) V c).arrAt 3 cfg2.N) (ix2 n j) = max (∑ e : Fin 1703936, ind (asI S1x1703936 (V c main_v38) (ix2 (0 : Fin 1) e) = BitVec.ofNat 32 n.val) * (asF S1703936x64 (V c main_v41) (ix2 e j) * asF S1703936x1 (V c main_v39) (ix2 e (0 : Fin 1)))) 0 :=
  fun V c n j => (final2 V c n j).trans (scat2_apply _ _ _ n j)

/-- The last scatter's value with its log-softmax, in the arrangement the assembly takes. -/
theorem hVal5_holds : ∀ (V : (c : Dev nD) → (b : Ref sig .tc) → Buf (Elt Ideal) ((c : Thread nD τ).loc b)) (c : Dev nD) (i : Fin 100000) (j : Fin 16),
      asF S100000x16 ((dat5 (F := Ideal) V c).arrAt 3 cfg5.N) (ix2 i j)
        = ((∑ e : Fin 1703936, ind (asI S1x1703936 (V c main_v38) (ix2 (0 : Fin 1) e) = BitVec.ofNat 32 i.val) * (asF S1703936x16 (V c main_v44) (ix2 e j) * asF S1703936x1 (V c main_v39) (ix2 e (0 : Fin 1)))) - Finset.univ.sup fun k : Fin 16 => (∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))))
            - Ideal.log (∑ k : Fin 16, Ideal.exp ((∑ e : Fin 1703936, ind (asI S1x1703936 (V c main_v38) (ix2 (0 : Fin 1) e) = BitVec.ofNat 32 i.val) * (asF S1703936x16 (V c main_v44) (ix2 e k) * asF S1703936x1 (V c main_v39) (ix2 e (0 : Fin 1)))) - Finset.univ.sup fun k' : Fin 16 => (∑ e : Fin 1703936, ind (asI S1x1703936 (V c main_v38) (ix2 (0 : Fin 1) e) = BitVec.ofNat 32 i.val) * (asF S1703936x16 (V c main_v44) (ix2 e k') * asF S1703936x1 (V c main_v39) (ix2 e (0 : Fin 1)))))) :=
  fun V c i j => (final5 V c i j).trans (scat5_apply _ _ _ i j)

/-- THE ALGEBRAIC CLAIM at the generated side conditions. -/
theorem algebraic :
    @Cert.algebraic_KernelIdeal_ReferenceIdeal Cert.KernelIdeal.Gen.facts Cert.ReferenceIdeal.Gen.facts Cert.Pre_finite_inputs.Gen.facts :=
  algebraic' hVal2_holds hVal5_holds

end Cert.KernelIdeal.Hand

end
-- ==== Proof.lean ====
/-
  A two-layer graph convolution, the kernel against its reference, over the extended reals.

  Both programs first turn the edge list into rows, columns and coefficients: the self loops are appended, the degree
  of a node is the sum of the weights of the edges arriving at it, and an edge's coefficient is
  (degree of its row)^(-1/2) · weight · (degree of its column)^(-1/2), zero where a degree is not positive. A layer
  multiplies the node table by a weight matrix, sends row `row e` of the product along every edge `e`, scaled by the
  edge's coefficient, to node `col e`, and adds up what arrives at each node; the first layer is followed by
  max(·, 0), the second by the row-wise log-softmax.

  The reference gathers the rows and scatter-adds the scaled messages. The kernel pads the edge list to 416 blocks of
  4096 edges (the padding carries the out-of-range node number 100000 and coefficient 0) and runs six grid kernels:
  a matrix product, a gather written as a product with the one-hot matrix [row e = n] accumulated over 50 blocks of
  2000 nodes, a scatter written as a product with the one-hot matrix [col e = n] accumulated over the 416 edge blocks,
  and the same three again for the second layer. A one-hot weight is 0 or 1, 0 · x = 0 and 1 · x = x for every
  extended real x, so the two arrangements differ only in the order of finite sums, PROVIDED every row number is a
  node number: a row number outside [0, 100000) selects nothing in the kernel while the reference's lookup wraps or
  clamps it. That is the one added precondition.

  The frames: each program runs to the end, faulting nowhere, and leaves its arguments as launched. For the kernel
  (at both instances) the run is the chain of three stretches of host operations and six regions (KI/Run, K/Run over
  the regions' halves KI/R0..R5, K/R0..R5); for the reference it is the fold of its 94 host operations (Ref/Fold).
-/
import proofs.«167680_j81389630259984_2_alg».proof.Defs
import proofs.«167680_j81389630259984_2_alg».proof.Proof.Gen.Kernel
import proofs.«167680_j81389630259984_2_alg».proof.Proof.Gen.KernelIdeal
import proofs.«167680_j81389630259984_2_alg».proof.Proof.Gen.ReferenceIdeal
import proofs.«167680_j81389630259984_2_alg».proof.Proof.Gen.Pre_finite_inputs
import proofs.«167680_j81389630259984_2_alg».proof.Proof.KI.Run
import proofs.«167680_j81389630259984_2_alg».proof.Proof.K.Run
import proofs.«167680_j81389630259984_2_alg».proof.Proof.Ref.Fold
import proofs.«167680_j81389630259984_2_alg».proof.Proof.KI.Final3
import Idealize.ShloMosaic.Adequacy
import Idealize.ShloMosaic.Init

noncomputable section

namespace Cert.Proof

open Idealize.ShloMosaic Idealize.SL.Sem

/-- The word-level kernel runs to the end and leaves its arguments as launched. -/
theorem frame_k : @Cert.frame_Kernel Cert.Kernel.Gen.facts Cert.Pre_finite_inputs.Gen.facts :=
  fun m ρ _ => Cert.Kernel.Hand.frame (F := Bits) m ρ

/-- The idealized kernel runs to the end and leaves its arguments as launched. -/
theorem frame_ki : @Cert.frame_KernelIdeal Cert.KernelIdeal.Gen.facts Cert.Pre_finite_inputs.Gen.facts :=
  fun m ρ _ => Cert.KernelIdeal.Hand.frame (F := Ideal) m ρ

/-- The reference runs to the end and leaves its arguments as launched: its run with the result dropped. -/
theorem frame_ri : @Cert.frame_ReferenceIdeal Cert.ReferenceIdeal.Gen.facts Cert.Pre_finite_inputs.Gen.facts := fun m g _ =>
  (θ_run Cert.ReferenceIdeal.defs _ _).mono (fun _ h c => (h c).2) (Cert.ReferenceIdeal.Hand.ref_run (F := Ideal) m g)

/-- The claim: the witnesses of the programs' stated facts, the three frames, the (empty) ledger, and the equality of the two
    results (KI/Final3: the kernel's last output array is the reference's result, entry by entry). -/
theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Hand.algebraic⟩

end Cert.Proof

end
